-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v182)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v182) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v197) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x64 : Shape := ⟨2, ![400000, 64]⟩
abbrev S2x1600000 : Shape := ⟨2, ![2, 1600000]⟩
abbrev S400000 : Shape := ⟨1, ![400000]⟩
abbrev S2x80000 : Shape := ⟨2, ![2, 80000]⟩
abbrev S9600 : Shape := ⟨1, ![9600]⟩
abbrev S64x128 : Shape := ⟨2, ![64, 128]⟩
abbrev S128 : Shape := ⟨1, ![128]⟩
abbrev S128x128 : Shape := ⟨2, ![128, 128]⟩
abbrev S10002x128 : Shape := ⟨2, ![10002, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S400000x64 : S_.BroadcastsInDim S400000x64 (![] : Fin 0 → Fin S400000x64.rank)
  reducesTo_S400000x64_S_d0_1 : S400000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S10002x128 : S_.BroadcastsInDim S10002x128 (![] : Fin 0 → Fin S10002x128.rank)
  reducesTo_S10002x128_S_d0_1 : S10002x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg17 : FVec F S32 .f32) (main_arg18 : FVec F S32x1 .f32) (main_arg19 : FVec F S1 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg17
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x1 .f32 := Host.absf main_arg18
  let main_cst_22 : FVec F S_ .f32 := constant S_ .f32 0x7F800000#32
  let main_v60 : FVec F S32x1 .f32 := broadcastInDim S32x1 ![] bcast_S_S32x1 main_cst_22
  let main_v61 : IVec S32x1 1 := cmpf .olt main_v59 main_v60
  let main_c_23 : IVec S_ 1 := constantI S_ 1 1#1
  let main_v62 : IVec S_ 1 := (fun x v => Host.reduce IntOp.andi x v reducesTo_S32x1_S_d0_1 h_S_) main_v61 main_c_23
  let main_v63 : IVec S_ 1 := andi main_v58 main_v62
  let main_v64 : FVec F S1 .f32 := Host.absf main_arg19
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg13 : FVec F S128 .f32) (main_arg14 : FVec F S128x64 .f32) (main_arg15 : FVec F S64 .f32) (main_arg16 : FVec F S64x32 .f32) (main_arg17 : FVec F S32 .f32) (main_arg18 : FVec F S32x1 .f32) (main_arg19 : FVec F S1 .f32) (main_v33 : IVec S_ 1) : IVec S_ 1 :=
  let main_v34 : FVec F S128 .f32 := Host.absf main_arg13
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg14
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg15
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x32 .f32 := Host.absf main_arg16
  let main_cst_18 : FVec F S_ .f32 := constant S_ .f32 0x7F800000#32
  let main_v50 : FVec F S64x32 .f32 := broadcastInDim S64x32 ![] bcast_S_S64x32 main_cst_18
  fn_part3 (F := F) main_arg17 main_arg18 main_arg19 main_v48 main_v49 main_v50

def fn_part1 {F : FTy → Type} [FloatOps F] (main_arg10 : FVec F S128 .f32) (main_arg11 : FVec F S10002x128 .f32) (main_arg12 : FVec F S128x128 .f32) (main_arg13 : FVec F S128 .f32) (main_arg14 : FVec F S128x64 .f32) (main_arg15 : FVec F S64 .f32) (main_arg16 : FVec F S64x32 .f32) (main_arg17 : FVec F S32 .f32) (main_arg18 : FVec F S32x1 .f32) (main_arg19 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg10
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S10002x128 .f32 := Host.absf main_arg11
  let main_cst_8 : FVec F S_ .f32 := constant S_ .f32 0x7F800000#32
  let main_v25 : FVec F S10002x128 .f32 := broadcastInDim S10002x128 ![] bcast_S_S10002x128 main_cst_8
  let main_v26 : IVec S10002x128 1 := cmpf .olt main_v24 main_v25
  let main_c_9 : IVec S_ 1 := constantI S_ 1 1#1
  let main_v27 : IVec S_ 1 := (fun x v => Host.reduce IntOp.andi x v reducesTo_S10002x128_S_d0_1 h_S_) main_v26 main_c_9
  let main_v28 : IVec S_ 1 := andi main_v23 main_v27
  let main_v29 : FVec F S128x128 .f32 := Host.absf main_arg12
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg13 main_arg14 main_arg15 main_arg16 main_arg17 main_arg18 main_arg19 main_v33

def fn {F : FTy → Type} [FloatOps F] (main_arg0 : FVec F S400000x64 .f32) (main_arg1 : IVec S2x1600000 32) (main_arg2 : IVec S400000 32) (main_arg3 : IVec S2x80000 32) (main_arg4 : IVec S9600 32) (main_arg5 : IVec S9600 32) (main_arg6 : IVec S9600 32) (main_arg7 : FVec F S64x128 .f32) (main_arg8 : FVec F S128 .f32) (main_arg9 : FVec F S128x128 .f32) (main_arg10 : FVec F S128 .f32) (main_arg11 : FVec F S10002x128 .f32) (main_arg12 : FVec F S128x128 .f32) (main_arg13 : FVec F S128 .f32) (main_arg14 : FVec F S128x64 .f32) (main_arg15 : FVec F S64 .f32) (main_arg16 : FVec F S64x32 .f32) (main_arg17 : FVec F S32 .f32) (main_arg18 : FVec F S32x1 .f32) (main_arg19 : FVec F S1 .f32) : IVec S_ 1 :=
  let main_v0 : FVec F S400000x64 .f32 := Host.absf main_arg0
  let main_cst : FVec F S_ .f32 := constant S_ .f32 0x7F800000#32
  let main_v1 : FVec F S400000x64 .f32 := broadcastInDim S400000x64 ![] bcast_S_S400000x64 main_cst
  let main_v2 : IVec S400000x64 1 := cmpf .olt main_v0 main_v1
  let main_c : IVec S_ 1 := constantI S_ 1 1#1
  let main_v3 : IVec S_ 1 := (fun x v => Host.reduce IntOp.andi x v reducesTo_S400000x64_S_d0_1 h_S_) main_v2 main_c
  let main_v4 : FVec F S64x128 .f32 := Host.absf main_arg7
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg8
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg9
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg10 main_arg11 main_arg12 main_arg13 main_arg14 main_arg15 main_arg16 main_arg17 main_arg18 main_arg19 main_v13 main_v16
-- ==== Kernel.lean ====
abbrev S400000x64 : Shape := ⟨2, ![400000, 64]⟩
abbrev S2x1600000 : Shape := ⟨2, ![2, 1600000]⟩
abbrev S400000 : Shape := ⟨1, ![400000]⟩
abbrev S2x80000 : Shape := ⟨2, ![2, 80000]⟩
abbrev S9600 : Shape := ⟨1, ![9600]⟩
abbrev S64x128 : Shape := ⟨2, ![64, 128]⟩
abbrev S128 : Shape := ⟨1, ![128]⟩
abbrev S128x128 : Shape := ⟨2, ![128, 128]⟩
abbrev S10002x128 : Shape := ⟨2, ![10002, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S400000x128 : Shape := ⟨2, ![400000, 128]⟩
abbrev S5000x64 : Shape := ⟨2, ![5000, 64]⟩
abbrev S5000x128 : Shape := ⟨2, ![5000, 128]⟩
abbrev S_ : Shape := ⟨0, ![]⟩
abbrev S1600000x1 : Shape := ⟨2, ![1600000, 1]⟩
abbrev S1600000x128 : Shape := ⟨2, ![1600000, 128]⟩
abbrev S400000x1 : Shape := ⟨2, ![400000, 1]⟩
abbrev S1x128 : Shape := ⟨2, ![1, 128]⟩
abbrev S5000x1 : Shape := ⟨2, ![5000, 1]⟩
abbrev S8000x128 : Shape := ⟨2, ![8000, 128]⟩
abbrev S8000 : Shape := ⟨1, ![8000]⟩
abbrev S8000x1 : Shape := ⟨2, ![8000, 1]⟩
abbrev S9600x1 : Shape := ⟨2, ![9600, 1]⟩
abbrev S1x1 : Shape := ⟨2, ![1, 1]⟩
abbrev S9600x128 : Shape := ⟨2, ![9600, 128]⟩
abbrev S1x80000 : Shape := ⟨2, ![1, 80000]⟩
abbrev S80000 : Shape := ⟨1, ![80000]⟩
abbrev S4800x128 : Shape := ⟨2, ![4800, 128]⟩
abbrev S80000x1 : Shape := ⟨2, ![80000, 1]⟩
abbrev S80000x128 : Shape := ⟨2, ![80000, 128]⟩
abbrev S4800x1 : Shape := ⟨2, ![4800, 1]⟩
abbrev S8x128 : Shape := ⟨2, ![8, 128]⟩
abbrev S8 : Shape := ⟨1, ![8]⟩
abbrev S8x1 : Shape := ⟨2, ![8, 1]⟩
abbrev S8x64 : Shape := ⟨2, ![8, 64]⟩
abbrev S1x64 : Shape := ⟨2, ![1, 64]⟩
abbrev S8x32 : Shape := ⟨2, ![8, 32]⟩
abbrev S1x32 : Shape := ⟨2, ![1, 32]⟩

abbrev nBuf : Space → Nat
  | .hbm => 279
  | .vmem => 42
  | .smem => 0
  | _ => 0

abbrev hbmTy0_0 (i : Nat) : BufTy := match i % 128 with
  | 0 => ⟨S400000x64, .f32⟩
  | 1 => ⟨S2x1600000, .i32⟩
  | 2 => ⟨S400000, .i32⟩
  | 3 => ⟨S2x80000, .i32⟩
  | 4 => ⟨S9600, .i32⟩
  | 5 => ⟨S9600, .i32⟩
  | 6 => ⟨S9600, .i32⟩
  | 7 => ⟨S64x128, .f32⟩
  | 8 => ⟨S128, .f32⟩
  | 9 => ⟨S128x128, .f32⟩
  | 10 => ⟨S128, .f32⟩
  | 11 => ⟨S10002x128, .f32⟩
  | 12 => ⟨S128x128, .f32⟩
  | 13 => ⟨S128, .f32⟩
  | 14 => ⟨S128x64, .f32⟩
  | 15 => ⟨S64, .f32⟩
  | 16 => ⟨S64x32, .f32⟩
  | 17 => ⟨S32, .f32⟩
  | 18 => ⟨S32x1, .f32⟩
  | 19 => ⟨S1, .f32⟩
  | 20 => ⟨S1x1600000, .i32⟩
  | 21 => ⟨S1600000, .i32⟩
  | 22 => ⟨S1x1600000, .i32⟩
  | 23 => ⟨S1600000, .i32⟩
  | 24 => ⟨S400000x128, .f32⟩
  | 25 => ⟨S_, .f32⟩
  | 26 => ⟨S1600000, .f32⟩
  | 27 => ⟨S_, .f32⟩
  | 28 => ⟨S400000, .f32⟩
  | 29 => ⟨S1600000x1, .i32⟩
  | 30 => ⟨S400000, .f32⟩
  | 31 => ⟨S_, .f32⟩
  | 32 => ⟨S400000, .f32⟩
  | 33 => ⟨S400000, .f32⟩
  | 34 => ⟨S400000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000, .f32⟩
  | 53 => ⟨S1600000, .f32⟩
  | 54 => ⟨S1600000x1, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S1600000x128, .f32⟩
  | 65 => ⟨S1600000x128, .f32⟩
  | 66 => ⟨S_, .f32⟩
  | 67 => ⟨S400000x128, .f32⟩
  | 68 => ⟨S1600000x1, .i32⟩
  | 69 => ⟨S400000x128, .f32⟩
  | 70 => ⟨S400000, .f32⟩
  | 71 => ⟨S400000x1, .f32⟩
  | 72 => ⟨S1x128, .f32⟩
  | 73 => ⟨S400000x128, .f32⟩
  | 74 => ⟨S1x1600000, .i32⟩
  | 75 => ⟨S1600000, .i32⟩
  | 76 => ⟨S1x1600000, .i32⟩
  | 77 => ⟨S1600000, .i32⟩
  | 78 => ⟨S400000x128, .f32⟩
  | 79 => ⟨S_, .f32⟩
  | 80 => ⟨S1600000, .f32⟩
  | 81 => ⟨S_, .f32⟩
  | 82 => ⟨S400000, .f32⟩
  | 83 => ⟨S1600000x1, .i32⟩
  | 84 => ⟨S400000, .f32⟩
  | 85 => ⟨S_, .f32⟩
  | 86 => ⟨S400000, .f32⟩
  | 87 => ⟨S400000, .f32⟩
  | 88 => ⟨S400000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000, .f32⟩
  | 107 => ⟨S1600000, .f32⟩
  | 108 => ⟨S1600000x1, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x128, .f32⟩
  | 118 => ⟨S1600000x128, .f32⟩
  | 119 => ⟨S1600000x128, .f32⟩
  | 120 => ⟨S_, .f32⟩
  | 121 => ⟨S400000x128, .f32⟩
  | 122 => ⟨S1600000x1, .i32⟩
  | 123 => ⟨S400000x128, .f32⟩
  | 124 => ⟨S400000, .f32⟩
  | 125 => ⟨S400000x1, .f32⟩
  | 126 => ⟨S1x128, .f32⟩
  | 127 => ⟨S400000x128, .f32⟩
  | _ => ⟨S400000x64, .f32⟩

abbrev hbmTy0_1 (i : Nat) : BufTy := match i % 128 with
  | 0 => ⟨S_, .f32⟩
  | 1 => ⟨S8000x128, .f32⟩
  | 2 => ⟨S400000x1, .i32⟩
  | 3 => ⟨S8000x128, .f32⟩
  | 4 => ⟨S_, .f32⟩
  | 5 => ⟨S400000, .f32⟩
  | 6 => ⟨S_, .f32⟩
  | 7 => ⟨S8000, .f32⟩
  | 8 => ⟨S400000x1, .i32⟩
  | 9 => ⟨S8000, .f32⟩
  | 10 => ⟨S_, .f32⟩
  | 11 => ⟨S8000, .f32⟩
  | 12 => ⟨S8000, .f32⟩
  | 13 => ⟨S8000x1, .f32⟩
  | 14 => ⟨S8000x128, .f32⟩
  | 15 => ⟨S8000x128, .f32⟩
  | 16 => ⟨S_, .i32⟩
  | 17 => ⟨S_, .i32⟩
  | 18 => ⟨S_, .i32⟩
  | 19 => ⟨S9600, .i32⟩
  | 20 => ⟨S9600, .i32⟩
  | 21 => ⟨S_, .i32⟩
  | 22 => ⟨S9600, .i32⟩
  | 23 => ⟨S9600, .i32⟩
  | 24 => ⟨S_, .i32⟩
  | 25 => ⟨S9600, .i32⟩
  | 26 => ⟨S9600, .i1⟩
  | 27 => ⟨S_, .i32⟩
  | 28 => ⟨S9600, .i32⟩
  | 29 => ⟨S9600, .i32⟩
  | 30 => ⟨S9600, .i32⟩
  | 31 => ⟨S9600x1, .i32⟩
  | 32 => ⟨S1, .i32⟩
  | 33 => ⟨S_, .i32⟩
  | 34 => ⟨S9600x1, .i32⟩
  | 35 => ⟨S9600x1, .i1⟩
  | 36 => ⟨S1x1, .i32⟩
  | 37 => ⟨S9600x1, .i32⟩
  | 38 => ⟨S9600x1, .i1⟩
  | 39 => ⟨S9600x1, .i1⟩
  | 40 => ⟨S_, .i1⟩
  | 41 => ⟨S9600, .i1⟩
  | 42 => ⟨S9600x128, .f32⟩
  | 43 => ⟨S9600x128, .i1⟩
  | 44 => ⟨S_, .f32⟩
  | 45 => ⟨S9600x128, .f32⟩
  | 46 => ⟨S9600x128, .f32⟩
  | 47 => ⟨S9600x1, .i32⟩
  | 48 => ⟨S9600x128, .f32⟩
  | 49 => ⟨S_, .i32⟩
  | 50 => ⟨S9600, .i32⟩
  | 51 => ⟨S9600, .i1⟩
  | 52 => ⟨S9600x1, .i1⟩
  | 53 => ⟨S9600x128, .i1⟩
  | 54 => ⟨S9600x128, .f32⟩
  | 55 => ⟨S1x80000, .i32⟩
  | 56 => ⟨S80000, .i32⟩
  | 57 => ⟨S1x80000, .i32⟩
  | 58 => ⟨S80000, .i32⟩
  | 59 => ⟨S9600x128, .f32⟩
  | 60 => ⟨S_, .f32⟩
  | 61 => ⟨S80000, .f32⟩
  | 62 => ⟨S_, .f32⟩
  | 63 => ⟨S9600, .f32⟩
  | 64 => ⟨S80000x1, .i32⟩
  | 65 => ⟨S9600, .f32⟩
  | 66 => ⟨S_, .f32⟩
  | 67 => ⟨S9600, .f32⟩
  | 68 => ⟨S9600, .f32⟩
  | 69 => ⟨S9600, .f32⟩
  | 70 => ⟨S_, .i32⟩
  | 71 => ⟨S80000, .i32⟩
  | 72 => ⟨S80000, .i1⟩
  | 73 => ⟨S_, .i32⟩
  | 74 => ⟨S80000, .i32⟩
  | 75 => ⟨S80000, .i32⟩
  | 76 => ⟨S80000, .i32⟩
  | 77 => ⟨S80000x1, .i32⟩
  | 78 => ⟨S80000, .f32⟩
  | 79 => ⟨S_, .i32⟩
  | 80 => ⟨S80000, .i32⟩
  | 81 => ⟨S80000, .i1⟩
  | 82 => ⟨S_, .i32⟩
  | 83 => ⟨S80000, .i32⟩
  | 84 => ⟨S80000, .i32⟩
  | 85 => ⟨S80000, .i32⟩
  | 86 => ⟨S80000x1, .i32⟩
  | 87 => ⟨S80000, .f32⟩
  | 88 => ⟨S80000, .f32⟩
  | 89 => ⟨S80000x1, .f32⟩
  | 90 => ⟨S_, .i32⟩
  | 91 => ⟨S80000, .i32⟩
  | 92 => ⟨S80000, .i1⟩
  | 93 => ⟨S_, .i32⟩
  | 94 => ⟨S80000, .i32⟩
  | 95 => ⟨S80000, .i32⟩
  | 96 => ⟨S80000, .i32⟩
  | 97 => ⟨S80000x1, .i32⟩
  | 98 => ⟨S80000x128, .f32⟩
  | 99 => ⟨S80000x128, .f32⟩
  | 100 => ⟨S80000x128, .f32⟩
  | 101 => ⟨S_, .f32⟩
  | 102 => ⟨S9600x128, .f32⟩
  | 103 => ⟨S80000x1, .i32⟩
  | 104 => ⟨S9600x128, .f32⟩
  | 105 => ⟨S9600, .f32⟩
  | 106 => ⟨S9600x1, .f32⟩
  | 107 => ⟨S1x128, .f32⟩
  | 108 => ⟨S9600x128, .f32⟩
  | 109 => ⟨S_, .f32⟩
  | 110 => ⟨S8x128, .f32⟩
  | 111 => ⟨S9600x1, .i32⟩
  | 112 => ⟨S8x128, .f32⟩
  | 113 => ⟨S_, .f32⟩
  | 114 => ⟨S9600, .f32⟩
  | 115 => ⟨S_, .f32⟩
  | 116 => ⟨S8, .f32⟩
  | 117 => ⟨S9600x1, .i32⟩
  | 118 => ⟨S8, .f32⟩
  | 119 => ⟨S_, .f32⟩
  | 120 => ⟨S8, .f32⟩
  | 121 => ⟨S8, .f32⟩
  | 122 => ⟨S8x1, .f32⟩
  | 123 => ⟨S8x128, .f32⟩
  | 124 => ⟨S8x128, .f32⟩
  | 125 => ⟨S8x64, .f32⟩
  | 126 => ⟨S1x64, .f32⟩
  | 127 => ⟨S8x64, .f32⟩
  | _ => ⟨S400000x64, .f32⟩

abbrev hbmTy0_2 (i : Nat) : BufTy := match i % 128 with
  | 0 => ⟨S8x64, .f32⟩
  | 1 => ⟨S_, .f32⟩
  | 2 => ⟨S8x64, .f32⟩
  | 3 => ⟨S8x64, .f32⟩
  | 4 => ⟨S8x32, .f32⟩
  | 5 => ⟨S1x32, .f32⟩
  | 6 => ⟨S8x32, .f32⟩
  | 7 => ⟨S8x32, .f32⟩
  | 8 => ⟨S_, .f32⟩
  | 9 => ⟨S8x32, .f32⟩
  | 10 => ⟨S8x32, .f32⟩
  | 11 => ⟨S8x1, .f32⟩
  | 12 => ⟨S1x1, .f32⟩
  | 13 => ⟨S8x1, .f32⟩
  | 14 => ⟨S8x1, .f32⟩
  | 15 => ⟨S8x1, .f32⟩
  | 16 => ⟨S8x1, .f32⟩
  | 17 => ⟨S_, .f32⟩
  | 18 => ⟨S8x1, .f32⟩
  | 19 => ⟨S8x1, .f32⟩
  | 20 => ⟨S_, .f32⟩
  | 21 => ⟨S8x1, .f32⟩
  | 22 => ⟨S8x1, .f32⟩
  | _ => ⟨S400000x64, .f32⟩

abbrev hbmTy (i : Nat) : BufTy := match i / 128 with
  | 0 => hbmTy0_0 i
  | 1 => hbmTy0_1 i
  | 2 => hbmTy0_2 i
  | _ => ⟨S400000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S4800x128, .f32⟩
  | .local _ .vmem, ⟨29, _⟩ => ⟨S4800x128, .f32⟩
  | .local _ .vmem, ⟨30, _⟩ => ⟨S128x128, .f32⟩
  | .local _ .vmem, ⟨31, _⟩ => ⟨S4800x128, .f32⟩
  | .local _ .vmem, ⟨32, _⟩ => ⟨S4800x128, .f32⟩
  | .local _ .vmem, ⟨33, _⟩ => ⟨S4800x128, .f32⟩
  | .local _ .vmem, ⟨34, _⟩ => ⟨S4800x128, .f32⟩
  | .local _ .vmem, ⟨35, _⟩ => ⟨S4800x128, .f32⟩
  | .local _ .vmem, ⟨36, _⟩ => ⟨S4800x128, .f32⟩
  | .local _ .vmem, ⟨37, _⟩ => ⟨S4800x1, .f32⟩
  | .local _ .vmem, ⟨38, _⟩ => ⟨S4800x1, .f32⟩
  | .local _ .vmem, ⟨39, _⟩ => ⟨S1x128, .f32⟩
  | .local _ .vmem, ⟨40, _⟩ => ⟨S4800x128, .f32⟩
  | .local _ .vmem, ⟨41, _⟩ => ⟨S4800x128, .f32⟩
  | _, _ => ⟨S400000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_cst : Ref sig .tc := ⟨.hbm, 25, rfl⟩
abbrev main_v5 : Ref sig .tc := ⟨.hbm, 26, rfl⟩
abbrev main_cst_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst_1 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c : Ref sig .tc := ⟨.hbm, 35, rfl⟩
abbrev main_v12 : Ref sig .tc := ⟨.hbm, 36, rfl⟩
abbrev main_v13 : Ref sig .tc := ⟨.hbm, 37, rfl⟩
abbrev main_c_2 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_3 : Ref sig .tc := ⟨.hbm, 44, rfl⟩
abbrev main_v19 : Ref sig .tc := ⟨.hbm, 45, rfl⟩
abbrev main_v20 : Ref sig .tc := ⟨.hbm, 46, rfl⟩
abbrev main_c_4 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_c_5 : Ref sig .tc := ⟨.hbm, 55, rfl⟩
abbrev main_v28 : Ref sig .tc := ⟨.hbm, 56, rfl⟩
abbrev main_v29 : Ref sig .tc := ⟨.hbm, 57, rfl⟩
abbrev main_c_6 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_7 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_8 : Ref sig .tc := ⟨.hbm, 79, rfl⟩
abbrev main_v49 : Ref sig .tc := ⟨.hbm, 80, rfl⟩
abbrev main_cst_9 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_10 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_c_11 : Ref sig .tc := ⟨.hbm, 89, rfl⟩
abbrev main_v56 : Ref sig .tc := ⟨.hbm, 90, rfl⟩
abbrev main_v57 : Ref sig .tc := ⟨.hbm, 91, rfl⟩
abbrev main_c_12 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_c_13 : Ref sig .tc := ⟨.hbm, 98, rfl⟩
abbrev main_v63 : Ref sig .tc := ⟨.hbm, 99, rfl⟩
abbrev main_v64 : Ref sig .tc := ⟨.hbm, 100, rfl⟩
abbrev main_c_14 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_c_15 : Ref sig .tc := ⟨.hbm, 109, rfl⟩
abbrev main_v72 : Ref sig .tc := ⟨.hbm, 110, rfl⟩
abbrev main_v73 : Ref sig .tc := ⟨.hbm, 111, rfl⟩
abbrev main_c_16 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_17 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_18 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_19 : Ref sig .tc := ⟨.hbm, 132, rfl⟩
abbrev main_v91 : Ref sig .tc := ⟨.hbm, 133, rfl⟩
abbrev main_cst_20 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_21 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_c_22 : Ref sig .tc := ⟨.hbm, 144, rfl⟩
abbrev main_c_23 : Ref sig .tc := ⟨.hbm, 145, rfl⟩
abbrev main_call0_v0 : Ref sig .tc := ⟨.hbm, 146, rfl⟩
abbrev main_call0_v1 : Ref sig .tc := ⟨.hbm, 147, rfl⟩
abbrev main_call0_v2 : Ref sig .tc := ⟨.hbm, 148, rfl⟩
abbrev main_call0_v3 : Ref sig .tc := ⟨.hbm, 149, rfl⟩
abbrev main_call0_v4 : Ref sig .tc := ⟨.hbm, 150, rfl⟩
abbrev main_v100 : Ref sig .tc := ⟨.hbm, 151, rfl⟩
abbrev main_call1_c : Ref sig .tc := ⟨.hbm, 152, rfl⟩
abbrev main_call1_v0 : Ref sig .tc := ⟨.hbm, 153, rfl⟩
abbrev main_call1_v1 : Ref sig .tc := ⟨.hbm, 154, rfl⟩
abbrev main_call1_c_0 : Ref sig .tc := ⟨.hbm, 155, rfl⟩
abbrev main_call1_v2 : Ref sig .tc := ⟨.hbm, 156, rfl⟩
abbrev main_call1_v3 : Ref sig .tc := ⟨.hbm, 157, rfl⟩
abbrev main_call1_v4 : Ref sig .tc := ⟨.hbm, 158, rfl⟩
abbrev main_call1_v5 : Ref sig .tc := ⟨.hbm, 159, rfl⟩
abbrev main_call1_c_1 : Ref sig .tc := ⟨.hbm, 160, rfl⟩
abbrev main_call1_c_2 : Ref sig .tc := ⟨.hbm, 161, rfl⟩
abbrev main_call1_v6 : Ref sig .tc := ⟨.hbm, 162, rfl⟩
abbrev main_call1_v7 : Ref sig .tc := ⟨.hbm, 163, rfl⟩
abbrev main_call1_v8 : Ref sig .tc := ⟨.hbm, 164, rfl⟩
abbrev main_call1_v9 : Ref sig .tc := ⟨.hbm, 165, rfl⟩
abbrev main_call1_v10 : Ref sig .tc := ⟨.hbm, 166, rfl⟩
abbrev main_call1_v11 : Ref sig .tc := ⟨.hbm, 167, rfl⟩
abbrev main_call1_c_3 : Ref sig .tc := ⟨.hbm, 168, rfl⟩
abbrev main_call1_v12 : Ref sig .tc := ⟨.hbm, 169, rfl⟩
abbrev main_call1_v13 : Ref sig .tc := ⟨.hbm, 170, rfl⟩
abbrev main_call1_v14 : Ref sig .tc := ⟨.hbm, 171, rfl⟩
abbrev main_call1_cst : Ref sig .tc := ⟨.hbm, 172, rfl⟩
abbrev main_call1_v15 : Ref sig .tc := ⟨.hbm, 173, rfl⟩
abbrev main_v101 : Ref sig .tc := ⟨.hbm, 174, rfl⟩
abbrev main_call2_v0 : Ref sig .tc := ⟨.hbm, 175, rfl⟩
abbrev main_v102 : Ref sig .tc := ⟨.hbm, 176, rfl⟩
abbrev main_c_24 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_call3_v0 : Ref sig .tc := ⟨.hbm, 181, rfl⟩
abbrev main_v106 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_cst_25 : Ref sig .tc := ⟨.hbm, 188, rfl⟩
abbrev main_v112 : Ref sig .tc := ⟨.hbm, 189, rfl⟩
abbrev main_cst_26 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_cst_27 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_c_28 : Ref sig .tc := ⟨.hbm, 198, rfl⟩
abbrev main_v119 : Ref sig .tc := ⟨.hbm, 199, rfl⟩
abbrev main_v120 : Ref sig .tc := ⟨.hbm, 200, rfl⟩
abbrev main_c_29 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_v125 : Ref sig .tc := ⟨.hbm, 206, rfl⟩
abbrev main_c_30 : Ref sig .tc := ⟨.hbm, 207, rfl⟩
abbrev main_v126 : Ref sig .tc := ⟨.hbm, 208, rfl⟩
abbrev main_v127 : Ref sig .tc := ⟨.hbm, 209, rfl⟩
abbrev main_c_31 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_v134 : Ref sig .tc := ⟨.hbm, 217, rfl⟩
abbrev main_c_32 : Ref sig .tc := ⟨.hbm, 218, rfl⟩
abbrev main_v135 : Ref sig .tc := ⟨.hbm, 219, rfl⟩
abbrev main_v136 : Ref sig .tc := ⟨.hbm, 220, rfl⟩
abbrev main_c_33 : Ref sig .tc := ⟨.hbm, 221, rfl⟩
abbrev main_v137 : Ref sig .tc := ⟨.hbm, 222, rfl⟩
abbrev main_v138 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_v142 : Ref sig .tc := ⟨.hbm, 227, rfl⟩
abbrev main_v143 : Ref sig .tc := ⟨.hbm, 228, rfl⟩
abbrev main_cst_34 : Ref sig .tc := ⟨.hbm, 229, rfl⟩
abbrev main_v144 : Ref sig .tc := ⟨.hbm, 230, rfl⟩
abbrev main_v145 : Ref sig .tc := ⟨.hbm, 231, rfl⟩
abbrev main_v146 : Ref sig .tc := ⟨.hbm, 232, rfl⟩
abbrev main_v147 : Ref sig .tc := ⟨.hbm, 233, rfl⟩
abbrev main_v148 : Ref sig .tc := ⟨.hbm, 234, rfl⟩
abbrev main_v149 : Ref sig .tc := ⟨.hbm, 235, rfl⟩
abbrev main_v150 : Ref sig .tc := ⟨.hbm, 236, rfl⟩
abbrev main_cst_35 : Ref sig .tc := ⟨.hbm, 237, rfl⟩
abbrev main_v151 : Ref sig .tc := ⟨.hbm, 238, rfl⟩
abbrev main_v152 : Ref sig .tc := ⟨.hbm, 239, rfl⟩
abbrev main_v153 : Ref sig .tc := ⟨.hbm, 240, rfl⟩
abbrev main_cst_36 : Ref sig .tc := ⟨.hbm, 241, rfl⟩
abbrev main_v154 : Ref sig .tc := ⟨.hbm, 242, rfl⟩
abbrev main_cst_37 : Ref sig .tc := ⟨.hbm, 243, rfl⟩
abbrev main_v155 : Ref sig .tc := ⟨.hbm, 244, rfl⟩
abbrev main_v156 : Ref sig .tc := ⟨.hbm, 245, rfl⟩
abbrev main_v157 : Ref sig .tc := ⟨.hbm, 246, rfl⟩
abbrev main_cst_38 : Ref sig .tc := ⟨.hbm, 247, rfl⟩
abbrev main_v158 : Ref sig .tc := ⟨.hbm, 248, rfl⟩
abbrev main_v159 : Ref sig .tc := ⟨.hbm, 249, rfl⟩
abbrev main_v160 : Ref sig .tc := ⟨.hbm, 250, rfl⟩
abbrev main_v161 : Ref sig .tc := ⟨.hbm, 251, rfl⟩
abbrev main_v162 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_v166 : Ref sig .tc := ⟨.hbm, 256, rfl⟩
abbrev main_call4_cst : Ref sig .tc := ⟨.hbm, 257, rfl⟩
abbrev main_call4_v0 : Ref sig .tc := ⟨.hbm, 258, rfl⟩
abbrev main_v167 : Ref sig .tc := ⟨.hbm, 259, rfl⟩
abbrev main_v168 : Ref sig .tc := ⟨.hbm, 260, rfl⟩
abbrev main_v169 : Ref sig .tc := ⟨.hbm, 261, rfl⟩
abbrev main_v170 : Ref sig .tc := ⟨.hbm, 262, rfl⟩
abbrev main_v171 : Ref sig .tc := ⟨.hbm, 263, rfl⟩
abbrev main_call5_cst : Ref sig .tc := ⟨.hbm, 264, rfl⟩
abbrev main_call5_v0 : Ref sig .tc := ⟨.hbm, 265, rfl⟩
abbrev main_v172 : Ref sig .tc := ⟨.hbm, 266, rfl⟩
abbrev main_v173 : Ref sig .tc := ⟨.hbm, 267, rfl⟩
abbrev main_v174 : Ref sig .tc := ⟨.hbm, 268, rfl⟩
abbrev main_v175 : Ref sig .tc := ⟨.hbm, 269, rfl⟩
abbrev main_v176 : Ref sig .tc := ⟨.hbm, 270, rfl⟩
abbrev main_v177 : Ref sig .tc := ⟨.hbm, 271, rfl⟩
abbrev main_v178 : Ref sig .tc := ⟨.hbm, 272, rfl⟩
abbrev main_cst_39 : Ref sig .tc := ⟨.hbm, 273, rfl⟩
abbrev main_v179 : Ref sig .tc := ⟨.hbm, 274, rfl⟩
abbrev main_v180 : Ref sig .tc := ⟨.hbm, 275, rfl⟩
abbrev main_cst_40 : Ref sig .tc := ⟨.hbm, 276, rfl⟩
abbrev main_v181 : Ref sig .tc := ⟨.hbm, 277, rfl⟩
abbrev main_v182 : Ref sig .tc := ⟨.hbm, 278, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![80], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![2], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4800x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4800x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![2], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4800x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4800x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4800x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S4800x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  bcast_S_S1600000 : S_.BroadcastsInDim S1600000 (![] : Fin 0 → Fin S1600000.rank)
  bcast_S_S400000 : S_.BroadcastsInDim S400000 (![] : Fin 0 → Fin S400000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S400000x128 : S_.BroadcastsInDim S400000x128 (![] : Fin 0 → Fin S400000x128.rank)
  shapeCasts_S400000_S400000x1 : S400000.ShapeCasts S400000x1
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  bcast_S_S8000x128 : S_.BroadcastsInDim S8000x128 (![] : Fin 0 → Fin S8000x128.rank)
  bcast_S400000_S400000x1_0 : S400000.BroadcastsInDim S400000x1 (![0] : Fin 1 → Fin S400000x1.rank)
  bcast_S_S8000 : S_.BroadcastsInDim S8000 (![] : Fin 0 → Fin S8000.rank)
  bcast_S8000_S8000x1_0 : S8000.BroadcastsInDim S8000x1 (![0] : Fin 1 → Fin S8000x1.rank)
  bcast_S8000x1_S8000x128_0_1 : S8000x1.BroadcastsInDim S8000x128 (![0, 1] : Fin 2 → Fin S8000x128.rank)
  bcast_S_S9600 : S_.BroadcastsInDim S9600 (![] : Fin 0 → Fin S9600.rank)
  bcast_S9600_S9600x1_0 : S9600.BroadcastsInDim S9600x1 (![0] : Fin 1 → Fin S9600x1.rank)
  bcast_S_S9600x1 : S_.BroadcastsInDim S9600x1 (![] : Fin 0 → Fin S9600x1.rank)
  bcast_S1_S1x1_1 : S1.BroadcastsInDim S1x1 (![1] : Fin 1 → Fin S1x1.rank)
  bcast_S1x1_S9600x1_0_1 : S1x1.BroadcastsInDim S9600x1 (![0, 1] : Fin 2 → Fin S9600x1.rank)
  reducesTo_S9600x1_S9600_d1 : S9600x1.ReducesTo [1] S9600
  h_S_ : 0 < S_.numel
  bcast_S9600_S9600x128_0 : S9600.BroadcastsInDim S9600x128 (![0] : Fin 1 → Fin S9600x128.rank)
  bcast_S_S9600x128 : S_.BroadcastsInDim S9600x128 (![] : Fin 0 → Fin S9600x128.rank)
  bcast_S9600x1_S9600x128_0_1 : S9600x1.BroadcastsInDim S9600x128 (![0, 1] : Fin 2 → Fin S9600x128.rank)
  slices_S2x80000_S1x80000_0_0 : S2x80000.Slices ![0, 0] S1x80000
  shapeCasts_S1x80000_S80000 : S1x80000.ShapeCasts S80000
  slices_S2x80000_S1x80000_1_0 : S2x80000.Slices ![1, 0] S1x80000
  inb_S4800x128_S4800x128_0_0 : ∀ a, (![0, 0] : Fin 2 → Nat) a + S4800x128.size a ≤ S4800x128.size a
  h_S4800x128 : 0 < S4800x128.numel
  shapeCasts_S4800x128_S4800x128 : S4800x128.ShapeCasts S4800x128
  bcast_S_S80000 : S_.BroadcastsInDim S80000 (![] : Fin 0 → Fin S80000.rank)
  bcast_S80000_S80000x1_0 : S80000.BroadcastsInDim S80000x1 (![0] : Fin 1 → Fin S80000x1.rank)
  bcast_S80000x1_S80000x128_0_1 : S80000x1.BroadcastsInDim S80000x128 (![0, 1] : Fin 2 → Fin S80000x128.rank)
  shapeCasts_S9600_S9600x1 : S9600.ShapeCasts S9600x1
  inb_S4800x1_S4800x1_0_0 : ∀ a, (![0, 0] : Fin 2 → Nat) a + S4800x1.size a ≤ S4800x1.size a
  h_S4800x1 : 0 < S4800x1.numel
  shapeCasts_S4800x1_S4800x1 : S4800x1.ShapeCasts S4800x1
  broadcasts_S4800x1_S4800x128 : S4800x1.Broadcasts S4800x128
  broadcasts_S1x128_S4800x128 : S1x128.Broadcasts S4800x128
  bcast_S_S8x128 : S_.BroadcastsInDim S8x128 (![] : Fin 0 → Fin S8x128.rank)
  bcast_S_S8 : S_.BroadcastsInDim S8 (![] : Fin 0 → Fin S8.rank)
  bcast_S8_S8x1_0 : S8.BroadcastsInDim S8x1 (![0] : Fin 1 → Fin S8x1.rank)
  bcast_S8x1_S8x128_0_1 : S8x1.BroadcastsInDim S8x128 (![0, 1] : Fin 2 → Fin S8x128.rank)
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  bcast_S_S8x64 : S_.BroadcastsInDim S8x64 (![] : Fin 0 → Fin S8x64.rank)
  bcast_S32_S1x32_1 : S32.BroadcastsInDim S1x32 (![1] : Fin 1 → Fin S1x32.rank)
  bcast_S1x32_S8x32_0_1 : S1x32.BroadcastsInDim S8x32 (![0, 1] : Fin 2 → Fin S8x32.rank)
  bcast_S_S8x32 : S_.BroadcastsInDim S8x32 (![] : Fin 0 → Fin S8x32.rank)
  bcast_S1x1_S8x1_0_1 : S1x1.BroadcastsInDim S8x1 (![0, 1] : Fin 2 → Fin S8x1.rank)
  bcast_S_S8x1 : S_.BroadcastsInDim S8x1 (![] : Fin 0 → Fin S8x1.rank)
  dot_S5000x64_S64x128_S5000x128_1_0_0_1_n_n_wf : DotDims.WF S5000x64 S64x128 S5000x128 [1] [0] [0] [1] [] []
  scatter_S400000_S1600000x1_S1600000_n_0_0_1_wf : ScatterDims.WF S400000 S1600000x1 S1600000 [] [0] [0] 1
  gather_S400000_S1600000x1_S1600000_n_0_n_n_0_1_1_wf : GatherDims.WF S400000 S1600000x1 S1600000 [] [0] [] [0] [] 1 ![1]
  gather_S400000x128_S1600000x1_S1600000x128_1_0_n_n_0_1_1128_wf : GatherDims.WF S400000x128 S1600000x1 S1600000x128 [1] [0] [] [0] [] 1 ![1, 128]
  scatter_S400000x128_S1600000x1_S1600000x128_1_0_0_1_wf : ScatterDims.WF S400000x128 S1600000x1 S1600000x128 [1] [0] [0] 1
  dot_S5000x128_S128x128_S5000x128_1_0_0_1_n_n_wf : DotDims.WF S5000x128 S128x128 S5000x128 [1] [0] [0] [1] [] []
  scatter_S8000x128_S400000x1_S400000x128_1_0_0_1_wf : ScatterDims.WF S8000x128 S400000x1 S400000x128 [1] [0] [0] 1
  scatter_S8000_S400000x1_S400000_n_0_0_1_wf : ScatterDims.WF S8000 S400000x1 S400000 [] [0] [0] 1
  gather_S8000x128_S9600x1_S9600x128_1_0_n_n_0_1_1128_wf : GatherDims.WF S8000x128 S9600x1 S9600x128 [1] [0] [] [0] [] 1 ![1, 128]
  gather_S10002x128_S9600x1_S9600x128_1_0_n_n_0_1_1128_wf : GatherDims.WF S10002x128 S9600x1 S9600x128 [1] [0] [] [0] [] 1 ![1, 128]
  dot_S4800x128_S128x128_S4800x128_1_0_0_1_n_n_wf : DotDims.WF S4800x128 S128x128 S4800x128 [1] [0] [0] [1] [] []
  scatter_S9600_S80000x1_S80000_n_0_0_1_wf : ScatterDims.WF S9600 S80000x1 S80000 [] [0] [0] 1
  gather_S9600_S80000x1_S80000_n_0_n_n_0_1_1_wf : GatherDims.WF S9600 S80000x1 S80000 [] [0] [] [0] [] 1 ![1]
  gather_S9600x128_S80000x1_S80000x128_1_0_n_n_0_1_1128_wf : GatherDims.WF S9600x128 S80000x1 S80000x128 [1] [0] [] [0] [] 1 ![1, 128]
  scatter_S9600x128_S80000x1_S80000x128_1_0_0_1_wf : ScatterDims.WF S9600x128 S80000x1 S80000x128 [1] [0] [0] 1
  scatter_S8x128_S9600x1_S9600x128_1_0_0_1_wf : ScatterDims.WF S8x128 S9600x1 S9600x128 [1] [0] [0] 1
  scatter_S8_S9600x1_S9600_n_0_0_1_wf : ScatterDims.WF S8 S9600x1 S9600 [] [0] [0] 1
  dot_S8x128_S128x64_S8x64_1_0_0_1_n_n_wf : DotDims.WF S8x128 S128x64 S8x64 [1] [0] [0] [1] [] []
  dot_S8x64_S64x32_S8x32_1_0_0_1_n_n_wf : DotDims.WF S8x64 S64x32 S8x32 [1] [0] [0] [1] [] []
  dot_S8x32_S32x1_S8x1_1_0_0_1_n_n_wf : DotDims.WF S8x32 S32x1 S8x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S400000x64.size a
  hwx0_0 : ∀ i : grid0.Coords, EltTy.bits .f32 = 32 ∨ (Rect.block (s := S400000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S400000x128.size a
  hwx0_2 : ∀ i : grid0.Coords, EltTy.bits .f32 = 32 ∨ (Rect.block (s := S400000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S400000x128.size a
  hwx1_0 : ∀ i : grid1.Coords, EltTy.bits .f32 = 32 ∨ (Rect.block (s := S400000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S400000x128.size a
  hwx1_1 : ∀ i : grid1.Coords, EltTy.bits .f32 = 32 ∨ (Rect.block (s := S400000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S400000x1.size a
  hwx1_2 : ∀ i : grid1.Coords, EltTy.bits .f32 = 32 ∨ (Rect.block (s := S400000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S400000x128.size a
  hwx1_4 : ∀ i : grid1.Coords, EltTy.bits .f32 = 32 ∨ (Rect.block (s := S400000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S400000x128.size a
  hwx2_0 : ∀ i : grid2.Coords, EltTy.bits .f32 = 32 ∨ (Rect.block (s := S400000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S400000x128.size a
  hwx2_2 : ∀ i : grid2.Coords, EltTy.bits .f32 = 32 ∨ (Rect.block (s := S400000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S400000x128.size a
  hwx3_0 : ∀ i : grid3.Coords, EltTy.bits .f32 = 32 ∨ (Rect.block (s := S400000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S400000x128.size a
  hwx3_1 : ∀ i : grid3.Coords, EltTy.bits .f32 = 32 ∨ (Rect.block (s := S400000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S400000x1.size a
  hwx3_2 : ∀ i : grid3.Coords, EltTy.bits .f32 = 32 ∨ (Rect.block (s := S400000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S400000x128.size a
  hwx3_4 : ∀ i : grid3.Coords, EltTy.bits .f32 = 32 ∨ (Rect.block (s := S400000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4800x128.size a ≤ S9600x128.size a
  hwx4_0 : ∀ i : grid4.Coords, EltTy.bits .f32 = 32 ∨ (Rect.block (s := S9600x128) S4800x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4800x128.size a ≤ S9600x128.size a
  hwx4_2 : ∀ i : grid4.Coords, EltTy.bits .f32 = 32 ∨ (Rect.block (s := S9600x128) S4800x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4800x128.size a ≤ S9600x128.size a
  hwx5_0 : ∀ i : grid5.Coords, EltTy.bits .f32 = 32 ∨ (Rect.block (s := S9600x128) S4800x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4800x128.size a ≤ S9600x128.size a
  hwx5_1 : ∀ i : grid5.Coords, EltTy.bits .f32 = 32 ∨ (Rect.block (s := S9600x128) S4800x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4800x1.size a ≤ S9600x1.size a
  hwx5_2 : ∀ i : grid5.Coords, EltTy.bits .f32 = 32 ∨ (Rect.block (s := S9600x1) S4800x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S4800x128.size a ≤ S9600x128.size a
  hwx5_4 : ∀ i : grid5.Coords, EltTy.bits .f32 = 32 ∨ (Rect.block (s := S9600x128) S4800x128.size (cc5_transform_4 i) (hinb5_4 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def scatter_S400000_S1600000x1_S1600000_n_0_0_1 : ScatterDims S400000 S1600000x1 S1600000 where
  updateWindowDims := []
  insertedWindowDims := [0]
  scatterDimsToOperandDims := [0]
  indexVectorDim := 1
  wf := scatter_S400000_S1600000x1_S1600000_n_0_0_1_wf
def gather_S400000_S1600000x1_S1600000_n_0_n_n_0_1_1 : GatherDims S400000 S1600000x1 S1600000 where
  offsetDims := []
  collapsedSliceDims := [0]
  operandBatchingDims := []
  startIndicesBatchingDims := []
  startIndexMap := [0]
  indexVectorDim := 1
  sliceSizes := ![1]
  wf := gather_S400000_S1600000x1_S1600000_n_0_n_n_0_1_1_wf
def gather_S400000x128_S1600000x1_S1600000x128_1_0_n_n_0_1_1128 : GatherDims S400000x128 S1600000x1 S1600000x128 where
  offsetDims := [1]
  collapsedSliceDims := [0]
  operandBatchingDims := []
  startIndicesBatchingDims := []
  startIndexMap := [0]
  indexVectorDim := 1
  sliceSizes := ![1, 128]
  wf := gather_S400000x128_S1600000x1_S1600000x128_1_0_n_n_0_1_1128_wf
def scatter_S400000x128_S1600000x1_S1600000x128_1_0_0_1 : ScatterDims S400000x128 S1600000x1 S1600000x128 where
  updateWindowDims := [1]
  insertedWindowDims := [0]
  scatterDimsToOperandDims := [0]
  indexVectorDim := 1
  wf := scatter_S400000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S8000x128_S400000x1_S400000x128_1_0_0_1 : ScatterDims S8000x128 S400000x1 S400000x128 where
  updateWindowDims := [1]
  insertedWindowDims := [0]
  scatterDimsToOperandDims := [0]
  indexVectorDim := 1
  wf := scatter_S8000x128_S400000x1_S400000x128_1_0_0_1_wf
def scatter_S8000_S400000x1_S400000_n_0_0_1 : ScatterDims S8000 S400000x1 S400000 where
  updateWindowDims := []
  insertedWindowDims := [0]
  scatterDimsToOperandDims := [0]
  indexVectorDim := 1
  wf := scatter_S8000_S400000x1_S400000_n_0_0_1_wf
def gather_S8000x128_S9600x1_S9600x128_1_0_n_n_0_1_1128 : GatherDims S8000x128 S9600x1 S9600x128 where
  offsetDims := [1]
  collapsedSliceDims := [0]
  operandBatchingDims := []
  startIndicesBatchingDims := []
  startIndexMap := [0]
  indexVectorDim := 1
  sliceSizes := ![1, 128]
  wf := gather_S8000x128_S9600x1_S9600x128_1_0_n_n_0_1_1128_wf
def gather_S10002x128_S9600x1_S9600x128_1_0_n_n_0_1_1128 : GatherDims S10002x128 S9600x1 S9600x128 where
  offsetDims := [1]
  collapsedSliceDims := [0]
  operandBatchingDims := []
  startIndicesBatchingDims := []
  startIndexMap := [0]
  indexVectorDim := 1
  sliceSizes := ![1, 128]
  wf := gather_S10002x128_S9600x1_S9600x128_1_0_n_n_0_1_1128_wf
def dot_S4800x128_S128x128_S4800x128_1_0_0_1_n_n : DotDims S4800x128 S128x128 S4800x128 where
  lhsContracting := [1]
  rhsContracting := [0]
  lhsNonContracting := [0]
  rhsNonContracting := [1]
  lhsBatch := []
  rhsBatch := []
  wf := dot_S4800x128_S128x128_S4800x128_1_0_0_1_n_n_wf
def scatter_S9600_S80000x1_S80000_n_0_0_1 : ScatterDims S9600 S80000x1 S80000 where
  updateWindowDims := []
  insertedWindowDims := [0]
  scatterDimsToOperandDims := [0]
  indexVectorDim := 1
  wf := scatter_S9600_S80000x1_S80000_n_0_0_1_wf
def gather_S9600_S80000x1_S80000_n_0_n_n_0_1_1 : GatherDims S9600 S80000x1 S80000 where
  offsetDims := []
  collapsedSliceDims := [0]
  operandBatchingDims := []
  startIndicesBatchingDims := []
  startIndexMap := [0]
  indexVectorDim := 1
  sliceSizes := ![1]
  wf := gather_S9600_S80000x1_S80000_n_0_n_n_0_1_1_wf
def gather_S9600x128_S80000x1_S80000x128_1_0_n_n_0_1_1128 : GatherDims S9600x128 S80000x1 S80000x128 where
  offsetDims := [1]
  collapsedSliceDims := [0]
  operandBatchingDims := []
  startIndicesBatchingDims := []
  startIndexMap := [0]
  indexVectorDim := 1
  sliceSizes := ![1, 128]
  wf := gather_S9600x128_S80000x1_S80000x128_1_0_n_n_0_1_1128_wf
def scatter_S9600x128_S80000x1_S80000x128_1_0_0_1 : ScatterDims S9600x128 S80000x1 S80000x128 where
  updateWindowDims := [1]
  insertedWindowDims := [0]
  scatterDimsToOperandDims := [0]
  indexVectorDim := 1
  wf := scatter_S9600x128_S80000x1_S80000x128_1_0_0_1_wf
def scatter_S8x128_S9600x1_S9600x128_1_0_0_1 : ScatterDims S8x128 S9600x1 S9600x128 where
  updateWindowDims := [1]
  insertedWindowDims := [0]
  scatterDimsToOperandDims := [0]
  indexVectorDim := 1
  wf := scatter_S8x128_S9600x1_S9600x128_1_0_0_1_wf
def scatter_S8_S9600x1_S9600_n_0_0_1 : ScatterDims S8 S9600x1 S9600 where
  updateWindowDims := []
  insertedWindowDims := [0]
  scatterDimsToOperandDims := [0]
  indexVectorDim := 1
  wf := scatter_S8_S9600x1_S9600_n_0_0_1_wf
def dot_S8x128_S128x64_S8x64_1_0_0_1_n_n : DotDims S8x128 S128x64 S8x64 where
  lhsContracting := [1]
  rhsContracting := [0]
  lhsNonContracting := [0]
  rhsNonContracting := [1]
  lhsBatch := []
  rhsBatch := []
  wf := dot_S8x128_S128x64_S8x64_1_0_0_1_n_n_wf
def dot_S8x64_S64x32_S8x32_1_0_0_1_n_n : DotDims S8x64 S64x32 S8x32 where
  lhsContracting := [1]
  rhsContracting := [0]
  lhsNonContracting := [0]
  rhsNonContracting := [1]
  lhsBatch := []
  rhsBatch := []
  wf := dot_S8x64_S64x32_S8x32_1_0_0_1_n_n_wf
def dot_S8x32_S32x1_S8x1_1_0_0_1_n_n : DotDims S8x32 S32x1 S8x1 where
  lhsContracting := [1]
  rhsContracting := [0]
  lhsNonContracting := [0]
  rhsNonContracting := [1]
  lhsBatch := []
  rhsBatch := []
  wf := dot_S8x32_S32x1_S8x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v83) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v85) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v86) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v87) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v106) S4800x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg12) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v111) S4800x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v146) S4800x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v111) S4800x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v148) S4800x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v149) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v150) S4800x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S400000x64 : Shape := ⟨2, ![400000, 64]⟩
abbrev S2x1600000 : Shape := ⟨2, ![2, 1600000]⟩
abbrev S400000 : Shape := ⟨1, ![400000]⟩
abbrev S2x80000 : Shape := ⟨2, ![2, 80000]⟩
abbrev S9600 : Shape := ⟨1, ![9600]⟩
abbrev S64x128 : Shape := ⟨2, ![64, 128]⟩
abbrev S128 : Shape := ⟨1, ![128]⟩
abbrev S128x128 : Shape := ⟨2, ![128, 128]⟩
abbrev S10002x128 : Shape := ⟨2, ![10002, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S400000x128 : Shape := ⟨2, ![400000, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S400000x1 : Shape := ⟨2, ![400000, 1]⟩
abbrev S1x128 : Shape := ⟨2, ![1, 128]⟩
abbrev S8000x128 : Shape := ⟨2, ![8000, 128]⟩
abbrev S8000 : Shape := ⟨1, ![8000]⟩
abbrev S8000x1 : Shape := ⟨2, ![8000, 1]⟩
abbrev S9600x1 : Shape := ⟨2, ![9600, 1]⟩
abbrev S1x1 : Shape := ⟨2, ![1, 1]⟩
abbrev S9600x128 : Shape := ⟨2, ![9600, 128]⟩
abbrev S1x80000 : Shape := ⟨2, ![1, 80000]⟩
abbrev S80000 : Shape := ⟨1, ![80000]⟩
abbrev S80000x1 : Shape := ⟨2, ![80000, 1]⟩
abbrev S80000x128 : Shape := ⟨2, ![80000, 128]⟩
abbrev S8x128 : Shape := ⟨2, ![8, 128]⟩
abbrev S8 : Shape := ⟨1, ![8]⟩
abbrev S8x1 : Shape := ⟨2, ![8, 1]⟩
abbrev S8x64 : Shape := ⟨2, ![8, 64]⟩
abbrev S1x64 : Shape := ⟨2, ![1, 64]⟩
abbrev S8x32 : Shape := ⟨2, ![8, 32]⟩
abbrev S1x32 : Shape := ⟨2, ![1, 32]⟩

abbrev nBuf : Space → Nat
  | .hbm => 300
  | .vmem => 0
  | .smem => 0
  | _ => 0

abbrev hbmTy0_0 (i : Nat) : BufTy := match i % 128 with
  | 0 => ⟨S400000x64, .f32⟩
  | 1 => ⟨S2x1600000, .i32⟩
  | 2 => ⟨S400000, .i32⟩
  | 3 => ⟨S2x80000, .i32⟩
  | 4 => ⟨S9600, .i32⟩
  | 5 => ⟨S9600, .i32⟩
  | 6 => ⟨S9600, .i32⟩
  | 7 => ⟨S64x128, .f32⟩
  | 8 => ⟨S128, .f32⟩
  | 9 => ⟨S128x128, .f32⟩
  | 10 => ⟨S128, .f32⟩
  | 11 => ⟨S10002x128, .f32⟩
  | 12 => ⟨S128x128, .f32⟩
  | 13 => ⟨S128, .f32⟩
  | 14 => ⟨S128x64, .f32⟩
  | 15 => ⟨S64, .f32⟩
  | 16 => ⟨S64x32, .f32⟩
  | 17 => ⟨S32, .f32⟩
  | 18 => ⟨S32x1, .f32⟩
  | 19 => ⟨S1, .f32⟩
  | 20 => ⟨S400000x128, .f32⟩
  | 21 => ⟨S1x1600000, .i32⟩
  | 22 => ⟨S1600000, .i32⟩
  | 23 => ⟨S1x1600000, .i32⟩
  | 24 => ⟨S1600000, .i32⟩
  | 25 => ⟨S_, .f32⟩
  | 26 => ⟨S1600000, .f32⟩
  | 27 => ⟨S_, .f32⟩
  | 28 => ⟨S400000, .f32⟩
  | 29 => ⟨S1600000x1, .i32⟩
  | 30 => ⟨S400000, .f32⟩
  | 31 => ⟨S_, .f32⟩
  | 32 => ⟨S400000, .f32⟩
  | 33 => ⟨S400000, .f32⟩
  | 34 => ⟨S400000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000, .f32⟩
  | 53 => ⟨S1600000, .f32⟩
  | 54 => ⟨S1600000x1, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S1600000x128, .f32⟩
  | 65 => ⟨S1600000x128, .f32⟩
  | 66 => ⟨S_, .f32⟩
  | 67 => ⟨S400000x128, .f32⟩
  | 68 => ⟨S1600000x1, .i32⟩
  | 69 => ⟨S400000x128, .f32⟩
  | 70 => ⟨S400000, .f32⟩
  | 71 => ⟨S400000x1, .f32⟩
  | 72 => ⟨S400000x128, .f32⟩
  | 73 => ⟨S400000x128, .f32⟩
  | 74 => ⟨S400000x128, .f32⟩
  | 75 => ⟨S1x128, .f32⟩
  | 76 => ⟨S400000x128, .f32⟩
  | 77 => ⟨S400000x128, .f32⟩
  | 78 => ⟨S_, .f32⟩
  | 79 => ⟨S400000x128, .f32⟩
  | 80 => ⟨S400000x128, .f32⟩
  | 81 => ⟨S400000x128, .f32⟩
  | 82 => ⟨S1x1600000, .i32⟩
  | 83 => ⟨S1600000, .i32⟩
  | 84 => ⟨S1x1600000, .i32⟩
  | 85 => ⟨S1600000, .i32⟩
  | 86 => ⟨S_, .f32⟩
  | 87 => ⟨S1600000, .f32⟩
  | 88 => ⟨S_, .f32⟩
  | 89 => ⟨S400000, .f32⟩
  | 90 => ⟨S1600000x1, .i32⟩
  | 91 => ⟨S400000, .f32⟩
  | 92 => ⟨S_, .f32⟩
  | 93 => ⟨S400000, .f32⟩
  | 94 => ⟨S400000, .f32⟩
  | 95 => ⟨S400000, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000, .f32⟩
  | 114 => ⟨S1600000, .f32⟩
  | 115 => ⟨S1600000x1, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000x128, .f32⟩
  | 125 => ⟨S1600000x128, .f32⟩
  | 126 => ⟨S1600000x128, .f32⟩
  | 127 => ⟨S_, .f32⟩
  | _ => ⟨S400000x64, .f32⟩

abbrev hbmTy0_1 (i : Nat) : BufTy := match i % 128 with
  | 0 => ⟨S400000x128, .f32⟩
  | 1 => ⟨S1600000x1, .i32⟩
  | 2 => ⟨S400000x128, .f32⟩
  | 3 => ⟨S400000, .f32⟩
  | 4 => ⟨S400000x1, .f32⟩
  | 5 => ⟨S400000x128, .f32⟩
  | 6 => ⟨S400000x128, .f32⟩
  | 7 => ⟨S400000x128, .f32⟩
  | 8 => ⟨S1x128, .f32⟩
  | 9 => ⟨S400000x128, .f32⟩
  | 10 => ⟨S400000x128, .f32⟩
  | 11 => ⟨S_, .f32⟩
  | 12 => ⟨S400000x128, .f32⟩
  | 13 => ⟨S400000x128, .f32⟩
  | 14 => ⟨S_, .f32⟩
  | 15 => ⟨S8000x128, .f32⟩
  | 16 => ⟨S400000x1, .i32⟩
  | 17 => ⟨S8000x128, .f32⟩
  | 18 => ⟨S_, .f32⟩
  | 19 => ⟨S400000, .f32⟩
  | 20 => ⟨S_, .f32⟩
  | 21 => ⟨S8000, .f32⟩
  | 22 => ⟨S400000x1, .i32⟩
  | 23 => ⟨S8000, .f32⟩
  | 24 => ⟨S_, .f32⟩
  | 25 => ⟨S8000, .f32⟩
  | 26 => ⟨S8000, .f32⟩
  | 27 => ⟨S8000x1, .f32⟩
  | 28 => ⟨S8000x128, .f32⟩
  | 29 => ⟨S8000x128, .f32⟩
  | 30 => ⟨S_, .i32⟩
  | 31 => ⟨S_, .i32⟩
  | 32 => ⟨S_, .i32⟩
  | 33 => ⟨S9600, .i32⟩
  | 34 => ⟨S9600, .i32⟩
  | 35 => ⟨S_, .i32⟩
  | 36 => ⟨S9600, .i32⟩
  | 37 => ⟨S9600, .i32⟩
  | 38 => ⟨S_, .i32⟩
  | 39 => ⟨S9600, .i32⟩
  | 40 => ⟨S9600, .i1⟩
  | 41 => ⟨S_, .i32⟩
  | 42 => ⟨S9600, .i32⟩
  | 43 => ⟨S9600, .i32⟩
  | 44 => ⟨S9600, .i32⟩
  | 45 => ⟨S9600x1, .i32⟩
  | 46 => ⟨S1, .i32⟩
  | 47 => ⟨S_, .i32⟩
  | 48 => ⟨S9600x1, .i32⟩
  | 49 => ⟨S9600x1, .i1⟩
  | 50 => ⟨S1x1, .i32⟩
  | 51 => ⟨S9600x1, .i32⟩
  | 52 => ⟨S9600x1, .i1⟩
  | 53 => ⟨S9600x1, .i1⟩
  | 54 => ⟨S_, .i1⟩
  | 55 => ⟨S9600, .i1⟩
  | 56 => ⟨S9600x128, .f32⟩
  | 57 => ⟨S9600x128, .i1⟩
  | 58 => ⟨S_, .f32⟩
  | 59 => ⟨S9600x128, .f32⟩
  | 60 => ⟨S9600x128, .f32⟩
  | 61 => ⟨S9600x1, .i32⟩
  | 62 => ⟨S9600x128, .f32⟩
  | 63 => ⟨S_, .i32⟩
  | 64 => ⟨S9600, .i32⟩
  | 65 => ⟨S9600, .i1⟩
  | 66 => ⟨S9600x1, .i1⟩
  | 67 => ⟨S9600x128, .i1⟩
  | 68 => ⟨S9600x128, .f32⟩
  | 69 => ⟨S9600x128, .f32⟩
  | 70 => ⟨S1x80000, .i32⟩
  | 71 => ⟨S80000, .i32⟩
  | 72 => ⟨S1x80000, .i32⟩
  | 73 => ⟨S80000, .i32⟩
  | 74 => ⟨S_, .f32⟩
  | 75 => ⟨S80000, .f32⟩
  | 76 => ⟨S_, .f32⟩
  | 77 => ⟨S9600, .f32⟩
  | 78 => ⟨S80000x1, .i32⟩
  | 79 => ⟨S9600, .f32⟩
  | 80 => ⟨S_, .f32⟩
  | 81 => ⟨S9600, .f32⟩
  | 82 => ⟨S9600, .f32⟩
  | 83 => ⟨S9600, .f32⟩
  | 84 => ⟨S_, .i32⟩
  | 85 => ⟨S80000, .i32⟩
  | 86 => ⟨S80000, .i1⟩
  | 87 => ⟨S_, .i32⟩
  | 88 => ⟨S80000, .i32⟩
  | 89 => ⟨S80000, .i32⟩
  | 90 => ⟨S80000, .i32⟩
  | 91 => ⟨S80000x1, .i32⟩
  | 92 => ⟨S80000, .f32⟩
  | 93 => ⟨S_, .i32⟩
  | 94 => ⟨S80000, .i32⟩
  | 95 => ⟨S80000, .i1⟩
  | 96 => ⟨S_, .i32⟩
  | 97 => ⟨S80000, .i32⟩
  | 98 => ⟨S80000, .i32⟩
  | 99 => ⟨S80000, .i32⟩
  | 100 => ⟨S80000x1, .i32⟩
  | 101 => ⟨S80000, .f32⟩
  | 102 => ⟨S80000, .f32⟩
  | 103 => ⟨S80000x1, .f32⟩
  | 104 => ⟨S_, .i32⟩
  | 105 => ⟨S80000, .i32⟩
  | 106 => ⟨S80000, .i1⟩
  | 107 => ⟨S_, .i32⟩
  | 108 => ⟨S80000, .i32⟩
  | 109 => ⟨S80000, .i32⟩
  | 110 => ⟨S80000, .i32⟩
  | 111 => ⟨S80000x1, .i32⟩
  | 112 => ⟨S80000x128, .f32⟩
  | 113 => ⟨S80000x128, .f32⟩
  | 114 => ⟨S80000x128, .f32⟩
  | 115 => ⟨S_, .f32⟩
  | 116 => ⟨S9600x128, .f32⟩
  | 117 => ⟨S80000x1, .i32⟩
  | 118 => ⟨S9600x128, .f32⟩
  | 119 => ⟨S9600, .f32⟩
  | 120 => ⟨S9600x1, .f32⟩
  | 121 => ⟨S9600x128, .f32⟩
  | 122 => ⟨S9600x128, .f32⟩
  | 123 => ⟨S9600x128, .f32⟩
  | 124 => ⟨S1x128, .f32⟩
  | 125 => ⟨S9600x128, .f32⟩
  | 126 => ⟨S9600x128, .f32⟩
  | 127 => ⟨S_, .f32⟩
  | _ => ⟨S400000x64, .f32⟩

abbrev hbmTy0_2 (i : Nat) : BufTy := match i % 128 with
  | 0 => ⟨S9600x128, .f32⟩
  | 1 => ⟨S9600x128, .f32⟩
  | 2 => ⟨S_, .f32⟩
  | 3 => ⟨S8x128, .f32⟩
  | 4 => ⟨S9600x1, .i32⟩
  | 5 => ⟨S8x128, .f32⟩
  | 6 => ⟨S_, .f32⟩
  | 7 => ⟨S9600, .f32⟩
  | 8 => ⟨S_, .f32⟩
  | 9 => ⟨S8, .f32⟩
  | 10 => ⟨S9600x1, .i32⟩
  | 11 => ⟨S8, .f32⟩
  | 12 => ⟨S_, .f32⟩
  | 13 => ⟨S8, .f32⟩
  | 14 => ⟨S8, .f32⟩
  | 15 => ⟨S8x1, .f32⟩
  | 16 => ⟨S8x128, .f32⟩
  | 17 => ⟨S8x128, .f32⟩
  | 18 => ⟨S8x64, .f32⟩
  | 19 => ⟨S1x64, .f32⟩
  | 20 => ⟨S8x64, .f32⟩
  | 21 => ⟨S8x64, .f32⟩
  | 22 => ⟨S_, .f32⟩
  | 23 => ⟨S8x64, .f32⟩
  | 24 => ⟨S8x64, .f32⟩
  | 25 => ⟨S8x32, .f32⟩
  | 26 => ⟨S1x32, .f32⟩
  | 27 => ⟨S8x32, .f32⟩
  | 28 => ⟨S8x32, .f32⟩
  | 29 => ⟨S_, .f32⟩
  | 30 => ⟨S8x32, .f32⟩
  | 31 => ⟨S8x32, .f32⟩
  | 32 => ⟨S8x1, .f32⟩
  | 33 => ⟨S1x1, .f32⟩
  | 34 => ⟨S8x1, .f32⟩
  | 35 => ⟨S8x1, .f32⟩
  | 36 => ⟨S8x1, .f32⟩
  | 37 => ⟨S8x1, .f32⟩
  | 38 => ⟨S_, .f32⟩
  | 39 => ⟨S8x1, .f32⟩
  | 40 => ⟨S8x1, .f32⟩
  | 41 => ⟨S_, .f32⟩
  | 42 => ⟨S8x1, .f32⟩
  | 43 => ⟨S8x1, .f32⟩
  | _ => ⟨S400000x64, .f32⟩

abbrev hbmTy (i : Nat) : BufTy := match i / 128 with
  | 0 => hbmTy0_0 i
  | 1 => hbmTy0_1 i
  | 2 => hbmTy0_2 i
  | _ => ⟨S400000x64, .f32⟩

abbrev bufTy : (tb : Table) → Fin (tcTables nBuf tb) → BufTy
  | .hbm, ⟨i, _⟩ => hbmTy i
  | _, _ => ⟨S400000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_cst : Ref sig .tc := ⟨.hbm, 25, rfl⟩
abbrev main_v5 : Ref sig .tc := ⟨.hbm, 26, rfl⟩
abbrev main_cst_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst_1 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c : Ref sig .tc := ⟨.hbm, 35, rfl⟩
abbrev main_v12 : Ref sig .tc := ⟨.hbm, 36, rfl⟩
abbrev main_v13 : Ref sig .tc := ⟨.hbm, 37, rfl⟩
abbrev main_c_2 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_3 : Ref sig .tc := ⟨.hbm, 44, rfl⟩
abbrev main_v19 : Ref sig .tc := ⟨.hbm, 45, rfl⟩
abbrev main_v20 : Ref sig .tc := ⟨.hbm, 46, rfl⟩
abbrev main_c_4 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_c_5 : Ref sig .tc := ⟨.hbm, 55, rfl⟩
abbrev main_v28 : Ref sig .tc := ⟨.hbm, 56, rfl⟩
abbrev main_v29 : Ref sig .tc := ⟨.hbm, 57, rfl⟩
abbrev main_c_6 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_7 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_call0_cst : Ref sig .tc := ⟨.hbm, 78, rfl⟩
abbrev main_call0_v0 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_8 : Ref sig .tc := ⟨.hbm, 86, rfl⟩
abbrev main_v54 : Ref sig .tc := ⟨.hbm, 87, rfl⟩
abbrev main_cst_9 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_10 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_c_11 : Ref sig .tc := ⟨.hbm, 96, rfl⟩
abbrev main_v61 : Ref sig .tc := ⟨.hbm, 97, rfl⟩
abbrev main_v62 : Ref sig .tc := ⟨.hbm, 98, rfl⟩
abbrev main_c_12 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_c_13 : Ref sig .tc := ⟨.hbm, 105, rfl⟩
abbrev main_v68 : Ref sig .tc := ⟨.hbm, 106, rfl⟩
abbrev main_v69 : Ref sig .tc := ⟨.hbm, 107, rfl⟩
abbrev main_c_14 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_c_15 : Ref sig .tc := ⟨.hbm, 116, rfl⟩
abbrev main_v77 : Ref sig .tc := ⟨.hbm, 117, rfl⟩
abbrev main_v78 : Ref sig .tc := ⟨.hbm, 118, rfl⟩
abbrev main_c_16 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_17 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_call1_cst : Ref sig .tc := ⟨.hbm, 139, rfl⟩
abbrev main_call1_v0 : Ref sig .tc := ⟨.hbm, 140, rfl⟩
abbrev main_v97 : Ref sig .tc := ⟨.hbm, 141, rfl⟩
abbrev main_cst_18 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_cst_19 : Ref sig .tc := ⟨.hbm, 146, rfl⟩
abbrev main_v101 : Ref sig .tc := ⟨.hbm, 147, rfl⟩
abbrev main_cst_20 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_cst_21 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_c_22 : Ref sig .tc := ⟨.hbm, 158, rfl⟩
abbrev main_c_23 : Ref sig .tc := ⟨.hbm, 159, rfl⟩
abbrev main_call2_v0 : Ref sig .tc := ⟨.hbm, 160, rfl⟩
abbrev main_call2_v1 : Ref sig .tc := ⟨.hbm, 161, rfl⟩
abbrev main_call2_v2 : Ref sig .tc := ⟨.hbm, 162, rfl⟩
abbrev main_call2_v3 : Ref sig .tc := ⟨.hbm, 163, rfl⟩
abbrev main_call2_v4 : Ref sig .tc := ⟨.hbm, 164, rfl⟩
abbrev main_v110 : Ref sig .tc := ⟨.hbm, 165, rfl⟩
abbrev main_call3_c : Ref sig .tc := ⟨.hbm, 166, rfl⟩
abbrev main_call3_v0 : Ref sig .tc := ⟨.hbm, 167, rfl⟩
abbrev main_call3_v1 : Ref sig .tc := ⟨.hbm, 168, rfl⟩
abbrev main_call3_c_0 : Ref sig .tc := ⟨.hbm, 169, rfl⟩
abbrev main_call3_v2 : Ref sig .tc := ⟨.hbm, 170, rfl⟩
abbrev main_call3_v3 : Ref sig .tc := ⟨.hbm, 171, rfl⟩
abbrev main_call3_v4 : Ref sig .tc := ⟨.hbm, 172, rfl⟩
abbrev main_call3_v5 : Ref sig .tc := ⟨.hbm, 173, rfl⟩
abbrev main_call3_c_1 : Ref sig .tc := ⟨.hbm, 174, rfl⟩
abbrev main_call3_c_2 : Ref sig .tc := ⟨.hbm, 175, rfl⟩
abbrev main_call3_v6 : Ref sig .tc := ⟨.hbm, 176, rfl⟩
abbrev main_call3_v7 : Ref sig .tc := ⟨.hbm, 177, rfl⟩
abbrev main_call3_v8 : Ref sig .tc := ⟨.hbm, 178, rfl⟩
abbrev main_call3_v9 : Ref sig .tc := ⟨.hbm, 179, rfl⟩
abbrev main_call3_v10 : Ref sig .tc := ⟨.hbm, 180, rfl⟩
abbrev main_call3_v11 : Ref sig .tc := ⟨.hbm, 181, rfl⟩
abbrev main_call3_c_3 : Ref sig .tc := ⟨.hbm, 182, rfl⟩
abbrev main_call3_v12 : Ref sig .tc := ⟨.hbm, 183, rfl⟩
abbrev main_call3_v13 : Ref sig .tc := ⟨.hbm, 184, rfl⟩
abbrev main_call3_v14 : Ref sig .tc := ⟨.hbm, 185, rfl⟩
abbrev main_call3_cst : Ref sig .tc := ⟨.hbm, 186, rfl⟩
abbrev main_call3_v15 : Ref sig .tc := ⟨.hbm, 187, rfl⟩
abbrev main_v111 : Ref sig .tc := ⟨.hbm, 188, rfl⟩
abbrev main_call4_v0 : Ref sig .tc := ⟨.hbm, 189, rfl⟩
abbrev main_v112 : Ref sig .tc := ⟨.hbm, 190, rfl⟩
abbrev main_c_24 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_call5_v0 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_cst_25 : Ref sig .tc := ⟨.hbm, 202, rfl⟩
abbrev main_v122 : Ref sig .tc := ⟨.hbm, 203, rfl⟩
abbrev main_cst_26 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_cst_27 : Ref sig .tc := ⟨.hbm, 208, rfl⟩
abbrev main_v126 : Ref sig .tc := ⟨.hbm, 209, rfl⟩
abbrev main_v127 : Ref sig .tc := ⟨.hbm, 210, rfl⟩
abbrev main_v128 : Ref sig .tc := ⟨.hbm, 211, rfl⟩
abbrev main_c_28 : Ref sig .tc := ⟨.hbm, 212, rfl⟩
abbrev main_v129 : Ref sig .tc := ⟨.hbm, 213, rfl⟩
abbrev main_v130 : Ref sig .tc := ⟨.hbm, 214, rfl⟩
abbrev main_c_29 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_c_30 : Ref sig .tc := ⟨.hbm, 221, rfl⟩
abbrev main_v136 : Ref sig .tc := ⟨.hbm, 222, rfl⟩
abbrev main_v137 : Ref sig .tc := ⟨.hbm, 223, rfl⟩
abbrev main_c_31 : Ref sig .tc := ⟨.hbm, 224, rfl⟩
abbrev main_v138 : Ref sig .tc := ⟨.hbm, 225, rfl⟩
abbrev main_v139 : Ref sig .tc := ⟨.hbm, 226, rfl⟩
abbrev main_v140 : Ref sig .tc := ⟨.hbm, 227, rfl⟩
abbrev main_v141 : Ref sig .tc := ⟨.hbm, 228, rfl⟩
abbrev main_v142 : Ref sig .tc := ⟨.hbm, 229, rfl⟩
abbrev main_v143 : Ref sig .tc := ⟨.hbm, 230, rfl⟩
abbrev main_v144 : Ref sig .tc := ⟨.hbm, 231, rfl⟩
abbrev main_c_32 : Ref sig .tc := ⟨.hbm, 232, rfl⟩
abbrev main_v145 : Ref sig .tc := ⟨.hbm, 233, rfl⟩
abbrev main_v146 : Ref sig .tc := ⟨.hbm, 234, rfl⟩
abbrev main_c_33 : Ref sig .tc := ⟨.hbm, 235, rfl⟩
abbrev main_v147 : Ref sig .tc := ⟨.hbm, 236, rfl⟩
abbrev main_v148 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_v152 : Ref sig .tc := ⟨.hbm, 241, rfl⟩
abbrev main_v153 : Ref sig .tc := ⟨.hbm, 242, rfl⟩
abbrev main_cst_34 : Ref sig .tc := ⟨.hbm, 243, rfl⟩
abbrev main_v154 : Ref sig .tc := ⟨.hbm, 244, rfl⟩
abbrev main_v155 : Ref sig .tc := ⟨.hbm, 245, rfl⟩
abbrev main_v156 : Ref sig .tc := ⟨.hbm, 246, rfl⟩
abbrev main_v157 : Ref sig .tc := ⟨.hbm, 247, rfl⟩
abbrev main_v158 : Ref sig .tc := ⟨.hbm, 248, rfl⟩
abbrev main_v159 : Ref sig .tc := ⟨.hbm, 249, rfl⟩
abbrev main_v160 : Ref sig .tc := ⟨.hbm, 250, rfl⟩
abbrev main_v161 : Ref sig .tc := ⟨.hbm, 251, rfl⟩
abbrev main_v162 : Ref sig .tc := ⟨.hbm, 252, rfl⟩
abbrev main_v163 : Ref sig .tc := ⟨.hbm, 253, rfl⟩
abbrev main_v164 : Ref sig .tc := ⟨.hbm, 254, rfl⟩
abbrev main_call6_cst : Ref sig .tc := ⟨.hbm, 255, rfl⟩
abbrev main_call6_v0 : Ref sig .tc := ⟨.hbm, 256, rfl⟩
abbrev main_v165 : Ref sig .tc := ⟨.hbm, 257, rfl⟩
abbrev main_cst_35 : Ref sig .tc := ⟨.hbm, 258, rfl⟩
abbrev main_v166 : Ref sig .tc := ⟨.hbm, 259, rfl⟩
abbrev main_v167 : Ref sig .tc := ⟨.hbm, 260, rfl⟩
abbrev main_v168 : Ref sig .tc := ⟨.hbm, 261, rfl⟩
abbrev main_cst_36 : Ref sig .tc := ⟨.hbm, 262, rfl⟩
abbrev main_v169 : Ref sig .tc := ⟨.hbm, 263, rfl⟩
abbrev main_cst_37 : Ref sig .tc := ⟨.hbm, 264, rfl⟩
abbrev main_v170 : Ref sig .tc := ⟨.hbm, 265, rfl⟩
abbrev main_v171 : Ref sig .tc := ⟨.hbm, 266, rfl⟩
abbrev main_v172 : Ref sig .tc := ⟨.hbm, 267, rfl⟩
abbrev main_cst_38 : Ref sig .tc := ⟨.hbm, 268, rfl⟩
abbrev main_v173 : Ref sig .tc := ⟨.hbm, 269, rfl⟩
abbrev main_v174 : Ref sig .tc := ⟨.hbm, 270, rfl⟩
abbrev main_v175 : Ref sig .tc := ⟨.hbm, 271, rfl⟩
abbrev main_v176 : Ref sig .tc := ⟨.hbm, 272, rfl⟩
abbrev main_v177 : Ref sig .tc := ⟨.hbm, 273, rfl⟩
abbrev main_v178 : Ref sig .tc := ⟨.hbm, 274, rfl⟩
abbrev main_v179 : Ref sig .tc := ⟨.hbm, 275, rfl⟩
abbrev main_v180 : Ref sig .tc := ⟨.hbm, 276, rfl⟩
abbrev main_v181 : Ref sig .tc := ⟨.hbm, 277, rfl⟩
abbrev main_call7_cst : Ref sig .tc := ⟨.hbm, 278, rfl⟩
abbrev main_call7_v0 : Ref sig .tc := ⟨.hbm, 279, rfl⟩
abbrev main_v182 : Ref sig .tc := ⟨.hbm, 280, rfl⟩
abbrev main_v183 : Ref sig .tc := ⟨.hbm, 281, rfl⟩
abbrev main_v184 : Ref sig .tc := ⟨.hbm, 282, rfl⟩
abbrev main_v185 : Ref sig .tc := ⟨.hbm, 283, rfl⟩
abbrev main_v186 : Ref sig .tc := ⟨.hbm, 284, rfl⟩
abbrev main_call8_cst : Ref sig .tc := ⟨.hbm, 285, rfl⟩
abbrev main_call8_v0 : Ref sig .tc := ⟨.hbm, 286, rfl⟩
abbrev main_v187 : Ref sig .tc := ⟨.hbm, 287, rfl⟩
abbrev main_v188 : Ref sig .tc := ⟨.hbm, 288, rfl⟩
abbrev main_v189 : Ref sig .tc := ⟨.hbm, 289, rfl⟩
abbrev main_v190 : Ref sig .tc := ⟨.hbm, 290, rfl⟩
abbrev main_v191 : Ref sig .tc := ⟨.hbm, 291, rfl⟩
abbrev main_v192 : Ref sig .tc := ⟨.hbm, 292, rfl⟩
abbrev main_v193 : Ref sig .tc := ⟨.hbm, 293, rfl⟩
abbrev main_cst_39 : Ref sig .tc := ⟨.hbm, 294, rfl⟩
abbrev main_v194 : Ref sig .tc := ⟨.hbm, 295, rfl⟩
abbrev main_v195 : Ref sig .tc := ⟨.hbm, 296, rfl⟩
abbrev main_cst_40 : Ref sig .tc := ⟨.hbm, 297, rfl⟩
abbrev main_v196 : Ref sig .tc := ⟨.hbm, 298, rfl⟩
abbrev main_v197 : Ref sig .tc := ⟨.hbm, 299, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S400000 : S_.BroadcastsInDim S400000 (![] : Fin 0 → Fin S400000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S400000x128 : S_.BroadcastsInDim S400000x128 (![] : Fin 0 → Fin S400000x128.rank)
  bcast_S400000_S400000x1_0 : S400000.BroadcastsInDim S400000x1 (![0] : Fin 1 → Fin S400000x1.rank)
  bcast_S400000x1_S400000x128_0_1 : S400000x1.BroadcastsInDim S400000x128 (![0, 1] : Fin 2 → Fin S400000x128.rank)
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S8000x128 : S_.BroadcastsInDim S8000x128 (![] : Fin 0 → Fin S8000x128.rank)
  bcast_S_S8000 : S_.BroadcastsInDim S8000 (![] : Fin 0 → Fin S8000.rank)
  bcast_S8000_S8000x1_0 : S8000.BroadcastsInDim S8000x1 (![0] : Fin 1 → Fin S8000x1.rank)
  bcast_S8000x1_S8000x128_0_1 : S8000x1.BroadcastsInDim S8000x128 (![0, 1] : Fin 2 → Fin S8000x128.rank)
  bcast_S_S9600 : S_.BroadcastsInDim S9600 (![] : Fin 0 → Fin S9600.rank)
  bcast_S9600_S9600x1_0 : S9600.BroadcastsInDim S9600x1 (![0] : Fin 1 → Fin S9600x1.rank)
  bcast_S_S9600x1 : S_.BroadcastsInDim S9600x1 (![] : Fin 0 → Fin S9600x1.rank)
  bcast_S1_S1x1_1 : S1.BroadcastsInDim S1x1 (![1] : Fin 1 → Fin S1x1.rank)
  bcast_S1x1_S9600x1_0_1 : S1x1.BroadcastsInDim S9600x1 (![0, 1] : Fin 2 → Fin S9600x1.rank)
  reducesTo_S9600x1_S9600_d1 : S9600x1.ReducesTo [1] S9600
  h_S_ : 0 < S_.numel
  bcast_S9600_S9600x128_0 : S9600.BroadcastsInDim S9600x128 (![0] : Fin 1 → Fin S9600x128.rank)
  bcast_S_S9600x128 : S_.BroadcastsInDim S9600x128 (![] : Fin 0 → Fin S9600x128.rank)
  bcast_S9600x1_S9600x128_0_1 : S9600x1.BroadcastsInDim S9600x128 (![0, 1] : Fin 2 → Fin S9600x128.rank)
  slices_S2x80000_S1x80000_0_0 : S2x80000.Slices ![0, 0] S1x80000
  shapeCasts_S1x80000_S80000 : S1x80000.ShapeCasts S80000
  slices_S2x80000_S1x80000_1_0 : S2x80000.Slices ![1, 0] S1x80000
  bcast_S_S80000 : S_.BroadcastsInDim S80000 (![] : Fin 0 → Fin S80000.rank)
  bcast_S80000_S80000x1_0 : S80000.BroadcastsInDim S80000x1 (![0] : Fin 1 → Fin S80000x1.rank)
  bcast_S80000x1_S80000x128_0_1 : S80000x1.BroadcastsInDim S80000x128 (![0, 1] : Fin 2 → Fin S80000x128.rank)
  bcast_S1x128_S9600x128_0_1 : S1x128.BroadcastsInDim S9600x128 (![0, 1] : Fin 2 → Fin S9600x128.rank)
  bcast_S_S8x128 : S_.BroadcastsInDim S8x128 (![] : Fin 0 → Fin S8x128.rank)
  bcast_S_S8 : S_.BroadcastsInDim S8 (![] : Fin 0 → Fin S8.rank)
  bcast_S8_S8x1_0 : S8.BroadcastsInDim S8x1 (![0] : Fin 1 → Fin S8x1.rank)
  bcast_S8x1_S8x128_0_1 : S8x1.BroadcastsInDim S8x128 (![0, 1] : Fin 2 → Fin S8x128.rank)
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  bcast_S_S8x64 : S_.BroadcastsInDim S8x64 (![] : Fin 0 → Fin S8x64.rank)
  bcast_S32_S1x32_1 : S32.BroadcastsInDim S1x32 (![1] : Fin 1 → Fin S1x32.rank)
  bcast_S1x32_S8x32_0_1 : S1x32.BroadcastsInDim S8x32 (![0, 1] : Fin 2 → Fin S8x32.rank)
  bcast_S_S8x32 : S_.BroadcastsInDim S8x32 (![] : Fin 0 → Fin S8x32.rank)
  bcast_S1x1_S8x1_0_1 : S1x1.BroadcastsInDim S8x1 (![0, 1] : Fin 2 → Fin S8x1.rank)
  bcast_S_S8x1 : S_.BroadcastsInDim S8x1 (![] : Fin 0 → Fin S8x1.rank)
  dot_S400000x64_S64x128_S400000x128_1_0_0_1_n_n_wf : DotDims.WF S400000x64 S64x128 S400000x128 [1] [0] [0] [1] [] []
  scatter_S400000_S1600000x1_S1600000_n_0_0_1_wf : ScatterDims.WF S400000 S1600000x1 S1600000 [] [0] [0] 1
  gather_S400000_S1600000x1_S1600000_n_0_n_n_0_1_1_wf : GatherDims.WF S400000 S1600000x1 S1600000 [] [0] [] [0] [] 1 ![1]
  gather_S400000x128_S1600000x1_S1600000x128_1_0_n_n_0_1_1128_wf : GatherDims.WF S400000x128 S1600000x1 S1600000x128 [1] [0] [] [0] [] 1 ![1, 128]
  scatter_S400000x128_S1600000x1_S1600000x128_1_0_0_1_wf : ScatterDims.WF S400000x128 S1600000x1 S1600000x128 [1] [0] [0] 1
  dot_S400000x128_S128x128_S400000x128_1_0_0_1_n_n_wf : DotDims.WF S400000x128 S128x128 S400000x128 [1] [0] [0] [1] [] []
  scatter_S8000x128_S400000x1_S400000x128_1_0_0_1_wf : ScatterDims.WF S8000x128 S400000x1 S400000x128 [1] [0] [0] 1
  scatter_S8000_S400000x1_S400000_n_0_0_1_wf : ScatterDims.WF S8000 S400000x1 S400000 [] [0] [0] 1
  gather_S8000x128_S9600x1_S9600x128_1_0_n_n_0_1_1128_wf : GatherDims.WF S8000x128 S9600x1 S9600x128 [1] [0] [] [0] [] 1 ![1, 128]
  gather_S10002x128_S9600x1_S9600x128_1_0_n_n_0_1_1128_wf : GatherDims.WF S10002x128 S9600x1 S9600x128 [1] [0] [] [0] [] 1 ![1, 128]
  dot_S9600x128_S128x128_S9600x128_1_0_0_1_n_n_wf : DotDims.WF S9600x128 S128x128 S9600x128 [1] [0] [0] [1] [] []
  scatter_S9600_S80000x1_S80000_n_0_0_1_wf : ScatterDims.WF S9600 S80000x1 S80000 [] [0] [0] 1
  gather_S9600_S80000x1_S80000_n_0_n_n_0_1_1_wf : GatherDims.WF S9600 S80000x1 S80000 [] [0] [] [0] [] 1 ![1]
  gather_S9600x128_S80000x1_S80000x128_1_0_n_n_0_1_1128_wf : GatherDims.WF S9600x128 S80000x1 S80000x128 [1] [0] [] [0] [] 1 ![1, 128]
  scatter_S9600x128_S80000x1_S80000x128_1_0_0_1_wf : ScatterDims.WF S9600x128 S80000x1 S80000x128 [1] [0] [0] 1
  scatter_S8x128_S9600x1_S9600x128_1_0_0_1_wf : ScatterDims.WF S8x128 S9600x1 S9600x128 [1] [0] [0] 1
  scatter_S8_S9600x1_S9600_n_0_0_1_wf : ScatterDims.WF S8 S9600x1 S9600 [] [0] [0] 1
  dot_S8x128_S128x64_S8x64_1_0_0_1_n_n_wf : DotDims.WF S8x128 S128x64 S8x64 [1] [0] [0] [1] [] []
  dot_S8x64_S64x32_S8x32_1_0_0_1_n_n_wf : DotDims.WF S8x64 S64x32 S8x32 [1] [0] [0] [1] [] []
  dot_S8x32_S32x1_S8x1_1_0_0_1_n_n_wf : DotDims.WF S8x32 S32x1 S8x1 [1] [0] [0] [1] [] []

variable [Facts₀]

def dot_S400000x64_S64x128_S400000x128_1_0_0_1_n_n : DotDims S400000x64 S64x128 S400000x128 where
  lhsContracting := [1]
  rhsContracting := [0]
  lhsNonContracting := [0]
  rhsNonContracting := [1]
  lhsBatch := []
  rhsBatch := []
  wf := dot_S400000x64_S64x128_S400000x128_1_0_0_1_n_n_wf
def scatter_S400000_S1600000x1_S1600000_n_0_0_1 : ScatterDims S400000 S1600000x1 S1600000 where
  updateWindowDims := []
  insertedWindowDims := [0]
  scatterDimsToOperandDims := [0]
  indexVectorDim := 1
  wf := scatter_S400000_S1600000x1_S1600000_n_0_0_1_wf
def gather_S400000_S1600000x1_S1600000_n_0_n_n_0_1_1 : GatherDims S400000 S1600000x1 S1600000 where
  offsetDims := []
  collapsedSliceDims := [0]
  operandBatchingDims := []
  startIndicesBatchingDims := []
  startIndexMap := [0]
  indexVectorDim := 1
  sliceSizes := ![1]
  wf := gather_S400000_S1600000x1_S1600000_n_0_n_n_0_1_1_wf
def gather_S400000x128_S1600000x1_S1600000x128_1_0_n_n_0_1_1128 : GatherDims S400000x128 S1600000x1 S1600000x128 where
  offsetDims := [1]
  collapsedSliceDims := [0]
  operandBatchingDims := []
  startIndicesBatchingDims := []
  startIndexMap := [0]
  indexVectorDim := 1
  sliceSizes := ![1, 128]
  wf := gather_S400000x128_S1600000x1_S1600000x128_1_0_n_n_0_1_1128_wf
def scatter_S400000x128_S1600000x1_S1600000x128_1_0_0_1 : ScatterDims S400000x128 S1600000x1 S1600000x128 where
  updateWindowDims := [1]
  insertedWindowDims := [0]
  scatterDimsToOperandDims := [0]
  indexVectorDim := 1
  wf := scatter_S400000x128_S1600000x1_S1600000x128_1_0_0_1_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def scatter_S8000x128_S400000x1_S400000x128_1_0_0_1 : ScatterDims S8000x128 S400000x1 S400000x128 where
  updateWindowDims := [1]
  insertedWindowDims := [0]
  scatterDimsToOperandDims := [0]
  indexVectorDim := 1
  wf := scatter_S8000x128_S400000x1_S400000x128_1_0_0_1_wf
def scatter_S8000_S400000x1_S400000_n_0_0_1 : ScatterDims S8000 S400000x1 S400000 where
  updateWindowDims := []
  insertedWindowDims := [0]
  scatterDimsToOperandDims := [0]
  indexVectorDim := 1
  wf := scatter_S8000_S400000x1_S400000_n_0_0_1_wf
def gather_S8000x128_S9600x1_S9600x128_1_0_n_n_0_1_1128 : GatherDims S8000x128 S9600x1 S9600x128 where
  offsetDims := [1]
  collapsedSliceDims := [0]
  operandBatchingDims := []
  startIndicesBatchingDims := []
  startIndexMap := [0]
  indexVectorDim := 1
  sliceSizes := ![1, 128]
  wf := gather_S8000x128_S9600x1_S9600x128_1_0_n_n_0_1_1128_wf
def gather_S10002x128_S9600x1_S9600x128_1_0_n_n_0_1_1128 : GatherDims S10002x128 S9600x1 S9600x128 where
  offsetDims := [1]
  collapsedSliceDims := [0]
  operandBatchingDims := []
  startIndicesBatchingDims := []
  startIndexMap := [0]
  indexVectorDim := 1
  sliceSizes := ![1, 128]
  wf := gather_S10002x128_S9600x1_S9600x128_1_0_n_n_0_1_1128_wf
def dot_S9600x128_S128x128_S9600x128_1_0_0_1_n_n : DotDims S9600x128 S128x128 S9600x128 where
  lhsContracting := [1]
  rhsContracting := [0]
  lhsNonContracting := [0]
  rhsNonContracting := [1]
  lhsBatch := []
  rhsBatch := []
  wf := dot_S9600x128_S128x128_S9600x128_1_0_0_1_n_n_wf
def scatter_S9600_S80000x1_S80000_n_0_0_1 : ScatterDims S9600 S80000x1 S80000 where
  updateWindowDims := []
  insertedWindowDims := [0]
  scatterDimsToOperandDims := [0]
  indexVectorDim := 1
  wf := scatter_S9600_S80000x1_S80000_n_0_0_1_wf
def gather_S9600_S80000x1_S80000_n_0_n_n_0_1_1 : GatherDims S9600 S80000x1 S80000 where
  offsetDims := []
  collapsedSliceDims := [0]
  operandBatchingDims := []
  startIndicesBatchingDims := []
  startIndexMap := [0]
  indexVectorDim := 1
  sliceSizes := ![1]
  wf := gather_S9600_S80000x1_S80000_n_0_n_n_0_1_1_wf
def gather_S9600x128_S80000x1_S80000x128_1_0_n_n_0_1_1128 : GatherDims S9600x128 S80000x1 S80000x128 where
  offsetDims := [1]
  collapsedSliceDims := [0]
  operandBatchingDims := []
  startIndicesBatchingDims := []
  startIndexMap := [0]
  indexVectorDim := 1
  sliceSizes := ![1, 128]
  wf := gather_S9600x128_S80000x1_S80000x128_1_0_n_n_0_1_1128_wf
def scatter_S9600x128_S80000x1_S80000x128_1_0_0_1 : ScatterDims S9600x128 S80000x1 S80000x128 where
  updateWindowDims := [1]
  insertedWindowDims := [0]
  scatterDimsToOperandDims := [0]
  indexVectorDim := 1
  wf := scatter_S9600x128_S80000x1_S80000x128_1_0_0_1_wf
def scatter_S8x128_S9600x1_S9600x128_1_0_0_1 : ScatterDims S8x128 S9600x1 S9600x128 where
  updateWindowDims := [1]
  insertedWindowDims := [0]
  scatterDimsToOperandDims := [0]
  indexVectorDim := 1
  wf := scatter_S8x128_S9600x1_S9600x128_1_0_0_1_wf
def scatter_S8_S9600x1_S9600_n_0_0_1 : ScatterDims S8 S9600x1 S9600 where
  updateWindowDims := []
  insertedWindowDims := [0]
  scatterDimsToOperandDims := [0]
  indexVectorDim := 1
  wf := scatter_S8_S9600x1_S9600_n_0_0_1_wf
def dot_S8x128_S128x64_S8x64_1_0_0_1_n_n : DotDims S8x128 S128x64 S8x64 where
  lhsContracting := [1]
  rhsContracting := [0]
  lhsNonContracting := [0]
  rhsNonContracting := [1]
  lhsBatch := []
  rhsBatch := []
  wf := dot_S8x128_S128x64_S8x64_1_0_0_1_n_n_wf
def dot_S8x64_S64x32_S8x32_1_0_0_1_n_n : DotDims S8x64 S64x32 S8x32 where
  lhsContracting := [1]
  rhsContracting := [0]
  lhsNonContracting := [0]
  rhsNonContracting := [1]
  lhsBatch := []
  rhsBatch := []
  wf := dot_S8x64_S64x32_S8x32_1_0_0_1_n_n_wf
def dot_S8x32_S32x1_S8x1_1_0_0_1_n_n : DotDims S8x32 S32x1 S8x1 where
  lhsContracting := [1]
  rhsContracting := [0]
  lhsNonContracting := [0]
  rhsNonContracting := [1]
  lhsBatch := []
  rhsBatch := []
  wf := dot_S8x32_S32x1_S8x1_1_0_0_1_n_n_wf

class Facts : Prop extends Facts₀ where

variable [Facts]
-- ==== Proof.KernelRun.lean ====
/-
  The idealized kernel program's run with its RESULT named.

  The program is six pipelined regions among stretches of host operations.  Its generated frame certificate runs the
  segments in order and ends with every unscoped buffer of a core at the last boundary's contents, a fold of the host
  stretches and of the regions' write-backs from the launch memory (`Gen.W23`).  Read at the result buffer instead of
  only at the arguments, the same run says: every weakly fair execution terminates, the result buffer holds that fold's
  value there, and the arguments are as launched.
-/
import proofs.«127647_j11982958756658_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last segment
    boundary's contents and every argument array as launched. -/
theorem run_result : θ_run defs (onTc (τ := τ) (main (F := F))) ⟨m, fun _ => 0, ρ⟩ (fun r => ∀ c : Dev nD,
      r.2.mem ((c.tc : Thread nD τ).loc main_v182) = W23 m ρ c (Proc.devRef .tc main_v182)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h c =>
      ⟨h c _ (mem_uc main_v182 (by decide)),
       (h c _ (mem_uc main_arg0 (by decide))).trans (W23_main_arg0 m ρ c),
       (h c _ (mem_uc main_arg1 (by decide))).trans (W23_main_arg1 m ρ c),
       (h c _ (mem_uc main_arg2 (by decide))).trans (W23_main_arg2 m ρ c),
       (h c _ (mem_uc main_arg3 (by decide))).trans (W23_main_arg3 m ρ c),
       (h c _ (mem_uc main_arg4 (by decide))).trans (W23_main_arg4 m ρ c),
       (h c _ (mem_uc main_arg5 (by decide))).trans (W23_main_arg5 m ρ c),
       (h c _ (mem_uc main_arg6 (by decide))).trans (W23_main_arg6 m ρ c),
       (h c _ (mem_uc main_arg7 (by decide))).trans (W23_main_arg7 m ρ c),
       (h c _ (mem_uc main_arg8 (by decide))).trans (W23_main_arg8 m ρ c),
       (h c _ (mem_uc main_arg9 (by decide))).trans (W23_main_arg9 m ρ c),
       (h c _ (mem_uc main_arg10 (by decide))).trans (W23_main_arg10 m ρ c),
       (h c _ (mem_uc main_arg11 (by decide))).trans (W23_main_arg11 m ρ c),
       (h c _ (mem_uc main_arg12 (by decide))).trans (W23_main_arg12 m ρ c),
       (h c _ (mem_uc main_arg13 (by decide))).trans (W23_main_arg13 m ρ c),
       (h c _ (mem_uc main_arg14 (by decide))).trans (W23_main_arg14 m ρ c),
       (h c _ (mem_uc main_arg15 (by decide))).trans (W23_main_arg15 m ρ c),
       (h c _ (mem_uc main_arg16 (by decide))).trans (W23_main_arg16 m ρ c),
       (h c _ (mem_uc main_arg17 (by decide))).trans (W23_main_arg17 m ρ c),
       (h c _ (mem_uc main_arg18 (by decide))).trans (W23_main_arg18 m ρ c),
       (h c _ (mem_uc main_arg19 (by decide))).trans (W23_main_arg19 m ρ c)⟩)

end Cert.KernelIdeal.Run

end
-- ==== Proof.RefRun.lean ====
import proofs.«127647_j11982958756658_1_alg».proof.Proof.Gen.ReferenceIdeal
import Idealize.ShloMosaic.Lib.StableHlo.Run
import Idealize.ShloMosaic.Lib.Pipeline.Frame

/-! The reference program's @main as a straight line of its operations, in program order with every call's body
    in place over the call's own buffers, cut into eleven consecutive stages; and its run read back: every weakly fair
    execution terminates with each buffer at the fold of the operations' results over the launch contents. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Stage 0: the operations that produce %0, in program order. -/
abbrev s0 : List (HloOp τ sig (Elt F)) :=
  [ StableHlo.binary main_arg0 main_arg7 main_v0 ((fun l r => Host.dotGeneral dot_S400000x64_S64x128_S400000x128_1_0_0_1_n_n none l r) : (⟨S400000x64, .f32⟩ : BufTy).Contents (Elt F) → (⟨S64x128, .f32⟩ : BufTy).Contents (Elt F) → (⟨S400000x128, .f32⟩ : BufTy).Contents (Elt F)) ]  -- %0

/-- Stage 1: the operations that produce %1 … %40, in program order. -/
abbrev s1 : List (HloOp τ sig (Elt F)) :=
  [ StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),  -- %1
    StableHlo.reshape main_v1 main_v2 rfl shapeCasts_S1x1600000_S1600000,  -- %2
    StableHlo.unary main_arg1 main_v3 ((extractStridedSlice S1x1600000 ![1, 0] · slices_S2x1600000_S1x1600000_1_0) : (⟨S2x1600000, .i32⟩ : BufTy).Contents (Elt F) → (⟨S1x1600000, .i32⟩ : BufTy).Contents (Elt F)),  -- %3
    StableHlo.reshape main_v3 main_v4 rfl shapeCasts_S1x1600000_S1600000,  -- %4
    StableHlo.nullary main_cst (constant S_ .f32 0x3F800000#32),  -- %cst
    StableHlo.unary main_cst main_v5 (broadcastInDim S1600000 ![] bcast_S_S1600000 : (⟨S_, .f32⟩ : BufTy).Contents (Elt F) → (⟨S1600000, .f32⟩ : BufTy).Contents (Elt F)),  -- %5
    StableHlo.nullary main_cst_0 (constant S_ .f32 0x00000000#32),  -- %cst_0
    StableHlo.unary main_cst_0 main_v6 (broadcastInDim S400000 ![] bcast_S_S400000 : (⟨S_, .f32⟩ : BufTy).Contents (Elt F) → (⟨S400000, .f32⟩ : BufTy).Contents (Elt F)),  -- %6
    StableHlo.unary main_v4 main_v7 (broadcastInDim S1600000x1 ![0] bcast_S1600000_S1600000x1_0 : (⟨S1600000, .i32⟩ : BufTy).Contents (Elt F) → (⟨S1600000x1, .i32⟩ : BufTy).Contents (Elt F)),  -- %7
    StableHlo.ternary main_v6 main_v7 main_v5 main_v8 ((fun x i u => Host.scatterAdd scatter_S400000_S1600000x1_S1600000_n_0_0_1 x i u) : (⟨S400000, .f32⟩ : BufTy).Contents (Elt F) → (⟨S1600000x1, .i32⟩ : BufTy).Contents (Elt F) → (⟨S1600000, .f32⟩ : BufTy).Contents (Elt F) → (⟨S400000, .f32⟩ : BufTy).Contents (Elt F)),  -- %8
    StableHlo.nullary main_cst_1 (constant S_ .f32 0x3F800000#32),  -- %cst_1
    StableHlo.unary main_cst_1 main_v9 (broadcastInDim S400000 ![] bcast_S_S400000 : (⟨S_, .f32⟩ : BufTy).Contents (Elt F) → (⟨S400000, .f32⟩ : BufTy).Contents (Elt F)),  -- %9
    StableHlo.binary main_v8 main_v9 main_v10 (addf : (⟨S400000, .f32⟩ : BufTy).Contents (Elt F) → (⟨S400000, .f32⟩ : BufTy).Contents (Elt F) → (⟨S400000, .f32⟩ : BufTy).Contents (Elt F)),  -- %10
    StableHlo.unary main_v10 main_v11 (Host.rsqrt : (⟨S400000, .f32⟩ : BufTy).Contents (Elt F) → (⟨S400000, .f32⟩ : BufTy).Contents (Elt F)),  -- %11
    StableHlo.nullary main_c (constantI S_ 32 0#32),  -- %c
    StableHlo.unary main_c main_v12 (broadcastInDim S1600000 ![] bcast_S_S1600000 : (⟨S_, .i32⟩ : BufTy).Contents (Elt F) → (⟨S1600000, .i32⟩ : BufTy).Contents (Elt F)),  -- %12
    StableHlo.binary main_v2 main_v12 main_v13 (cmpi .slt : (⟨S1600000, .i32⟩ : BufTy).Contents (Elt F) → (⟨S1600000, .i32⟩ : BufTy).Contents (Elt F) → (⟨S1600000, .i1⟩ : BufTy).Contents (Elt F)),  -- %13
    StableHlo.nullary main_c_2 (constantI S_ 32 400000#32),  -- %c_2
    StableHlo.unary main_c_2 main_v14 (broadcastInDim S1600000 ![] bcast_S_S1600000 : (⟨S_, .i32⟩ : BufTy).Contents (Elt F) → (⟨S1600000, .i32⟩ : BufTy).Contents (Elt F)),  -- %14
    StableHlo.binary main_v2 main_v14 main_v15 (addi : (⟨S1600000, .i32⟩ : BufTy).Contents (Elt F) → (⟨S1600000, .i32⟩ : BufTy).Contents (Elt F) → (⟨S1600000, .i32⟩ : BufTy).Contents (Elt F)),  -- %15
    StableHlo.ternary main_v13 main_v15 main_v2 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),  -- %16
    StableHlo.unary main_v16 main_v17 (broadcastInDim S1600000x1 ![0] bcast_S1600000_S1600000x1_0 : (⟨S1600000, .i32⟩ : BufTy).Contents (Elt F) → (⟨S1600000x1, .i32⟩ : BufTy).Contents (Elt F)),  -- %17
    StableHlo.binary main_v11 main_v17 main_v18 ((fun x i => Host.gather gather_S400000_S1600000x1_S1600000_n_0_n_n_0_1_1 x i) : (⟨S400000, .f32⟩ : BufTy).Contents (Elt F) → (⟨S1600000x1, .i32⟩ : BufTy).Contents (Elt F) → (⟨S1600000, .f32⟩ : BufTy).Contents (Elt F)),  -- %18
    StableHlo.nullary main_c_3 (constantI S_ 32 0#32),  -- %c_3
    StableHlo.unary main_c_3 main_v19 (broadcastInDim S1600000 ![] bcast_S_S1600000 : (⟨S_, .i32⟩ : BufTy).Contents (Elt F) → (⟨S1600000, .i32⟩ : BufTy).Contents (Elt F)),  -- %19
    StableHlo.binary main_v4 main_v19 main_v20 (cmpi .slt : (⟨S1600000, .i32⟩ : BufTy).Contents (Elt F) → (⟨S1600000, .i32⟩ : BufTy).Contents (Elt F) → (⟨S1600000, .i1⟩ : BufTy).Contents (Elt F)),  -- %20
    StableHlo.nullary main_c_4 (constantI S_ 32 400000#32),  -- %c_4
    StableHlo.unary main_c_4 main_v21 (broadcastInDim S1600000 ![] bcast_S_S1600000 : (⟨S_, .i32⟩ : BufTy).Contents (Elt F) → (⟨S1600000, .i32⟩ : BufTy).Contents (Elt F)),  -- %21
    StableHlo.binary main_v4 main_v21 main_v22 (addi : (⟨S1600000, .i32⟩ : BufTy).Contents (Elt F) → (⟨S1600000, .i32⟩ : BufTy).Contents (Elt F) → (⟨S1600000, .i32⟩ : BufTy).Contents (Elt F)),  -- %22
    StableHlo.ternary main_v20 main_v22 main_v4 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),  -- %23
    StableHlo.unary main_v23 main_v24 (broadcastInDim S1600000x1 ![0] bcast_S1600000_S1600000x1_0 : (⟨S1600000, .i32⟩ : BufTy).Contents (Elt F) → (⟨S1600000x1, .i32⟩ : BufTy).Contents (Elt F)),  -- %24
    StableHlo.binary main_v11 main_v24 main_v25 ((fun x i => Host.gather gather_S400000_S1600000x1_S1600000_n_0_n_n_0_1_1 x i) : (⟨S400000, .f32⟩ : BufTy).Contents (Elt F) → (⟨S1600000x1, .i32⟩ : BufTy).Contents (Elt F) → (⟨S1600000, .f32⟩ : BufTy).Contents (Elt F)),  -- %25
    StableHlo.binary main_v18 main_v25 main_v26 (mulf : (⟨S1600000, .f32⟩ : BufTy).Contents (Elt F) → (⟨S1600000, .f32⟩ : BufTy).Contents (Elt F) → (⟨S1600000, .f32⟩ : BufTy).Contents (Elt F)),  -- %26
    StableHlo.unary main_v26 main_v27 (broadcastInDim S1600000x1 ![0] bcast_S1600000_S1600000x1_0 : (⟨S1600000, .f32⟩ : BufTy).Contents (Elt F) → (⟨S1600000x1, .f32⟩ : BufTy).Contents (Elt F)),  -- %27
    StableHlo.nullary main_c_5 (constantI S_ 32 0#32),  -- %c_5
    StableHlo.unary main_c_5 main_v28 (broadcastInDim S1600000 ![] bcast_S_S1600000 : (⟨S_, .i32⟩ : BufTy).Contents (Elt F) → (⟨S1600000, .i32⟩ : BufTy).Contents (Elt F)),  -- %28
    StableHlo.binary main_v2 main_v28 main_v29 (cmpi .slt : (⟨S1600000, .i32⟩ : BufTy).Contents (Elt F) → (⟨S1600000, .i32⟩ : BufTy).Contents (Elt F) → (⟨S1600000, .i1⟩ : BufTy).Contents (Elt F)),  -- %29
    StableHlo.nullary main_c_6 (constantI S_ 32 400000#32),  -- %c_6
    StableHlo.unary main_c_6 main_v30 (broadcastInDim S1600000 ![] bcast_S_S1600000 : (⟨S_, .i32⟩ : BufTy).Contents (Elt F) → (⟨S1600000, .i32⟩ : BufTy).Contents (Elt F)),  -- %30
    StableHlo.binary main_v2 main_v30 main_v31 (addi : (⟨S1600000, .i32⟩ : BufTy).Contents (Elt F) → (⟨S1600000, .i32⟩ : BufTy).Contents (Elt F) → (⟨S1600000, .i32⟩ : BufTy).Contents (Elt F)),  -- %31
    StableHlo.ternary main_v29 main_v31 main_v2 main_v32 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),  -- %32
    StableHlo.unary main_v32 main_v33 (broadcastInDim S1600000x1 ![0] bcast_S1600000_S1600000x1_0 : (⟨S1600000, .i32⟩ : BufTy).Contents (Elt F) → (⟨S1600000x1, .i32⟩ : BufTy).Contents (Elt F)),  -- %33
    StableHlo.binary main_v0 main_v33 main_v34 ((fun x i => Host.gather gather_S400000x128_S1600000x1_S1600000x128_1_0_n_n_0_1_1128 x i) : (⟨S400000x128, .f32⟩ : BufTy).Contents (Elt F) → (⟨S1600000x1, .i32⟩ : BufTy).Contents (Elt F) → (⟨S1600000x128, .f32⟩ : BufTy).Contents (Elt F)),  -- %34
    StableHlo.unary main_v27 main_v35 (broadcastInDim S1600000x128 ![0, 1] bcast_S1600000x1_S1600000x128_0_1 : (⟨S1600000x1, .f32⟩ : BufTy).Contents (Elt F) → (⟨S1600000x128, .f32⟩ : BufTy).Contents (Elt F)),  -- %35
    StableHlo.binary main_v34 main_v35 main_v36 (mulf : (⟨S1600000x128, .f32⟩ : BufTy).Contents (Elt F) → (⟨S1600000x128, .f32⟩ : BufTy).Contents (Elt F) → (⟨S1600000x128, .f32⟩ : BufTy).Contents (Elt F)),  -- %36
    StableHlo.nullary main_cst_7 (constant S_ .f32 0x00000000#32),  -- %cst_7
    StableHlo.unary main_cst_7 main_v37 (broadcastInDim S400000x128 ![] bcast_S_S400000x128 : (⟨S_, .f32⟩ : BufTy).Contents (Elt F) → (⟨S400000x128, .f32⟩ : BufTy).Contents (Elt F)),  -- %37
    StableHlo.unary main_v4 main_v38 (broadcastInDim S1600000x1 ![0] bcast_S1600000_S1600000x1_0 : (⟨S1600000, .i32⟩ : BufTy).Contents (Elt F) → (⟨S1600000x1, .i32⟩ : BufTy).Contents (Elt F)),  -- %38
    StableHlo.ternary main_v37 main_v38 main_v36 main_v39 ((fun x i u => Host.scatterAdd scatter_S400000x128_S1600000x1_S1600000x128_1_0_0_1 x i u) : (⟨S400000x128, .f32⟩ : BufTy).Contents (Elt F) → (⟨S1600000x1, .i32⟩ : BufTy).Contents (Elt F) → (⟨S1600000x128, .f32⟩ : BufTy).Contents (Elt F) → (⟨S400000x128, .f32⟩ : BufTy).Contents (Elt F)),  -- %39
    StableHlo.binary main_v11 main_v11 main_v40 (mulf : (⟨S400000, .f32⟩ : BufTy).Contents (Elt F) → (⟨S400000, .f32⟩ : BufTy).Contents (Elt F) → (⟨S400000, .f32⟩ : BufTy).Contents (Elt F)) ]  -- %40

/-- Stage 2: the operations that produce %41 … %48 (the last three are the body of the call that returns %48), in program order. -/
abbrev s2 : List (HloOp τ sig (Elt F)) :=
  [ StableHlo.unary main_v40 main_v41 (broadcastInDim S400000x1 ![0] bcast_S400000_S400000x1_0 : (⟨S400000, .f32⟩ : BufTy).Contents (Elt F) → (⟨S400000x1, .f32⟩ : BufTy).Contents (Elt F)),  -- %41
    StableHlo.unary main_v41 main_v42 (broadcastInDim S400000x128 ![0, 1] bcast_S400000x1_S400000x128_0_1 : (⟨S400000x1, .f32⟩ : BufTy).Contents (Elt F) → (⟨S400000x128, .f32⟩ : BufTy).Contents (Elt F)),  -- %42
    StableHlo.binary main_v0 main_v42 main_v43 (mulf : (⟨S400000x128, .f32⟩ : BufTy).Contents (Elt F) → (⟨S400000x128, .f32⟩ : BufTy).Contents (Elt F) → (⟨S400000x128, .f32⟩ : BufTy).Contents (Elt F)),  -- %43
    StableHlo.binary main_v39 main_v43 main_v44 (addf : (⟨S400000x128, .f32⟩ : BufTy).Contents (Elt F) → (⟨S400000x128, .f32⟩ : BufTy).Contents (Elt F) → (⟨S400000x128, .f32⟩ : BufTy).Contents (Elt F)),  -- %44
    StableHlo.unary main_arg8 main_v45 (broadcastInDim S1x128 ![1] bcast_S128_S1x128_1 : (⟨S128, .f32⟩ : BufTy).Contents (Elt F) → (⟨S1x128, .f32⟩ : BufTy).Contents (Elt F)),  -- %45
    StableHlo.unary main_v45 main_v46 (broadcastInDim S400000x128 ![0, 1] bcast_S1x128_S400000x128_0_1 : (⟨S1x128, .f32⟩ : BufTy).Contents (Elt F) → (⟨S400000x128, .f32⟩ : BufTy).Contents (Elt F)),  -- %46
    StableHlo.binary main_v44 main_v46 main_v47 (addf : (⟨S400000x128, .f32⟩ : BufTy).Contents (Elt F) → (⟨S400000x128, .f32⟩ : BufTy).Contents (Elt F) → (⟨S400000x128, .f32⟩ : BufTy).Contents (Elt F)),  -- %47
    StableHlo.TRef.nullary (.of main_call0_cst : StableHlo.TRef sig ⟨S_, .f32⟩) (constant S_ .f32 0x00000000#32),  -- %48 (call 0)
    StableHlo.TRef.unary (.of main_call0_cst : StableHlo.TRef sig ⟨S_, .f32⟩) (.of main_call0_v0 : StableHlo.TRef sig ⟨S400000x128, .f32⟩) (broadcastInDim S400000x128 ![] bcast_S_S400000x128),  -- %48 (call 0)
    StableHlo.TRef.binary (.of main_v47 : StableHlo.TRef sig ⟨S400000x128, .f32⟩) (.of main_call0_v0 : StableHlo.TRef sig ⟨S400000x128, .f32⟩) (.of main_v48 : StableHlo.TRef sig ⟨S400000x128, .f32⟩) maximumf ]  -- %48 (call 0)

/-- Stage 3: the operations that produce %49, in program order. -/
abbrev s3 : List (HloOp τ sig (Elt F)) :=
  [ StableHlo.binary main_v48 main_arg9 main_v49 ((fun l r => Host.dotGeneral dot_S400000x128_S128x128_S400000x128_1_0_0_1_n_n none l r) : (⟨S400000x128, .f32⟩ : BufTy).Contents (Elt F) → (⟨S128x128, .f32⟩ : BufTy).Contents (Elt F) → (⟨S400000x128, .f32⟩ : BufTy).Contents (Elt F)) ]  -- %49

/-- Stage 4: the operations that produce %50 … %89, in program order. -/
abbrev s4 : List (HloOp τ sig (Elt F)) :=
  [ StableHlo.unary main_arg1 main_v50 ((extractStridedSlice S1x1600000 ![0, 0] · slices_S2x1600000_S1x1600000_0_0) : (⟨S2x1600000, .i32⟩ : BufTy).Contents (Elt F) → (⟨S1x1600000, .i32⟩ : BufTy).Contents (Elt F)),  -- %50
    StableHlo.reshape main_v50 main_v51 rfl shapeCasts_S1x1600000_S1600000,  -- %51
    StableHlo.unary main_arg1 main_v52 ((extractStridedSlice S1x1600000 ![1, 0] · slices_S2x1600000_S1x1600000_1_0) : (⟨S2x1600000, .i32⟩ : BufTy).Contents (Elt F) → (⟨S1x1600000, .i32⟩ : BufTy).Contents (Elt F)),  -- %52
    StableHlo.reshape main_v52 main_v53 rfl shapeCasts_S1x1600000_S1600000,  -- %53
    StableHlo.nullary main_cst_8 (constant S_ .f32 0x3F800000#32),  -- %cst_8
    StableHlo.unary main_cst_8 main_v54 (broadcastInDim S1600000 ![] bcast_S_S1600000 : (⟨S_, .f32⟩ : BufTy).Contents (Elt F) → (⟨S1600000, .f32⟩ : BufTy).Contents (Elt F)),  -- %54
    StableHlo.nullary main_cst_9 (constant S_ .f32 0x00000000#32),  -- %cst_9
    StableHlo.unary main_cst_9 main_v55 (broadcastInDim S400000 ![] bcast_S_S400000 : (⟨S_, .f32⟩ : BufTy).Contents (Elt F) → (⟨S400000, .f32⟩ : BufTy).Contents (Elt F)),  -- %55
    StableHlo.unary main_v53 main_v56 (broadcastInDim S1600000x1 ![0] bcast_S1600000_S1600000x1_0 : (⟨S1600000, .i32⟩ : BufTy).Contents (Elt F) → (⟨S1600000x1, .i32⟩ : BufTy).Contents (Elt F)),  -- %56
    StableHlo.ternary main_v55 main_v56 main_v54 main_v57 ((fun x i u => Host.scatterAdd scatter_S400000_S1600000x1_S1600000_n_0_0_1 x i u) : (⟨S400000, .f32⟩ : BufTy).Contents (Elt F) → (⟨S1600000x1, .i32⟩ : BufTy).Contents (Elt F) → (⟨S1600000, .f32⟩ : BufTy).Contents (Elt F) → (⟨S400000, .f32⟩ : BufTy).Contents (Elt F)),  -- %57
    StableHlo.nullary main_cst_10 (constant S_ .f32 0x3F800000#32),  -- %cst_10
    StableHlo.unary main_cst_10 main_v58 (broadcastInDim S400000 ![] bcast_S_S400000 : (⟨S_, .f32⟩ : BufTy).Contents (Elt F) → (⟨S400000, .f32⟩ : BufTy).Contents (Elt F)),  -- %58
    StableHlo.binary main_v57 main_v58 main_v59 (addf : (⟨S400000, .f32⟩ : BufTy).Contents (Elt F) → (⟨S400000, .f32⟩ : BufTy).Contents (Elt F) → (⟨S400000, .f32⟩ : BufTy).Contents (Elt F)),  -- %59
    StableHlo.unary main_v59 main_v60 (Host.rsqrt : (⟨S400000, .f32⟩ : BufTy).Contents (Elt F) → (⟨S400000, .f32⟩ : BufTy).Contents (Elt F)),  -- %60
    StableHlo.nullary main_c_11 (constantI S_ 32 0#32),  -- %c_11
    StableHlo.unary main_c_11 main_v61 (broadcastInDim S1600000 ![] bcast_S_S1600000 : (⟨S_, .i32⟩ : BufTy).Contents (Elt F) → (⟨S1600000, .i32⟩ : BufTy).Contents (Elt F)),  -- %61
    StableHlo.binary main_v51 main_v61 main_v62 (cmpi .slt : (⟨S1600000, .i32⟩ : BufTy).Contents (Elt F) → (⟨S1600000, .i32⟩ : BufTy).Contents (Elt F) → (⟨S1600000, .i1⟩ : BufTy).Contents (Elt F)),  -- %62
    StableHlo.nullary main_c_12 (constantI S_ 32 400000#32),  -- %c_12
    StableHlo.unary main_c_12 main_v63 (broadcastInDim S1600000 ![] bcast_S_S1600000 : (⟨S_, .i32⟩ : BufTy).Contents (Elt F) → (⟨S1600000, .i32⟩ : BufTy).Contents (Elt F)),  -- %63
    StableHlo.binary main_v51 main_v63 main_v64 (addi : (⟨S1600000, .i32⟩ : BufTy).Contents (Elt F) → (⟨S1600000, .i32⟩ : BufTy).Contents (Elt F) → (⟨S1600000, .i32⟩ : BufTy).Contents (Elt F)),  -- %64
    StableHlo.ternary main_v62 main_v64 main_v51 main_v65 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),  -- %65
    StableHlo.unary main_v65 main_v66 (broadcastInDim S1600000x1 ![0] bcast_S1600000_S1600000x1_0 : (⟨S1600000, .i32⟩ : BufTy).Contents (Elt F) → (⟨S1600000x1, .i32⟩ : BufTy).Contents (Elt F)),  -- %66
    StableHlo.binary main_v60 main_v66 main_v67 ((fun x i => Host.gather gather_S400000_S1600000x1_S1600000_n_0_n_n_0_1_1 x i) : (⟨S400000, .f32⟩ : BufTy).Contents (Elt F) → (⟨S1600000x1, .i32⟩ : BufTy).Contents (Elt F) → (⟨S1600000, .f32⟩ : BufTy).Contents (Elt F)),  -- %67
    StableHlo.nullary main_c_13 (constantI S_ 32 0#32),  -- %c_13
    StableHlo.unary main_c_13 main_v68 (broadcastInDim S1600000 ![] bcast_S_S1600000 : (⟨S_, .i32⟩ : BufTy).Contents (Elt F) → (⟨S1600000, .i32⟩ : BufTy).Contents (Elt F)),  -- %68
    StableHlo.binary main_v53 main_v68 main_v69 (cmpi .slt : (⟨S1600000, .i32⟩ : BufTy).Contents (Elt F) → (⟨S1600000, .i32⟩ : BufTy).Contents (Elt F) → (⟨S1600000, .i1⟩ : BufTy).Contents (Elt F)),  -- %69
    StableHlo.nullary main_c_14 (constantI S_ 32 400000#32),  -- %c_14
    StableHlo.unary main_c_14 main_v70 (broadcastInDim S1600000 ![] bcast_S_S1600000 : (⟨S_, .i32⟩ : BufTy).Contents (Elt F) → (⟨S1600000, .i32⟩ : BufTy).Contents (Elt F)),  -- %70
    StableHlo.binary main_v53 main_v70 main_v71 (addi : (⟨S1600000, .i32⟩ : BufTy).Contents (Elt F) → (⟨S1600000, .i32⟩ : BufTy).Contents (Elt F) → (⟨S1600000, .i32⟩ : BufTy).Contents (Elt F)),  -- %71
    StableHlo.ternary main_v69 main_v71 main_v53 main_v72 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),  -- %72
    StableHlo.unary main_v72 main_v73 (broadcastInDim S1600000x1 ![0] bcast_S1600000_S1600000x1_0 : (⟨S1600000, .i32⟩ : BufTy).Contents (Elt F) → (⟨S1600000x1, .i32⟩ : BufTy).Contents (Elt F)),  -- %73
    StableHlo.binary main_v60 main_v73 main_v74 ((fun x i => Host.gather gather_S400000_S1600000x1_S1600000_n_0_n_n_0_1_1 x i) : (⟨S400000, .f32⟩ : BufTy).Contents (Elt F) → (⟨S1600000x1, .i32⟩ : BufTy).Contents (Elt F) → (⟨S1600000, .f32⟩ : BufTy).Contents (Elt F)),  -- %74
    StableHlo.binary main_v67 main_v74 main_v75 (mulf : (⟨S1600000, .f32⟩ : BufTy).Contents (Elt F) → (⟨S1600000, .f32⟩ : BufTy).Contents (Elt F) → (⟨S1600000, .f32⟩ : BufTy).Contents (Elt F)),  -- %75
    StableHlo.unary main_v75 main_v76 (broadcastInDim S1600000x1 ![0] bcast_S1600000_S1600000x1_0 : (⟨S1600000, .f32⟩ : BufTy).Contents (Elt F) → (⟨S1600000x1, .f32⟩ : BufTy).Contents (Elt F)),  -- %76
    StableHlo.nullary main_c_15 (constantI S_ 32 0#32),  -- %c_15
    StableHlo.unary main_c_15 main_v77 (broadcastInDim S1600000 ![] bcast_S_S1600000 : (⟨S_, .i32⟩ : BufTy).Contents (Elt F) → (⟨S1600000, .i32⟩ : BufTy).Contents (Elt F)),  -- %77
    StableHlo.binary main_v51 main_v77 main_v78 (cmpi .slt : (⟨S1600000, .i32⟩ : BufTy).Contents (Elt F) → (⟨S1600000, .i32⟩ : BufTy).Contents (Elt F) → (⟨S1600000, .i1⟩ : BufTy).Contents (Elt F)),  -- %78
    StableHlo.nullary main_c_16 (constantI S_ 32 400000#32),  -- %c_16
    StableHlo.unary main_c_16 main_v79 (broadcastInDim S1600000 ![] bcast_S_S1600000 : (⟨S_, .i32⟩ : BufTy).Contents (Elt F) → (⟨S1600000, .i32⟩ : BufTy).Contents (Elt F)),  -- %79
    StableHlo.binary main_v51 main_v79 main_v80 (addi : (⟨S1600000, .i32⟩ : BufTy).Contents (Elt F) → (⟨S1600000, .i32⟩ : BufTy).Contents (Elt F) → (⟨S1600000, .i32⟩ : BufTy).Contents (Elt F)),  -- %80
    StableHlo.ternary main_v78 main_v80 main_v51 main_v81 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),  -- %81
    StableHlo.unary main_v81 main_v82 (broadcastInDim S1600000x1 ![0] bcast_S1600000_S1600000x1_0 : (⟨S1600000, .i32⟩ : BufTy).Contents (Elt F) → (⟨S1600000x1, .i32⟩ : BufTy).Contents (Elt F)),  -- %82
    StableHlo.binary main_v49 main_v82 main_v83 ((fun x i => Host.gather gather_S400000x128_S1600000x1_S1600000x128_1_0_n_n_0_1_1128 x i) : (⟨S400000x128, .f32⟩ : BufTy).Contents (Elt F) → (⟨S1600000x1, .i32⟩ : BufTy).Contents (Elt F) → (⟨S1600000x128, .f32⟩ : BufTy).Contents (Elt F)),  -- %83
    StableHlo.unary main_v76 main_v84 (broadcastInDim S1600000x128 ![0, 1] bcast_S1600000x1_S1600000x128_0_1 : (⟨S1600000x1, .f32⟩ : BufTy).Contents (Elt F) → (⟨S1600000x128, .f32⟩ : BufTy).Contents (Elt F)),  -- %84
    StableHlo.binary main_v83 main_v84 main_v85 (mulf : (⟨S1600000x128, .f32⟩ : BufTy).Contents (Elt F) → (⟨S1600000x128, .f32⟩ : BufTy).Contents (Elt F) → (⟨S1600000x128, .f32⟩ : BufTy).Contents (Elt F)),  -- %85
    StableHlo.nullary main_cst_17 (constant S_ .f32 0x00000000#32),  -- %cst_17
    StableHlo.unary main_cst_17 main_v86 (broadcastInDim S400000x128 ![] bcast_S_S400000x128 : (⟨S_, .f32⟩ : BufTy).Contents (Elt F) → (⟨S400000x128, .f32⟩ : BufTy).Contents (Elt F)),  -- %86
    StableHlo.unary main_v53 main_v87 (broadcastInDim S1600000x1 ![0] bcast_S1600000_S1600000x1_0 : (⟨S1600000, .i32⟩ : BufTy).Contents (Elt F) → (⟨S1600000x1, .i32⟩ : BufTy).Contents (Elt F)),  -- %87
    StableHlo.ternary main_v86 main_v87 main_v85 main_v88 ((fun x i u => Host.scatterAdd scatter_S400000x128_S1600000x1_S1600000x128_1_0_0_1 x i u) : (⟨S400000x128, .f32⟩ : BufTy).Contents (Elt F) → (⟨S1600000x1, .i32⟩ : BufTy).Contents (Elt F) → (⟨S1600000x128, .f32⟩ : BufTy).Contents (Elt F) → (⟨S400000x128, .f32⟩ : BufTy).Contents (Elt F)),  -- %88
    StableHlo.binary main_v60 main_v60 main_v89 (mulf : (⟨S400000, .f32⟩ : BufTy).Contents (Elt F) → (⟨S400000, .f32⟩ : BufTy).Contents (Elt F) → (⟨S400000, .f32⟩ : BufTy).Contents (Elt F)) ]  -- %89

/-- Stage 5: the operations that produce %90 … %97 (the last three are the body of the call that returns %97), in program order. -/
abbrev s5 : List (HloOp τ sig (Elt F)) :=
  [ StableHlo.unary main_v89 main_v90 (broadcastInDim S400000x1 ![0] bcast_S400000_S400000x1_0 : (⟨S400000, .f32⟩ : BufTy).Contents (Elt F) → (⟨S400000x1, .f32⟩ : BufTy).Contents (Elt F)),  -- %90
    StableHlo.unary main_v90 main_v91 (broadcastInDim S400000x128 ![0, 1] bcast_S400000x1_S400000x128_0_1 : (⟨S400000x1, .f32⟩ : BufTy).Contents (Elt F) → (⟨S400000x128, .f32⟩ : BufTy).Contents (Elt F)),  -- %91
    StableHlo.binary main_v49 main_v91 main_v92 (mulf : (⟨S400000x128, .f32⟩ : BufTy).Contents (Elt F) → (⟨S400000x128, .f32⟩ : BufTy).Contents (Elt F) → (⟨S400000x128, .f32⟩ : BufTy).Contents (Elt F)),  -- %92
    StableHlo.binary main_v88 main_v92 main_v93 (addf : (⟨S400000x128, .f32⟩ : BufTy).Contents (Elt F) → (⟨S400000x128, .f32⟩ : BufTy).Contents (Elt F) → (⟨S400000x128, .f32⟩ : BufTy).Contents (Elt F)),  -- %93
    StableHlo.unary main_arg10 main_v94 (broadcastInDim S1x128 ![1] bcast_S128_S1x128_1 : (⟨S128, .f32⟩ : BufTy).Contents (Elt F) → (⟨S1x128, .f32⟩ : BufTy).Contents (Elt F)),  -- %94
    StableHlo.unary main_v94 main_v95 (broadcastInDim S400000x128 ![0, 1] bcast_S1x128_S400000x128_0_1 : (⟨S1x128, .f32⟩ : BufTy).Contents (Elt F) → (⟨S400000x128, .f32⟩ : BufTy).Contents (Elt F)),  -- %95
    StableHlo.binary main_v93 main_v95 main_v96 (addf : (⟨S400000x128, .f32⟩ : BufTy).Contents (Elt F) → (⟨S400000x128, .f32⟩ : BufTy).Contents (Elt F) → (⟨S400000x128, .f32⟩ : BufTy).Contents (Elt F)),  -- %96
    StableHlo.TRef.nullary (.of main_call1_cst : StableHlo.TRef sig ⟨S_, .f32⟩) (constant S_ .f32 0x00000000#32),  -- %97 (call 1)
    StableHlo.TRef.unary (.of main_call1_cst : StableHlo.TRef sig ⟨S_, .f32⟩) (.of main_call1_v0 : StableHlo.TRef sig ⟨S400000x128, .f32⟩) (broadcastInDim S400000x128 ![] bcast_S_S400000x128),  -- %97 (call 1)
    StableHlo.TRef.binary (.of main_v96 : StableHlo.TRef sig ⟨S400000x128, .f32⟩) (.of main_call1_v0 : StableHlo.TRef sig ⟨S400000x128, .f32⟩) (.of main_v97 : StableHlo.TRef sig ⟨S400000x128, .f32⟩) maximumf ]  -- %97 (call 1)

/-- Stage 6: the operations that produce %cst_18, %98 … %116 (with the bodies of the calls that return %110, %111, %112 and %116; the call nested in %111's callee in place too), in program order. -/
abbrev s6 : List (HloOp τ sig (Elt F)) :=
  [ StableHlo.nullary main_cst_18 (constant S_ .f32 0x00000000#32),  -- %cst_18
    StableHlo.unary main_cst_18 main_v98 (broadcastInDim S8000x128 ![] bcast_S_S8000x128 : (⟨S_, .f32⟩ : BufTy).Contents (Elt F) → (⟨S8000x128, .f32⟩ : BufTy).Contents (Elt F)),  -- %98
    StableHlo.unary main_arg2 main_v99 (broadcastInDim S400000x1 ![0] bcast_S400000_S400000x1_0 : (⟨S400000, .i32⟩ : BufTy).Contents (Elt F) → (⟨S400000x1, .i32⟩ : BufTy).Contents (Elt F)),  -- %99
    StableHlo.ternary main_v98 main_v99 main_v97 main_v100 ((fun x i u => Host.scatterAdd scatter_S8000x128_S400000x1_S400000x128_1_0_0_1 x i u) : (⟨S8000x128, .f32⟩ : BufTy).Contents (Elt F) → (⟨S400000x1, .i32⟩ : BufTy).Contents (Elt F) → (⟨S400000x128, .f32⟩ : BufTy).Contents (Elt F) → (⟨S8000x128, .f32⟩ : BufTy).Contents (Elt F)),  -- %100
    StableHlo.nullary main_cst_19 (constant S_ .f32 0x3F800000#32),  -- %cst_19
    StableHlo.unary main_cst_19 main_v101 (broadcastInDim S400000 ![] bcast_S_S400000 : (⟨S_, .f32⟩ : BufTy).Contents (Elt F) → (⟨S400000, .f32⟩ : BufTy).Contents (Elt F)),  -- %101
    StableHlo.nullary main_cst_20 (constant S_ .f32 0x00000000#32),  -- %cst_20
    StableHlo.unary main_cst_20 main_v102 (broadcastInDim S8000 ![] bcast_S_S8000 : (⟨S_, .f32⟩ : BufTy).Contents (Elt F) → (⟨S8000, .f32⟩ : BufTy).Contents (Elt F)),  -- %102
    StableHlo.unary main_arg2 main_v103 (broadcastInDim S400000x1 ![0] bcast_S400000_S400000x1_0 : (⟨S400000, .i32⟩ : BufTy).Contents (Elt F) → (⟨S400000x1, .i32⟩ : BufTy).Contents (Elt F)),  -- %103
    StableHlo.ternary main_v102 main_v103 main_v101 main_v104 ((fun x i u => Host.scatterAdd scatter_S8000_S400000x1_S400000_n_0_0_1 x i u) : (⟨S8000, .f32⟩ : BufTy).Contents (Elt F) → (⟨S400000x1, .i32⟩ : BufTy).Contents (Elt F) → (⟨S400000, .f32⟩ : BufTy).Contents (Elt F) → (⟨S8000, .f32⟩ : BufTy).Contents (Elt F)),  -- %104
    StableHlo.nullary main_cst_21 (constant S_ .f32 0x3F800000#32),  -- %cst_21
    StableHlo.unary main_cst_21 main_v105 (broadcastInDim S8000 ![] bcast_S_S8000 : (⟨S_, .f32⟩ : BufTy).Contents (Elt F) → (⟨S8000, .f32⟩ : BufTy).Contents (Elt F)),  -- %105
    StableHlo.binary main_v104 main_v105 main_v106 (maximumf : (⟨S8000, .f32⟩ : BufTy).Contents (Elt F) → (⟨S8000, .f32⟩ : BufTy).Contents (Elt F) → (⟨S8000, .f32⟩ : BufTy).Contents (Elt F)),  -- %106
    StableHlo.unary main_v106 main_v107 (broadcastInDim S8000x1 ![0] bcast_S8000_S8000x1_0 : (⟨S8000, .f32⟩ : BufTy).Contents (Elt F) → (⟨S8000x1, .f32⟩ : BufTy).Contents (Elt F)),  -- %107
    StableHlo.unary main_v107 main_v108 (broadcastInDim S8000x128 ![0, 1] bcast_S8000x1_S8000x128_0_1 : (⟨S8000x1, .f32⟩ : BufTy).Contents (Elt F) → (⟨S8000x128, .f32⟩ : BufTy).Contents (Elt F)),  -- %108
    StableHlo.binary main_v100 main_v108 main_v109 (Host.divf : (⟨S8000x128, .f32⟩ : BufTy).Contents (Elt F) → (⟨S8000x128, .f32⟩ : BufTy).Contents (Elt F) → (⟨S8000x128, .f32⟩ : BufTy).Contents (Elt F)),  -- %109
    StableHlo.nullary main_c_22 (constantI S_ 32 0#32),  -- %c_22
    StableHlo.nullary main_c_23 (constantI S_ 32 7999#32),  -- %c_23
    StableHlo.TRef.unary (.of main_c_22 : StableHlo.TRef sig ⟨S_, .i32⟩) (.of main_call2_v0 : StableHlo.TRef sig ⟨S_, .i32⟩) id,  -- %110 (call 2)
    StableHlo.TRef.unary (.of main_call2_v0 : StableHlo.TRef sig ⟨S_, .i32⟩) (.of main_call2_v1 : StableHlo.TRef sig ⟨S9600, .i32⟩) (broadcastInDim S9600 ![] bcast_S_S9600),  -- %110 (call 2)
    StableHlo.TRef.binary (.of main_call2_v1 : StableHlo.TRef sig ⟨S9600, .i32⟩) (.of main_arg5 : StableHlo.TRef sig ⟨S9600, .i32⟩) (.of main_call2_v2 : StableHlo.TRef sig ⟨S9600, .i32⟩) maxsi,  -- %110 (call 2)
    StableHlo.TRef.unary (.of main_c_23 : StableHlo.TRef sig ⟨S_, .i32⟩) (.of main_call2_v3 : StableHlo.TRef sig ⟨S_, .i32⟩) id,  -- %110 (call 2)
    StableHlo.TRef.unary (.of main_call2_v3 : StableHlo.TRef sig ⟨S_, .i32⟩) (.of main_call2_v4 : StableHlo.TRef sig ⟨S9600, .i32⟩) (broadcastInDim S9600 ![] bcast_S_S9600),  -- %110 (call 2)
    StableHlo.TRef.binary (.of main_call2_v4 : StableHlo.TRef sig ⟨S9600, .i32⟩) (.of main_call2_v2 : StableHlo.TRef sig ⟨S9600, .i32⟩) (.of main_v110 : StableHlo.TRef sig ⟨S9600, .i32⟩) minsi,  -- %110 (call 2)
    StableHlo.TRef.nullary (.of main_call3_c : StableHlo.TRef sig ⟨S_, .i32⟩) (constantI S_ 32 0#32),  -- %111 (call 3)
    StableHlo.TRef.unary (.of main_call3_c : StableHlo.TRef sig ⟨S_, .i32⟩) (.of main_call3_v0 : StableHlo.TRef sig ⟨S9600, .i32⟩) (broadcastInDim S9600 ![] bcast_S_S9600),  -- %111 (call 3)
    StableHlo.TRef.binary (.of main_v110 : StableHlo.TRef sig ⟨S9600, .i32⟩) (.of main_call3_v0 : StableHlo.TRef sig ⟨S9600, .i32⟩) (.of main_call3_v1 : StableHlo.TRef sig ⟨S9600, .i1⟩) (cmpi .slt),  -- %111 (call 3)
    StableHlo.TRef.nullary (.of main_call3_c_0 : StableHlo.TRef sig ⟨S_, .i32⟩) (constantI S_ 32 8000#32),  -- %111 (call 3)
    StableHlo.TRef.unary (.of main_call3_c_0 : StableHlo.TRef sig ⟨S_, .i32⟩) (.of main_call3_v2 : StableHlo.TRef sig ⟨S9600, .i32⟩) (broadcastInDim S9600 ![] bcast_S_S9600),  -- %111 (call 3)
    StableHlo.TRef.binary (.of main_v110 : StableHlo.TRef sig ⟨S9600, .i32⟩) (.of main_call3_v2 : StableHlo.TRef sig ⟨S9600, .i32⟩) (.of main_call3_v3 : StableHlo.TRef sig ⟨S9600, .i32⟩) addi,  -- %111 (call 3)
    StableHlo.TRef.ternary (.of main_call3_v1 : StableHlo.TRef sig ⟨S9600, .i1⟩) (.of main_call3_v3 : StableHlo.TRef sig ⟨S9600, .i32⟩) (.of main_v110 : StableHlo.TRef sig ⟨S9600, .i32⟩) (.of main_call3_v4 : StableHlo.TRef sig ⟨S9600, .i32⟩) select,  -- %111 (call 3)
    StableHlo.TRef.unary main_call3_call0.v0 (.of main_call3_v5 : StableHlo.TRef sig ⟨S9600x1, .i32⟩) (broadcastInDim S9600x1 ![0] bcast_S9600_S9600x1_0),  -- %111 (call 3)
    StableHlo.TRef.nullary (.of main_call3_c_1 : StableHlo.TRef sig ⟨S1, .i32⟩) (constantI S1 32 7999#32),  -- %111 (call 3)
    StableHlo.TRef.nullary (.of main_call3_c_2 : StableHlo.TRef sig ⟨S_, .i32⟩) (constantI S_ 32 0#32),  -- %111 (call 3)
    StableHlo.TRef.unary (.of main_call3_c_2 : StableHlo.TRef sig ⟨S_, .i32⟩) (.of main_call3_v6 : StableHlo.TRef sig ⟨S9600x1, .i32⟩) (broadcastInDim S9600x1 ![] bcast_S_S9600x1),  -- %111 (call 3)
    StableHlo.TRef.binary (.of main_call3_v5 : StableHlo.TRef sig ⟨S9600x1, .i32⟩) (.of main_call3_v6 : StableHlo.TRef sig ⟨S9600x1, .i32⟩) (.of main_call3_v7 : StableHlo.TRef sig ⟨S9600x1, .i1⟩) (cmpi .sge),  -- %111 (call 3)
    StableHlo.TRef.unary (.of main_call3_c_1 : StableHlo.TRef sig ⟨S1, .i32⟩) (.of main_call3_v8 : StableHlo.TRef sig ⟨S1x1, .i32⟩) (broadcastInDim S1x1 ![1] bcast_S1_S1x1_1),  -- %111 (call 3)
    StableHlo.TRef.unary (.of main_call3_v8 : StableHlo.TRef sig ⟨S1x1, .i32⟩) (.of main_call3_v9 : StableHlo.TRef sig ⟨S9600x1, .i32⟩) (broadcastInDim S9600x1 ![0, 1] bcast_S1x1_S9600x1_0_1),  -- %111 (call 3)
    StableHlo.TRef.binary (.of main_call3_v5 : StableHlo.TRef sig ⟨S9600x1, .i32⟩) (.of main_call3_v9 : StableHlo.TRef sig ⟨S9600x1, .i32⟩) (.of main_call3_v10 : StableHlo.TRef sig ⟨S9600x1, .i1⟩) (cmpi .sle),  -- %111 (call 3)
    StableHlo.TRef.binary (.of main_call3_v7 : StableHlo.TRef sig ⟨S9600x1, .i1⟩) (.of main_call3_v10 : StableHlo.TRef sig ⟨S9600x1, .i1⟩) (.of main_call3_v11 : StableHlo.TRef sig ⟨S9600x1, .i1⟩) andi,  -- %111 (call 3)
    StableHlo.TRef.nullary (.of main_call3_c_3 : StableHlo.TRef sig ⟨S_, .i1⟩) (constantI S_ 1 1#1),  -- %111 (call 3)
    StableHlo.TRef.binary (.of main_call3_v11 : StableHlo.TRef sig ⟨S9600x1, .i1⟩) (.of main_call3_c_3 : StableHlo.TRef sig ⟨S_, .i1⟩) (.of main_call3_v12 : StableHlo.TRef sig ⟨S9600, .i1⟩) (fun x v => Host.reduce IntOp.andi x v reducesTo_S9600x1_S9600_d1 h_S_),  -- %111 (call 3)
    StableHlo.TRef.binary (.of main_v109 : StableHlo.TRef sig ⟨S8000x128, .f32⟩) (.of main_call3_v5 : StableHlo.TRef sig ⟨S9600x1, .i32⟩) (.of main_call3_v13 : StableHlo.TRef sig ⟨S9600x128, .f32⟩) (fun x i => Host.gather gather_S8000x128_S9600x1_S9600x128_1_0_n_n_0_1_1128 x i),  -- %111 (call 3)
    StableHlo.TRef.unary (.of main_call3_v12 : StableHlo.TRef sig ⟨S9600, .i1⟩) (.of main_call3_v14 : StableHlo.TRef sig ⟨S9600x128, .i1⟩) (broadcastInDim S9600x128 ![0] bcast_S9600_S9600x128_0),  -- %111 (call 3)
    StableHlo.TRef.nullary (.of main_call3_cst : StableHlo.TRef sig ⟨S_, .f32⟩) (constant S_ .f32 0x7FC00000#32),  -- %111 (call 3)
    StableHlo.TRef.unary (.of main_call3_cst : StableHlo.TRef sig ⟨S_, .f32⟩) (.of main_call3_v15 : StableHlo.TRef sig ⟨S9600x128, .f32⟩) (broadcastInDim S9600x128 ![] bcast_S_S9600x128),  -- %111 (call 3)
    StableHlo.TRef.ternary (.of main_call3_v14 : StableHlo.TRef sig ⟨S9600x128, .i1⟩) (.of main_call3_v13 : StableHlo.TRef sig ⟨S9600x128, .f32⟩) (.of main_call3_v15 : StableHlo.TRef sig ⟨S9600x128, .f32⟩) (.of main_v111 : StableHlo.TRef sig ⟨S9600x128, .f32⟩) select,  -- %111 (call 3)
    StableHlo.TRef.unary (.of main_arg5 : StableHlo.TRef sig ⟨S9600, .i32⟩) (.of main_call4_v0 : StableHlo.TRef sig ⟨S9600x1, .i32⟩) (broadcastInDim S9600x1 ![0] bcast_S9600_S9600x1_0),  -- %112 (call 4)
    StableHlo.TRef.binary (.of main_arg11 : StableHlo.TRef sig ⟨S10002x128, .f32⟩) (.of main_call4_v0 : StableHlo.TRef sig ⟨S9600x1, .i32⟩) (.of main_v112 : StableHlo.TRef sig ⟨S9600x128, .f32⟩) (fun x i => Host.gather gather_S10002x128_S9600x1_S9600x128_1_0_n_n_0_1_1128 x i),  -- %112 (call 4)
    StableHlo.nullary main_c_24 (constantI S_ 32 1#32),  -- %c_24
    StableHlo.unary main_c_24 main_v113 (broadcastInDim S9600 ![] bcast_S_S9600 : (⟨S_, .i32⟩ : BufTy).Contents (Elt F) → (⟨S9600, .i32⟩ : BufTy).Contents (Elt F)),  -- %113
    StableHlo.binary main_arg6 main_v113 main_v114 (cmpi .eq : (⟨S9600, .i32⟩ : BufTy).Contents (Elt F) → (⟨S9600, .i32⟩ : BufTy).Contents (Elt F) → (⟨S9600, .i1⟩ : BufTy).Contents (Elt F)),  -- %114
    StableHlo.unary main_v114 main_v115 (broadcastInDim S9600x1 ![0] bcast_S9600_S9600x1_0 : (⟨S9600, .i1⟩ : BufTy).Contents (Elt F) → (⟨S9600x1, .i1⟩ : BufTy).Contents (Elt F)),  -- %115
    StableHlo.TRef.unary (.of main_v115 : StableHlo.TRef sig ⟨S9600x1, .i1⟩) (.of main_call5_v0 : StableHlo.TRef sig ⟨S9600x128, .i1⟩) (broadcastInDim S9600x128 ![0, 1] bcast_S9600x1_S9600x128_0_1),  -- %116 (call 5)
    StableHlo.TRef.ternary (.of main_call5_v0 : StableHlo.TRef sig ⟨S9600x128, .i1⟩) (.of main_v112 : StableHlo.TRef sig ⟨S9600x128, .f32⟩) (.of main_v111 : StableHlo.TRef sig ⟨S9600x128, .f32⟩) (.of main_v116 : StableHlo.TRef sig ⟨S9600x128, .f32⟩) select ]  -- %116 (call 5)

/-- Stage 7: the operations that produce %117, in program order. -/
abbrev s7 : List (HloOp τ sig (Elt F)) :=
  [ StableHlo.binary main_v116 main_arg12 main_v117 ((fun l r => Host.dotGeneral dot_S9600x128_S128x128_S9600x128_1_0_0_1_n_n none l r) : (⟨S9600x128, .f32⟩ : BufTy).Contents (Elt F) → (⟨S128x128, .f32⟩ : BufTy).Contents (Elt F) → (⟨S9600x128, .f32⟩ : BufTy).Contents (Elt F)) ]  -- %117

/-- Stage 8: the operations that produce %118 … %157, in program order. -/
abbrev s8 : List (HloOp τ sig (Elt F)) :=
  [ StableHlo.unary main_arg3 main_v118 ((extractStridedSlice S1x80000 ![0, 0] · slices_S2x80000_S1x80000_0_0) : (⟨S2x80000, .i32⟩ : BufTy).Contents (Elt F) → (⟨S1x80000, .i32⟩ : BufTy).Contents (Elt F)),  -- %118
    StableHlo.reshape main_v118 main_v119 rfl shapeCasts_S1x80000_S80000,  -- %119
    StableHlo.unary main_arg3 main_v120 ((extractStridedSlice S1x80000 ![1, 0] · slices_S2x80000_S1x80000_1_0) : (⟨S2x80000, .i32⟩ : BufTy).Contents (Elt F) → (⟨S1x80000, .i32⟩ : BufTy).Contents (Elt F)),  -- %120
    StableHlo.reshape main_v120 main_v121 rfl shapeCasts_S1x80000_S80000,  -- %121
    StableHlo.nullary main_cst_25 (constant S_ .f32 0x3F800000#32),  -- %cst_25
    StableHlo.unary main_cst_25 main_v122 (broadcastInDim S80000 ![] bcast_S_S80000 : (⟨S_, .f32⟩ : BufTy).Contents (Elt F) → (⟨S80000, .f32⟩ : BufTy).Contents (Elt F)),  -- %122
    StableHlo.nullary main_cst_26 (constant S_ .f32 0x00000000#32),  -- %cst_26
    StableHlo.unary main_cst_26 main_v123 (broadcastInDim S9600 ![] bcast_S_S9600 : (⟨S_, .f32⟩ : BufTy).Contents (Elt F) → (⟨S9600, .f32⟩ : BufTy).Contents (Elt F)),  -- %123
    StableHlo.unary main_v121 main_v124 (broadcastInDim S80000x1 ![0] bcast_S80000_S80000x1_0 : (⟨S80000, .i32⟩ : BufTy).Contents (Elt F) → (⟨S80000x1, .i32⟩ : BufTy).Contents (Elt F)),  -- %124
    StableHlo.ternary main_v123 main_v124 main_v122 main_v125 ((fun x i u => Host.scatterAdd scatter_S9600_S80000x1_S80000_n_0_0_1 x i u) : (⟨S9600, .f32⟩ : BufTy).Contents (Elt F) → (⟨S80000x1, .i32⟩ : BufTy).Contents (Elt F) → (⟨S80000, .f32⟩ : BufTy).Contents (Elt F) → (⟨S9600, .f32⟩ : BufTy).Contents (Elt F)),  -- %125
    StableHlo.nullary main_cst_27 (constant S_ .f32 0x3F800000#32),  -- %cst_27
    StableHlo.unary main_cst_27 main_v126 (broadcastInDim S9600 ![] bcast_S_S9600 : (⟨S_, .f32⟩ : BufTy).Contents (Elt F) → (⟨S9600, .f32⟩ : BufTy).Contents (Elt F)),  -- %126
    StableHlo.binary main_v125 main_v126 main_v127 (addf : (⟨S9600, .f32⟩ : BufTy).Contents (Elt F) → (⟨S9600, .f32⟩ : BufTy).Contents (Elt F) → (⟨S9600, .f32⟩ : BufTy).Contents (Elt F)),  -- %127
    StableHlo.unary main_v127 main_v128 (Host.rsqrt : (⟨S9600, .f32⟩ : BufTy).Contents (Elt F) → (⟨S9600, .f32⟩ : BufTy).Contents (Elt F)),  -- %128
    StableHlo.nullary main_c_28 (constantI S_ 32 0#32),  -- %c_28
    StableHlo.unary main_c_28 main_v129 (broadcastInDim S80000 ![] bcast_S_S80000 : (⟨S_, .i32⟩ : BufTy).Contents (Elt F) → (⟨S80000, .i32⟩ : BufTy).Contents (Elt F)),  -- %129
    StableHlo.binary main_v119 main_v129 main_v130 (cmpi .slt : (⟨S80000, .i32⟩ : BufTy).Contents (Elt F) → (⟨S80000, .i32⟩ : BufTy).Contents (Elt F) → (⟨S80000, .i1⟩ : BufTy).Contents (Elt F)),  -- %130
    StableHlo.nullary main_c_29 (constantI S_ 32 9600#32),  -- %c_29
    StableHlo.unary main_c_29 main_v131 (broadcastInDim S80000 ![] bcast_S_S80000 : (⟨S_, .i32⟩ : BufTy).Contents (Elt F) → (⟨S80000, .i32⟩ : BufTy).Contents (Elt F)),  -- %131
    StableHlo.binary main_v119 main_v131 main_v132 (addi : (⟨S80000, .i32⟩ : BufTy).Contents (Elt F) → (⟨S80000, .i32⟩ : BufTy).Contents (Elt F) → (⟨S80000, .i32⟩ : BufTy).Contents (Elt F)),  -- %132
    StableHlo.ternary main_v130 main_v132 main_v119 main_v133 (select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)),  -- %133
    StableHlo.unary main_v133 main_v134 (broadcastInDim S80000x1 ![0] bcast_S80000_S80000x1_0 : (⟨S80000, .i32⟩ : BufTy).Contents (Elt F) → (⟨S80000x1, .i32⟩ : BufTy).Contents (Elt F)),  -- %134
    StableHlo.binary main_v128 main_v134 main_v135 ((fun x i => Host.gather gather_S9600_S80000x1_S80000_n_0_n_n_0_1_1 x i) : (⟨S9600, .f32⟩ : BufTy).Contents (Elt F) → (⟨S80000x1, .i32⟩ : BufTy).Contents (Elt F) → (⟨S80000, .f32⟩ : BufTy).Contents (Elt F)),  -- %135
    StableHlo.nullary main_c_30 (constantI S_ 32 0#32),  -- %c_30
    StableHlo.unary main_c_30 main_v136 (broadcastInDim S80000 ![] bcast_S_S80000 : (⟨S_, .i32⟩ : BufTy).Contents (Elt F) → (⟨S80000, .i32⟩ : BufTy).Contents (Elt F)),  -- %136
    StableHlo.binary main_v121 main_v136 main_v137 (cmpi .slt : (⟨S80000, .i32⟩ : BufTy).Contents (Elt F) → (⟨S80000, .i32⟩ : BufTy).Contents (Elt F) → (⟨S80000, .i1⟩ : BufTy).Contents (Elt F)),  -- %137
    StableHlo.nullary main_c_31 (constantI S_ 32 9600#32),  -- %c_31
    StableHlo.unary main_c_31 main_v138 (broadcastInDim S80000 ![] bcast_S_S80000 : (⟨S_, .i32⟩ : BufTy).Contents (Elt F) → (⟨S80000, .i32⟩ : BufTy).Contents (Elt F)),  -- %138
    StableHlo.binary main_v121 main_v138 main_v139 (addi : (⟨S80000, .i32⟩ : BufTy).Contents (Elt F) → (⟨S80000, .i32⟩ : BufTy).Contents (Elt F) → (⟨S80000, .i32⟩ : BufTy).Contents (Elt F)),  -- %139
    StableHlo.ternary main_v137 main_v139 main_v121 main_v140 (select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)),  -- %140
    StableHlo.unary main_v140 main_v141 (broadcastInDim S80000x1 ![0] bcast_S80000_S80000x1_0 : (⟨S80000, .i32⟩ : BufTy).Contents (Elt F) → (⟨S80000x1, .i32⟩ : BufTy).Contents (Elt F)),  -- %141
    StableHlo.binary main_v128 main_v141 main_v142 ((fun x i => Host.gather gather_S9600_S80000x1_S80000_n_0_n_n_0_1_1 x i) : (⟨S9600, .f32⟩ : BufTy).Contents (Elt F) → (⟨S80000x1, .i32⟩ : BufTy).Contents (Elt F) → (⟨S80000, .f32⟩ : BufTy).Contents (Elt F)),  -- %142
    StableHlo.binary main_v135 main_v142 main_v143 (mulf : (⟨S80000, .f32⟩ : BufTy).Contents (Elt F) → (⟨S80000, .f32⟩ : BufTy).Contents (Elt F) → (⟨S80000, .f32⟩ : BufTy).Contents (Elt F)),  -- %143
    StableHlo.unary main_v143 main_v144 (broadcastInDim S80000x1 ![0] bcast_S80000_S80000x1_0 : (⟨S80000, .f32⟩ : BufTy).Contents (Elt F) → (⟨S80000x1, .f32⟩ : BufTy).Contents (Elt F)),  -- %144
    StableHlo.nullary main_c_32 (constantI S_ 32 0#32),  -- %c_32
    StableHlo.unary main_c_32 main_v145 (broadcastInDim S80000 ![] bcast_S_S80000 : (⟨S_, .i32⟩ : BufTy).Contents (Elt F) → (⟨S80000, .i32⟩ : BufTy).Contents (Elt F)),  -- %145
    StableHlo.binary main_v119 main_v145 main_v146 (cmpi .slt : (⟨S80000, .i32⟩ : BufTy).Contents (Elt F) → (⟨S80000, .i32⟩ : BufTy).Contents (Elt F) → (⟨S80000, .i1⟩ : BufTy).Contents (Elt F)),  -- %146
    StableHlo.nullary main_c_33 (constantI S_ 32 9600#32),  -- %c_33
    StableHlo.unary main_c_33 main_v147 (broadcastInDim S80000 ![] bcast_S_S80000 : (⟨S_, .i32⟩ : BufTy).Contents (Elt F) → (⟨S80000, .i32⟩ : BufTy).Contents (Elt F)),  -- %147
    StableHlo.binary main_v119 main_v147 main_v148 (addi : (⟨S80000, .i32⟩ : BufTy).Contents (Elt F) → (⟨S80000, .i32⟩ : BufTy).Contents (Elt F) → (⟨S80000, .i32⟩ : BufTy).Contents (Elt F)),  -- %148
    StableHlo.ternary main_v146 main_v148 main_v119 main_v149 (select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)),  -- %149
    StableHlo.unary main_v149 main_v150 (broadcastInDim S80000x1 ![0] bcast_S80000_S80000x1_0 : (⟨S80000, .i32⟩ : BufTy).Contents (Elt F) → (⟨S80000x1, .i32⟩ : BufTy).Contents (Elt F)),  -- %150
    StableHlo.binary main_v117 main_v150 main_v151 ((fun x i => Host.gather gather_S9600x128_S80000x1_S80000x128_1_0_n_n_0_1_1128 x i) : (⟨S9600x128, .f32⟩ : BufTy).Contents (Elt F) → (⟨S80000x1, .i32⟩ : BufTy).Contents (Elt F) → (⟨S80000x128, .f32⟩ : BufTy).Contents (Elt F)),  -- %151
    StableHlo.unary main_v144 main_v152 (broadcastInDim S80000x128 ![0, 1] bcast_S80000x1_S80000x128_0_1 : (⟨S80000x1, .f32⟩ : BufTy).Contents (Elt F) → (⟨S80000x128, .f32⟩ : BufTy).Contents (Elt F)),  -- %152
    StableHlo.binary main_v151 main_v152 main_v153 (mulf : (⟨S80000x128, .f32⟩ : BufTy).Contents (Elt F) → (⟨S80000x128, .f32⟩ : BufTy).Contents (Elt F) → (⟨S80000x128, .f32⟩ : BufTy).Contents (Elt F)),  -- %153
    StableHlo.nullary main_cst_34 (constant S_ .f32 0x00000000#32),  -- %cst_34
    StableHlo.unary main_cst_34 main_v154 (broadcastInDim S9600x128 ![] bcast_S_S9600x128 : (⟨S_, .f32⟩ : BufTy).Contents (Elt F) → (⟨S9600x128, .f32⟩ : BufTy).Contents (Elt F)),  -- %154
    StableHlo.unary main_v121 main_v155 (broadcastInDim S80000x1 ![0] bcast_S80000_S80000x1_0 : (⟨S80000, .i32⟩ : BufTy).Contents (Elt F) → (⟨S80000x1, .i32⟩ : BufTy).Contents (Elt F)),  -- %155
    StableHlo.ternary main_v154 main_v155 main_v153 main_v156 ((fun x i u => Host.scatterAdd scatter_S9600x128_S80000x1_S80000x128_1_0_0_1 x i u) : (⟨S9600x128, .f32⟩ : BufTy).Contents (Elt F) → (⟨S80000x1, .i32⟩ : BufTy).Contents (Elt F) → (⟨S80000x128, .f32⟩ : BufTy).Contents (Elt F) → (⟨S9600x128, .f32⟩ : BufTy).Contents (Elt F)),  -- %156
    StableHlo.binary main_v128 main_v128 main_v157 (mulf : (⟨S9600, .f32⟩ : BufTy).Contents (Elt F) → (⟨S9600, .f32⟩ : BufTy).Contents (Elt F) → (⟨S9600, .f32⟩ : BufTy).Contents (Elt F)) ]  -- %157

/-- Stage 9: the operations that produce %158 … %165 (the last three are the body of the call that returns %165), in program order. -/
abbrev s9 : List (HloOp τ sig (Elt F)) :=
  [ StableHlo.unary main_v157 main_v158 (broadcastInDim S9600x1 ![0] bcast_S9600_S9600x1_0 : (⟨S9600, .f32⟩ : BufTy).Contents (Elt F) → (⟨S9600x1, .f32⟩ : BufTy).Contents (Elt F)),  -- %158
    StableHlo.unary main_v158 main_v159 (broadcastInDim S9600x128 ![0, 1] bcast_S9600x1_S9600x128_0_1 : (⟨S9600x1, .f32⟩ : BufTy).Contents (Elt F) → (⟨S9600x128, .f32⟩ : BufTy).Contents (Elt F)),  -- %159
    StableHlo.binary main_v117 main_v159 main_v160 (mulf : (⟨S9600x128, .f32⟩ : BufTy).Contents (Elt F) → (⟨S9600x128, .f32⟩ : BufTy).Contents (Elt F) → (⟨S9600x128, .f32⟩ : BufTy).Contents (Elt F)),  -- %160
    StableHlo.binary main_v156 main_v160 main_v161 (addf : (⟨S9600x128, .f32⟩ : BufTy).Contents (Elt F) → (⟨S9600x128, .f32⟩ : BufTy).Contents (Elt F) → (⟨S9600x128, .f32⟩ : BufTy).Contents (Elt F)),  -- %161
    StableHlo.unary main_arg13 main_v162 (broadcastInDim S1x128 ![1] bcast_S128_S1x128_1 : (⟨S128, .f32⟩ : BufTy).Contents (Elt F) → (⟨S1x128, .f32⟩ : BufTy).Contents (Elt F)),  -- %162
    StableHlo.unary main_v162 main_v163 (broadcastInDim S9600x128 ![0, 1] bcast_S1x128_S9600x128_0_1 : (⟨S1x128, .f32⟩ : BufTy).Contents (Elt F) → (⟨S9600x128, .f32⟩ : BufTy).Contents (Elt F)),  -- %163
    StableHlo.binary main_v161 main_v163 main_v164 (addf : (⟨S9600x128, .f32⟩ : BufTy).Contents (Elt F) → (⟨S9600x128, .f32⟩ : BufTy).Contents (Elt F) → (⟨S9600x128, .f32⟩ : BufTy).Contents (Elt F)),  -- %164
    StableHlo.TRef.nullary (.of main_call6_cst : StableHlo.TRef sig ⟨S_, .f32⟩) (constant S_ .f32 0x00000000#32),  -- %165 (call 6)
    StableHlo.TRef.unary (.of main_call6_cst : StableHlo.TRef sig ⟨S_, .f32⟩) (.of main_call6_v0 : StableHlo.TRef sig ⟨S9600x128, .f32⟩) (broadcastInDim S9600x128 ![] bcast_S_S9600x128),  -- %165 (call 6)
    StableHlo.TRef.binary (.of main_v164 : StableHlo.TRef sig ⟨S9600x128, .f32⟩) (.of main_call6_v0 : StableHlo.TRef sig ⟨S9600x128, .f32⟩) (.of main_v165 : StableHlo.TRef sig ⟨S9600x128, .f32⟩) maximumf ]  -- %165 (call 6)

/-- Stage 10: the operations that produce %cst_35, %166 … %197 (with the bodies of the calls that return %182 and %187), in program order. -/
abbrev s10 : List (HloOp τ sig (Elt F)) :=
  [ StableHlo.nullary main_cst_35 (constant S_ .f32 0x00000000#32),  -- %cst_35
    StableHlo.unary main_cst_35 main_v166 (broadcastInDim S8x128 ![] bcast_S_S8x128 : (⟨S_, .f32⟩ : BufTy).Contents (Elt F) → (⟨S8x128, .f32⟩ : BufTy).Contents (Elt F)),  -- %166
    StableHlo.unary main_arg4 main_v167 (broadcastInDim S9600x1 ![0] bcast_S9600_S9600x1_0 : (⟨S9600, .i32⟩ : BufTy).Contents (Elt F) → (⟨S9600x1, .i32⟩ : BufTy).Contents (Elt F)),  -- %167
    StableHlo.ternary main_v166 main_v167 main_v165 main_v168 ((fun x i u => Host.scatterAdd scatter_S8x128_S9600x1_S9600x128_1_0_0_1 x i u) : (⟨S8x128, .f32⟩ : BufTy).Contents (Elt F) → (⟨S9600x1, .i32⟩ : BufTy).Contents (Elt F) → (⟨S9600x128, .f32⟩ : BufTy).Contents (Elt F) → (⟨S8x128, .f32⟩ : BufTy).Contents (Elt F)),  -- %168
    StableHlo.nullary main_cst_36 (constant S_ .f32 0x3F800000#32),  -- %cst_36
    StableHlo.unary main_cst_36 main_v169 (broadcastInDim S9600 ![] bcast_S_S9600 : (⟨S_, .f32⟩ : BufTy).Contents (Elt F) → (⟨S9600, .f32⟩ : BufTy).Contents (Elt F)),  -- %169
    StableHlo.nullary main_cst_37 (constant S_ .f32 0x00000000#32),  -- %cst_37
    StableHlo.unary main_cst_37 main_v170 (broadcastInDim S8 ![] bcast_S_S8 : (⟨S_, .f32⟩ : BufTy).Contents (Elt F) → (⟨S8, .f32⟩ : BufTy).Contents (Elt F)),  -- %170
    StableHlo.unary main_arg4 main_v171 (broadcastInDim S9600x1 ![0] bcast_S9600_S9600x1_0 : (⟨S9600, .i32⟩ : BufTy).Contents (Elt F) → (⟨S9600x1, .i32⟩ : BufTy).Contents (Elt F)),  -- %171
    StableHlo.ternary main_v170 main_v171 main_v169 main_v172 ((fun x i u => Host.scatterAdd scatter_S8_S9600x1_S9600_n_0_0_1 x i u) : (⟨S8, .f32⟩ : BufTy).Contents (Elt F) → (⟨S9600x1, .i32⟩ : BufTy).Contents (Elt F) → (⟨S9600, .f32⟩ : BufTy).Contents (Elt F) → (⟨S8, .f32⟩ : BufTy).Contents (Elt F)),  -- %172
    StableHlo.nullary main_cst_38 (constant S_ .f32 0x3F800000#32),  -- %cst_38
    StableHlo.unary main_cst_38 main_v173 (broadcastInDim S8 ![] bcast_S_S8 : (⟨S_, .f32⟩ : BufTy).Contents (Elt F) → (⟨S8, .f32⟩ : BufTy).Contents (Elt F)),  -- %173
    StableHlo.binary main_v172 main_v173 main_v174 (maximumf : (⟨S8, .f32⟩ : BufTy).Contents (Elt F) → (⟨S8, .f32⟩ : BufTy).Contents (Elt F) → (⟨S8, .f32⟩ : BufTy).Contents (Elt F)),  -- %174
    StableHlo.unary main_v174 main_v175 (broadcastInDim S8x1 ![0] bcast_S8_S8x1_0 : (⟨S8, .f32⟩ : BufTy).Contents (Elt F) → (⟨S8x1, .f32⟩ : BufTy).Contents (Elt F)),  -- %175
    StableHlo.unary main_v175 main_v176 (broadcastInDim S8x128 ![0, 1] bcast_S8x1_S8x128_0_1 : (⟨S8x1, .f32⟩ : BufTy).Contents (Elt F) → (⟨S8x128, .f32⟩ : BufTy).Contents (Elt F)),  -- %176
    StableHlo.binary main_v168 main_v176 main_v177 (Host.divf : (⟨S8x128, .f32⟩ : BufTy).Contents (Elt F) → (⟨S8x128, .f32⟩ : BufTy).Contents (Elt F) → (⟨S8x128, .f32⟩ : BufTy).Contents (Elt F)),  -- %177
    StableHlo.binary main_v177 main_arg14 main_v178 ((fun l r => Host.dotGeneral dot_S8x128_S128x64_S8x64_1_0_0_1_n_n none l r) : (⟨S8x128, .f32⟩ : BufTy).Contents (Elt F) → (⟨S128x64, .f32⟩ : BufTy).Contents (Elt F) → (⟨S8x64, .f32⟩ : BufTy).Contents (Elt F)),  -- %178
    StableHlo.unary main_arg15 main_v179 (broadcastInDim S1x64 ![1] bcast_S64_S1x64_1 : (⟨S64, .f32⟩ : BufTy).Contents (Elt F) → (⟨S1x64, .f32⟩ : BufTy).Contents (Elt F)),  -- %179
    StableHlo.unary main_v179 main_v180 (broadcastInDim S8x64 ![0, 1] bcast_S1x64_S8x64_0_1 : (⟨S1x64, .f32⟩ : BufTy).Contents (Elt F) → (⟨S8x64, .f32⟩ : BufTy).Contents (Elt F)),  -- %180
    StableHlo.binary main_v178 main_v180 main_v181 (addf : (⟨S8x64, .f32⟩ : BufTy).Contents (Elt F) → (⟨S8x64, .f32⟩ : BufTy).Contents (Elt F) → (⟨S8x64, .f32⟩ : BufTy).Contents (Elt F)),  -- %181
    StableHlo.TRef.nullary (.of main_call7_cst : StableHlo.TRef sig ⟨S_, .f32⟩) (constant S_ .f32 0x00000000#32),  -- %182 (call 7)
    StableHlo.TRef.unary (.of main_call7_cst : StableHlo.TRef sig ⟨S_, .f32⟩) (.of main_call7_v0 : StableHlo.TRef sig ⟨S8x64, .f32⟩) (broadcastInDim S8x64 ![] bcast_S_S8x64),  -- %182 (call 7)
    StableHlo.TRef.binary (.of main_v181 : StableHlo.TRef sig ⟨S8x64, .f32⟩) (.of main_call7_v0 : StableHlo.TRef sig ⟨S8x64, .f32⟩) (.of main_v182 : StableHlo.TRef sig ⟨S8x64, .f32⟩) maximumf,  -- %182 (call 7)
    StableHlo.binary main_v182 main_arg16 main_v183 ((fun l r => Host.dotGeneral dot_S8x64_S64x32_S8x32_1_0_0_1_n_n none l r) : (⟨S8x64, .f32⟩ : BufTy).Contents (Elt F) → (⟨S64x32, .f32⟩ : BufTy).Contents (Elt F) → (⟨S8x32, .f32⟩ : BufTy).Contents (Elt F)),  -- %183
    StableHlo.unary main_arg17 main_v184 (broadcastInDim S1x32 ![1] bcast_S32_S1x32_1 : (⟨S32, .f32⟩ : BufTy).Contents (Elt F) → (⟨S1x32, .f32⟩ : BufTy).Contents (Elt F)),  -- %184
    StableHlo.unary main_v184 main_v185 (broadcastInDim S8x32 ![0, 1] bcast_S1x32_S8x32_0_1 : (⟨S1x32, .f32⟩ : BufTy).Contents (Elt F) → (⟨S8x32, .f32⟩ : BufTy).Contents (Elt F)),  -- %185
    StableHlo.binary main_v183 main_v185 main_v186 (addf : (⟨S8x32, .f32⟩ : BufTy).Contents (Elt F) → (⟨S8x32, .f32⟩ : BufTy).Contents (Elt F) → (⟨S8x32, .f32⟩ : BufTy).Contents (Elt F)),  -- %186
    StableHlo.TRef.nullary (.of main_call8_cst : StableHlo.TRef sig ⟨S_, .f32⟩) (constant S_ .f32 0x00000000#32),  -- %187 (call 8)
    StableHlo.TRef.unary (.of main_call8_cst : StableHlo.TRef sig ⟨S_, .f32⟩) (.of main_call8_v0 : StableHlo.TRef sig ⟨S8x32, .f32⟩) (broadcastInDim S8x32 ![] bcast_S_S8x32),  -- %187 (call 8)
    StableHlo.TRef.binary (.of main_v186 : StableHlo.TRef sig ⟨S8x32, .f32⟩) (.of main_call8_v0 : StableHlo.TRef sig ⟨S8x32, .f32⟩) (.of main_v187 : StableHlo.TRef sig ⟨S8x32, .f32⟩) maximumf,  -- %187 (call 8)
    StableHlo.binary main_v187 main_arg18 main_v188 ((fun l r => Host.dotGeneral dot_S8x32_S32x1_S8x1_1_0_0_1_n_n none l r) : (⟨S8x32, .f32⟩ : BufTy).Contents (Elt F) → (⟨S32x1, .f32⟩ : BufTy).Contents (Elt F) → (⟨S8x1, .f32⟩ : BufTy).Contents (Elt F)),  -- %188
    StableHlo.unary main_arg19 main_v189 (broadcastInDim S1x1 ![1] bcast_S1_S1x1_1 : (⟨S1, .f32⟩ : BufTy).Contents (Elt F) → (⟨S1x1, .f32⟩ : BufTy).Contents (Elt F)),  -- %189
    StableHlo.unary main_v189 main_v190 (broadcastInDim S8x1 ![0, 1] bcast_S1x1_S8x1_0_1 : (⟨S1x1, .f32⟩ : BufTy).Contents (Elt F) → (⟨S8x1, .f32⟩ : BufTy).Contents (Elt F)),  -- %190
    StableHlo.binary main_v188 main_v190 main_v191 (addf : (⟨S8x1, .f32⟩ : BufTy).Contents (Elt F) → (⟨S8x1, .f32⟩ : BufTy).Contents (Elt F) → (⟨S8x1, .f32⟩ : BufTy).Contents (Elt F)),  -- %191
    StableHlo.unary main_v191 main_v192 (Host.negf : (⟨S8x1, .f32⟩ : BufTy).Contents (Elt F) → (⟨S8x1, .f32⟩ : BufTy).Contents (Elt F)),  -- %192
    StableHlo.unary main_v192 main_v193 (Host.exp : (⟨S8x1, .f32⟩ : BufTy).Contents (Elt F) → (⟨S8x1, .f32⟩ : BufTy).Contents (Elt F)),  -- %193
    StableHlo.nullary main_cst_39 (constant S_ .f32 0x3F800000#32),  -- %cst_39
    StableHlo.unary main_cst_39 main_v194 (broadcastInDim S8x1 ![] bcast_S_S8x1 : (⟨S_, .f32⟩ : BufTy).Contents (Elt F) → (⟨S8x1, .f32⟩ : BufTy).Contents (Elt F)),  -- %194
    StableHlo.binary main_v194 main_v193 main_v195 (addf : (⟨S8x1, .f32⟩ : BufTy).Contents (Elt F) → (⟨S8x1, .f32⟩ : BufTy).Contents (Elt F) → (⟨S8x1, .f32⟩ : BufTy).Contents (Elt F)),  -- %195
    StableHlo.nullary main_cst_40 (constant S_ .f32 0x3F800000#32),  -- %cst_40
    StableHlo.unary main_cst_40 main_v196 (broadcastInDim S8x1 ![] bcast_S_S8x1 : (⟨S_, .f32⟩ : BufTy).Contents (Elt F) → (⟨S8x1, .f32⟩ : BufTy).Contents (Elt F)),  -- %196
    StableHlo.binary main_v196 main_v195 main_v197 (Host.divf : (⟨S8x1, .f32⟩ : BufTy).Contents (Elt F) → (⟨S8x1, .f32⟩ : BufTy).Contents (Elt F) → (⟨S8x1, .f32⟩ : BufTy).Contents (Elt F)) ]  -- %197

/-- @main's operations, in program order. -/
abbrev ops : List (HloOp τ sig (Elt F)) := s0 ++ s1 ++ s2 ++ s3 ++ s4 ++ s5 ++ s6 ++ s7 ++ s8 ++ s9 ++ s10

/-! ## @main is the straight line of its operations

@main is printed as five consecutive windows, and a call is one statement that unfolds to the callee's body. The
line is cut into items at every window boundary, at every call's first and last operation and at every stage
boundary; each window is the chain of its items, @main is the chain of all of them, and a chain of straight lines
is the straight line of their concatenation. -/

/-- Item 0 (window 0, within stage 0): 1 operation, %0 … %0. -/
abbrev q0 : List (HloOp τ sig (Elt F)) :=
  [ StableHlo.binary main_arg0 main_arg7 main_v0 ((fun l r => Host.dotGeneral dot_S400000x64_S64x128_S400000x128_1_0_0_1_n_n none l r) : (⟨S400000x64, .f32⟩ : BufTy).Contents (Elt F) → (⟨S64x128, .f32⟩ : BufTy).Contents (Elt F) → (⟨S400000x128, .f32⟩ : BufTy).Contents (Elt F)) ]  -- %0

/-- Item 1 (window 0, within stage 1): 50 operations, %1 … %40. -/
abbrev q1 : List (HloOp τ sig (Elt F)) :=
  [ StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),  -- %1
    StableHlo.reshape main_v1 main_v2 rfl shapeCasts_S1x1600000_S1600000,  -- %2
    StableHlo.unary main_arg1 main_v3 ((extractStridedSlice S1x1600000 ![1, 0] · slices_S2x1600000_S1x1600000_1_0) : (⟨S2x1600000, .i32⟩ : BufTy).Contents (Elt F) → (⟨S1x1600000, .i32⟩ : BufTy).Contents (Elt F)),  -- %3
    StableHlo.reshape main_v3 main_v4 rfl shapeCasts_S1x1600000_S1600000,  -- %4
    StableHlo.nullary main_cst (constant S_ .f32 0x3F800000#32),  -- %cst
    StableHlo.unary main_cst main_v5 (broadcastInDim S1600000 ![] bcast_S_S1600000 : (⟨S_, .f32⟩ : BufTy).Contents (Elt F) → (⟨S1600000, .f32⟩ : BufTy).Contents (Elt F)),  -- %5
    StableHlo.nullary main_cst_0 (constant S_ .f32 0x00000000#32),  -- %cst_0
    StableHlo.unary main_cst_0 main_v6 (broadcastInDim S400000 ![] bcast_S_S400000 : (⟨S_, .f32⟩ : BufTy).Contents (Elt F) → (⟨S400000, .f32⟩ : BufTy).Contents (Elt F)),  -- %6
    StableHlo.unary main_v4 main_v7 (broadcastInDim S1600000x1 ![0] bcast_S1600000_S1600000x1_0 : (⟨S1600000, .i32⟩ : BufTy).Contents (Elt F) → (⟨S1600000x1, .i32⟩ : BufTy).Contents (Elt F)),  -- %7
    StableHlo.ternary main_v6 main_v7 main_v5 main_v8 ((fun x i u => Host.scatterAdd scatter_S400000_S1600000x1_S1600000_n_0_0_1 x i u) : (⟨S400000, .f32⟩ : BufTy).Contents (Elt F) → (⟨S1600000x1, .i32⟩ : BufTy).Contents (Elt F) → (⟨S1600000, .f32⟩ : BufTy).Contents (Elt F) → (⟨S400000, .f32⟩ : BufTy).Contents (Elt F)),  -- %8
    StableHlo.nullary main_cst_1 (constant S_ .f32 0x3F800000#32),  -- %cst_1
    StableHlo.unary main_cst_1 main_v9 (broadcastInDim S400000 ![] bcast_S_S400000 : (⟨S_, .f32⟩ : BufTy).Contents (Elt F) → (⟨S400000, .f32⟩ : BufTy).Contents (Elt F)),  -- %9
    StableHlo.binary main_v8 main_v9 main_v10 (addf : (⟨S400000, .f32⟩ : BufTy).Contents (Elt F) → (⟨S400000, .f32⟩ : BufTy).Contents (Elt F) → (⟨S400000, .f32⟩ : BufTy).Contents (Elt F)),  -- %10
    StableHlo.unary main_v10 main_v11 (Host.rsqrt : (⟨S400000, .f32⟩ : BufTy).Contents (Elt F) → (⟨S400000, .f32⟩ : BufTy).Contents (Elt F)),  -- %11
    StableHlo.nullary main_c (constantI S_ 32 0#32),  -- %c
    StableHlo.unary main_c main_v12 (broadcastInDim S1600000 ![] bcast_S_S1600000 : (⟨S_, .i32⟩ : BufTy).Contents (Elt F) → (⟨S1600000, .i32⟩ : BufTy).Contents (Elt F)),  -- %12
    StableHlo.binary main_v2 main_v12 main_v13 (cmpi .slt : (⟨S1600000, .i32⟩ : BufTy).Contents (Elt F) → (⟨S1600000, .i32⟩ : BufTy).Contents (Elt F) → (⟨S1600000, .i1⟩ : BufTy).Contents (Elt F)),  -- %13
    StableHlo.nullary main_c_2 (constantI S_ 32 400000#32),  -- %c_2
    StableHlo.unary main_c_2 main_v14 (broadcastInDim S1600000 ![] bcast_S_S1600000 : (⟨S_, .i32⟩ : BufTy).Contents (Elt F) → (⟨S1600000, .i32⟩ : BufTy).Contents (Elt F)),  -- %14
    StableHlo.binary main_v2 main_v14 main_v15 (addi : (⟨S1600000, .i32⟩ : BufTy).Contents (Elt F) → (⟨S1600000, .i32⟩ : BufTy).Contents (Elt F) → (⟨S1600000, .i32⟩ : BufTy).Contents (Elt F)),  -- %15
    StableHlo.ternary main_v13 main_v15 main_v2 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),  -- %16
    StableHlo.unary main_v16 main_v17 (broadcastInDim S1600000x1 ![0] bcast_S1600000_S1600000x1_0 : (⟨S1600000, .i32⟩ : BufTy).Contents (Elt F) → (⟨S1600000x1, .i32⟩ : BufTy).Contents (Elt F)),  -- %17
    StableHlo.binary main_v11 main_v17 main_v18 ((fun x i => Host.gather gather_S400000_S1600000x1_S1600000_n_0_n_n_0_1_1 x i) : (⟨S400000, .f32⟩ : BufTy).Contents (Elt F) → (⟨S1600000x1, .i32⟩ : BufTy).Contents (Elt F) → (⟨S1600000, .f32⟩ : BufTy).Contents (Elt F)),  -- %18
    StableHlo.nullary main_c_3 (constantI S_ 32 0#32),  -- %c_3
    StableHlo.unary main_c_3 main_v19 (broadcastInDim S1600000 ![] bcast_S_S1600000 : (⟨S_, .i32⟩ : BufTy).Contents (Elt F) → (⟨S1600000, .i32⟩ : BufTy).Contents (Elt F)),  -- %19
    StableHlo.binary main_v4 main_v19 main_v20 (cmpi .slt : (⟨S1600000, .i32⟩ : BufTy).Contents (Elt F) → (⟨S1600000, .i32⟩ : BufTy).Contents (Elt F) → (⟨S1600000, .i1⟩ : BufTy).Contents (Elt F)),  -- %20
    StableHlo.nullary main_c_4 (constantI S_ 32 400000#32),  -- %c_4
    StableHlo.unary main_c_4 main_v21 (broadcastInDim S1600000 ![] bcast_S_S1600000 : (⟨S_, .i32⟩ : BufTy).Contents (Elt F) → (⟨S1600000, .i32⟩ : BufTy).Contents (Elt F)),  -- %21
    StableHlo.binary main_v4 main_v21 main_v22 (addi : (⟨S1600000, .i32⟩ : BufTy).Contents (Elt F) → (⟨S1600000, .i32⟩ : BufTy).Contents (Elt F) → (⟨S1600000, .i32⟩ : BufTy).Contents (Elt F)),  -- %22
    StableHlo.ternary main_v20 main_v22 main_v4 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),  -- %23
    StableHlo.unary main_v23 main_v24 (broadcastInDim S1600000x1 ![0] bcast_S1600000_S1600000x1_0 : (⟨S1600000, .i32⟩ : BufTy).Contents (Elt F) → (⟨S1600000x1, .i32⟩ : BufTy).Contents (Elt F)),  -- %24
    StableHlo.binary main_v11 main_v24 main_v25 ((fun x i => Host.gather gather_S400000_S1600000x1_S1600000_n_0_n_n_0_1_1 x i) : (⟨S400000, .f32⟩ : BufTy).Contents (Elt F) → (⟨S1600000x1, .i32⟩ : BufTy).Contents (Elt F) → (⟨S1600000, .f32⟩ : BufTy).Contents (Elt F)),  -- %25
    StableHlo.binary main_v18 main_v25 main_v26 (mulf : (⟨S1600000, .f32⟩ : BufTy).Contents (Elt F) → (⟨S1600000, .f32⟩ : BufTy).Contents (Elt F) → (⟨S1600000, .f32⟩ : BufTy).Contents (Elt F)),  -- %26
    StableHlo.unary main_v26 main_v27 (broadcastInDim S1600000x1 ![0] bcast_S1600000_S1600000x1_0 : (⟨S1600000, .f32⟩ : BufTy).Contents (Elt F) → (⟨S1600000x1, .f32⟩ : BufTy).Contents (Elt F)),  -- %27
    StableHlo.nullary main_c_5 (constantI S_ 32 0#32),  -- %c_5
    StableHlo.unary main_c_5 main_v28 (broadcastInDim S1600000 ![] bcast_S_S1600000 : (⟨S_, .i32⟩ : BufTy).Contents (Elt F) → (⟨S1600000, .i32⟩ : BufTy).Contents (Elt F)),  -- %28
    StableHlo.binary main_v2 main_v28 main_v29 (cmpi .slt : (⟨S1600000, .i32⟩ : BufTy).Contents (Elt F) → (⟨S1600000, .i32⟩ : BufTy).Contents (Elt F) → (⟨S1600000, .i1⟩ : BufTy).Contents (Elt F)),  -- %29
    StableHlo.nullary main_c_6 (constantI S_ 32 400000#32),  -- %c_6
    StableHlo.unary main_c_6 main_v30 (broadcastInDim S1600000 ![] bcast_S_S1600000 : (⟨S_, .i32⟩ : BufTy).Contents (Elt F) → (⟨S1600000, .i32⟩ : BufTy).Contents (Elt F)),  -- %30
    StableHlo.binary main_v2 main_v30 main_v31 (addi : (⟨S1600000, .i32⟩ : BufTy).Contents (Elt F) → (⟨S1600000, .i32⟩ : BufTy).Contents (Elt F) → (⟨S1600000, .i32⟩ : BufTy).Contents (Elt F)),  -- %31
    StableHlo.ternary main_v29 main_v31 main_v2 main_v32 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),  -- %32
    StableHlo.unary main_v32 main_v33 (broadcastInDim S1600000x1 ![0] bcast_S1600000_S1600000x1_0 : (⟨S1600000, .i32⟩ : BufTy).Contents (Elt F) → (⟨S1600000x1, .i32⟩ : BufTy).Contents (Elt F)),  -- %33
    StableHlo.binary main_v0 main_v33 main_v34 ((fun x i => Host.gather gather_S400000x128_S1600000x1_S1600000x128_1_0_n_n_0_1_1128 x i) : (⟨S400000x128, .f32⟩ : BufTy).Contents (Elt F) → (⟨S1600000x1, .i32⟩ : BufTy).Contents (Elt F) → (⟨S1600000x128, .f32⟩ : BufTy).Contents (Elt F)),  -- %34
    StableHlo.unary main_v27 main_v35 (broadcastInDim S1600000x128 ![0, 1] bcast_S1600000x1_S1600000x128_0_1 : (⟨S1600000x1, .f32⟩ : BufTy).Contents (Elt F) → (⟨S1600000x128, .f32⟩ : BufTy).Contents (Elt F)),  -- %35
    StableHlo.binary main_v34 main_v35 main_v36 (mulf : (⟨S1600000x128, .f32⟩ : BufTy).Contents (Elt F) → (⟨S1600000x128, .f32⟩ : BufTy).Contents (Elt F) → (⟨S1600000x128, .f32⟩ : BufTy).Contents (Elt F)),  -- %36
    StableHlo.nullary main_cst_7 (constant S_ .f32 0x00000000#32),  -- %cst_7
    StableHlo.unary main_cst_7 main_v37 (broadcastInDim S400000x128 ![] bcast_S_S400000x128 : (⟨S_, .f32⟩ : BufTy).Contents (Elt F) → (⟨S400000x128, .f32⟩ : BufTy).Contents (Elt F)),  -- %37
    StableHlo.unary main_v4 main_v38 (broadcastInDim S1600000x1 ![0] bcast_S1600000_S1600000x1_0 : (⟨S1600000, .i32⟩ : BufTy).Contents (Elt F) → (⟨S1600000x1, .i32⟩ : BufTy).Contents (Elt F)),  -- %38
    StableHlo.ternary main_v37 main_v38 main_v36 main_v39 ((fun x i u => Host.scatterAdd scatter_S400000x128_S1600000x1_S1600000x128_1_0_0_1 x i u) : (⟨S400000x128, .f32⟩ : BufTy).Contents (Elt F) → (⟨S1600000x1, .i32⟩ : BufTy).Contents (Elt F) → (⟨S1600000x128, .f32⟩ : BufTy).Contents (Elt F) → (⟨S400000x128, .f32⟩ : BufTy).Contents (Elt F)),  -- %39
    StableHlo.binary main_v11 main_v11 main_v40 (mulf : (⟨S400000, .f32⟩ : BufTy).Contents (Elt F) → (⟨S400000, .f32⟩ : BufTy).Contents (Elt F) → (⟨S400000, .f32⟩ : BufTy).Contents (Elt F)) ]  -- %40

/-- Item 2 (window 0, within stage 2): 7 operations, %41 … %47. -/
abbrev q2 : List (HloOp τ sig (Elt F)) :=
  [ StableHlo.unary main_v40 main_v41 (broadcastInDim S400000x1 ![0] bcast_S400000_S400000x1_0 : (⟨S400000, .f32⟩ : BufTy).Contents (Elt F) → (⟨S400000x1, .f32⟩ : BufTy).Contents (Elt F)),  -- %41
    StableHlo.unary main_v41 main_v42 (broadcastInDim S400000x128 ![0, 1] bcast_S400000x1_S400000x128_0_1 : (⟨S400000x1, .f32⟩ : BufTy).Contents (Elt F) → (⟨S400000x128, .f32⟩ : BufTy).Contents (Elt F)),  -- %42
    StableHlo.binary main_v0 main_v42 main_v43 (mulf : (⟨S400000x128, .f32⟩ : BufTy).Contents (Elt F) → (⟨S400000x128, .f32⟩ : BufTy).Contents (Elt F) → (⟨S400000x128, .f32⟩ : BufTy).Contents (Elt F)),  -- %43
    StableHlo.binary main_v39 main_v43 main_v44 (addf : (⟨S400000x128, .f32⟩ : BufTy).Contents (Elt F) → (⟨S400000x128, .f32⟩ : BufTy).Contents (Elt F) → (⟨S400000x128, .f32⟩ : BufTy).Contents (Elt F)),  -- %44
    StableHlo.unary main_arg8 main_v45 (broadcastInDim S1x128 ![1] bcast_S128_S1x128_1 : (⟨S128, .f32⟩ : BufTy).Contents (Elt F) → (⟨S1x128, .f32⟩ : BufTy).Contents (Elt F)),  -- %45
    StableHlo.unary main_v45 main_v46 (broadcastInDim S400000x128 ![0, 1] bcast_S1x128_S400000x128_0_1 : (⟨S1x128, .f32⟩ : BufTy).Contents (Elt F) → (⟨S400000x128, .f32⟩ : BufTy).Contents (Elt F)),  -- %46
    StableHlo.binary main_v44 main_v46 main_v47 (addf : (⟨S400000x128, .f32⟩ : BufTy).Contents (Elt F) → (⟨S400000x128, .f32⟩ : BufTy).Contents (Elt F) → (⟨S400000x128, .f32⟩ : BufTy).Contents (Elt F)) ]  -- %47

/-- Item 3 (window 0, within stage 2, the body of one call): 3 operations, %48 … %48. -/
abbrev q3 : List (HloOp τ sig (Elt F)) :=
  [ StableHlo.TRef.nullary (.of main_call0_cst : StableHlo.TRef sig ⟨S_, .f32⟩) (constant S_ .f32 0x00000000#32),  -- %48 (call 0)
    StableHlo.TRef.unary (.of main_call0_cst : StableHlo.TRef sig ⟨S_, .f32⟩) (.of main_call0_v0 : StableHlo.TRef sig ⟨S400000x128, .f32⟩) (broadcastInDim S400000x128 ![] bcast_S_S400000x128),  -- %48 (call 0)
    StableHlo.TRef.binary (.of main_v47 : StableHlo.TRef sig ⟨S400000x128, .f32⟩) (.of main_call0_v0 : StableHlo.TRef sig ⟨S400000x128, .f32⟩) (.of main_v48 : StableHlo.TRef sig ⟨S400000x128, .f32⟩) maximumf ]  -- %48 (call 0)

/-- Item 4 (window 0, within stage 3): 1 operation, %49 … %49. -/
abbrev q4 : List (HloOp τ sig (Elt F)) :=
  [ StableHlo.binary main_v48 main_arg9 main_v49 ((fun l r => Host.dotGeneral dot_S400000x128_S128x128_S400000x128_1_0_0_1_n_n none l r) : (⟨S400000x128, .f32⟩ : BufTy).Contents (Elt F) → (⟨S128x128, .f32⟩ : BufTy).Contents (Elt F) → (⟨S400000x128, .f32⟩ : BufTy).Contents (Elt F)) ]  -- %49

/-- Item 5 (window 1, within stage 4): 50 operations, %50 … %89. -/
abbrev q5 : List (HloOp τ sig (Elt F)) :=
  [ StableHlo.unary main_arg1 main_v50 ((extractStridedSlice S1x1600000 ![0, 0] · slices_S2x1600000_S1x1600000_0_0) : (⟨S2x1600000, .i32⟩ : BufTy).Contents (Elt F) → (⟨S1x1600000, .i32⟩ : BufTy).Contents (Elt F)),  -- %50
    StableHlo.reshape main_v50 main_v51 rfl shapeCasts_S1x1600000_S1600000,  -- %51
    StableHlo.unary main_arg1 main_v52 ((extractStridedSlice S1x1600000 ![1, 0] · slices_S2x1600000_S1x1600000_1_0) : (⟨S2x1600000, .i32⟩ : BufTy).Contents (Elt F) → (⟨S1x1600000, .i32⟩ : BufTy).Contents (Elt F)),  -- %52
    StableHlo.reshape main_v52 main_v53 rfl shapeCasts_S1x1600000_S1600000,  -- %53
    StableHlo.nullary main_cst_8 (constant S_ .f32 0x3F800000#32),  -- %cst_8
    StableHlo.unary main_cst_8 main_v54 (broadcastInDim S1600000 ![] bcast_S_S1600000 : (⟨S_, .f32⟩ : BufTy).Contents (Elt F) → (⟨S1600000, .f32⟩ : BufTy).Contents (Elt F)),  -- %54
    StableHlo.nullary main_cst_9 (constant S_ .f32 0x00000000#32),  -- %cst_9
    StableHlo.unary main_cst_9 main_v55 (broadcastInDim S400000 ![] bcast_S_S400000 : (⟨S_, .f32⟩ : BufTy).Contents (Elt F) → (⟨S400000, .f32⟩ : BufTy).Contents (Elt F)),  -- %55
    StableHlo.unary main_v53 main_v56 (broadcastInDim S1600000x1 ![0] bcast_S1600000_S1600000x1_0 : (⟨S1600000, .i32⟩ : BufTy).Contents (Elt F) → (⟨S1600000x1, .i32⟩ : BufTy).Contents (Elt F)),  -- %56
    StableHlo.ternary main_v55 main_v56 main_v54 main_v57 ((fun x i u => Host.scatterAdd scatter_S400000_S1600000x1_S1600000_n_0_0_1 x i u) : (⟨S400000, .f32⟩ : BufTy).Contents (Elt F) → (⟨S1600000x1, .i32⟩ : BufTy).Contents (Elt F) → (⟨S1600000, .f32⟩ : BufTy).Contents (Elt F) → (⟨S400000, .f32⟩ : BufTy).Contents (Elt F)),  -- %57
    StableHlo.nullary main_cst_10 (constant S_ .f32 0x3F800000#32),  -- %cst_10
    StableHlo.unary main_cst_10 main_v58 (broadcastInDim S400000 ![] bcast_S_S400000 : (⟨S_, .f32⟩ : BufTy).Contents (Elt F) → (⟨S400000, .f32⟩ : BufTy).Contents (Elt F)),  -- %58
    StableHlo.binary main_v57 main_v58 main_v59 (addf : (⟨S400000, .f32⟩ : BufTy).Contents (Elt F) → (⟨S400000, .f32⟩ : BufTy).Contents (Elt F) → (⟨S400000, .f32⟩ : BufTy).Contents (Elt F)),  -- %59
    StableHlo.unary main_v59 main_v60 (Host.rsqrt : (⟨S400000, .f32⟩ : BufTy).Contents (Elt F) → (⟨S400000, .f32⟩ : BufTy).Contents (Elt F)),  -- %60
    StableHlo.nullary main_c_11 (constantI S_ 32 0#32),  -- %c_11
    StableHlo.unary main_c_11 main_v61 (broadcastInDim S1600000 ![] bcast_S_S1600000 : (⟨S_, .i32⟩ : BufTy).Contents (Elt F) → (⟨S1600000, .i32⟩ : BufTy).Contents (Elt F)),  -- %61
    StableHlo.binary main_v51 main_v61 main_v62 (cmpi .slt : (⟨S1600000, .i32⟩ : BufTy).Contents (Elt F) → (⟨S1600000, .i32⟩ : BufTy).Contents (Elt F) → (⟨S1600000, .i1⟩ : BufTy).Contents (Elt F)),  -- %62
    StableHlo.nullary main_c_12 (constantI S_ 32 400000#32),  -- %c_12
    StableHlo.unary main_c_12 main_v63 (broadcastInDim S1600000 ![] bcast_S_S1600000 : (⟨S_, .i32⟩ : BufTy).Contents (Elt F) → (⟨S1600000, .i32⟩ : BufTy).Contents (Elt F)),  -- %63
    StableHlo.binary main_v51 main_v63 main_v64 (addi : (⟨S1600000, .i32⟩ : BufTy).Contents (Elt F) → (⟨S1600000, .i32⟩ : BufTy).Contents (Elt F) → (⟨S1600000, .i32⟩ : BufTy).Contents (Elt F)),  -- %64
    StableHlo.ternary main_v62 main_v64 main_v51 main_v65 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),  -- %65
    StableHlo.unary main_v65 main_v66 (broadcastInDim S1600000x1 ![0] bcast_S1600000_S1600000x1_0 : (⟨S1600000, .i32⟩ : BufTy).Contents (Elt F) → (⟨S1600000x1, .i32⟩ : BufTy).Contents (Elt F)),  -- %66
    StableHlo.binary main_v60 main_v66 main_v67 ((fun x i => Host.gather gather_S400000_S1600000x1_S1600000_n_0_n_n_0_1_1 x i) : (⟨S400000, .f32⟩ : BufTy).Contents (Elt F) → (⟨S1600000x1, .i32⟩ : BufTy).Contents (Elt F) → (⟨S1600000, .f32⟩ : BufTy).Contents (Elt F)),  -- %67
    StableHlo.nullary main_c_13 (constantI S_ 32 0#32),  -- %c_13
    StableHlo.unary main_c_13 main_v68 (broadcastInDim S1600000 ![] bcast_S_S1600000 : (⟨S_, .i32⟩ : BufTy).Contents (Elt F) → (⟨S1600000, .i32⟩ : BufTy).Contents (Elt F)),  -- %68
    StableHlo.binary main_v53 main_v68 main_v69 (cmpi .slt : (⟨S1600000, .i32⟩ : BufTy).Contents (Elt F) → (⟨S1600000, .i32⟩ : BufTy).Contents (Elt F) → (⟨S1600000, .i1⟩ : BufTy).Contents (Elt F)),  -- %69
    StableHlo.nullary main_c_14 (constantI S_ 32 400000#32),  -- %c_14
    StableHlo.unary main_c_14 main_v70 (broadcastInDim S1600000 ![] bcast_S_S1600000 : (⟨S_, .i32⟩ : BufTy).Contents (Elt F) → (⟨S1600000, .i32⟩ : BufTy).Contents (Elt F)),  -- %70
    StableHlo.binary main_v53 main_v70 main_v71 (addi : (⟨S1600000, .i32⟩ : BufTy).Contents (Elt F) → (⟨S1600000, .i32⟩ : BufTy).Contents (Elt F) → (⟨S1600000, .i32⟩ : BufTy).Contents (Elt F)),  -- %71
    StableHlo.ternary main_v69 main_v71 main_v53 main_v72 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),  -- %72
    StableHlo.unary main_v72 main_v73 (broadcastInDim S1600000x1 ![0] bcast_S1600000_S1600000x1_0 : (⟨S1600000, .i32⟩ : BufTy).Contents (Elt F) → (⟨S1600000x1, .i32⟩ : BufTy).Contents (Elt F)),  -- %73
    StableHlo.binary main_v60 main_v73 main_v74 ((fun x i => Host.gather gather_S400000_S1600000x1_S1600000_n_0_n_n_0_1_1 x i) : (⟨S400000, .f32⟩ : BufTy).Contents (Elt F) → (⟨S1600000x1, .i32⟩ : BufTy).Contents (Elt F) → (⟨S1600000, .f32⟩ : BufTy).Contents (Elt F)),  -- %74
    StableHlo.binary main_v67 main_v74 main_v75 (mulf : (⟨S1600000, .f32⟩ : BufTy).Contents (Elt F) → (⟨S1600000, .f32⟩ : BufTy).Contents (Elt F) → (⟨S1600000, .f32⟩ : BufTy).Contents (Elt F)),  -- %75
    StableHlo.unary main_v75 main_v76 (broadcastInDim S1600000x1 ![0] bcast_S1600000_S1600000x1_0 : (⟨S1600000, .f32⟩ : BufTy).Contents (Elt F) → (⟨S1600000x1, .f32⟩ : BufTy).Contents (Elt F)),  -- %76
    StableHlo.nullary main_c_15 (constantI S_ 32 0#32),  -- %c_15
    StableHlo.unary main_c_15 main_v77 (broadcastInDim S1600000 ![] bcast_S_S1600000 : (⟨S_, .i32⟩ : BufTy).Contents (Elt F) → (⟨S1600000, .i32⟩ : BufTy).Contents (Elt F)),  -- %77
    StableHlo.binary main_v51 main_v77 main_v78 (cmpi .slt : (⟨S1600000, .i32⟩ : BufTy).Contents (Elt F) → (⟨S1600000, .i32⟩ : BufTy).Contents (Elt F) → (⟨S1600000, .i1⟩ : BufTy).Contents (Elt F)),  -- %78
    StableHlo.nullary main_c_16 (constantI S_ 32 400000#32),  -- %c_16
    StableHlo.unary main_c_16 main_v79 (broadcastInDim S1600000 ![] bcast_S_S1600000 : (⟨S_, .i32⟩ : BufTy).Contents (Elt F) → (⟨S1600000, .i32⟩ : BufTy).Contents (Elt F)),  -- %79
    StableHlo.binary main_v51 main_v79 main_v80 (addi : (⟨S1600000, .i32⟩ : BufTy).Contents (Elt F) → (⟨S1600000, .i32⟩ : BufTy).Contents (Elt F) → (⟨S1600000, .i32⟩ : BufTy).Contents (Elt F)),  -- %80
    StableHlo.ternary main_v78 main_v80 main_v51 main_v81 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),  -- %81
    StableHlo.unary main_v81 main_v82 (broadcastInDim S1600000x1 ![0] bcast_S1600000_S1600000x1_0 : (⟨S1600000, .i32⟩ : BufTy).Contents (Elt F) → (⟨S1600000x1, .i32⟩ : BufTy).Contents (Elt F)),  -- %82
    StableHlo.binary main_v49 main_v82 main_v83 ((fun x i => Host.gather gather_S400000x128_S1600000x1_S1600000x128_1_0_n_n_0_1_1128 x i) : (⟨S400000x128, .f32⟩ : BufTy).Contents (Elt F) → (⟨S1600000x1, .i32⟩ : BufTy).Contents (Elt F) → (⟨S1600000x128, .f32⟩ : BufTy).Contents (Elt F)),  -- %83
    StableHlo.unary main_v76 main_v84 (broadcastInDim S1600000x128 ![0, 1] bcast_S1600000x1_S1600000x128_0_1 : (⟨S1600000x1, .f32⟩ : BufTy).Contents (Elt F) → (⟨S1600000x128, .f32⟩ : BufTy).Contents (Elt F)),  -- %84
    StableHlo.binary main_v83 main_v84 main_v85 (mulf : (⟨S1600000x128, .f32⟩ : BufTy).Contents (Elt F) → (⟨S1600000x128, .f32⟩ : BufTy).Contents (Elt F) → (⟨S1600000x128, .f32⟩ : BufTy).Contents (Elt F)),  -- %85
    StableHlo.nullary main_cst_17 (constant S_ .f32 0x00000000#32),  -- %cst_17
    StableHlo.unary main_cst_17 main_v86 (broadcastInDim S400000x128 ![] bcast_S_S400000x128 : (⟨S_, .f32⟩ : BufTy).Contents (Elt F) → (⟨S400000x128, .f32⟩ : BufTy).Contents (Elt F)),  -- %86
    StableHlo.unary main_v53 main_v87 (broadcastInDim S1600000x1 ![0] bcast_S1600000_S1600000x1_0 : (⟨S1600000, .i32⟩ : BufTy).Contents (Elt F) → (⟨S1600000x1, .i32⟩ : BufTy).Contents (Elt F)),  -- %87
    StableHlo.ternary main_v86 main_v87 main_v85 main_v88 ((fun x i u => Host.scatterAdd scatter_S400000x128_S1600000x1_S1600000x128_1_0_0_1 x i u) : (⟨S400000x128, .f32⟩ : BufTy).Contents (Elt F) → (⟨S1600000x1, .i32⟩ : BufTy).Contents (Elt F) → (⟨S1600000x128, .f32⟩ : BufTy).Contents (Elt F) → (⟨S400000x128, .f32⟩ : BufTy).Contents (Elt F)),  -- %88
    StableHlo.binary main_v60 main_v60 main_v89 (mulf : (⟨S400000, .f32⟩ : BufTy).Contents (Elt F) → (⟨S400000, .f32⟩ : BufTy).Contents (Elt F) → (⟨S400000, .f32⟩ : BufTy).Contents (Elt F)) ]  -- %89

/-- Item 6 (window 1, within stage 5): 7 operations, %90 … %96. -/
abbrev q6 : List (HloOp τ sig (Elt F)) :=
  [ StableHlo.unary main_v89 main_v90 (broadcastInDim S400000x1 ![0] bcast_S400000_S400000x1_0 : (⟨S400000, .f32⟩ : BufTy).Contents (Elt F) → (⟨S400000x1, .f32⟩ : BufTy).Contents (Elt F)),  -- %90
    StableHlo.unary main_v90 main_v91 (broadcastInDim S400000x128 ![0, 1] bcast_S400000x1_S400000x128_0_1 : (⟨S400000x1, .f32⟩ : BufTy).Contents (Elt F) → (⟨S400000x128, .f32⟩ : BufTy).Contents (Elt F)),  -- %91
    StableHlo.binary main_v49 main_v91 main_v92 (mulf : (⟨S400000x128, .f32⟩ : BufTy).Contents (Elt F) → (⟨S400000x128, .f32⟩ : BufTy).Contents (Elt F) → (⟨S400000x128, .f32⟩ : BufTy).Contents (Elt F)),  -- %92
    StableHlo.binary main_v88 main_v92 main_v93 (addf : (⟨S400000x128, .f32⟩ : BufTy).Contents (Elt F) → (⟨S400000x128, .f32⟩ : BufTy).Contents (Elt F) → (⟨S400000x128, .f32⟩ : BufTy).Contents (Elt F)),  -- %93
    StableHlo.unary main_arg10 main_v94 (broadcastInDim S1x128 ![1] bcast_S128_S1x128_1 : (⟨S128, .f32⟩ : BufTy).Contents (Elt F) → (⟨S1x128, .f32⟩ : BufTy).Contents (Elt F)),  -- %94
    StableHlo.unary main_v94 main_v95 (broadcastInDim S400000x128 ![0, 1] bcast_S1x128_S400000x128_0_1 : (⟨S1x128, .f32⟩ : BufTy).Contents (Elt F) → (⟨S400000x128, .f32⟩ : BufTy).Contents (Elt F)),  -- %95
    StableHlo.binary main_v93 main_v95 main_v96 (addf : (⟨S400000x128, .f32⟩ : BufTy).Contents (Elt F) → (⟨S400000x128, .f32⟩ : BufTy).Contents (Elt F) → (⟨S400000x128, .f32⟩ : BufTy).Contents (Elt F)) ]  -- %96

/-- Item 7 (window 1, within stage 5, the body of one call): 3 operations, %97 … %97. -/
abbrev q7 : List (HloOp τ sig (Elt F)) :=
  [ StableHlo.TRef.nullary (.of main_call1_cst : StableHlo.TRef sig ⟨S_, .f32⟩) (constant S_ .f32 0x00000000#32),  -- %97 (call 1)
    StableHlo.TRef.unary (.of main_call1_cst : StableHlo.TRef sig ⟨S_, .f32⟩) (.of main_call1_v0 : StableHlo.TRef sig ⟨S400000x128, .f32⟩) (broadcastInDim S400000x128 ![] bcast_S_S400000x128),  -- %97 (call 1)
    StableHlo.TRef.binary (.of main_v96 : StableHlo.TRef sig ⟨S400000x128, .f32⟩) (.of main_call1_v0 : StableHlo.TRef sig ⟨S400000x128, .f32⟩) (.of main_v97 : StableHlo.TRef sig ⟨S400000x128, .f32⟩) maximumf ]  -- %97 (call 1)

/-- Item 8 (window 1, within stage 6): 2 operations, %cst_18 … %98. -/
abbrev q8 : List (HloOp τ sig (Elt F)) :=
  [ StableHlo.nullary main_cst_18 (constant S_ .f32 0x00000000#32),  -- %cst_18
    StableHlo.unary main_cst_18 main_v98 (broadcastInDim S8000x128 ![] bcast_S_S8000x128 : (⟨S_, .f32⟩ : BufTy).Contents (Elt F) → (⟨S8000x128, .f32⟩ : BufTy).Contents (Elt F)) ]  -- %98

/-- Item 9 (window 2, within stage 6): 16 operations, %99 … %c_23. -/
abbrev q9 : List (HloOp τ sig (Elt F)) :=
  [ StableHlo.unary main_arg2 main_v99 (broadcastInDim S400000x1 ![0] bcast_S400000_S400000x1_0 : (⟨S400000, .i32⟩ : BufTy).Contents (Elt F) → (⟨S400000x1, .i32⟩ : BufTy).Contents (Elt F)),  -- %99
    StableHlo.ternary main_v98 main_v99 main_v97 main_v100 ((fun x i u => Host.scatterAdd scatter_S8000x128_S400000x1_S400000x128_1_0_0_1 x i u) : (⟨S8000x128, .f32⟩ : BufTy).Contents (Elt F) → (⟨S400000x1, .i32⟩ : BufTy).Contents (Elt F) → (⟨S400000x128, .f32⟩ : BufTy).Contents (Elt F) → (⟨S8000x128, .f32⟩ : BufTy).Contents (Elt F)),  -- %100
    StableHlo.nullary main_cst_19 (constant S_ .f32 0x3F800000#32),  -- %cst_19
    StableHlo.unary main_cst_19 main_v101 (broadcastInDim S400000 ![] bcast_S_S400000 : (⟨S_, .f32⟩ : BufTy).Contents (Elt F) → (⟨S400000, .f32⟩ : BufTy).Contents (Elt F)),  -- %101
    StableHlo.nullary main_cst_20 (constant S_ .f32 0x00000000#32),  -- %cst_20
    StableHlo.unary main_cst_20 main_v102 (broadcastInDim S8000 ![] bcast_S_S8000 : (⟨S_, .f32⟩ : BufTy).Contents (Elt F) → (⟨S8000, .f32⟩ : BufTy).Contents (Elt F)),  -- %102
    StableHlo.unary main_arg2 main_v103 (broadcastInDim S400000x1 ![0] bcast_S400000_S400000x1_0 : (⟨S400000, .i32⟩ : BufTy).Contents (Elt F) → (⟨S400000x1, .i32⟩ : BufTy).Contents (Elt F)),  -- %103
    StableHlo.ternary main_v102 main_v103 main_v101 main_v104 ((fun x i u => Host.scatterAdd scatter_S8000_S400000x1_S400000_n_0_0_1 x i u) : (⟨S8000, .f32⟩ : BufTy).Contents (Elt F) → (⟨S400000x1, .i32⟩ : BufTy).Contents (Elt F) → (⟨S400000, .f32⟩ : BufTy).Contents (Elt F) → (⟨S8000, .f32⟩ : BufTy).Contents (Elt F)),  -- %104
    StableHlo.nullary main_cst_21 (constant S_ .f32 0x3F800000#32),  -- %cst_21
    StableHlo.unary main_cst_21 main_v105 (broadcastInDim S8000 ![] bcast_S_S8000 : (⟨S_, .f32⟩ : BufTy).Contents (Elt F) → (⟨S8000, .f32⟩ : BufTy).Contents (Elt F)),  -- %105
    StableHlo.binary main_v104 main_v105 main_v106 (maximumf : (⟨S8000, .f32⟩ : BufTy).Contents (Elt F) → (⟨S8000, .f32⟩ : BufTy).Contents (Elt F) → (⟨S8000, .f32⟩ : BufTy).Contents (Elt F)),  -- %106
    StableHlo.unary main_v106 main_v107 (broadcastInDim S8000x1 ![0] bcast_S8000_S8000x1_0 : (⟨S8000, .f32⟩ : BufTy).Contents (Elt F) → (⟨S8000x1, .f32⟩ : BufTy).Contents (Elt F)),  -- %107
    StableHlo.unary main_v107 main_v108 (broadcastInDim S8000x128 ![0, 1] bcast_S8000x1_S8000x128_0_1 : (⟨S8000x1, .f32⟩ : BufTy).Contents (Elt F) → (⟨S8000x128, .f32⟩ : BufTy).Contents (Elt F)),  -- %108
    StableHlo.binary main_v100 main_v108 main_v109 (Host.divf : (⟨S8000x128, .f32⟩ : BufTy).Contents (Elt F) → (⟨S8000x128, .f32⟩ : BufTy).Contents (Elt F) → (⟨S8000x128, .f32⟩ : BufTy).Contents (Elt F)),  -- %109
    StableHlo.nullary main_c_22 (constantI S_ 32 0#32),  -- %c_22
    StableHlo.nullary main_c_23 (constantI S_ 32 7999#32) ]  -- %c_23

/-- Item 10 (window 2, within stage 6, the body of one call): 6 operations, %110 … %110. -/
abbrev q10 : List (HloOp τ sig (Elt F)) :=
  [ StableHlo.TRef.unary (.of main_c_22 : StableHlo.TRef sig ⟨S_, .i32⟩) (.of main_call2_v0 : StableHlo.TRef sig ⟨S_, .i32⟩) id,  -- %110 (call 2)
    StableHlo.TRef.unary (.of main_call2_v0 : StableHlo.TRef sig ⟨S_, .i32⟩) (.of main_call2_v1 : StableHlo.TRef sig ⟨S9600, .i32⟩) (broadcastInDim S9600 ![] bcast_S_S9600),  -- %110 (call 2)
    StableHlo.TRef.binary (.of main_call2_v1 : StableHlo.TRef sig ⟨S9600, .i32⟩) (.of main_arg5 : StableHlo.TRef sig ⟨S9600, .i32⟩) (.of main_call2_v2 : StableHlo.TRef sig ⟨S9600, .i32⟩) maxsi,  -- %110 (call 2)
    StableHlo.TRef.unary (.of main_c_23 : StableHlo.TRef sig ⟨S_, .i32⟩) (.of main_call2_v3 : StableHlo.TRef sig ⟨S_, .i32⟩) id,  -- %110 (call 2)
    StableHlo.TRef.unary (.of main_call2_v3 : StableHlo.TRef sig ⟨S_, .i32⟩) (.of main_call2_v4 : StableHlo.TRef sig ⟨S9600, .i32⟩) (broadcastInDim S9600 ![] bcast_S_S9600),  -- %110 (call 2)
    StableHlo.TRef.binary (.of main_call2_v4 : StableHlo.TRef sig ⟨S9600, .i32⟩) (.of main_call2_v2 : StableHlo.TRef sig ⟨S9600, .i32⟩) (.of main_v110 : StableHlo.TRef sig ⟨S9600, .i32⟩) minsi ]  -- %110 (call 2)

/-- Item 11 (window 2, within stage 6, the body of one call): 23 operations, %111 … %111. -/
abbrev q11 : List (HloOp τ sig (Elt F)) :=
  [ StableHlo.TRef.nullary (.of main_call3_c : StableHlo.TRef sig ⟨S_, .i32⟩) (constantI S_ 32 0#32),  -- %111 (call 3)
    StableHlo.TRef.unary (.of main_call3_c : StableHlo.TRef sig ⟨S_, .i32⟩) (.of main_call3_v0 : StableHlo.TRef sig ⟨S9600, .i32⟩) (broadcastInDim S9600 ![] bcast_S_S9600),  -- %111 (call 3)
    StableHlo.TRef.binary (.of main_v110 : StableHlo.TRef sig ⟨S9600, .i32⟩) (.of main_call3_v0 : StableHlo.TRef sig ⟨S9600, .i32⟩) (.of main_call3_v1 : StableHlo.TRef sig ⟨S9600, .i1⟩) (cmpi .slt),  -- %111 (call 3)
    StableHlo.TRef.nullary (.of main_call3_c_0 : StableHlo.TRef sig ⟨S_, .i32⟩) (constantI S_ 32 8000#32),  -- %111 (call 3)
    StableHlo.TRef.unary (.of main_call3_c_0 : StableHlo.TRef sig ⟨S_, .i32⟩) (.of main_call3_v2 : StableHlo.TRef sig ⟨S9600, .i32⟩) (broadcastInDim S9600 ![] bcast_S_S9600),  -- %111 (call 3)
    StableHlo.TRef.binary (.of main_v110 : StableHlo.TRef sig ⟨S9600, .i32⟩) (.of main_call3_v2 : StableHlo.TRef sig ⟨S9600, .i32⟩) (.of main_call3_v3 : StableHlo.TRef sig ⟨S9600, .i32⟩) addi,  -- %111 (call 3)
    StableHlo.TRef.ternary (.of main_call3_v1 : StableHlo.TRef sig ⟨S9600, .i1⟩) (.of main_call3_v3 : StableHlo.TRef sig ⟨S9600, .i32⟩) (.of main_v110 : StableHlo.TRef sig ⟨S9600, .i32⟩) (.of main_call3_v4 : StableHlo.TRef sig ⟨S9600, .i32⟩) select,  -- %111 (call 3)
    StableHlo.TRef.unary main_call3_call0.v0 (.of main_call3_v5 : StableHlo.TRef sig ⟨S9600x1, .i32⟩) (broadcastInDim S9600x1 ![0] bcast_S9600_S9600x1_0),  -- %111 (call 3)
    StableHlo.TRef.nullary (.of main_call3_c_1 : StableHlo.TRef sig ⟨S1, .i32⟩) (constantI S1 32 7999#32),  -- %111 (call 3)
    StableHlo.TRef.nullary (.of main_call3_c_2 : StableHlo.TRef sig ⟨S_, .i32⟩) (constantI S_ 32 0#32),  -- %111 (call 3)
    StableHlo.TRef.unary (.of main_call3_c_2 : StableHlo.TRef sig ⟨S_, .i32⟩) (.of main_call3_v6 : StableHlo.TRef sig ⟨S9600x1, .i32⟩) (broadcastInDim S9600x1 ![] bcast_S_S9600x1),  -- %111 (call 3)
    StableHlo.TRef.binary (.of main_call3_v5 : StableHlo.TRef sig ⟨S9600x1, .i32⟩) (.of main_call3_v6 : StableHlo.TRef sig ⟨S9600x1, .i32⟩) (.of main_call3_v7 : StableHlo.TRef sig ⟨S9600x1, .i1⟩) (cmpi .sge),  -- %111 (call 3)
    StableHlo.TRef.unary (.of main_call3_c_1 : StableHlo.TRef sig ⟨S1, .i32⟩) (.of main_call3_v8 : StableHlo.TRef sig ⟨S1x1, .i32⟩) (broadcastInDim S1x1 ![1] bcast_S1_S1x1_1),  -- %111 (call 3)
    StableHlo.TRef.unary (.of main_call3_v8 : StableHlo.TRef sig ⟨S1x1, .i32⟩) (.of main_call3_v9 : StableHlo.TRef sig ⟨S9600x1, .i32⟩) (broadcastInDim S9600x1 ![0, 1] bcast_S1x1_S9600x1_0_1),  -- %111 (call 3)
    StableHlo.TRef.binary (.of main_call3_v5 : StableHlo.TRef sig ⟨S9600x1, .i32⟩) (.of main_call3_v9 : StableHlo.TRef sig ⟨S9600x1, .i32⟩) (.of main_call3_v10 : StableHlo.TRef sig ⟨S9600x1, .i1⟩) (cmpi .sle),  -- %111 (call 3)
    StableHlo.TRef.binary (.of main_call3_v7 : StableHlo.TRef sig ⟨S9600x1, .i1⟩) (.of main_call3_v10 : StableHlo.TRef sig ⟨S9600x1, .i1⟩) (.of main_call3_v11 : StableHlo.TRef sig ⟨S9600x1, .i1⟩) andi,  -- %111 (call 3)
    StableHlo.TRef.nullary (.of main_call3_c_3 : StableHlo.TRef sig ⟨S_, .i1⟩) (constantI S_ 1 1#1),  -- %111 (call 3)
    StableHlo.TRef.binary (.of main_call3_v11 : StableHlo.TRef sig ⟨S9600x1, .i1⟩) (.of main_call3_c_3 : StableHlo.TRef sig ⟨S_, .i1⟩) (.of main_call3_v12 : StableHlo.TRef sig ⟨S9600, .i1⟩) (fun x v => Host.reduce IntOp.andi x v reducesTo_S9600x1_S9600_d1 h_S_),  -- %111 (call 3)
    StableHlo.TRef.binary (.of main_v109 : StableHlo.TRef sig ⟨S8000x128, .f32⟩) (.of main_call3_v5 : StableHlo.TRef sig ⟨S9600x1, .i32⟩) (.of main_call3_v13 : StableHlo.TRef sig ⟨S9600x128, .f32⟩) (fun x i => Host.gather gather_S8000x128_S9600x1_S9600x128_1_0_n_n_0_1_1128 x i),  -- %111 (call 3)
    StableHlo.TRef.unary (.of main_call3_v12 : StableHlo.TRef sig ⟨S9600, .i1⟩) (.of main_call3_v14 : StableHlo.TRef sig ⟨S9600x128, .i1⟩) (broadcastInDim S9600x128 ![0] bcast_S9600_S9600x128_0),  -- %111 (call 3)
    StableHlo.TRef.nullary (.of main_call3_cst : StableHlo.TRef sig ⟨S_, .f32⟩) (constant S_ .f32 0x7FC00000#32),  -- %111 (call 3)
    StableHlo.TRef.unary (.of main_call3_cst : StableHlo.TRef sig ⟨S_, .f32⟩) (.of main_call3_v15 : StableHlo.TRef sig ⟨S9600x128, .f32⟩) (broadcastInDim S9600x128 ![] bcast_S_S9600x128),  -- %111 (call 3)
    StableHlo.TRef.ternary (.of main_call3_v14 : StableHlo.TRef sig ⟨S9600x128, .i1⟩) (.of main_call3_v13 : StableHlo.TRef sig ⟨S9600x128, .f32⟩) (.of main_call3_v15 : StableHlo.TRef sig ⟨S9600x128, .f32⟩) (.of main_v111 : StableHlo.TRef sig ⟨S9600x128, .f32⟩) select ]  -- %111 (call 3)

/-- Item 12 (window 2, within stage 6, the body of one call): 2 operations, %112 … %112. -/
abbrev q12 : List (HloOp τ sig (Elt F)) :=
  [ StableHlo.TRef.unary (.of main_arg5 : StableHlo.TRef sig ⟨S9600, .i32⟩) (.of main_call4_v0 : StableHlo.TRef sig ⟨S9600x1, .i32⟩) (broadcastInDim S9600x1 ![0] bcast_S9600_S9600x1_0),  -- %112 (call 4)
    StableHlo.TRef.binary (.of main_arg11 : StableHlo.TRef sig ⟨S10002x128, .f32⟩) (.of main_call4_v0 : StableHlo.TRef sig ⟨S9600x1, .i32⟩) (.of main_v112 : StableHlo.TRef sig ⟨S9600x128, .f32⟩) (fun x i => Host.gather gather_S10002x128_S9600x1_S9600x128_1_0_n_n_0_1_1128 x i) ]  -- %112 (call 4)

/-- Item 13 (window 2, within stage 6): 4 operations, %c_24 … %115. -/
abbrev q13 : List (HloOp τ sig (Elt F)) :=
  [ StableHlo.nullary main_c_24 (constantI S_ 32 1#32),  -- %c_24
    StableHlo.unary main_c_24 main_v113 (broadcastInDim S9600 ![] bcast_S_S9600 : (⟨S_, .i32⟩ : BufTy).Contents (Elt F) → (⟨S9600, .i32⟩ : BufTy).Contents (Elt F)),  -- %113
    StableHlo.binary main_arg6 main_v113 main_v114 (cmpi .eq : (⟨S9600, .i32⟩ : BufTy).Contents (Elt F) → (⟨S9600, .i32⟩ : BufTy).Contents (Elt F) → (⟨S9600, .i1⟩ : BufTy).Contents (Elt F)),  -- %114
    StableHlo.unary main_v114 main_v115 (broadcastInDim S9600x1 ![0] bcast_S9600_S9600x1_0 : (⟨S9600, .i1⟩ : BufTy).Contents (Elt F) → (⟨S9600x1, .i1⟩ : BufTy).Contents (Elt F)) ]  -- %115

/-- Item 14 (window 2, within stage 6, the body of one call): 2 operations, %116 … %116. -/
abbrev q14 : List (HloOp τ sig (Elt F)) :=
  [ StableHlo.TRef.unary (.of main_v115 : StableHlo.TRef sig ⟨S9600x1, .i1⟩) (.of main_call5_v0 : StableHlo.TRef sig ⟨S9600x128, .i1⟩) (broadcastInDim S9600x128 ![0, 1] bcast_S9600x1_S9600x128_0_1),  -- %116 (call 5)
    StableHlo.TRef.ternary (.of main_call5_v0 : StableHlo.TRef sig ⟨S9600x128, .i1⟩) (.of main_v112 : StableHlo.TRef sig ⟨S9600x128, .f32⟩) (.of main_v111 : StableHlo.TRef sig ⟨S9600x128, .f32⟩) (.of main_v116 : StableHlo.TRef sig ⟨S9600x128, .f32⟩) select ]  -- %116 (call 5)

/-- Item 15 (window 2, within stage 7): 1 operation, %117 … %117. -/
abbrev q15 : List (HloOp τ sig (Elt F)) :=
  [ StableHlo.binary main_v116 main_arg12 main_v117 ((fun l r => Host.dotGeneral dot_S9600x128_S128x128_S9600x128_1_0_0_1_n_n none l r) : (⟨S9600x128, .f32⟩ : BufTy).Contents (Elt F) → (⟨S128x128, .f32⟩ : BufTy).Contents (Elt F) → (⟨S9600x128, .f32⟩ : BufTy).Contents (Elt F)) ]  -- %117

/-- Item 16 (window 2, within stage 8): 35 operations, %118 … %c_32. -/
abbrev q16 : List (HloOp τ sig (Elt F)) :=
  [ StableHlo.unary main_arg3 main_v118 ((extractStridedSlice S1x80000 ![0, 0] · slices_S2x80000_S1x80000_0_0) : (⟨S2x80000, .i32⟩ : BufTy).Contents (Elt F) → (⟨S1x80000, .i32⟩ : BufTy).Contents (Elt F)),  -- %118
    StableHlo.reshape main_v118 main_v119 rfl shapeCasts_S1x80000_S80000,  -- %119
    StableHlo.unary main_arg3 main_v120 ((extractStridedSlice S1x80000 ![1, 0] · slices_S2x80000_S1x80000_1_0) : (⟨S2x80000, .i32⟩ : BufTy).Contents (Elt F) → (⟨S1x80000, .i32⟩ : BufTy).Contents (Elt F)),  -- %120
    StableHlo.reshape main_v120 main_v121 rfl shapeCasts_S1x80000_S80000,  -- %121
    StableHlo.nullary main_cst_25 (constant S_ .f32 0x3F800000#32),  -- %cst_25
    StableHlo.unary main_cst_25 main_v122 (broadcastInDim S80000 ![] bcast_S_S80000 : (⟨S_, .f32⟩ : BufTy).Contents (Elt F) → (⟨S80000, .f32⟩ : BufTy).Contents (Elt F)),  -- %122
    StableHlo.nullary main_cst_26 (constant S_ .f32 0x00000000#32),  -- %cst_26
    StableHlo.unary main_cst_26 main_v123 (broadcastInDim S9600 ![] bcast_S_S9600 : (⟨S_, .f32⟩ : BufTy).Contents (Elt F) → (⟨S9600, .f32⟩ : BufTy).Contents (Elt F)),  -- %123
    StableHlo.unary main_v121 main_v124 (broadcastInDim S80000x1 ![0] bcast_S80000_S80000x1_0 : (⟨S80000, .i32⟩ : BufTy).Contents (Elt F) → (⟨S80000x1, .i32⟩ : BufTy).Contents (Elt F)),  -- %124
    StableHlo.ternary main_v123 main_v124 main_v122 main_v125 ((fun x i u => Host.scatterAdd scatter_S9600_S80000x1_S80000_n_0_0_1 x i u) : (⟨S9600, .f32⟩ : BufTy).Contents (Elt F) → (⟨S80000x1, .i32⟩ : BufTy).Contents (Elt F) → (⟨S80000, .f32⟩ : BufTy).Contents (Elt F) → (⟨S9600, .f32⟩ : BufTy).Contents (Elt F)),  -- %125
    StableHlo.nullary main_cst_27 (constant S_ .f32 0x3F800000#32),  -- %cst_27
    StableHlo.unary main_cst_27 main_v126 (broadcastInDim S9600 ![] bcast_S_S9600 : (⟨S_, .f32⟩ : BufTy).Contents (Elt F) → (⟨S9600, .f32⟩ : BufTy).Contents (Elt F)),  -- %126
    StableHlo.binary main_v125 main_v126 main_v127 (addf : (⟨S9600, .f32⟩ : BufTy).Contents (Elt F) → (⟨S9600, .f32⟩ : BufTy).Contents (Elt F) → (⟨S9600, .f32⟩ : BufTy).Contents (Elt F)),  -- %127
    StableHlo.unary main_v127 main_v128 (Host.rsqrt : (⟨S9600, .f32⟩ : BufTy).Contents (Elt F) → (⟨S9600, .f32⟩ : BufTy).Contents (Elt F)),  -- %128
    StableHlo.nullary main_c_28 (constantI S_ 32 0#32),  -- %c_28
    StableHlo.unary main_c_28 main_v129 (broadcastInDim S80000 ![] bcast_S_S80000 : (⟨S_, .i32⟩ : BufTy).Contents (Elt F) → (⟨S80000, .i32⟩ : BufTy).Contents (Elt F)),  -- %129
    StableHlo.binary main_v119 main_v129 main_v130 (cmpi .slt : (⟨S80000, .i32⟩ : BufTy).Contents (Elt F) → (⟨S80000, .i32⟩ : BufTy).Contents (Elt F) → (⟨S80000, .i1⟩ : BufTy).Contents (Elt F)),  -- %130
    StableHlo.nullary main_c_29 (constantI S_ 32 9600#32),  -- %c_29
    StableHlo.unary main_c_29 main_v131 (broadcastInDim S80000 ![] bcast_S_S80000 : (⟨S_, .i32⟩ : BufTy).Contents (Elt F) → (⟨S80000, .i32⟩ : BufTy).Contents (Elt F)),  -- %131
    StableHlo.binary main_v119 main_v131 main_v132 (addi : (⟨S80000, .i32⟩ : BufTy).Contents (Elt F) → (⟨S80000, .i32⟩ : BufTy).Contents (Elt F) → (⟨S80000, .i32⟩ : BufTy).Contents (Elt F)),  -- %132
    StableHlo.ternary main_v130 main_v132 main_v119 main_v133 (select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)),  -- %133
    StableHlo.unary main_v133 main_v134 (broadcastInDim S80000x1 ![0] bcast_S80000_S80000x1_0 : (⟨S80000, .i32⟩ : BufTy).Contents (Elt F) → (⟨S80000x1, .i32⟩ : BufTy).Contents (Elt F)),  -- %134
    StableHlo.binary main_v128 main_v134 main_v135 ((fun x i => Host.gather gather_S9600_S80000x1_S80000_n_0_n_n_0_1_1 x i) : (⟨S9600, .f32⟩ : BufTy).Contents (Elt F) → (⟨S80000x1, .i32⟩ : BufTy).Contents (Elt F) → (⟨S80000, .f32⟩ : BufTy).Contents (Elt F)),  -- %135
    StableHlo.nullary main_c_30 (constantI S_ 32 0#32),  -- %c_30
    StableHlo.unary main_c_30 main_v136 (broadcastInDim S80000 ![] bcast_S_S80000 : (⟨S_, .i32⟩ : BufTy).Contents (Elt F) → (⟨S80000, .i32⟩ : BufTy).Contents (Elt F)),  -- %136
    StableHlo.binary main_v121 main_v136 main_v137 (cmpi .slt : (⟨S80000, .i32⟩ : BufTy).Contents (Elt F) → (⟨S80000, .i32⟩ : BufTy).Contents (Elt F) → (⟨S80000, .i1⟩ : BufTy).Contents (Elt F)),  -- %137
    StableHlo.nullary main_c_31 (constantI S_ 32 9600#32),  -- %c_31
    StableHlo.unary main_c_31 main_v138 (broadcastInDim S80000 ![] bcast_S_S80000 : (⟨S_, .i32⟩ : BufTy).Contents (Elt F) → (⟨S80000, .i32⟩ : BufTy).Contents (Elt F)),  -- %138
    StableHlo.binary main_v121 main_v138 main_v139 (addi : (⟨S80000, .i32⟩ : BufTy).Contents (Elt F) → (⟨S80000, .i32⟩ : BufTy).Contents (Elt F) → (⟨S80000, .i32⟩ : BufTy).Contents (Elt F)),  -- %139
    StableHlo.ternary main_v137 main_v139 main_v121 main_v140 (select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)),  -- %140
    StableHlo.unary main_v140 main_v141 (broadcastInDim S80000x1 ![0] bcast_S80000_S80000x1_0 : (⟨S80000, .i32⟩ : BufTy).Contents (Elt F) → (⟨S80000x1, .i32⟩ : BufTy).Contents (Elt F)),  -- %141
    StableHlo.binary main_v128 main_v141 main_v142 ((fun x i => Host.gather gather_S9600_S80000x1_S80000_n_0_n_n_0_1_1 x i) : (⟨S9600, .f32⟩ : BufTy).Contents (Elt F) → (⟨S80000x1, .i32⟩ : BufTy).Contents (Elt F) → (⟨S80000, .f32⟩ : BufTy).Contents (Elt F)),  -- %142
    StableHlo.binary main_v135 main_v142 main_v143 (mulf : (⟨S80000, .f32⟩ : BufTy).Contents (Elt F) → (⟨S80000, .f32⟩ : BufTy).Contents (Elt F) → (⟨S80000, .f32⟩ : BufTy).Contents (Elt F)),  -- %143
    StableHlo.unary main_v143 main_v144 (broadcastInDim S80000x1 ![0] bcast_S80000_S80000x1_0 : (⟨S80000, .f32⟩ : BufTy).Contents (Elt F) → (⟨S80000x1, .f32⟩ : BufTy).Contents (Elt F)),  -- %144
    StableHlo.nullary main_c_32 (constantI S_ 32 0#32) ]  -- %c_32

/-- Item 17 (window 3, within stage 8): 15 operations, %145 … %157. -/
abbrev q17 : List (HloOp τ sig (Elt F)) :=
  [ StableHlo.unary main_c_32 main_v145 (broadcastInDim S80000 ![] bcast_S_S80000 : (⟨S_, .i32⟩ : BufTy).Contents (Elt F) → (⟨S80000, .i32⟩ : BufTy).Contents (Elt F)),  -- %145
    StableHlo.binary main_v119 main_v145 main_v146 (cmpi .slt : (⟨S80000, .i32⟩ : BufTy).Contents (Elt F) → (⟨S80000, .i32⟩ : BufTy).Contents (Elt F) → (⟨S80000, .i1⟩ : BufTy).Contents (Elt F)),  -- %146
    StableHlo.nullary main_c_33 (constantI S_ 32 9600#32),  -- %c_33
    StableHlo.unary main_c_33 main_v147 (broadcastInDim S80000 ![] bcast_S_S80000 : (⟨S_, .i32⟩ : BufTy).Contents (Elt F) → (⟨S80000, .i32⟩ : BufTy).Contents (Elt F)),  -- %147
    StableHlo.binary main_v119 main_v147 main_v148 (addi : (⟨S80000, .i32⟩ : BufTy).Contents (Elt F) → (⟨S80000, .i32⟩ : BufTy).Contents (Elt F) → (⟨S80000, .i32⟩ : BufTy).Contents (Elt F)),  -- %148
    StableHlo.ternary main_v146 main_v148 main_v119 main_v149 (select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)),  -- %149
    StableHlo.unary main_v149 main_v150 (broadcastInDim S80000x1 ![0] bcast_S80000_S80000x1_0 : (⟨S80000, .i32⟩ : BufTy).Contents (Elt F) → (⟨S80000x1, .i32⟩ : BufTy).Contents (Elt F)),  -- %150
    StableHlo.binary main_v117 main_v150 main_v151 ((fun x i => Host.gather gather_S9600x128_S80000x1_S80000x128_1_0_n_n_0_1_1128 x i) : (⟨S9600x128, .f32⟩ : BufTy).Contents (Elt F) → (⟨S80000x1, .i32⟩ : BufTy).Contents (Elt F) → (⟨S80000x128, .f32⟩ : BufTy).Contents (Elt F)),  -- %151
    StableHlo.unary main_v144 main_v152 (broadcastInDim S80000x128 ![0, 1] bcast_S80000x1_S80000x128_0_1 : (⟨S80000x1, .f32⟩ : BufTy).Contents (Elt F) → (⟨S80000x128, .f32⟩ : BufTy).Contents (Elt F)),  -- %152
    StableHlo.binary main_v151 main_v152 main_v153 (mulf : (⟨S80000x128, .f32⟩ : BufTy).Contents (Elt F) → (⟨S80000x128, .f32⟩ : BufTy).Contents (Elt F) → (⟨S80000x128, .f32⟩ : BufTy).Contents (Elt F)),  -- %153
    StableHlo.nullary main_cst_34 (constant S_ .f32 0x00000000#32),  -- %cst_34
    StableHlo.unary main_cst_34 main_v154 (broadcastInDim S9600x128 ![] bcast_S_S9600x128 : (⟨S_, .f32⟩ : BufTy).Contents (Elt F) → (⟨S9600x128, .f32⟩ : BufTy).Contents (Elt F)),  -- %154
    StableHlo.unary main_v121 main_v155 (broadcastInDim S80000x1 ![0] bcast_S80000_S80000x1_0 : (⟨S80000, .i32⟩ : BufTy).Contents (Elt F) → (⟨S80000x1, .i32⟩ : BufTy).Contents (Elt F)),  -- %155
    StableHlo.ternary main_v154 main_v155 main_v153 main_v156 ((fun x i u => Host.scatterAdd scatter_S9600x128_S80000x1_S80000x128_1_0_0_1 x i u) : (⟨S9600x128, .f32⟩ : BufTy).Contents (Elt F) → (⟨S80000x1, .i32⟩ : BufTy).Contents (Elt F) → (⟨S80000x128, .f32⟩ : BufTy).Contents (Elt F) → (⟨S9600x128, .f32⟩ : BufTy).Contents (Elt F)),  -- %156
    StableHlo.binary main_v128 main_v128 main_v157 (mulf : (⟨S9600, .f32⟩ : BufTy).Contents (Elt F) → (⟨S9600, .f32⟩ : BufTy).Contents (Elt F) → (⟨S9600, .f32⟩ : BufTy).Contents (Elt F)) ]  -- %157

/-- Item 18 (window 3, within stage 9): 7 operations, %158 … %164. -/
abbrev q18 : List (HloOp τ sig (Elt F)) :=
  [ StableHlo.unary main_v157 main_v158 (broadcastInDim S9600x1 ![0] bcast_S9600_S9600x1_0 : (⟨S9600, .f32⟩ : BufTy).Contents (Elt F) → (⟨S9600x1, .f32⟩ : BufTy).Contents (Elt F)),  -- %158
    StableHlo.unary main_v158 main_v159 (broadcastInDim S9600x128 ![0, 1] bcast_S9600x1_S9600x128_0_1 : (⟨S9600x1, .f32⟩ : BufTy).Contents (Elt F) → (⟨S9600x128, .f32⟩ : BufTy).Contents (Elt F)),  -- %159
    StableHlo.binary main_v117 main_v159 main_v160 (mulf : (⟨S9600x128, .f32⟩ : BufTy).Contents (Elt F) → (⟨S9600x128, .f32⟩ : BufTy).Contents (Elt F) → (⟨S9600x128, .f32⟩ : BufTy).Contents (Elt F)),  -- %160
    StableHlo.binary main_v156 main_v160 main_v161 (addf : (⟨S9600x128, .f32⟩ : BufTy).Contents (Elt F) → (⟨S9600x128, .f32⟩ : BufTy).Contents (Elt F) → (⟨S9600x128, .f32⟩ : BufTy).Contents (Elt F)),  -- %161
    StableHlo.unary main_arg13 main_v162 (broadcastInDim S1x128 ![1] bcast_S128_S1x128_1 : (⟨S128, .f32⟩ : BufTy).Contents (Elt F) → (⟨S1x128, .f32⟩ : BufTy).Contents (Elt F)),  -- %162
    StableHlo.unary main_v162 main_v163 (broadcastInDim S9600x128 ![0, 1] bcast_S1x128_S9600x128_0_1 : (⟨S1x128, .f32⟩ : BufTy).Contents (Elt F) → (⟨S9600x128, .f32⟩ : BufTy).Contents (Elt F)),  -- %163
    StableHlo.binary main_v161 main_v163 main_v164 (addf : (⟨S9600x128, .f32⟩ : BufTy).Contents (Elt F) → (⟨S9600x128, .f32⟩ : BufTy).Contents (Elt F) → (⟨S9600x128, .f32⟩ : BufTy).Contents (Elt F)) ]  -- %164

/-- Item 19 (window 3, within stage 9, the body of one call): 3 operations, %165 … %165. -/
abbrev q19 : List (HloOp τ sig (Elt F)) :=
  [ StableHlo.TRef.nullary (.of main_call6_cst : StableHlo.TRef sig ⟨S_, .f32⟩) (constant S_ .f32 0x00000000#32),  -- %165 (call 6)
    StableHlo.TRef.unary (.of main_call6_cst : StableHlo.TRef sig ⟨S_, .f32⟩) (.of main_call6_v0 : StableHlo.TRef sig ⟨S9600x128, .f32⟩) (broadcastInDim S9600x128 ![] bcast_S_S9600x128),  -- %165 (call 6)
    StableHlo.TRef.binary (.of main_v164 : StableHlo.TRef sig ⟨S9600x128, .f32⟩) (.of main_call6_v0 : StableHlo.TRef sig ⟨S9600x128, .f32⟩) (.of main_v165 : StableHlo.TRef sig ⟨S9600x128, .f32⟩) maximumf ]  -- %165 (call 6)

/-- Item 20 (window 3, within stage 10): 20 operations, %cst_35 … %181. -/
abbrev q20 : List (HloOp τ sig (Elt F)) :=
  [ StableHlo.nullary main_cst_35 (constant S_ .f32 0x00000000#32),  -- %cst_35
    StableHlo.unary main_cst_35 main_v166 (broadcastInDim S8x128 ![] bcast_S_S8x128 : (⟨S_, .f32⟩ : BufTy).Contents (Elt F) → (⟨S8x128, .f32⟩ : BufTy).Contents (Elt F)),  -- %166
    StableHlo.unary main_arg4 main_v167 (broadcastInDim S9600x1 ![0] bcast_S9600_S9600x1_0 : (⟨S9600, .i32⟩ : BufTy).Contents (Elt F) → (⟨S9600x1, .i32⟩ : BufTy).Contents (Elt F)),  -- %167
    StableHlo.ternary main_v166 main_v167 main_v165 main_v168 ((fun x i u => Host.scatterAdd scatter_S8x128_S9600x1_S9600x128_1_0_0_1 x i u) : (⟨S8x128, .f32⟩ : BufTy).Contents (Elt F) → (⟨S9600x1, .i32⟩ : BufTy).Contents (Elt F) → (⟨S9600x128, .f32⟩ : BufTy).Contents (Elt F) → (⟨S8x128, .f32⟩ : BufTy).Contents (Elt F)),  -- %168
    StableHlo.nullary main_cst_36 (constant S_ .f32 0x3F800000#32),  -- %cst_36
    StableHlo.unary main_cst_36 main_v169 (broadcastInDim S9600 ![] bcast_S_S9600 : (⟨S_, .f32⟩ : BufTy).Contents (Elt F) → (⟨S9600, .f32⟩ : BufTy).Contents (Elt F)),  -- %169
    StableHlo.nullary main_cst_37 (constant S_ .f32 0x00000000#32),  -- %cst_37
    StableHlo.unary main_cst_37 main_v170 (broadcastInDim S8 ![] bcast_S_S8 : (⟨S_, .f32⟩ : BufTy).Contents (Elt F) → (⟨S8, .f32⟩ : BufTy).Contents (Elt F)),  -- %170
    StableHlo.unary main_arg4 main_v171 (broadcastInDim S9600x1 ![0] bcast_S9600_S9600x1_0 : (⟨S9600, .i32⟩ : BufTy).Contents (Elt F) → (⟨S9600x1, .i32⟩ : BufTy).Contents (Elt F)),  -- %171
    StableHlo.ternary main_v170 main_v171 main_v169 main_v172 ((fun x i u => Host.scatterAdd scatter_S8_S9600x1_S9600_n_0_0_1 x i u) : (⟨S8, .f32⟩ : BufTy).Contents (Elt F) → (⟨S9600x1, .i32⟩ : BufTy).Contents (Elt F) → (⟨S9600, .f32⟩ : BufTy).Contents (Elt F) → (⟨S8, .f32⟩ : BufTy).Contents (Elt F)),  -- %172
    StableHlo.nullary main_cst_38 (constant S_ .f32 0x3F800000#32),  -- %cst_38
    StableHlo.unary main_cst_38 main_v173 (broadcastInDim S8 ![] bcast_S_S8 : (⟨S_, .f32⟩ : BufTy).Contents (Elt F) → (⟨S8, .f32⟩ : BufTy).Contents (Elt F)),  -- %173
    StableHlo.binary main_v172 main_v173 main_v174 (maximumf : (⟨S8, .f32⟩ : BufTy).Contents (Elt F) → (⟨S8, .f32⟩ : BufTy).Contents (Elt F) → (⟨S8, .f32⟩ : BufTy).Contents (Elt F)),  -- %174
    StableHlo.unary main_v174 main_v175 (broadcastInDim S8x1 ![0] bcast_S8_S8x1_0 : (⟨S8, .f32⟩ : BufTy).Contents (Elt F) → (⟨S8x1, .f32⟩ : BufTy).Contents (Elt F)),  -- %175
    StableHlo.unary main_v175 main_v176 (broadcastInDim S8x128 ![0, 1] bcast_S8x1_S8x128_0_1 : (⟨S8x1, .f32⟩ : BufTy).Contents (Elt F) → (⟨S8x128, .f32⟩ : BufTy).Contents (Elt F)),  -- %176
    StableHlo.binary main_v168 main_v176 main_v177 (Host.divf : (⟨S8x128, .f32⟩ : BufTy).Contents (Elt F) → (⟨S8x128, .f32⟩ : BufTy).Contents (Elt F) → (⟨S8x128, .f32⟩ : BufTy).Contents (Elt F)),  -- %177
    StableHlo.binary main_v177 main_arg14 main_v178 ((fun l r => Host.dotGeneral dot_S8x128_S128x64_S8x64_1_0_0_1_n_n none l r) : (⟨S8x128, .f32⟩ : BufTy).Contents (Elt F) → (⟨S128x64, .f32⟩ : BufTy).Contents (Elt F) → (⟨S8x64, .f32⟩ : BufTy).Contents (Elt F)),  -- %178
    StableHlo.unary main_arg15 main_v179 (broadcastInDim S1x64 ![1] bcast_S64_S1x64_1 : (⟨S64, .f32⟩ : BufTy).Contents (Elt F) → (⟨S1x64, .f32⟩ : BufTy).Contents (Elt F)),  -- %179
    StableHlo.unary main_v179 main_v180 (broadcastInDim S8x64 ![0, 1] bcast_S1x64_S8x64_0_1 : (⟨S1x64, .f32⟩ : BufTy).Contents (Elt F) → (⟨S8x64, .f32⟩ : BufTy).Contents (Elt F)),  -- %180
    StableHlo.binary main_v178 main_v180 main_v181 (addf : (⟨S8x64, .f32⟩ : BufTy).Contents (Elt F) → (⟨S8x64, .f32⟩ : BufTy).Contents (Elt F) → (⟨S8x64, .f32⟩ : BufTy).Contents (Elt F)) ]  -- %181

/-- Item 21 (window 3, within stage 10, the body of one call): 3 operations, %182 … %182. -/
abbrev q21 : List (HloOp τ sig (Elt F)) :=
  [ StableHlo.TRef.nullary (.of main_call7_cst : StableHlo.TRef sig ⟨S_, .f32⟩) (constant S_ .f32 0x00000000#32),  -- %182 (call 7)
    StableHlo.TRef.unary (.of main_call7_cst : StableHlo.TRef sig ⟨S_, .f32⟩) (.of main_call7_v0 : StableHlo.TRef sig ⟨S8x64, .f32⟩) (broadcastInDim S8x64 ![] bcast_S_S8x64),  -- %182 (call 7)
    StableHlo.TRef.binary (.of main_v181 : StableHlo.TRef sig ⟨S8x64, .f32⟩) (.of main_call7_v0 : StableHlo.TRef sig ⟨S8x64, .f32⟩) (.of main_v182 : StableHlo.TRef sig ⟨S8x64, .f32⟩) maximumf ]  -- %182 (call 7)

/-- Item 22 (window 3, within stage 10): 4 operations, %183 … %186. -/
abbrev q22 : List (HloOp τ sig (Elt F)) :=
  [ StableHlo.binary main_v182 main_arg16 main_v183 ((fun l r => Host.dotGeneral dot_S8x64_S64x32_S8x32_1_0_0_1_n_n none l r) : (⟨S8x64, .f32⟩ : BufTy).Contents (Elt F) → (⟨S64x32, .f32⟩ : BufTy).Contents (Elt F) → (⟨S8x32, .f32⟩ : BufTy).Contents (Elt F)),  -- %183
    StableHlo.unary main_arg17 main_v184 (broadcastInDim S1x32 ![1] bcast_S32_S1x32_1 : (⟨S32, .f32⟩ : BufTy).Contents (Elt F) → (⟨S1x32, .f32⟩ : BufTy).Contents (Elt F)),  -- %184
    StableHlo.unary main_v184 main_v185 (broadcastInDim S8x32 ![0, 1] bcast_S1x32_S8x32_0_1 : (⟨S1x32, .f32⟩ : BufTy).Contents (Elt F) → (⟨S8x32, .f32⟩ : BufTy).Contents (Elt F)),  -- %185
    StableHlo.binary main_v183 main_v185 main_v186 (addf : (⟨S8x32, .f32⟩ : BufTy).Contents (Elt F) → (⟨S8x32, .f32⟩ : BufTy).Contents (Elt F) → (⟨S8x32, .f32⟩ : BufTy).Contents (Elt F)) ]  -- %186

/-- Item 23 (window 3, within stage 10, the body of one call): 3 operations, %187 … %187. -/
abbrev q23 : List (HloOp τ sig (Elt F)) :=
  [ StableHlo.TRef.nullary (.of main_call8_cst : StableHlo.TRef sig ⟨S_, .f32⟩) (constant S_ .f32 0x00000000#32),  -- %187 (call 8)
    StableHlo.TRef.unary (.of main_call8_cst : StableHlo.TRef sig ⟨S_, .f32⟩) (.of main_call8_v0 : StableHlo.TRef sig ⟨S8x32, .f32⟩) (broadcastInDim S8x32 ![] bcast_S_S8x32),  -- %187 (call 8)
    StableHlo.TRef.binary (.of main_v186 : StableHlo.TRef sig ⟨S8x32, .f32⟩) (.of main_call8_v0 : StableHlo.TRef sig ⟨S8x32, .f32⟩) (.of main_v187 : StableHlo.TRef sig ⟨S8x32, .f32⟩) maximumf ]  -- %187 (call 8)

/-- Item 24 (window 3, within stage 10): 11 operations, %188 … %196. -/
abbrev q24 : List (HloOp τ sig (Elt F)) :=
  [ StableHlo.binary main_v187 main_arg18 main_v188 ((fun l r => Host.dotGeneral dot_S8x32_S32x1_S8x1_1_0_0_1_n_n none l r) : (⟨S8x32, .f32⟩ : BufTy).Contents (Elt F) → (⟨S32x1, .f32⟩ : BufTy).Contents (Elt F) → (⟨S8x1, .f32⟩ : BufTy).Contents (Elt F)),  -- %188
    StableHlo.unary main_arg19 main_v189 (broadcastInDim S1x1 ![1] bcast_S1_S1x1_1 : (⟨S1, .f32⟩ : BufTy).Contents (Elt F) → (⟨S1x1, .f32⟩ : BufTy).Contents (Elt F)),  -- %189
    StableHlo.unary main_v189 main_v190 (broadcastInDim S8x1 ![0, 1] bcast_S1x1_S8x1_0_1 : (⟨S1x1, .f32⟩ : BufTy).Contents (Elt F) → (⟨S8x1, .f32⟩ : BufTy).Contents (Elt F)),  -- %190
    StableHlo.binary main_v188 main_v190 main_v191 (addf : (⟨S8x1, .f32⟩ : BufTy).Contents (Elt F) → (⟨S8x1, .f32⟩ : BufTy).Contents (Elt F) → (⟨S8x1, .f32⟩ : BufTy).Contents (Elt F)),  -- %191
    StableHlo.unary main_v191 main_v192 (Host.negf : (⟨S8x1, .f32⟩ : BufTy).Contents (Elt F) → (⟨S8x1, .f32⟩ : BufTy).Contents (Elt F)),  -- %192
    StableHlo.unary main_v192 main_v193 (Host.exp : (⟨S8x1, .f32⟩ : BufTy).Contents (Elt F) → (⟨S8x1, .f32⟩ : BufTy).Contents (Elt F)),  -- %193
    StableHlo.nullary main_cst_39 (constant S_ .f32 0x3F800000#32),  -- %cst_39
    StableHlo.unary main_cst_39 main_v194 (broadcastInDim S8x1 ![] bcast_S_S8x1 : (⟨S_, .f32⟩ : BufTy).Contents (Elt F) → (⟨S8x1, .f32⟩ : BufTy).Contents (Elt F)),  -- %194
    StableHlo.binary main_v194 main_v193 main_v195 (addf : (⟨S8x1, .f32⟩ : BufTy).Contents (Elt F) → (⟨S8x1, .f32⟩ : BufTy).Contents (Elt F) → (⟨S8x1, .f32⟩ : BufTy).Contents (Elt F)),  -- %195
    StableHlo.nullary main_cst_40 (constant S_ .f32 0x3F800000#32),  -- %cst_40
    StableHlo.unary main_cst_40 main_v196 (broadcastInDim S8x1 ![] bcast_S_S8x1 : (⟨S_, .f32⟩ : BufTy).Contents (Elt F) → (⟨S8x1, .f32⟩ : BufTy).Contents (Elt F)) ]  -- %196

/-- Item 25 (window 4, within stage 10): 1 operation, %197 … %197. -/
abbrev q25 : List (HloOp τ sig (Elt F)) :=
  [ StableHlo.binary main_v196 main_v195 main_v197 (Host.divf : (⟨S8x1, .f32⟩ : BufTy).Contents (Elt F) → (⟨S8x1, .f32⟩ : BufTy).Contents (Elt F) → (⟨S8x1, .f32⟩ : BufTy).Contents (Elt F)) ]  -- %197

/-- A chain of straight lines is the straight line of their concatenation. -/
theorem chain_map_seq {Λ : Labels} : ∀ ls : List (List (HloOp τ sig (Elt F))),
    (Pipeline.chain (ls.map seq) : Prog (TpuEff nD τ sig (Elt F) Λ .tc) PUnit) = seq ls.flatten
  | [] => rfl
  | l :: ls => by rw [List.map_cons, Pipeline.chain_cons, List.flatten_cons, seq_append, chain_map_seq ls]

/-- Window 0 of @main is the chain of its items, the last one in tail position: both sides unfold to the same
    sequence of operations, each call's body against the item that lists it. -/
theorem main_part0_eq (c : Dev nD) : main_part0 (F := F) c = (Pipeline.chainK [seq q0, seq q1, seq q2, seq q3] (seq q4) : Prog (TpuEff nD τ sig (Elt F) (Pipeline.Sig Λ₀ (Fin 0) fun p => (pcfgs (F := F) p).Adm) .tc) PUnit) := by
  chain_rfl

/-- Window 1 of @main is the chain of its items, the last one in tail position: both sides unfold to the same
    sequence of operations, each call's body against the item that lists it. -/
theorem main_part1_eq (c : Dev nD) : main_part1 (F := F) c = (Pipeline.chainK [seq q5, seq q6, seq q7] (seq q8) : Prog (TpuEff nD τ sig (Elt F) (Pipeline.Sig Λ₀ (Fin 0) fun p => (pcfgs (F := F) p).Adm) .tc) PUnit) := by
  chain_rfl

/-- Window 2 of @main is the chain of its items, the last one in tail position: both sides unfold to the same
    sequence of operations, each call's body against the item that lists it. -/
theorem main_part2_eq (c : Dev nD) : main_part2 (F := F) c = (Pipeline.chainK [seq q9, seq q10, seq q11, seq q12, seq q13, seq q14, seq q15] (seq q16) : Prog (TpuEff nD τ sig (Elt F) (Pipeline.Sig Λ₀ (Fin 0) fun p => (pcfgs (F := F) p).Adm) .tc) PUnit) := by
  chain_rfl

/-- Window 3 of @main is the chain of its items, the last one in tail position: both sides unfold to the same
    sequence of operations, each call's body against the item that lists it. -/
theorem main_part3_eq (c : Dev nD) : main_part3 (F := F) c = (Pipeline.chainK [seq q17, seq q18, seq q19, seq q20, seq q21, seq q22, seq q23] (seq q24) : Prog (TpuEff nD τ sig (Elt F) (Pipeline.Sig Λ₀ (Fin 0) fun p => (pcfgs (F := F) p).Adm) .tc) PUnit) := by
  chain_rfl

/-- The last window of @main is the chain of its one item. -/
theorem main_part4_eq (c : Dev nD) : main_part4 (F := F) c = (Pipeline.chain [seq q25] : Prog (TpuEff nD τ sig (Elt F) (Pipeline.Sig Λ₀ (Fin 0) fun p => (pcfgs (F := F) p).Adm) .tc) PUnit) := by
  chain_rfl

/-- @main is the chain of all its items: the windows' equations, joined at each window boundary. -/
theorem main_chain (c : Dev nD) : main (F := F) c = (Pipeline.chain ([q0, q1, q2, q3, q4, q5, q6, q7, q8, q9, q10, q11, q12, q13, q14, q15, q16, q17, q18, q19, q20, q21, q22, q23, q24, q25].map seq) : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c >>= fun _ => main_part3 (F := F) c >>= fun _ => main_part4 (F := F) c) = _
  rewrite [main_part4_eq, main_part3_eq, Pipeline.chainK_bind_chain, main_part2_eq, Pipeline.chainK_bind_chain, main_part1_eq, Pipeline.chainK_bind_chain, main_part0_eq, Pipeline.chainK_bind_chain]
  chain_rfl

/-- The items, concatenated, are the stages, concatenated: the same operations in the same order. -/
theorem items_flatten : ([q0, q1, q2, q3, q4, q5, q6, q7, q8, q9, q10, q11, q12, q13, q14, q15, q16, q17, q18, q19, q20, q21, q22, q23, q24, q25] : List (List (HloOp τ sig (Elt F)))).flatten = ops := by
  chain_rfl

/-- @main is the straight line of its operations. -/
theorem main_eq (c : Dev nD) : main (F := F) c = seq ops := by
  rw [main_chain, chain_map_seq, items_flatten]

/-! ## The side conditions of the run -/

set_option maxRecDepth 4000 in
/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- One operation of the builders touches TensorCore references only: its builder's own fact (the builder is read
    off the operation as written, nothing is unfolded to find it). -/
local macro "builder_sub" : tactic =>
  `(tactic| with_reducible first
      | exact unary_bufs_sub .. | exact binary_bufs_sub .. | exact nullary_bufs_sub .. | exact ternary_bufs_sub ..
      | exact reshape_bufs_sub ..)

/-- Closes `l.Forall fun op => op.bufs ⊆ tcRefs τ sig` for a literal line `l` of the builders' operations: the
    line is taken apart operation by operation, and each operation's part is its builder's own fact. -/
local macro "line_sub" : tactic =>
  `(tactic| repeat' first | refine (List.forall_cons _ _ _).2 ⟨?_, ?_⟩ | builder_sub | exact trivial)

/-- Closes `l.Forall fun op => op.fresh = ∅` for a literal line of the builders' operations: each determines its
    results, by computation. -/
local macro "line_fresh" : tactic =>
  `(tactic| repeat' first | refine (List.forall_cons _ _ _).2 ⟨?_, ?_⟩ | exact trivial | rfl)

theorem s0_sub : (s0 : List (HloOp τ sig (Elt F))).Forall fun op => op.bufs ⊆ tcRefs τ sig := by line_sub
theorem s0_fresh : (s0 : List (HloOp τ sig (Elt F))).Forall fun op => op.fresh = ∅ := by line_fresh
theorem s1_sub : (s1 : List (HloOp τ sig (Elt F))).Forall fun op => op.bufs ⊆ tcRefs τ sig := by line_sub
theorem s1_fresh : (s1 : List (HloOp τ sig (Elt F))).Forall fun op => op.fresh = ∅ := by line_fresh
theorem s2_sub : (s2 : List (HloOp τ sig (Elt F))).Forall fun op => op.bufs ⊆ tcRefs τ sig := by line_sub
theorem s2_fresh : (s2 : List (HloOp τ sig (Elt F))).Forall fun op => op.fresh = ∅ := by line_fresh
theorem s3_sub : (s3 : List (HloOp τ sig (Elt F))).Forall fun op => op.bufs ⊆ tcRefs τ sig := by line_sub
theorem s3_fresh : (s3 : List (HloOp τ sig (Elt F))).Forall fun op => op.fresh = ∅ := by line_fresh
theorem s4_sub : (s4 : List (HloOp τ sig (Elt F))).Forall fun op => op.bufs ⊆ tcRefs τ sig := by line_sub
theorem s4_fresh : (s4 : List (HloOp τ sig (Elt F))).Forall fun op => op.fresh = ∅ := by line_fresh
theorem s5_sub : (s5 : List (HloOp τ sig (Elt F))).Forall fun op => op.bufs ⊆ tcRefs τ sig := by line_sub
theorem s5_fresh : (s5 : List (HloOp τ sig (Elt F))).Forall fun op => op.fresh = ∅ := by line_fresh
theorem s6_sub : (s6 : List (HloOp τ sig (Elt F))).Forall fun op => op.bufs ⊆ tcRefs τ sig := by line_sub
theorem s6_fresh : (s6 : List (HloOp τ sig (Elt F))).Forall fun op => op.fresh = ∅ := by line_fresh
theorem s7_sub : (s7 : List (HloOp τ sig (Elt F))).Forall fun op => op.bufs ⊆ tcRefs τ sig := by line_sub
theorem s7_fresh : (s7 : List (HloOp τ sig (Elt F))).Forall fun op => op.fresh = ∅ := by line_fresh
theorem s8_sub : (s8 : List (HloOp τ sig (Elt F))).Forall fun op => op.bufs ⊆ tcRefs τ sig := by line_sub
theorem s8_fresh : (s8 : List (HloOp τ sig (Elt F))).Forall fun op => op.fresh = ∅ := by line_fresh
theorem s9_sub : (s9 : List (HloOp τ sig (Elt F))).Forall fun op => op.bufs ⊆ tcRefs τ sig := by line_sub
theorem s9_fresh : (s9 : List (HloOp τ sig (Elt F))).Forall fun op => op.fresh = ∅ := by line_fresh
theorem s10_sub : (s10 : List (HloOp τ sig (Elt F))).Forall fun op => op.bufs ⊆ tcRefs τ sig := by line_sub
theorem s10_fresh : (s10 : List (HloOp τ sig (Elt F))).Forall fun op => op.fresh = ∅ := by line_fresh

/-- Every operation of @main touches TensorCore references only. -/
theorem ops_sub : (ops : List (HloOp τ sig (Elt F))).Forall fun op => op.bufs ⊆ tcRefs τ sig :=
  List.forall_append.2 ⟨List.forall_append.2 ⟨List.forall_append.2 ⟨List.forall_append.2 ⟨List.forall_append.2 ⟨List.forall_append.2 ⟨List.forall_append.2 ⟨List.forall_append.2 ⟨List.forall_append.2 ⟨List.forall_append.2 ⟨s0_sub, s1_sub⟩, s2_sub⟩, s3_sub⟩, s4_sub⟩, s5_sub⟩, s6_sub⟩, s7_sub⟩, s8_sub⟩, s9_sub⟩, s10_sub⟩

/-- Every operation of @main determines its results. -/
theorem ops_fresh : ∀ op ∈ (ops : List (HloOp τ sig (Elt F))), op.fresh = ∅ :=
  List.forall_iff_forall_mem.1 (List.forall_append.2 ⟨List.forall_append.2 ⟨List.forall_append.2 ⟨List.forall_append.2 ⟨List.forall_append.2 ⟨List.forall_append.2 ⟨List.forall_append.2 ⟨List.forall_append.2 ⟨List.forall_append.2 ⟨List.forall_append.2 ⟨s0_fresh, s1_fresh⟩, s2_fresh⟩, s3_fresh⟩, s4_fresh⟩, s5_fresh⟩, s6_fresh⟩, s7_fresh⟩, s8_fresh⟩, s9_fresh⟩, s10_fresh⟩)

/-! ## The run -/

/-- On every device, for any float values, from any memory with zero counters: every weakly fair execution of
    @main terminates with each TensorCore buffer at the fold of the operations' results over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The fold over the whole line is the folds over the stages, one after the other. -/
theorem after_ops (V : Valuation τ sig (Elt F)) :
    after ops V = after s10 (after s9 (after s8 (after s7 (after s6 (after s5 (after s4 (after s3 (after s2 (after s1 (after s0 V)))))))))) := by
  show after (s0 ++ s1 ++ s2 ++ s3 ++ s4 ++ s5 ++ s6 ++ s7 ++ s8 ++ s9 ++ s10) V = _
  rw [StableHlo.after_append, StableHlo.after_append, StableHlo.after_append, StableHlo.after_append, StableHlo.after_append,
    StableHlo.after_append, StableHlo.after_append, StableHlo.after_append, StableHlo.after_append, StableHlo.after_append]

end Cert.ReferenceIdeal.RefRun

end
-- ==== Proof.Stages.lean ====
/-
  The idealized reference program's buffers, stage by stage.

  The reference is a straight line of host operations; cut into eleven consecutive stages, its buffer contents after
  stage j are the stage's fold over the contents after stage j - 1, from the launch memory.  No operation writes an
  argument array, so an argument read after any stage is the launch memory's; a value computed in one stage and read two
  stages later is carried through the stage between unchanged.
-/
import proofs.«127647_j11982958756658_1_alg».proof.Proof.RefRun
import Idealize.ShloMosaic.PureOps.Ideal

/-- Reads the reference's buffers back through the stages named: unfolds those stages' folds and the stages' lists,
    reads each operation's result at its own buffer and skips it at any other (the references' inequalities decided). -/
macro "ref_walk" "[" ls:Lean.Parser.Tactic.simpLemma,* "]" : tactic =>
  `(tactic| simp (disch := decide) only [$ls,*, Cert.ReferenceIdeal.RefRun.s0, Cert.ReferenceIdeal.RefRun.s1, Cert.ReferenceIdeal.RefRun.s2, Cert.ReferenceIdeal.RefRun.s3, Cert.ReferenceIdeal.RefRun.s4, Cert.ReferenceIdeal.RefRun.s5, Cert.ReferenceIdeal.RefRun.s6, Cert.ReferenceIdeal.RefRun.s7, Cert.ReferenceIdeal.RefRun.s8, Cert.ReferenceIdeal.RefRun.s9, Cert.ReferenceIdeal.RefRun.s10,
      Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne'])

noncomputable section

namespace Cert.ReferenceIdeal.Stages

open Cert.ReferenceIdeal Cert.ReferenceIdeal.RefRun
open Idealize.ShloMosaic Idealize.ShloMosaic.TcCoe Idealize.SL.Sem Idealize.ShloMosaic.StableHlo

variable (m' : (ℓ : Loc nD τ sig) → Buf (Elt Ideal) ℓ) (c : Dev nD)

/-- The reference's buffer contents after its stage 0. -/
def VR0 : Valuation τ sig (Elt Ideal) := after (s0 (F := Ideal)) (launchContents m' c)
/-- The reference's buffer contents after its stage 1. -/
def VR1 : Valuation τ sig (Elt Ideal) := after (s1 (F := Ideal)) (VR0 m' c)
/-- The reference's buffer contents after its stage 2. -/
def VR2 : Valuation τ sig (Elt Ideal) := after (s2 (F := Ideal)) (VR1 m' c)
/-- The reference's buffer contents after its stage 3. -/
def VR3 : Valuation τ sig (Elt Ideal) := after (s3 (F := Ideal)) (VR2 m' c)
/-- The reference's buffer contents after its stage 4. -/
def VR4 : Valuation τ sig (Elt Ideal) := after (s4 (F := Ideal)) (VR3 m' c)
/-- The reference's buffer contents after its stage 5. -/
def VR5 : Valuation τ sig (Elt Ideal) := after (s5 (F := Ideal)) (VR4 m' c)
/-- The reference's buffer contents after its stage 6. -/
def VR6 : Valuation τ sig (Elt Ideal) := after (s6 (F := Ideal)) (VR5 m' c)
/-- The reference's buffer contents after its stage 7. -/
def VR7 : Valuation τ sig (Elt Ideal) := after (s7 (F := Ideal)) (VR6 m' c)
/-- The reference's buffer contents after its stage 8. -/
def VR8 : Valuation τ sig (Elt Ideal) := after (s8 (F := Ideal)) (VR7 m' c)
/-- The reference's buffer contents after its stage 9. -/
def VR9 : Valuation τ sig (Elt Ideal) := after (s9 (F := Ideal)) (VR8 m' c)
/-- The reference's buffer contents after its stage 10. -/
def VR10 : Valuation τ sig (Elt Ideal) := after (s10 (F := Ideal)) (VR9 m' c)

/-- The whole program's fold is the last stage's contents. -/
theorem final_eq : after (ops (F := Ideal)) (launchContents m' c) = VR10 m' c := by
  simp only [ops, StableHlo.after_append]
  rfl

/-! ## The arguments, read after a stage, are the launch memory's -/

theorem VR0_arg1 : VR0 m' c (Proc.devRef .tc main_arg1) = m' ((c.tc : Thread nD τ).loc main_arg1) := by
  ref_walk [VR0]
theorem VR1_arg8 : VR1 m' c (Proc.devRef .tc main_arg8) = m' ((c.tc : Thread nD τ).loc main_arg8) := by
  ref_walk [VR1, VR0]
theorem VR2_arg9 : VR2 m' c (Proc.devRef .tc main_arg9) = m' ((c.tc : Thread nD τ).loc main_arg9) := by
  ref_walk [VR2, VR1, VR0]
theorem VR3_arg1 : VR3 m' c (Proc.devRef .tc main_arg1) = m' ((c.tc : Thread nD τ).loc main_arg1) := by
  ref_walk [VR3, VR2, VR1, VR0]
theorem VR4_arg10 : VR4 m' c (Proc.devRef .tc main_arg10) = m' ((c.tc : Thread nD τ).loc main_arg10) := by
  ref_walk [VR4, VR3, VR2, VR1, VR0]
theorem VR5_arg2 : VR5 m' c (Proc.devRef .tc main_arg2) = m' ((c.tc : Thread nD τ).loc main_arg2) := by
  ref_walk [VR5, VR4, VR3, VR2, VR1, VR0]
theorem VR5_arg5 : VR5 m' c (Proc.devRef .tc main_arg5) = m' ((c.tc : Thread nD τ).loc main_arg5) := by
  ref_walk [VR5, VR4, VR3, VR2, VR1, VR0]
theorem VR5_arg6 : VR5 m' c (Proc.devRef .tc main_arg6) = m' ((c.tc : Thread nD τ).loc main_arg6) := by
  ref_walk [VR5, VR4, VR3, VR2, VR1, VR0]
theorem VR5_arg11 : VR5 m' c (Proc.devRef .tc main_arg11) = m' ((c.tc : Thread nD τ).loc main_arg11) := by
  ref_walk [VR5, VR4, VR3, VR2, VR1, VR0]
theorem VR6_arg12 : VR6 m' c (Proc.devRef .tc main_arg12) = m' ((c.tc : Thread nD τ).loc main_arg12) := by
  ref_walk [VR6, VR5, VR4, VR3, VR2, VR1, VR0]
theorem VR7_arg3 : VR7 m' c (Proc.devRef .tc main_arg3) = m' ((c.tc : Thread nD τ).loc main_arg3) := by
  ref_walk [VR7, VR6, VR5, VR4, VR3, VR2, VR1, VR0]
theorem VR8_arg13 : VR8 m' c (Proc.devRef .tc main_arg13) = m' ((c.tc : Thread nD τ).loc main_arg13) := by
  ref_walk [VR8, VR7, VR6, VR5, VR4, VR3, VR2, VR1, VR0]
theorem VR9_arg4 : VR9 m' c (Proc.devRef .tc main_arg4) = m' ((c.tc : Thread nD τ).loc main_arg4) := by
  ref_walk [VR9, VR8, VR7, VR6, VR5, VR4, VR3, VR2, VR1, VR0]
theorem VR9_arg14 : VR9 m' c (Proc.devRef .tc main_arg14) = m' ((c.tc : Thread nD τ).loc main_arg14) := by
  ref_walk [VR9, VR8, VR7, VR6, VR5, VR4, VR3, VR2, VR1, VR0]
theorem VR9_arg15 : VR9 m' c (Proc.devRef .tc main_arg15) = m' ((c.tc : Thread nD τ).loc main_arg15) := by
  ref_walk [VR9, VR8, VR7, VR6, VR5, VR4, VR3, VR2, VR1, VR0]
theorem VR9_arg16 : VR9 m' c (Proc.devRef .tc main_arg16) = m' ((c.tc : Thread nD τ).loc main_arg16) := by
  ref_walk [VR9, VR8, VR7, VR6, VR5, VR4, VR3, VR2, VR1, VR0]
theorem VR9_arg17 : VR9 m' c (Proc.devRef .tc main_arg17) = m' ((c.tc : Thread nD τ).loc main_arg17) := by
  ref_walk [VR9, VR8, VR7, VR6, VR5, VR4, VR3, VR2, VR1, VR0]
theorem VR9_arg18 : VR9 m' c (Proc.devRef .tc main_arg18) = m' ((c.tc : Thread nD τ).loc main_arg18) := by
  ref_walk [VR9, VR8, VR7, VR6, VR5, VR4, VR3, VR2, VR1, VR0]
theorem VR9_arg19 : VR9 m' c (Proc.devRef .tc main_arg19) = m' ((c.tc : Thread nD τ).loc main_arg19) := by
  ref_walk [VR9, VR8, VR7, VR6, VR5, VR4, VR3, VR2, VR1, VR0]

/-! ## A matrix product computed in one stage, carried through the next -/

theorem VR1_v0 : VR1 m' c (Proc.devRef .tc main_v0) = VR0 m' c (Proc.devRef .tc main_v0) := by
  ref_walk [VR1]
theorem VR4_v49 : VR4 m' c (Proc.devRef .tc main_v49) = VR3 m' c (Proc.devRef .tc main_v49) := by
  ref_walk [VR4]
theorem VR8_v117 : VR8 m' c (Proc.devRef .tc main_v117) = VR7 m' c (Proc.devRef .tc main_v117) := by
  ref_walk [VR8]

end Cert.ReferenceIdeal.Stages

end
-- ==== Proof.RefFrame.lean ====
/-
  The idealized reference program's run, read at its result and at its arguments.

  The reference is a straight line of host operations, each writing one buffer of its own, and none of the buffers
  written is an argument array. So every argument array holds, after the whole line, what the launch memory holds there;
  the result buffer holds the last stage's contents; and every weakly fair execution terminates with both.
-/
import proofs.«127647_j11982958756658_1_alg».proof.Defs
import proofs.«127647_j11982958756658_1_alg».proof.Proof.Stages
import proofs.«127647_j11982958756658_1_alg».proof.Proof.Gen.Pre_finite_inputs

set_option maxRecDepth 16384

noncomputable section

namespace Cert.ReferenceIdeal.RefFrame

open Cert.ReferenceIdeal Cert.ReferenceIdeal.RefRun Cert.ReferenceIdeal.Stages
open Idealize.ShloMosaic Idealize.ShloMosaic.TcCoe Idealize.SL.Sem Idealize.ShloMosaic.StableHlo

/-! ## The buffers the operations write -/

/-- The buffers stage 0's operations write: their results. -/
abbrev W0 : List (Ref sig .tc) :=
  [main_v0]

/-- The buffers stage 1's operations write: their results. -/
abbrev W1 : List (Ref sig .tc) :=
  [main_v1, main_v2, main_v3, main_v4, main_cst, main_v5, main_cst_0, main_v6, main_v7, main_v8, main_cst_1,
   main_v9, main_v10, main_v11, main_c, main_v12, main_v13, main_c_2, main_v14, main_v15, main_v16, main_v17,
   main_v18, main_c_3, main_v19, main_v20, main_c_4, main_v21, main_v22, main_v23, main_v24, main_v25, main_v26,
   main_v27, main_c_5, main_v28, main_v29, main_c_6, main_v30, main_v31, main_v32, main_v33, main_v34, main_v35,
   main_v36, main_cst_7, main_v37, main_v38, main_v39, main_v40]

/-- The buffers stage 2's operations write: their results. -/
abbrev W2 : List (Ref sig .tc) :=
  [main_v41, main_v42, main_v43, main_v44, main_v45, main_v46, main_v47, main_call0_cst, main_call0_v0, main_v48]

/-- The buffers stage 3's operations write: their results. -/
abbrev W3 : List (Ref sig .tc) :=
  [main_v49]

/-- The buffers stage 4's operations write: their results. -/
abbrev W4 : List (Ref sig .tc) :=
  [main_v50, main_v51, main_v52, main_v53, main_cst_8, main_v54, main_cst_9, main_v55, main_v56, main_v57,
   main_cst_10, main_v58, main_v59, main_v60, main_c_11, main_v61, main_v62, main_c_12, main_v63, main_v64,
   main_v65, main_v66, main_v67, main_c_13, main_v68, main_v69, main_c_14, main_v70, main_v71, main_v72, main_v73,
   main_v74, main_v75, main_v76, main_c_15, main_v77, main_v78, main_c_16, main_v79, main_v80, main_v81, main_v82,
   main_v83, main_v84, main_v85, main_cst_17, main_v86, main_v87, main_v88, main_v89]

/-- The buffers stage 5's operations write: their results. -/
abbrev W5 : List (Ref sig .tc) :=
  [main_v90, main_v91, main_v92, main_v93, main_v94, main_v95, main_v96, main_call1_cst, main_call1_v0, main_v97]

/-- The buffers stage 6's operations write: their results. -/
abbrev W6 : List (Ref sig .tc) :=
  [main_cst_18, main_v98, main_v99, main_v100, main_cst_19, main_v101, main_cst_20, main_v102, main_v103,
   main_v104, main_cst_21, main_v105, main_v106, main_v107, main_v108, main_v109, main_c_22, main_c_23,
   main_call2_v0, main_call2_v1, main_call2_v2, main_call2_v3, main_call2_v4, main_v110, main_call3_c,
   main_call3_v0, main_call3_v1, main_call3_c_0, main_call3_v2, main_call3_v3, main_call3_v4, main_call3_v5,
   main_call3_c_1, main_call3_c_2, main_call3_v6, main_call3_v7, main_call3_v8, main_call3_v9, main_call3_v10,
   main_call3_v11, main_call3_c_3, main_call3_v12, main_call3_v13, main_call3_v14, main_call3_cst, main_call3_v15,
   main_v111, main_call4_v0, main_v112, main_c_24, main_v113, main_v114, main_v115, main_call5_v0, main_v116]

/-- The buffers stage 7's operations write: their results. -/
abbrev W7 : List (Ref sig .tc) :=
  [main_v117]

/-- The buffers stage 8's operations write: their results. -/
abbrev W8 : List (Ref sig .tc) :=
  [main_v118, main_v119, main_v120, main_v121, main_cst_25, main_v122, main_cst_26, main_v123, main_v124,
   main_v125, main_cst_27, main_v126, main_v127, main_v128, main_c_28, main_v129, main_v130, main_c_29, main_v131,
   main_v132, main_v133, main_v134, main_v135, main_c_30, main_v136, main_v137, main_c_31, main_v138, main_v139,
   main_v140, main_v141, main_v142, main_v143, main_v144, main_c_32, main_v145, main_v146, main_c_33, main_v147,
   main_v148, main_v149, main_v150, main_v151, main_v152, main_v153, main_cst_34, main_v154, main_v155, main_v156,
   main_v157]

/-- The buffers stage 9's operations write: their results. -/
abbrev W9 : List (Ref sig .tc) :=
  [main_v158, main_v159, main_v160, main_v161, main_v162, main_v163, main_v164, main_call6_cst, main_call6_v0,
   main_v165]

/-- The buffers stage 10's operations write: their results. -/
abbrev W10 : List (Ref sig .tc) :=
  [main_cst_35, main_v166, main_v167, main_v168, main_cst_36, main_v169, main_cst_37, main_v170, main_v171,
   main_v172, main_cst_38, main_v173, main_v174, main_v175, main_v176, main_v177, main_v178, main_v179, main_v180,
   main_v181, main_call7_cst, main_call7_v0, main_v182, main_v183, main_v184, main_v185, main_v186, main_call8_cst,
   main_call8_v0, main_v187, main_v188, main_v189, main_v190, main_v191, main_v192, main_v193, main_cst_39,
   main_v194, main_v195, main_cst_40, main_v196, main_v197]

/-- Stage 0's operations write buffers of `W0` only. -/
theorem sub_s0 : (s0 (F := Ideal)).Forall fun op => op.writes ⊆ (W0.map (Proc.devRef (τ := τ) .tc)).toFinset := by
  simp only [s0, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- Stage 1's operations write buffers of `W1` only. -/
theorem sub_s1 : (s1 (F := Ideal)).Forall fun op => op.writes ⊆ (W1.map (Proc.devRef (τ := τ) .tc)).toFinset := by
  simp only [s1, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- Stage 2's operations write buffers of `W2` only. -/
theorem sub_s2 : (s2 (F := Ideal)).Forall fun op => op.writes ⊆ (W2.map (Proc.devRef (τ := τ) .tc)).toFinset := by
  simp only [s2, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- Stage 3's operations write buffers of `W3` only. -/
theorem sub_s3 : (s3 (F := Ideal)).Forall fun op => op.writes ⊆ (W3.map (Proc.devRef (τ := τ) .tc)).toFinset := by
  simp only [s3, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- Stage 4's operations write buffers of `W4` only. -/
theorem sub_s4 : (s4 (F := Ideal)).Forall fun op => op.writes ⊆ (W4.map (Proc.devRef (τ := τ) .tc)).toFinset := by
  simp only [s4, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- Stage 5's operations write buffers of `W5` only. -/
theorem sub_s5 : (s5 (F := Ideal)).Forall fun op => op.writes ⊆ (W5.map (Proc.devRef (τ := τ) .tc)).toFinset := by
  simp only [s5, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- Stage 6's operations write buffers of `W6` only. -/
theorem sub_s6 : (s6 (F := Ideal)).Forall fun op => op.writes ⊆ (W6.map (Proc.devRef (τ := τ) .tc)).toFinset := by
  simp only [s6, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- Stage 7's operations write buffers of `W7` only. -/
theorem sub_s7 : (s7 (F := Ideal)).Forall fun op => op.writes ⊆ (W7.map (Proc.devRef (τ := τ) .tc)).toFinset := by
  simp only [s7, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- Stage 8's operations write buffers of `W8` only. -/
theorem sub_s8 : (s8 (F := Ideal)).Forall fun op => op.writes ⊆ (W8.map (Proc.devRef (τ := τ) .tc)).toFinset := by
  simp only [s8, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- Stage 9's operations write buffers of `W9` only. -/
theorem sub_s9 : (s9 (F := Ideal)).Forall fun op => op.writes ⊆ (W9.map (Proc.devRef (τ := τ) .tc)).toFinset := by
  simp only [s9, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- Stage 10's operations write buffers of `W10` only. -/
theorem sub_s10 : (s10 (F := Ideal)).Forall fun op => op.writes ⊆ (W10.map (Proc.devRef (τ := τ) .tc)).toFinset := by
  simp only [s10, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- Every buffer the reference's operations write. -/
def written : List (Ref sig .tc) := W0 ++ W1 ++ W2 ++ W3 ++ W4 ++ W5 ++ W6 ++ W7 ++ W8 ++ W9 ++ W10

/-- A buffer no operation writes holds, after the whole line, what it held before it. -/
theorem kept (V : Valuation τ sig (Elt Ideal)) (r : Ref sig .tc) (hr : r ∉ written) :
    after (ops (F := Ideal)) V (Proc.devRef .tc r) = V (Proc.devRef .tc r) := by
  simp only [written, List.mem_append, not_or] at hr
  obtain ⟨⟨⟨⟨⟨⟨⟨⟨⟨⟨h0, h1⟩, h2⟩, h3⟩, h4⟩, h5⟩, h6⟩, h7⟩, h8⟩, h9⟩, h10⟩ := hr
  simp only [ops, StableHlo.after_append]
  rw [after_of_writes_sub s10 _ sub_s10 h10,
    after_of_writes_sub s9 _ sub_s9 h9,
    after_of_writes_sub s8 _ sub_s8 h8,
    after_of_writes_sub s7 _ sub_s7 h7,
    after_of_writes_sub s6 _ sub_s6 h6,
    after_of_writes_sub s5 _ sub_s5 h5,
    after_of_writes_sub s4 _ sub_s4 h4,
    after_of_writes_sub s3 _ sub_s3 h3,
    after_of_writes_sub s2 _ sub_s2 h2,
    after_of_writes_sub s1 _ sub_s1 h1,
    after_of_writes_sub s0 _ sub_s0 h0]

/-! ## The arguments after the whole line are the launch memory's -/

variable (m' : (ℓ : Loc nD τ sig) → Buf (Elt Ideal) ℓ) (c : Dev nD)

theorem arg_kept_0 : after (ops (F := Ideal)) (launchContents m' c) (Proc.devRef .tc main_arg0) = m' ((c.tc : Thread nD τ).loc main_arg0) :=
  (kept (launchContents m' c) main_arg0 (by decide)).trans rfl
theorem arg_kept_1 : after (ops (F := Ideal)) (launchContents m' c) (Proc.devRef .tc main_arg1) = m' ((c.tc : Thread nD τ).loc main_arg1) :=
  (kept (launchContents m' c) main_arg1 (by decide)).trans rfl
theorem arg_kept_2 : after (ops (F := Ideal)) (launchContents m' c) (Proc.devRef .tc main_arg2) = m' ((c.tc : Thread nD τ).loc main_arg2) :=
  (kept (launchContents m' c) main_arg2 (by decide)).trans rfl
theorem arg_kept_3 : after (ops (F := Ideal)) (launchContents m' c) (Proc.devRef .tc main_arg3) = m' ((c.tc : Thread nD τ).loc main_arg3) :=
  (kept (launchContents m' c) main_arg3 (by decide)).trans rfl
theorem arg_kept_4 : after (ops (F := Ideal)) (launchContents m' c) (Proc.devRef .tc main_arg4) = m' ((c.tc : Thread nD τ).loc main_arg4) :=
  (kept (launchContents m' c) main_arg4 (by decide)).trans rfl
theorem arg_kept_5 : after (ops (F := Ideal)) (launchContents m' c) (Proc.devRef .tc main_arg5) = m' ((c.tc : Thread nD τ).loc main_arg5) :=
  (kept (launchContents m' c) main_arg5 (by decide)).trans rfl
theorem arg_kept_6 : after (ops (F := Ideal)) (launchContents m' c) (Proc.devRef .tc main_arg6) = m' ((c.tc : Thread nD τ).loc main_arg6) :=
  (kept (launchContents m' c) main_arg6 (by decide)).trans rfl
theorem arg_kept_7 : after (ops (F := Ideal)) (launchContents m' c) (Proc.devRef .tc main_arg7) = m' ((c.tc : Thread nD τ).loc main_arg7) :=
  (kept (launchContents m' c) main_arg7 (by decide)).trans rfl
theorem arg_kept_8 : after (ops (F := Ideal)) (launchContents m' c) (Proc.devRef .tc main_arg8) = m' ((c.tc : Thread nD τ).loc main_arg8) :=
  (kept (launchContents m' c) main_arg8 (by decide)).trans rfl
theorem arg_kept_9 : after (ops (F := Ideal)) (launchContents m' c) (Proc.devRef .tc main_arg9) = m' ((c.tc : Thread nD τ).loc main_arg9) :=
  (kept (launchContents m' c) main_arg9 (by decide)).trans rfl
theorem arg_kept_10 : after (ops (F := Ideal)) (launchContents m' c) (Proc.devRef .tc main_arg10) = m' ((c.tc : Thread nD τ).loc main_arg10) :=
  (kept (launchContents m' c) main_arg10 (by decide)).trans rfl
theorem arg_kept_11 : after (ops (F := Ideal)) (launchContents m' c) (Proc.devRef .tc main_arg11) = m' ((c.tc : Thread nD τ).loc main_arg11) :=
  (kept (launchContents m' c) main_arg11 (by decide)).trans rfl
theorem arg_kept_12 : after (ops (F := Ideal)) (launchContents m' c) (Proc.devRef .tc main_arg12) = m' ((c.tc : Thread nD τ).loc main_arg12) :=
  (kept (launchContents m' c) main_arg12 (by decide)).trans rfl
theorem arg_kept_13 : after (ops (F := Ideal)) (launchContents m' c) (Proc.devRef .tc main_arg13) = m' ((c.tc : Thread nD τ).loc main_arg13) :=
  (kept (launchContents m' c) main_arg13 (by decide)).trans rfl
theorem arg_kept_14 : after (ops (F := Ideal)) (launchContents m' c) (Proc.devRef .tc main_arg14) = m' ((c.tc : Thread nD τ).loc main_arg14) :=
  (kept (launchContents m' c) main_arg14 (by decide)).trans rfl
theorem arg_kept_15 : after (ops (F := Ideal)) (launchContents m' c) (Proc.devRef .tc main_arg15) = m' ((c.tc : Thread nD τ).loc main_arg15) :=
  (kept (launchContents m' c) main_arg15 (by decide)).trans rfl
theorem arg_kept_16 : after (ops (F := Ideal)) (launchContents m' c) (Proc.devRef .tc main_arg16) = m' ((c.tc : Thread nD τ).loc main_arg16) :=
  (kept (launchContents m' c) main_arg16 (by decide)).trans rfl
theorem arg_kept_17 : after (ops (F := Ideal)) (launchContents m' c) (Proc.devRef .tc main_arg17) = m' ((c.tc : Thread nD τ).loc main_arg17) :=
  (kept (launchContents m' c) main_arg17 (by decide)).trans rfl
theorem arg_kept_18 : after (ops (F := Ideal)) (launchContents m' c) (Proc.devRef .tc main_arg18) = m' ((c.tc : Thread nD τ).loc main_arg18) :=
  (kept (launchContents m' c) main_arg18 (by decide)).trans rfl
theorem arg_kept_19 : after (ops (F := Ideal)) (launchContents m' c) (Proc.devRef .tc main_arg19) = m' ((c.tc : Thread nD τ).loc main_arg19) :=
  (kept (launchContents m' c) main_arg19 (by decide)).trans rfl

/-! ## The run, read at the result and at the arguments -/

/-- Every weakly fair execution of the reference terminates without a fault; the result buffer ends at the last stage's
    contents and every argument array as launched. -/
theorem run_result (ρ' : Dev nD → PrngReg) : θ_run defs (onTc (τ := τ) (main (F := Ideal))) ⟨m', fun _ => 0, ρ'⟩ (fun r => ∀ c : Dev nD,
      r.2.mem ((c.tc : Thread nD τ).loc main_v197) = VR10 m' c (Proc.devRef .tc main_v197)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17)
      ∧ r.2.mem ((c.tc : Thread nD τ).loc main_arg18) = m' ((c.tc : Thread nD τ).loc main_arg18)
      ∧ r.2.mem ((c.tc : Thread nD τ).loc main_arg19) = m' ((c.tc : Thread nD τ).loc main_arg19)) :=
  (θ_run defs _ _).mono (fun r h c =>
    ⟨(h c main_v197).trans (congrFun (final_eq m' c) _),
      (h c main_arg0).trans (arg_kept_0 m' c),
      (h c main_arg1).trans (arg_kept_1 m' c),
      (h c main_arg2).trans (arg_kept_2 m' c),
      (h c main_arg3).trans (arg_kept_3 m' c),
      (h c main_arg4).trans (arg_kept_4 m' c),
      (h c main_arg5).trans (arg_kept_5 m' c),
      (h c main_arg6).trans (arg_kept_6 m' c),
      (h c main_arg7).trans (arg_kept_7 m' c),
      (h c main_arg8).trans (arg_kept_8 m' c),
      (h c main_arg9).trans (arg_kept_9 m' c),
      (h c main_arg10).trans (arg_kept_10 m' c),
      (h c main_arg11).trans (arg_kept_11 m' c),
      (h c main_arg12).trans (arg_kept_12 m' c),
      (h c main_arg13).trans (arg_kept_13 m' c),
      (h c main_arg14).trans (arg_kept_14 m' c),
      (h c main_arg15).trans (arg_kept_15 m' c),
      (h c main_arg16).trans (arg_kept_16 m' c),
      (h c main_arg17).trans (arg_kept_17 m' c),
      (h c main_arg18).trans (arg_kept_18 m' c),
      (h c main_arg19).trans (arg_kept_19 m' c)⟩)
    (RefRun.run (F := Ideal) m' ρ')

/-- The reference runs and its argument arrays end unchanged. -/
theorem frame_ri : Cert.frame_ReferenceIdeal := fun m ρ _ =>
  (θ_run defs _ _).mono (fun _ h c => (h c).2) (run_result m ρ)

end Cert.ReferenceIdeal.RefFrame

end
-- ==== Proof.Walk.lean ====
/-
  Reading the idealized kernel program's buffers back through its segments.

  The program's buffer contents at a segment boundary are a fold from the launch memory: a stretch of host operations
  rewrites the buffers its operations write, a region rewrites its own arrays.  Every value has one buffer, written once;
  so a buffer read at a boundary is, walking the fold backwards, either the launch contents (an argument), a region's
  output array, or its defining host operation applied to buffers read the same way.  The lemmas here are the region
  steps of that walk in the form a rewriting pass can use, and `kernel_walk` is the pass.
-/
import proofs.«127647_j11982958756658_1_alg».proof.Proof.Gen.KernelIdeal.Frame
import Idealize.ShloMosaic.Lib.StableHlo.Run

noncomputable section

namespace Cert.KernelIdeal.Walk

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- A buffer that is none of region 0's arrays holds after the region what it held at its entry. -/
theorem W2_skip (b : Ref sig .tc) (hb : ∀ w, Pipeline.arrRef spec0 w ≠ b) :
    W2 m ρ c (no_index (Proc.devRef .tc b)) = W1 m ρ c (Proc.devRef .tc b) := W2_of_ne m ρ c b hb
/-- A buffer that is none of region 1's arrays holds after the region what it held at its entry. -/
theorem W4_skip (b : Ref sig .tc) (hb : ∀ w, Pipeline.arrRef spec1 w ≠ b) :
    W4 m ρ c (no_index (Proc.devRef .tc b)) = W3 m ρ c (Proc.devRef .tc b) := W4_of_ne m ρ c b hb
/-- A buffer that is none of region 2's arrays holds after the region what it held at its entry. -/
theorem W6_skip (b : Ref sig .tc) (hb : ∀ w, Pipeline.arrRef spec2 w ≠ b) :
    W6 m ρ c (no_index (Proc.devRef .tc b)) = W5 m ρ c (Proc.devRef .tc b) := W6_of_ne m ρ c b hb
/-- A buffer that is none of region 3's arrays holds after the region what it held at its entry. -/
theorem W8_skip (b : Ref sig .tc) (hb : ∀ w, Pipeline.arrRef spec3 w ≠ b) :
    W8 m ρ c (no_index (Proc.devRef .tc b)) = W7 m ρ c (Proc.devRef .tc b) := W8_of_ne m ρ c b hb
/-- A buffer that is none of region 4's arrays holds after the region what it held at its entry. -/
theorem W16_skip (b : Ref sig .tc) (hb : ∀ w, Pipeline.arrRef spec4 w ≠ b) :
    W16 m ρ c (no_index (Proc.devRef .tc b)) = W15 m ρ c (Proc.devRef .tc b) := W16_of_ne m ρ c b hb
/-- A buffer that is none of region 5's arrays holds after the region what it held at its entry. -/
theorem W18_skip (b : Ref sig .tc) (hb : ∀ w, Pipeline.arrRef spec5 w ≠ b) :
    W18 m ρ c (no_index (Proc.devRef .tc b)) = W17 m ρ c (Proc.devRef .tc b) := W18_of_ne m ρ c b hb

/-- The launch contents of a core's buffer are the launch memory's. -/
theorem W0_apply (b : Ref sig .tc) : W0 m ρ c (Proc.devRef .tc b) = m ((c.tc : Thread nD τ).loc b) := rfl

end Cert.KernelIdeal.Walk

/-- Walks a buffer read at a segment boundary of the idealized kernel program back to region outputs and launch
    contents: unfolds the boundaries' folds and the stretches' lists, reads each host operation's result at its own
    buffer and skips it at any other (the references' inequalities decided), and steps over a region at a buffer that is
    none of its arrays. -/
macro "kernel_walk" : tactic =>
  `(tactic| (simp (disch := decide) only [Cert.KernelIdeal.Gen.W23, Cert.KernelIdeal.Gen.W22, Cert.KernelIdeal.Gen.W21, Cert.KernelIdeal.Gen.W20,
      Cert.KernelIdeal.Gen.W19, Cert.KernelIdeal.Gen.W17, Cert.KernelIdeal.Gen.W15, Cert.KernelIdeal.Gen.W14, Cert.KernelIdeal.Gen.W13,
      Cert.KernelIdeal.Gen.W12, Cert.KernelIdeal.Gen.W11, Cert.KernelIdeal.Gen.W10, Cert.KernelIdeal.Gen.W9, Cert.KernelIdeal.Gen.W7,
      Cert.KernelIdeal.Gen.W5, Cert.KernelIdeal.Gen.W3, Cert.KernelIdeal.Gen.W1,
      Cert.KernelIdeal.Gen.V1, Cert.KernelIdeal.Gen.V3, Cert.KernelIdeal.Gen.V5, Cert.KernelIdeal.Gen.V7, Cert.KernelIdeal.Gen.V15, Cert.KernelIdeal.Gen.V17,
      Cert.KernelIdeal.Gen.hostOps0, Cert.KernelIdeal.Gen.hostOps1, Cert.KernelIdeal.Gen.hostOps2, Cert.KernelIdeal.Gen.hostOps3,
      Cert.KernelIdeal.Gen.hostOps4, Cert.KernelIdeal.Gen.hostOps4_1, Cert.KernelIdeal.Gen.hostOps4_2, Cert.KernelIdeal.Gen.hostOps4_3,
      Cert.KernelIdeal.Gen.hostOps4_4, Cert.KernelIdeal.Gen.hostOps4_5, Cert.KernelIdeal.Gen.hostOps4_6, Cert.KernelIdeal.Gen.hostOps5,
      Cert.KernelIdeal.Gen.hostOps6, Cert.KernelIdeal.Gen.hostOps6_1, Cert.KernelIdeal.Gen.hostOps6_2, Cert.KernelIdeal.Gen.hostOps6_3,
      Cert.KernelIdeal.Gen.hostOps6_4,
      Cert.KernelIdeal.Walk.W2_skip, Cert.KernelIdeal.Walk.W4_skip, Cert.KernelIdeal.Walk.W6_skip, Cert.KernelIdeal.Walk.W8_skip,
      Cert.KernelIdeal.Walk.W16_skip, Cert.KernelIdeal.Walk.W18_skip,
      Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne']))

end
-- ==== Proof.BridgeBase.lean ====
/-
  Common ground for comparing the two idealized programs.

  Both programs are run from memories that agree on the twenty argument arrays.  The kernel program's buffers are read
  back through its segments and the reference's through its stages by one rewriting pass (`bridge_walk`), which leaves
  on each side a term of host operations over three kinds of atoms: launch contents of arguments, a region's output
  array on the kernel side, and the contents after an earlier stage on the reference side.
-/
import proofs.«127647_j11982958756658_1_alg».proof.Proof.Walk
import proofs.«127647_j11982958756658_1_alg».proof.Proof.Stages

/-- Reads both programs' buffers back: the kernel program's through its segment boundaries and regions, the
    reference's through the stages named in the list. -/
macro "bridge_walk" "[" ls:Lean.Parser.Tactic.simpLemma,* "]" : tactic =>
  `(tactic| simp (disch := decide) only [$ls,*, Cert.KernelIdeal.Gen.W23, Cert.KernelIdeal.Gen.W22, Cert.KernelIdeal.Gen.W21, Cert.KernelIdeal.Gen.W20,
      Cert.KernelIdeal.Gen.W19, Cert.KernelIdeal.Gen.W17, Cert.KernelIdeal.Gen.W15, Cert.KernelIdeal.Gen.W14, Cert.KernelIdeal.Gen.W13,
      Cert.KernelIdeal.Gen.W12, Cert.KernelIdeal.Gen.W11, Cert.KernelIdeal.Gen.W10, Cert.KernelIdeal.Gen.W9, Cert.KernelIdeal.Gen.W7,
      Cert.KernelIdeal.Gen.W5, Cert.KernelIdeal.Gen.W3, Cert.KernelIdeal.Gen.W1,
      Cert.KernelIdeal.Gen.V1, Cert.KernelIdeal.Gen.V3, Cert.KernelIdeal.Gen.V5, Cert.KernelIdeal.Gen.V7, Cert.KernelIdeal.Gen.V15, Cert.KernelIdeal.Gen.V17,
      Cert.KernelIdeal.Gen.hostOps0, Cert.KernelIdeal.Gen.hostOps1, Cert.KernelIdeal.Gen.hostOps2, Cert.KernelIdeal.Gen.hostOps3,
      Cert.KernelIdeal.Gen.hostOps4, Cert.KernelIdeal.Gen.hostOps4_1, Cert.KernelIdeal.Gen.hostOps4_2, Cert.KernelIdeal.Gen.hostOps4_3,
      Cert.KernelIdeal.Gen.hostOps4_4, Cert.KernelIdeal.Gen.hostOps4_5, Cert.KernelIdeal.Gen.hostOps4_6, Cert.KernelIdeal.Gen.hostOps5,
      Cert.KernelIdeal.Gen.hostOps6, Cert.KernelIdeal.Gen.hostOps6_1, Cert.KernelIdeal.Gen.hostOps6_2, Cert.KernelIdeal.Gen.hostOps6_3,
      Cert.KernelIdeal.Gen.hostOps6_4,
      Cert.KernelIdeal.Walk.W2_skip, Cert.KernelIdeal.Walk.W4_skip, Cert.KernelIdeal.Walk.W6_skip, Cert.KernelIdeal.Walk.W8_skip,
      Cert.KernelIdeal.Walk.W16_skip, Cert.KernelIdeal.Walk.W18_skip,
      Cert.ReferenceIdeal.RefRun.s0, Cert.ReferenceIdeal.RefRun.s1, Cert.ReferenceIdeal.RefRun.s2, Cert.ReferenceIdeal.RefRun.s3, Cert.ReferenceIdeal.RefRun.s4, Cert.ReferenceIdeal.RefRun.s5, Cert.ReferenceIdeal.RefRun.s6, Cert.ReferenceIdeal.RefRun.s7, Cert.ReferenceIdeal.RefRun.s8, Cert.ReferenceIdeal.RefRun.s9, Cert.ReferenceIdeal.RefRun.s10,
      Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne'])

noncomputable section

namespace Cert.Bridge

open Idealize.ShloMosaic Idealize.ShloMosaic.TcCoe Idealize.SL.Sem Idealize.ShloMosaic.StableHlo

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ} {c : Dev Cert.KernelIdeal.nD}

set_option maxHeartbeats 4000000 in
/-- The two launch memories agree on the twenty argument arrays (on core `c`). -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
    ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
    ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
    ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
    ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
    ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
    ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
    ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)

set_option maxHeartbeats 1000000 in
theorem Agree.a0 (h : Agree m m' c) : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) := h.1
set_option maxHeartbeats 1000000 in
theorem Agree.a1 (h : Agree m m' c) : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) := h.2.1
set_option maxHeartbeats 1000000 in
theorem Agree.a2 (h : Agree m m' c) : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) := h.2.2.1
set_option maxHeartbeats 1000000 in
theorem Agree.a3 (h : Agree m m' c) : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) := h.2.2.2.1
set_option maxHeartbeats 1000000 in
theorem Agree.a4 (h : Agree m m' c) : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) := h.2.2.2.2.1
set_option maxHeartbeats 1000000 in
theorem Agree.a5 (h : Agree m m' c) : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) := h.2.2.2.2.2.1
set_option maxHeartbeats 1000000 in
theorem Agree.a6 (h : Agree m m' c) : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) := h.2.2.2.2.2.2.1
set_option maxHeartbeats 1000000 in
theorem Agree.a7 (h : Agree m m' c) : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7) := h.2.2.2.2.2.2.2.1
set_option maxHeartbeats 1000000 in
theorem Agree.a8 (h : Agree m m' c) : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8) := h.2.2.2.2.2.2.2.2.1
set_option maxHeartbeats 1000000 in
theorem Agree.a9 (h : Agree m m' c) : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9) := h.2.2.2.2.2.2.2.2.2.1
set_option maxHeartbeats 1000000 in
theorem Agree.a10 (h : Agree m m' c) : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10) := h.2.2.2.2.2.2.2.2.2.2.1
set_option maxHeartbeats 1000000 in
theorem Agree.a11 (h : Agree m m' c) : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11) := h.2.2.2.2.2.2.2.2.2.2.2.1
set_option maxHeartbeats 1000000 in
theorem Agree.a12 (h : Agree m m' c) : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12) := h.2.2.2.2.2.2.2.2.2.2.2.2.1
set_option maxHeartbeats 1000000 in
theorem Agree.a13 (h : Agree m m' c) : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13) := h.2.2.2.2.2.2.2.2.2.2.2.2.2.1
set_option maxHeartbeats 1000000 in
theorem Agree.a14 (h : Agree m m' c) : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14) := h.2.2.2.2.2.2.2.2.2.2.2.2.2.2.1
set_option maxHeartbeats 1000000 in
theorem Agree.a15 (h : Agree m m' c) : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15) := h.2.2.2.2.2.2.2.2.2.2.2.2.2.2.2.1
set_option maxHeartbeats 1000000 in
theorem Agree.a16 (h : Agree m m' c) : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16) := h.2.2.2.2.2.2.2.2.2.2.2.2.2.2.2.2.1
set_option maxHeartbeats 1000000 in
theorem Agree.a17 (h : Agree m m' c) : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17) := h.2.2.2.2.2.2.2.2.2.2.2.2.2.2.2.2.2.1
set_option maxHeartbeats 1000000 in
theorem Agree.a18 (h : Agree m m' c) : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18) := h.2.2.2.2.2.2.2.2.2.2.2.2.2.2.2.2.2.2.1
set_option maxHeartbeats 1000000 in
theorem Agree.a19 (h : Agree m m' c) : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19) := h.2.2.2.2.2.2.2.2.2.2.2.2.2.2.2.2.2.2.2

end Cert.Bridge

end
-- ==== Proof.Atoms.lean ====
/-
  The launch contents of the kernel program's argument buffers, named by the reference's launch memory.

  The two programs are run from memories that agree on the arguments: what the kernel program finds in an argument's
  buffer at launch is what the reference's launch memory holds for the argument of the same position.
-/
import proofs.«127647_j11982958756658_1_alg».proof.Proof.BridgeBase

noncomputable section

namespace Cert.Bridge

open Idealize.ShloMosaic Idealize.ShloMosaic.TcCoe Idealize.SL.Sem Idealize.ShloMosaic.StableHlo
open Cert.KernelIdeal.Gen

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

theorem atom0 (hag : Agree m m' c) :
    W0 m ρ c (Proc.devRef .tc Cert.KernelIdeal.main_arg0) = m' ((c.tc : Thread Cert.ReferenceIdeal.nD Cert.ReferenceIdeal.τ).loc Cert.ReferenceIdeal.main_arg0) := hag.a0.symm
theorem atom1 (hag : Agree m m' c) :
    W0 m ρ c (Proc.devRef .tc Cert.KernelIdeal.main_arg1) = m' ((c.tc : Thread Cert.ReferenceIdeal.nD Cert.ReferenceIdeal.τ).loc Cert.ReferenceIdeal.main_arg1) := hag.a1.symm
theorem atom2 (hag : Agree m m' c) :
    W0 m ρ c (Proc.devRef .tc Cert.KernelIdeal.main_arg2) = m' ((c.tc : Thread Cert.ReferenceIdeal.nD Cert.ReferenceIdeal.τ).loc Cert.ReferenceIdeal.main_arg2) := hag.a2.symm
theorem atom3 (hag : Agree m m' c) :
    W0 m ρ c (Proc.devRef .tc Cert.KernelIdeal.main_arg3) = m' ((c.tc : Thread Cert.ReferenceIdeal.nD Cert.ReferenceIdeal.τ).loc Cert.ReferenceIdeal.main_arg3) := hag.a3.symm
theorem atom4 (hag : Agree m m' c) :
    W0 m ρ c (Proc.devRef .tc Cert.KernelIdeal.main_arg4) = m' ((c.tc : Thread Cert.ReferenceIdeal.nD Cert.ReferenceIdeal.τ).loc Cert.ReferenceIdeal.main_arg4) := hag.a4.symm
theorem atom5 (hag : Agree m m' c) :
    W0 m ρ c (Proc.devRef .tc Cert.KernelIdeal.main_arg5) = m' ((c.tc : Thread Cert.ReferenceIdeal.nD Cert.ReferenceIdeal.τ).loc Cert.ReferenceIdeal.main_arg5) := hag.a5.symm
theorem atom6 (hag : Agree m m' c) :
    W0 m ρ c (Proc.devRef .tc Cert.KernelIdeal.main_arg6) = m' ((c.tc : Thread Cert.ReferenceIdeal.nD Cert.ReferenceIdeal.τ).loc Cert.ReferenceIdeal.main_arg6) := hag.a6.symm
theorem atom7 (hag : Agree m m' c) :
    W0 m ρ c (Proc.devRef .tc Cert.KernelIdeal.main_arg7) = m' ((c.tc : Thread Cert.ReferenceIdeal.nD Cert.ReferenceIdeal.τ).loc Cert.ReferenceIdeal.main_arg7) := hag.a7.symm
theorem atom8 (hag : Agree m m' c) :
    W0 m ρ c (Proc.devRef .tc Cert.KernelIdeal.main_arg8) = m' ((c.tc : Thread Cert.ReferenceIdeal.nD Cert.ReferenceIdeal.τ).loc Cert.ReferenceIdeal.main_arg8) := hag.a8.symm
theorem atom9 (hag : Agree m m' c) :
    W0 m ρ c (Proc.devRef .tc Cert.KernelIdeal.main_arg9) = m' ((c.tc : Thread Cert.ReferenceIdeal.nD Cert.ReferenceIdeal.τ).loc Cert.ReferenceIdeal.main_arg9) := hag.a9.symm
theorem atom10 (hag : Agree m m' c) :
    W0 m ρ c (Proc.devRef .tc Cert.KernelIdeal.main_arg10) = m' ((c.tc : Thread Cert.ReferenceIdeal.nD Cert.ReferenceIdeal.τ).loc Cert.ReferenceIdeal.main_arg10) := hag.a10.symm
theorem atom11 (hag : Agree m m' c) :
    W0 m ρ c (Proc.devRef .tc Cert.KernelIdeal.main_arg11) = m' ((c.tc : Thread Cert.ReferenceIdeal.nD Cert.ReferenceIdeal.τ).loc Cert.ReferenceIdeal.main_arg11) := hag.a11.symm
theorem atom12 (hag : Agree m m' c) :
    W0 m ρ c (Proc.devRef .tc Cert.KernelIdeal.main_arg12) = m' ((c.tc : Thread Cert.ReferenceIdeal.nD Cert.ReferenceIdeal.τ).loc Cert.ReferenceIdeal.main_arg12) := hag.a12.symm
theorem atom13 (hag : Agree m m' c) :
    W0 m ρ c (Proc.devRef .tc Cert.KernelIdeal.main_arg13) = m' ((c.tc : Thread Cert.ReferenceIdeal.nD Cert.ReferenceIdeal.τ).loc Cert.ReferenceIdeal.main_arg13) := hag.a13.symm
theorem atom14 (hag : Agree m m' c) :
    W0 m ρ c (Proc.devRef .tc Cert.KernelIdeal.main_arg14) = m' ((c.tc : Thread Cert.ReferenceIdeal.nD Cert.ReferenceIdeal.τ).loc Cert.ReferenceIdeal.main_arg14) := hag.a14.symm
theorem atom15 (hag : Agree m m' c) :
    W0 m ρ c (Proc.devRef .tc Cert.KernelIdeal.main_arg15) = m' ((c.tc : Thread Cert.ReferenceIdeal.nD Cert.ReferenceIdeal.τ).loc Cert.ReferenceIdeal.main_arg15) := hag.a15.symm
theorem atom16 (hag : Agree m m' c) :
    W0 m ρ c (Proc.devRef .tc Cert.KernelIdeal.main_arg16) = m' ((c.tc : Thread Cert.ReferenceIdeal.nD Cert.ReferenceIdeal.τ).loc Cert.ReferenceIdeal.main_arg16) := hag.a16.symm
theorem atom17 (hag : Agree m m' c) :
    W0 m ρ c (Proc.devRef .tc Cert.KernelIdeal.main_arg17) = m' ((c.tc : Thread Cert.ReferenceIdeal.nD Cert.ReferenceIdeal.τ).loc Cert.ReferenceIdeal.main_arg17) := hag.a17.symm
theorem atom18 (hag : Agree m m' c) :
    W0 m ρ c (Proc.devRef .tc Cert.KernelIdeal.main_arg18) = m' ((c.tc : Thread Cert.ReferenceIdeal.nD Cert.ReferenceIdeal.τ).loc Cert.ReferenceIdeal.main_arg18) := hag.a18.symm
theorem atom19 (hag : Agree m m' c) :
    W0 m ρ c (Proc.devRef .tc Cert.KernelIdeal.main_arg19) = m' ((c.tc : Thread Cert.ReferenceIdeal.nD Cert.ReferenceIdeal.τ).loc Cert.ReferenceIdeal.main_arg19) := hag.a19.symm

end Cert.Bridge

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.LibRowBlockProduct.lean ====
/-
  A block of rows of a matrix product, over the extended reals.

  Rows off, …, off + m - 1 of X · W depend on those rows of X and on all of W only: entry (off + a, b) of the whole
  product is the sum over the contracted coordinate c of X (off + a, c) · W (c, b), and that is entry (a, b) of the product
  of the m-row block of X with W. So a kernel that multiplies one block of rows at a time (accumulating into zero) writes,
  block by block, the host's one whole product. How a block sits in its array is left to three index maps, about which
  only their coordinates are assumed: the left block's and the result block's rows are shifted by `off`, nothing else
  moves.
-/
import proofs.«127647_j11982958756658_1_alg».proof.Proof.LibPlainMatmul

noncomputable section

namespace Cert.Lib

open Idealize.ShloMosaic Idealize.ShloMosaic.ValueIdx

/-- The product of an m-row block of `X` (rows `off …`) with `W`, accumulated into zero, read at a block index `j`, is the
    whole product `X · W` read where the result block puts `j`. -/
theorem plain_product_row_block {m M k n : Nat} {φ₁ φ₂ : FTy} (prec : Option ContractPrecision)
    (x : FVec Ideal ⟨2, ![m, k]⟩ φ₁) (w : FVec Ideal ⟨2, ![k, n]⟩ φ₂)
    (X : FVec Ideal ⟨2, ![M, k]⟩ φ₁) (W : FVec Ideal ⟨2, ![k, n]⟩ φ₂)
    (ex : (⟨2, ![m, k]⟩ : Shape).Idx → (⟨2, ![M, k]⟩ : Shape).Idx)
    (ew : (⟨2, ![k, n]⟩ : Shape).Idx → (⟨2, ![k, n]⟩ : Shape).Idx)
    (eo : (⟨2, ![m, n]⟩ : Shape).Idx → (⟨2, ![M, n]⟩ : Shape).Idx) (off : Nat)
    (hx : ∀ y, x y = X (ex y)) (hw : ∀ y, w y = W (ew y))
    (hex0 : ∀ y, (ex y 0).val = off + (y 0).val) (hex1 : ∀ y, (ex y 1).val = (y 1).val)
    (hew0 : ∀ y, (ew y 0).val = (y 0).val) (hew1 : ∀ y, (ew y 1).val = (y 1).val)
    (heo0 : ∀ y, (eo y 0).val = off + (y 0).val) (heo1 : ∀ y, (eo y 1).val = (y 1).val)
    (j : (⟨2, ![m, n]⟩ : Shape).Idx) :
    matmul (DotDims.plain m k n) prec x w (constant ⟨2, ![m, n]⟩ .f32 0x00000000#32) j
      = Host.dotGeneral (DotDims.plain M k n) prec X W (eo j) := by
  obtain ⟨a, b, rfl⟩ : ∃ (a : Fin m) (b : Fin n), j = ix2 a b := ⟨j 0, j 1, eq_ix2 j⟩
  -- where the result block puts (a, b): row off + a, column b
  obtain ⟨a', b', hab⟩ : ∃ (a' : Fin M) (b' : Fin n), eo (ix2 a b) = ix2 a' b' :=
    ⟨eo (ix2 a b) 0, eo (ix2 a b) 1, eq_ix2 _⟩
  have ha' : a'.val = off + a.val := by
    have := heo0 (ix2 a b); rw [hab] at this; exact this
  have hb' : b'.val = b.val := by
    have := heo1 (ix2 a b); rw [hab] at this; exact this
  rw [matmul_plain_zero_apply, hab, StackMember.dotGeneral_plain_apply]
  refine Finset.sum_congr rfl fun c _ => ?_
  rw [hx, hw]
  have e1 : ex (ix2 a c) = ix2 a' c := by
    funext q; apply Fin.ext
    match q with
    | ⟨0, _⟩ => exact (hex0 (ix2 a c)).trans ha'.symm
    | ⟨1, _⟩ => exact hex1 (ix2 a c)
  have e2 : ew (ix2 c b) = ix2 c b' := by
    funext q; apply Fin.ext
    match q with
    | ⟨0, _⟩ => exact hew0 (ix2 c b)
    | ⟨1, _⟩ => exact (hew1 (ix2 c b)).trans hb'.symm
  rw [e1, e2]

end Cert.Lib

end
-- ==== Proof.LibHostSpread.lean ====
/-
  The host's spreading operation read at an index, for the small layouts a per-row statistic and a per-column bias go
  through: a scalar spread over a whole array reads the scalar everywhere; an [a, 1] column spread over [a, b] reads, at
  (p, c), the column's entry of row p; a [1, b] row spread over [a, b] reads the row's entry of column c; a vector [a]
  spread along dimension 0 of [a, 1] reads, at (i, ·), the vector at i — and is the same array as the vector recast to
  that column.
-/
import Idealize.ShloMosaic.Lib.Pipeline.Value
import Idealize.ShloMosaic.Lib.ValueIdx
import Idealize.ShloMosaic.Lib.ValueLayout

noncomputable section

namespace Cert.Lib

open Idealize.ShloMosaic Idealize.ShloMosaic.ValueIdx

variable {α : Type}

/-- A scalar spread over an array of any shape reads the scalar at every index. -/
theorem splat_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun a => a.elim0)

/-- An `[a, 1]` column spread over `[a, b]` (both axes kept) reads, at `(p, c)`, the column's entry of row `p`. -/
theorem spread_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, b]` row spread over `[a, b]` (both axes kept) reads, at `(p, c)`, the row's entry of column `c`. -/
theorem spread_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` spread along dimension 0 of `[a, 1]` reads, at `(i, u)`, the vector at `i`. -/
theorem spread_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A vector recast as a column is the vector spread along dimension 0 of the column's shape. -/
theorem shapeCast_col_eq_spread {a : ℕ} (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ ![0] h' x := by
  funext j
  obtain ⟨i, u, rfl⟩ : ∃ (i : Fin a) (u : Fin 1), j = ix2 i u := ⟨j 0, j 1, eq_ix2 j⟩
  rw [spread_a_a1_apply x h' i u]
  refine shapeCast_apply x h _ _ ?_
  have hu : u.val = 0 := by omega
  rw [Shape.rowMajor_val_two, Shape.rowMajor_val_one]
  show i.val = i.val * 1 + u.val
  rw [hu, Nat.mul_one, Nat.add_zero]

end Cert.Lib

end
-- ==== Proof.LibKernelHostForms.lean ====
/-
  Three kernel-side operations and the host operations they are, as whole arrays over the extended reals.

  A kernel's matrix product of operands rounded to bf16, accumulated into zero, is the host's dot_general of the
  unrounded operands, for any dimension numbers: rounding is the identity on the extended reals and both products are
  the sum over the contracted coordinates. A [1, b] row broadcast over [a, b] by the kernel's vector broadcast is the
  host's broadcast_in_dim along dimensions [0, 1]. A scalar constant splat over an array by the kernel is the host's
  broadcast of the constant scalar.
-/
import proofs.«127647_j11982958756658_1_alg».proof.Proof.LibHostSpread
import Idealize.ShloMosaic.Lib.Pipeline.Value
import Idealize.ShloMosaic.Lib.ValueIdx
import Idealize.ShloMosaic.Lib.ValueLayout
import Idealize.ShloMosaic.PureOps.Ideal.Laws

noncomputable section

namespace Cert.Lib

open Idealize.ShloMosaic Idealize.ShloMosaic.ValueIdx

/-- A product into the zero accumulator of operands rounded to bf16 is the host's product of the operands: rounding is
    the identity on the extended reals, and both products are the sum over the contracted coordinate. -/
theorem rounded_product {sl sr so : Shape} (d : DotDims sl sr so) (prec : Option ContractPrecision)
    (a : FVec Ideal sl .f32) (b : FVec Ideal sr .f32) (h1 : FTy.bf16.bits < FTy.f32.bits) (h2 : FTy.bf16.bits < FTy.f32.bits) :
    matmul d prec (truncf .bf16 a h1) (truncf .bf16 b h2) (constant so .f32 0x00000000#32) = Host.dotGeneral d prec a b := by
  funext j
  exact (Ideal.matmul_constant_zero_apply d prec (truncf .bf16 a h1) (truncf .bf16 b h2) j).trans
    (Ideal.dotGeneral_apply d prec default a b j).symm

/-- One row spread over many rows, by the kernel's broadcast and by the host's, is the same array. -/
theorem row_spread {α : Type} {a b : ℕ} (v : (⟨2, ![1, b]⟩ : Shape).Idx → α)
    (h : (⟨2, ![1, b]⟩ : Shape).Broadcasts ⟨2, ![a, b]⟩)
    (h' : (⟨2, ![1, b]⟩ : Shape).BroadcastsInDim ⟨2, ![a, b]⟩ (![0, 1] : Fin 2 → Fin 2)) :
    broadcastTo ⟨2, ![a, b]⟩ v h = broadcastInDim ⟨2, ![a, b]⟩ ![0, 1] h' v := by
  funext j
  obtain ⟨p, q, rfl⟩ : ∃ (p : Fin a) (q : Fin b), j = ix2 p q := ⟨j 0, j 1, eq_ix2 j⟩
  rw [broadcastTo_1b_ab_apply, spread_1b_ab_apply]

/-- A scalar constant spread over an array, by the kernel's splat and by the host's, is the same array. -/
theorem zero_splat {t : Shape} (w : BitVec 32) (h : (⟨0, ![]⟩ : Shape).BroadcastsInDim t (![] : Fin 0 → Fin t.rank)) :
    (broadcast t (Scalar.ofBits (F := Ideal) .f32 w) : FVec Ideal t .f32) = broadcastInDim t ![] h (constant ⟨0, ![]⟩ .f32 w) := by
  funext j
  rw [splat_apply]
  rfl

end Cert.Lib

end
-- ==== Proof.MatmulRegions.lean ====
/-
  The three matrix-product regions as whole arrays, over the extended reals.

  Each region multiplies one block of rows of its left operand, rounded to bf16, by the whole right operand, rounded
  to bf16, accumulating into zero, and writes the product to the same block of rows of its output. Rounding is the
  identity on the extended reals, a block of rows of a product depends on those rows of the left operand only, and the
  blocks of rows tile the output: the output array ends holding the one whole product of the two operand arrays.
-/
import proofs.«127647_j11982958756658_1_alg».proof.Proof.Gen.KernelIdeal.Frame
import proofs.«127647_j11982958756658_1_alg».proof.Proof.LibRowBlockProduct
import proofs.«127647_j11982958756658_1_alg».proof.Proof.LibKernelHostForms
import Idealize.ShloMosaic.Lib.Pipeline.Value

set_option maxRecDepth 16384

noncomputable section

namespace Cert.KernelIdeal.RegionValue

open Idealize.ShloMosaic Idealize.ShloMosaic.TcCoe Idealize.ShloMosaic.ValueIdx
open Idealize.ShloMosaic.Pipeline (Dat Cfg Window)
open Cert.KernelIdeal.Gen

/-- A product into zero of an m-row block of `X` (rows `off …`) and of `W`, both rounded to bf16, read at a block index,
    is the whole product `X · W` read where the result block puts the index. -/
theorem rounded_row_block {m M k n : Nat} (prec : Option ContractPrecision)
    (x : FVec Ideal ⟨2, ![m, k]⟩ .f32) (w : FVec Ideal ⟨2, ![k, n]⟩ .f32)
    (X : FVec Ideal ⟨2, ![M, k]⟩ .f32) (W : FVec Ideal ⟨2, ![k, n]⟩ .f32)
    (ex : (⟨2, ![m, k]⟩ : Shape).Idx → (⟨2, ![M, k]⟩ : Shape).Idx)
    (ew : (⟨2, ![k, n]⟩ : Shape).Idx → (⟨2, ![k, n]⟩ : Shape).Idx)
    (eo : (⟨2, ![m, n]⟩ : Shape).Idx → (⟨2, ![M, n]⟩ : Shape).Idx) (off : Nat)
    (hx : ∀ y, x y = X (ex y)) (hw : ∀ y, w y = W (ew y))
    (hex0 : ∀ y, (ex y 0).val = off + (y 0).val) (hex1 : ∀ y, (ex y 1).val = (y 1).val)
    (hew0 : ∀ y, (ew y 0).val = (y 0).val) (hew1 : ∀ y, (ew y 1).val = (y 1).val)
    (heo0 : ∀ y, (eo y 0).val = off + (y 0).val) (heo1 : ∀ y, (eo y 1).val = (y 1).val)
    (h1 h2 : FTy.bf16.bits < FTy.f32.bits) (j : (⟨2, ![m, n]⟩ : Shape).Idx) :
    matmul (DotDims.plain m k n) prec (truncf .bf16 x h1) (truncf .bf16 w h2) (constant ⟨2, ![m, n]⟩ .f32 0x00000000#32) j
      = Host.dotGeneral (DotDims.plain M k n) prec X W (eo j) := by
  refine (congrFun (Cert.Lib.rounded_product (DotDims.plain m k n) prec x w h1 h2) j).trans ?_
  refine Eq.trans ?_ (Cert.Lib.plain_product_row_block prec x w X W ex ew eo off hx hw hex0 hex1 hew0 hew1 heo0 heo1 j)
  show FloatOps.dotGeneral _ prec _ x w j = _
  exact (Ideal.dotGeneral_apply _ prec _ x w j).trans (Ideal.matmul_constant_zero_apply _ prec x w j).symm

variable (V : (c : Dev nD) → (b : Ref sig .tc) → Buf (Elt Ideal) ((c : Thread nD τ).loc b))

theorem hz2 : (![0, 0] : Fin 2 → Nat) = fun _ => 0 := funext fun a => by fin_cases a <;> rfl

/-! ## Region 0 -/

/-- The whole product of region 0's operand arrays. -/
abbrev G0 (c : Dev nD) : FVec Ideal ⟨2, ![400000, 128]⟩ .f32 :=
  Host.dotGeneral (F := Ideal) (φ₁ := .f32) (φ₂ := .f32) (DotDims.plain 400000 64 128) none
    (V c main_arg0 : FVec Ideal ⟨2, ![400000, 64]⟩ .f32) (V c main_arg7 : FVec Ideal ⟨2, ![64, 128]⟩ .f32)

/-- The windows' index maps at every point of the grid: the left operand's and the output's block of rows is the point's;
    the right operand's block is the whole array at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the operand arrays as the region finds them. -/
theorem flushed0_eq (c : Dev nD) (t : Fin cfg0.N) :
    (dat0 (F := Ideal) V c).flushed 2 t = ((cfg0.win 2).blk t).view.read (Elt Ideal) (G0 V c) := by
  show (cfg0.win 2).cut (grid0.coords t) ((dat0 V c).after 2 t) = _
  rw [after0_2]
  unfold out0_2
  rw [View.canon_unit_zero hz2]
  simp only [View.ld_unit_zero (S := S5000x64) hz2, View.ld_unit_zero (S := S64x128) hz2]
  funext j
  obtain ⟨e0, e1, e2, e3, e4, e5⟩ := idx_facts0 t
  show matmul (DotDims.plain 5000 64 128) none (truncf .bf16 (iblk0 V c 0 t) bitsLt_bf16_f32) (truncf .bf16 (iblk0 V c 1 t) bitsLt_bf16_f32) (constant ⟨2, ![5000, 128]⟩ .f32 0x00000000#32) j = G0 V c (((cfg0.win 2).blk t).view.emb j)
  exact rounded_row_block none (iblk0 V c 0 t) (iblk0 V c 1 t) (V c main_arg0) (V c main_arg7)
    ((cfg0.win 0).blk t).view.emb ((cfg0.win 1).blk t).view.emb ((cfg0.win 2).blk t).view.emb (t.val * 5000)
    (fun y => rfl) (fun y => rfl)
    (fun y => by show win0_0.index t (0 : Fin 2) * 5000 + 1 * (y 0).val = t.val * 5000 + (y 0).val; rw [e0]; omega)
    (fun y => by show win0_0.index t (1 : Fin 2) * 64 + 1 * (y 1).val = (y 1).val; rw [e1]; omega)
    (fun y => by show win0_1.index t (0 : Fin 2) * 64 + 1 * (y 0).val = (y 0).val; rw [e2]; omega)
    (fun y => by show win0_1.index t (1 : Fin 2) * 128 + 1 * (y 1).val = (y 1).val; rw [e3]; omega)
    (fun y => by show win0_2.index t (0 : Fin 2) * 5000 + 1 * (y 0).val = t.val * 5000 + (y 0).val; rw [e4]; omega)
    (fun y => by show win0_2.index t (1 : Fin 2) * 128 + 1 * (y 1).val = (y 1).val; rw [e5]; omega)
    bitsLt_bf16_f32 bitsLt_bf16_f32 j

/-- An index of the output array is in point `t`'s block iff each coordinate is in the block's range on its axis. -/
theorem mem_blk0 (t : Fin cfg0.N) (i : S400000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v4).slice (win0_2.rect t)).set ↔ _
  rw [View.set_slice_whole, Rect.mem_set_unit]
  exact Iff.rfl

/-- Every block of rows of the output is some point's. -/
theorem idx_onto0 : ∀ q0 : Fin 80, ∃ t : Fin cfg0.N, win0_2.index t (0 : Fin 2) = q0.val ∧ win0_2.index t (1 : Fin 2) = 0 :=
  (by decide +kernel : ∀ q0 : Fin 80, ∃ t : Fin grid0.N, win0_2.index t (0 : Fin 2) = q0.val ∧ win0_2.index t (1 : Fin 2) = 0)

/-- The blocks of rows tile the output: row `r` is in the block of point `r / 5000`. -/
theorem cover0 (i : S400000x128.Idx) : ∃ t : Fin cfg0.N, (cfg0.win 2).flush t = true ∧ i ∈ ((cfg0.win 2).blk t).view.set := by
  have hi0 : (i 0).val < 400000 := (i 0).isLt
  have hi1 : (i 1).val < 128 := (i 1).isLt
  obtain ⟨t, q0, q1⟩ := idx_onto0 ⟨(i 0).val / 5000, by omega⟩
  have q0' : win0_2.index t (0 : Fin 2) = (i 0).val / 5000 := q0
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- REGION 0: the output array ends holding the whole product of the operand arrays. -/
theorem matmul0 (c : Dev nD) : (dat0 (F := Ideal) V c).arrAt 2 cfg0.N
    = Host.dotGeneral (F := Ideal) (φ₁ := .f32) (φ₂ := .f32) (DotDims.plain 400000 64 128) none
        (V c main_arg0 : FVec Ideal ⟨2, ![400000, 64]⟩ .f32) (V c main_arg7 : FVec Ideal ⟨2, ![64, 128]⟩ .f32) :=
  (dat0 V c).arrAt_eq_of_cover 2 (G0 V c) (fun t _ => flushed0_eq V c t) (fun i => cover0 i)

/-! ## Region 2 -/

/-- The whole product of region 2's operand arrays. -/
abbrev G2 (c : Dev nD) : FVec Ideal ⟨2, ![400000, 128]⟩ .f32 :=
  Host.dotGeneral (F := Ideal) (φ₁ := .f32) (φ₂ := .f32) (DotDims.plain 400000 128 128) none
    (V c main_v43 : FVec Ideal ⟨2, ![400000, 128]⟩ .f32) (V c main_arg9 : FVec Ideal ⟨2, ![128, 128]⟩ .f32)

/-- The windows' index maps at every point of the grid: the left operand's and the output's block of rows is the point's;
    the right operand's block is the whole array at every point. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole product of the operand arrays as the region finds them. -/
theorem flushed2_eq (c : Dev nD) (t : Fin cfg2.N) :
    (dat2 (F := Ideal) V c).flushed 2 t = ((cfg2.win 2).blk t).view.read (Elt Ideal) (G2 V c) := by
  show (cfg2.win 2).cut (grid2.coords t) ((dat2 V c).after 2 t) = _
  rw [after2_2]
  unfold out2_2
  rw [View.canon_unit_zero hz2]
  simp only [View.ld_unit_zero (S := S5000x128) hz2, View.ld_unit_zero (S := S128x128) hz2]
  funext j
  obtain ⟨e0, e1, e2, e3, e4, e5⟩ := idx_facts2 t
  show matmul (DotDims.plain 5000 128 128) none (truncf .bf16 (shapeCast S5000x128 (iblk2 V c 0 t) shapeCasts_S5000x128_S5000x128) bitsLt_bf16_f32) (truncf .bf16 (iblk2 V c 1 t) bitsLt_bf16_f32) (constant ⟨2, ![5000, 128]⟩ .f32 0x00000000#32) j = G2 V c (((cfg2.win 2).blk t).view.emb j)
  rw [shapeCast_self]
  exact rounded_row_block none (iblk2 V c 0 t) (iblk2 V c 1 t) (V c main_v43) (V c main_arg9)
    ((cfg2.win 0).blk t).view.emb ((cfg2.win 1).blk t).view.emb ((cfg2.win 2).blk t).view.emb (t.val * 5000)
    (fun y => rfl) (fun y => rfl)
    (fun y => by show win2_0.index t (0 : Fin 2) * 5000 + 1 * (y 0).val = t.val * 5000 + (y 0).val; rw [e0]; omega)
    (fun y => by show win2_0.index t (1 : Fin 2) * 128 + 1 * (y 1).val = (y 1).val; rw [e1]; omega)
    (fun y => by show win2_1.index t (0 : Fin 2) * 128 + 1 * (y 0).val = (y 0).val; rw [e2]; omega)
    (fun y => by show win2_1.index t (1 : Fin 2) * 128 + 1 * (y 1).val = (y 1).val; rw [e3]; omega)
    (fun y => by show win2_2.index t (0 : Fin 2) * 5000 + 1 * (y 0).val = t.val * 5000 + (y 0).val; rw [e4]; omega)
    (fun y => by show win2_2.index t (1 : Fin 2) * 128 + 1 * (y 1).val = (y 1).val; rw [e5]; omega)
    bitsLt_bf16_f32 bitsLt_bf16_f32 j

/-- An index of the output array is in point `t`'s block iff each coordinate is in the block's range on its axis. -/
theorem mem_blk2 (t : Fin cfg2.N) (i : S400000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v48).slice (win2_2.rect t)).set ↔ _
  rw [View.set_slice_whole, Rect.mem_set_unit]
  exact Iff.rfl

/-- Every block of rows of the output is some point's. -/
theorem idx_onto2 : ∀ q0 : Fin 80, ∃ t : Fin cfg2.N, win2_2.index t (0 : Fin 2) = q0.val ∧ win2_2.index t (1 : Fin 2) = 0 :=
  (by decide +kernel : ∀ q0 : Fin 80, ∃ t : Fin grid2.N, win2_2.index t (0 : Fin 2) = q0.val ∧ win2_2.index t (1 : Fin 2) = 0)

/-- The blocks of rows tile the output: row `r` is in the block of point `r / 5000`. -/
theorem cover2 (i : S400000x128.Idx) : ∃ t : Fin cfg2.N, (cfg2.win 2).flush t = true ∧ i ∈ ((cfg2.win 2).blk t).view.set := by
  have hi0 : (i 0).val < 400000 := (i 0).isLt
  have hi1 : (i 1).val < 128 := (i 1).isLt
  obtain ⟨t, q0, q1⟩ := idx_onto2 ⟨(i 0).val / 5000, by omega⟩
  have q0' : win2_2.index t (0 : Fin 2) = (i 0).val / 5000 := q0
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- REGION 2: the output array ends holding the whole product of the operand arrays. -/
theorem matmul2 (c : Dev nD) : (dat2 (F := Ideal) V c).arrAt 2 cfg2.N
    = Host.dotGeneral (F := Ideal) (φ₁ := .f32) (φ₂ := .f32) (DotDims.plain 400000 128 128) none
        (V c main_v43 : FVec Ideal ⟨2, ![400000, 128]⟩ .f32) (V c main_arg9 : FVec Ideal ⟨2, ![128, 128]⟩ .f32) :=
  (dat2 V c).arrAt_eq_of_cover 2 (G2 V c) (fun t _ => flushed2_eq V c t) (fun i => cover2 i)

/-! ## Region 4 -/

/-- The whole product of region 4's operand arrays. -/
abbrev G4 (c : Dev nD) : FVec Ideal ⟨2, ![9600, 128]⟩ .f32 :=
  Host.dotGeneral (F := Ideal) (φ₁ := .f32) (φ₂ := .f32) (DotDims.plain 9600 128 128) none
    (V c main_v106 : FVec Ideal ⟨2, ![9600, 128]⟩ .f32) (V c main_arg12 : FVec Ideal ⟨2, ![128, 128]⟩ .f32)

/-- The windows' index maps at every point of the grid: the left operand's and the output's block of rows is the point's;
    the right operand's block is the whole array at every point. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the whole product of the operand arrays as the region finds them. -/
theorem flushed4_eq (c : Dev nD) (t : Fin cfg4.N) :
    (dat4 (F := Ideal) V c).flushed 2 t = ((cfg4.win 2).blk t).view.read (Elt Ideal) (G4 V c) := by
  show (cfg4.win 2).cut (grid4.coords t) ((dat4 V c).after 2 t) = _
  rw [after4_2]
  unfold out4_2
  rw [View.canon_unit_zero hz2]
  simp only [View.ld_unit_zero (S := S4800x128) hz2, View.ld_unit_zero (S := S128x128) hz2]
  funext j
  obtain ⟨e0, e1, e2, e3, e4, e5⟩ := idx_facts4 t
  show matmul (DotDims.plain 4800 128 128) none (truncf .bf16 (shapeCast S4800x128 (iblk4 V c 0 t) shapeCasts_S4800x128_S4800x128) bitsLt_bf16_f32) (truncf .bf16 (iblk4 V c 1 t) bitsLt_bf16_f32) (constant ⟨2, ![4800, 128]⟩ .f32 0x00000000#32) j = G4 V c (((cfg4.win 2).blk t).view.emb j)
  rw [shapeCast_self]
  exact rounded_row_block none (iblk4 V c 0 t) (iblk4 V c 1 t) (V c main_v106) (V c main_arg12)
    ((cfg4.win 0).blk t).view.emb ((cfg4.win 1).blk t).view.emb ((cfg4.win 2).blk t).view.emb (t.val * 4800)
    (fun y => rfl) (fun y => rfl)
    (fun y => by show win4_0.index t (0 : Fin 2) * 4800 + 1 * (y 0).val = t.val * 4800 + (y 0).val; rw [e0]; omega)
    (fun y => by show win4_0.index t (1 : Fin 2) * 128 + 1 * (y 1).val = (y 1).val; rw [e1]; omega)
    (fun y => by show win4_1.index t (0 : Fin 2) * 128 + 1 * (y 0).val = (y 0).val; rw [e2]; omega)
    (fun y => by show win4_1.index t (1 : Fin 2) * 128 + 1 * (y 1).val = (y 1).val; rw [e3]; omega)
    (fun y => by show win4_2.index t (0 : Fin 2) * 4800 + 1 * (y 0).val = t.val * 4800 + (y 0).val; rw [e4]; omega)
    (fun y => by show win4_2.index t (1 : Fin 2) * 128 + 1 * (y 1).val = (y 1).val; rw [e5]; omega)
    bitsLt_bf16_f32 bitsLt_bf16_f32 j

/-- An index of the output array is in point `t`'s block iff each coordinate is in the block's range on its axis. -/
theorem mem_blk4 (t : Fin cfg4.N) (i : S9600x128.Idx) :
    i ∈ ((cfg4.win 2).blk t).view.set ↔ ∀ a : Fin 2, win4_2.index t a * S4800x128.size a ≤ (i a).val ∧ (i a).val < win4_2.index t a * S4800x128.size a + S4800x128.size a := by
  show i ∈ ((View.whole main_v111).slice (win4_2.rect t)).set ↔ _
  rw [View.set_slice_whole, Rect.mem_set_unit]
  exact Iff.rfl

/-- Every block of rows of the output is some point's. -/
theorem idx_onto4 : ∀ q0 : Fin 2, ∃ t : Fin cfg4.N, win4_2.index t (0 : Fin 2) = q0.val ∧ win4_2.index t (1 : Fin 2) = 0 :=
  (by decide +kernel : ∀ q0 : Fin 2, ∃ t : Fin grid4.N, win4_2.index t (0 : Fin 2) = q0.val ∧ win4_2.index t (1 : Fin 2) = 0)

/-- The blocks of rows tile the output: row `r` is in the block of point `r / 4800`. -/
theorem cover4 (i : S9600x128.Idx) : ∃ t : Fin cfg4.N, (cfg4.win 2).flush t = true ∧ i ∈ ((cfg4.win 2).blk t).view.set := by
  have hi0 : (i 0).val < 9600 := (i 0).isLt
  have hi1 : (i 1).val < 128 := (i 1).isLt
  obtain ⟨t, q0, q1⟩ := idx_onto4 ⟨(i 0).val / 4800, by omega⟩
  have q0' : win4_2.index t (0 : Fin 2) = (i 0).val / 4800 := q0
  refine ⟨t, flush4_2 t, ?_⟩
  rw [mem_blk4]
  intro a
  match a with
  | ⟨0, _⟩ => show win4_2.index t (0 : Fin 2) * 4800 ≤ (i 0).val ∧ (i 0).val < win4_2.index t (0 : Fin 2) * 4800 + 4800; omega
  | ⟨1, _⟩ => show win4_2.index t (1 : Fin 2) * 128 ≤ (i 1).val ∧ (i 1).val < win4_2.index t (1 : Fin 2) * 128 + 128; omega

/-- REGION 4: the output array ends holding the whole product of the operand arrays. -/
theorem matmul4 (c : Dev nD) : (dat4 (F := Ideal) V c).arrAt 2 cfg4.N
    = Host.dotGeneral (F := Ideal) (φ₁ := .f32) (φ₂ := .f32) (DotDims.plain 9600 128 128) none
        (V c main_v106 : FVec Ideal ⟨2, ![9600, 128]⟩ .f32) (V c main_arg12 : FVec Ideal ⟨2, ![128, 128]⟩ .f32) :=
  (dat4 V c).arrAt_eq_of_cover 2 (G4 V c) (fun t _ => flushed4_eq V c t) (fun i => cover4 i)

end Cert.KernelIdeal.RegionValue

end
-- ==== Proof.LibColumnLayout.lean ====
/-
  The two layout steps a per-row statistic (a row sum, mean or maximum kept as a column) goes through before it meets
  the rows again, read at an index, for any element type: a vector of per-row numbers [a] recast as a column [a, 1]
  (`Cert.Lib.shapeCast_a_a1_apply`: the column at (i, ·) is the vector at i), and the column spread over the b lanes
  of each row, [a, 1] → [a, b] (`Cert.Lib.broadcastTo_a1_ab_apply`: the spread block at (p, c) is the column at (p, 0)).
-/
import Idealize.ShloMosaic.Lib.ValueLayout

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.LibCombineRectify.lean ====
/-
  The combine-and-rectify step of a graph layer, read at an index, in its two spellings.

  Given two [a, b] arrays A and H, an [a, 1] column d and a [1, b] row r, the step is max (A + H * d + r, 0), the column
  spread over the b lanes of each row and the row spread over the a rows. The host spells the two spreads and the zero
  with broadcast_in_dim; a kernel body spells them with its vector broadcasts after identity shape casts. Read at
  (p, q), both are max ((A (p, q) + H (p, q) * d (p, 0)) + r (0, q), 0), so a kernel block whose four operands are the
  matching blocks of the host's operands is the matching block of the host's result.
-/
import proofs.«127647_j11982958756658_1_alg».proof.Proof.LibHostSpread
import proofs.«127647_j11982958756658_1_alg».proof.Proof.LibColumnLayout
import Idealize.ShloMosaic.Lib.Pipeline.Value
import Idealize.ShloMosaic.Lib.ValueIdx
import Idealize.ShloMosaic.Lib.ValueLayout

noncomputable section

namespace Cert.Lib

open Idealize.ShloMosaic Idealize.ShloMosaic.ValueIdx

/-- The step at one entry: max ((x + h * d) + r, 0). -/
abbrev combineAt (x h d r : Ideal .f32) : Ideal .f32 :=
  FloatOps.maximumf (FloatOps.addf (FloatOps.addf x (FloatOps.mulf h d)) r) (Scalar.ofBits (F := Ideal) .f32 0x00000000#32)

/-- The host's spelling read at (p, q). -/
theorem host_combine_apply {a b : ℕ}
    (A H : FVec Ideal ⟨2, ![a, b]⟩ .f32) (d : FVec Ideal ⟨2, ![a, 1]⟩ .f32) (r : FVec Ideal ⟨2, ![1, b]⟩ .f32)
    (h1 : (⟨2, ![a, 1]⟩ : Shape).BroadcastsInDim ⟨2, ![a, b]⟩ (![0, 1] : Fin 2 → Fin 2))
    (h2 : (⟨2, ![1, b]⟩ : Shape).BroadcastsInDim ⟨2, ![a, b]⟩ (![0, 1] : Fin 2 → Fin 2))
    (h3 : (⟨0, ![]⟩ : Shape).BroadcastsInDim ⟨2, ![a, b]⟩ (![] : Fin 0 → Fin (⟨2, ![a, b]⟩ : Shape).rank))
    (p : Fin a) (q : Fin b) :
    maximumf (addf (addf A (mulf H (broadcastInDim ⟨2, ![a, b]⟩ ![0, 1] h1 d))) (broadcastInDim ⟨2, ![a, b]⟩ ![0, 1] h2 r))
        (broadcastInDim ⟨2, ![a, b]⟩ ![] h3 (constant (F := Ideal) ⟨0, ![]⟩ .f32 0x00000000#32)) (ix2 p q)
      = combineAt (A (ix2 p q)) (H (ix2 p q)) (d (ix2 p (0 : Fin 1))) (r (ix2 (0 : Fin 1) q)) := by
  show FloatOps.maximumf (FloatOps.addf (FloatOps.addf (A (ix2 p q))
      (FloatOps.mulf (H (ix2 p q)) (broadcastInDim ⟨2, ![a, b]⟩ ![0, 1] h1 d (ix2 p q))))
      (broadcastInDim ⟨2, ![a, b]⟩ ![0, 1] h2 r (ix2 p q)))
      (broadcastInDim ⟨2, ![a, b]⟩ ![] h3 (constant (F := Ideal) ⟨0, ![]⟩ .f32 0x00000000#32) (ix2 p q)) = _
  rw [spread_a1_ab_apply, spread_1b_ab_apply, splat_apply]
  rfl

/-- A kernel body's spelling read at (p, q). -/
theorem kernel_combine_apply {m b : ℕ}
    (x h : FVec Ideal ⟨2, ![m, b]⟩ .f32) (d : FVec Ideal ⟨2, ![m, 1]⟩ .f32) (r : FVec Ideal ⟨2, ![1, b]⟩ .f32)
    (c0 c1 : (⟨2, ![m, b]⟩ : Shape).ShapeCasts ⟨2, ![m, b]⟩) (c2 : (⟨2, ![m, 1]⟩ : Shape).ShapeCasts ⟨2, ![m, 1]⟩)
    (c3 : (⟨2, ![1, b]⟩ : Shape).ShapeCasts ⟨2, ![1, b]⟩)
    (b2 : (⟨2, ![m, 1]⟩ : Shape).Broadcasts ⟨2, ![m, b]⟩) (b3 : (⟨2, ![1, b]⟩ : Shape).Broadcasts ⟨2, ![m, b]⟩)
    (p : Fin m) (q : Fin b) :
    maximumf (addf (addf (shapeCast ⟨2, ![m, b]⟩ x c0)
          (mulf (shapeCast ⟨2, ![m, b]⟩ h c1) (broadcastTo ⟨2, ![m, b]⟩ (shapeCast ⟨2, ![m, 1]⟩ d c2) b2)))
          (broadcastTo ⟨2, ![m, b]⟩ (shapeCast ⟨2, ![1, b]⟩ r c3) b3))
        (broadcast ⟨2, ![m, b]⟩ (Scalar.ofBits (F := Ideal) .f32 0x00000000#32)) (ix2 p q)
      = combineAt (x (ix2 p q)) (h (ix2 p q)) (d (ix2 p (0 : Fin 1))) (r (ix2 (0 : Fin 1) q)) := by
  rw [shapeCast_self x c0, shapeCast_self h c1, shapeCast_self d c2, shapeCast_self r c3]
  show FloatOps.maximumf (FloatOps.addf (FloatOps.addf (x (ix2 p q))
      (FloatOps.mulf (h (ix2 p q)) (broadcastTo ⟨2, ![m, b]⟩ d b2 (ix2 p q))))
      (broadcastTo ⟨2, ![m, b]⟩ r b3 (ix2 p q))) (Scalar.ofBits (F := Ideal) .f32 0x00000000#32) = _
  rw [broadcastTo_a1_ab_apply, broadcastTo_1b_ab_apply]

end Cert.Lib

end
-- ==== Proof.CombineRegions.lean ====
/-
  The three combine-and-rectify regions of the program as whole arrays.

  Each region runs a pipelined kernel over row blocks: at grid point t it reads block t of two [rows, 128] arrays A and
  H, block t of a [rows, 1] column d and the whole [1, 128] row r, and writes block t of the result,
  max ((A + H * d) + r, 0) entry by entry, the column spread along each row and the row spread over the rows. The blocks
  tile the result array, and each is the matching block of ONE whole-array expression, the host's combine-and-rectify of
  the four arrays as the region finds them; so after the last write-back the result array IS that expression.
-/
import proofs.«127647_j11982958756658_1_alg».proof.Proof.Gen.KernelIdeal.Frame
import proofs.«127647_j11982958756658_1_alg».proof.Proof.LibCombineRectify
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, as a constant function. -/
theorem zero_offsets : (![0, 0] : Fin 2 → Nat) = fun _ => 0 := funext fun a => by fin_cases a <;> rfl

/-! ## Region 1: blocks of 5000 rows of a [400000, 128] array, 80 grid points -/

section Region1

/-- The block index of every window at every grid point, decided over the grid: the row-blocked windows sit at block
    row t, column block 0; the bias row is its one block. -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The grid has 80 points. -/
theorem point_lt1 (t : Fin cfg1.N) : t.val < 80 := Nat.lt_of_lt_of_eq t.isLt N_1

/-- Row p of block t is row t * 5000 + p of the array. -/
abbrev row1 (t : Fin cfg1.N) (p : Fin 5000) : Fin 400000 :=
  ⟨t.val * 5000 + p.val, by have := point_lt1 t; have := p.isLt; omega⟩

/-- The first operand's block at point t reads the array at the block's rows. -/
theorem read1_0 (c : Dev nD) (t : Fin cfg1.N) (p : Fin 5000) (q : Fin 128) :
    iblk1 V c 0 t (ix2 p q) = V c main_v39 (ix2 (row1 t p) q) := by
  obtain ⟨e0, e1, -⟩ := block_index1 t
  show V c main_v39 (((cfg1.win 0).blk t).view.emb (ix2 p q)) = _
  refine congrArg (V c main_v39) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * q.val = q.val; omega

/-- The second operand's block at point t reads the array at the block's rows. -/
theorem read1_1 (c : Dev nD) (t : Fin cfg1.N) (p : Fin 5000) (q : Fin 128) :
    iblk1 V c 1 t (ix2 p q) = V c main_v4 (ix2 (row1 t p) q) := by
  obtain ⟨-, -, e0, e1, -⟩ := block_index1 t
  show V c main_v4 (((cfg1.win 1).blk t).view.emb (ix2 p q)) = _
  refine congrArg (V c main_v4) (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * q.val = q.val; omega

/-- The column's block at point t reads the column at the block's rows. -/
theorem read1_2 (c : Dev nD) (t : Fin cfg1.N) (p : Fin 5000) :
    iblk1 V c 2 t (ix2 p (0 : Fin 1)) = V c main_v41 (ix2 (row1 t p) (0 : Fin 1)) := by
  obtain ⟨-, -, -, -, e0, e1, -⟩ := block_index1 t
  show V c main_v41 (((cfg1.win 2).blk t).view.emb (ix2 p (0 : Fin 1))) = _
  refine congrArg (V c main_v41) (funext fun a => Fin.ext ?_)
  match a with
  | ⟨0, _⟩ => show win1_2.index t (0 : Fin 2) * 5000 + 1 * p.val = t.val * 5000 + p.val; omega
  | ⟨1, _⟩ => show win1_2.index t (1 : Fin 2) * 1 + 1 * 0 = 0; omega

/-- The bias row's block is the whole row at every point. -/
theorem read1_3 (c : Dev nD) (t : Fin cfg1.N) (q : Fin 128) :
    iblk1 V c 3 t (ix2 (0 : Fin 1) q) = V c main_v42 (ix2 (0 : Fin 1) q) := by
  obtain ⟨-, -, -, -, -, -, e0, e1, -⟩ := block_index1 t
  show V c main_v42 (((cfg1.win 3).blk t).view.emb (ix2 (0 : Fin 1) q)) = _
  refine congrArg (V c main_v42) (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

/-- An array read through the result's block at point t is the array at the block's rows. -/
theorem read1_out (X : S400000x128.Idx → Ideal .f32) (t : Fin cfg1.N) (p : Fin 5000) (q : Fin 128) :
    ((cfg1.win 4).blk t).view.read (Elt Ideal) X (ix2 p q) = X (ix2 (row1 t p) q) := by
  obtain ⟨-, -, -, -, -, -, -, -, e0, e1⟩ := block_index1 t
  show X (((cfg1.win 4).blk t).view.emb (ix2 p q)) = _
  refine congrArg X (funext fun a => Fin.ext ?_)
  match a with
  | ⟨0, _⟩ => show win1_4.index t (0 : Fin 2) * 5000 + 1 * p.val = t.val * 5000 + p.val; omega
  | ⟨1, _⟩ => show win1_4.index t (1 : Fin 2) * 128 + 1 * q.val = q.val; omega

/-- The body's result block read at (p, q), over any four operand blocks. -/
theorem body1_apply (x0 x1 : Vec Ideal S5000x128 .f32) (x2 : Vec Ideal S5000x1 .f32) (x3 : Vec Ideal S1x128 .f32)
    (p : Fin 5000) (q : Fin 128) :
    out1_4 x0 x1 x2 x3 (ix2 p q)
      = Cert.Lib.combineAt (x0 (ix2 p q)) (x1 (ix2 p q)) (x2 (ix2 p (0 : Fin 1))) (x3 (ix2 (0 : Fin 1) q)) := by
  unfold out1_4
  rw [View.canon_unit_zero zero_offsets]
  simp only [View.ld_unit_zero (S := S5000x128) zero_offsets, View.ld_unit_zero (S := S5000x1) zero_offsets,
    View.ld_unit_zero (S := S1x128) zero_offsets]
  exact Cert.Lib.kernel_combine_apply x0 x1 x2 x3 _ _ _ _ _ _ p q

/-- The host's combine-and-rectify of the four arrays the region reads, as the region finds them. -/
abbrev host1 (c : Dev nD)
    (h1 : S400000x1.BroadcastsInDim S400000x128 (![0, 1] : Fin 2 → Fin 2))
    (h2 : S1x128.BroadcastsInDim S400000x128 (![0, 1] : Fin 2 → Fin 2))
    (h3 : S_.BroadcastsInDim S400000x128 (![] : Fin 0 → Fin S400000x128.rank)) : S400000x128.Idx → Ideal .f32 :=
  maximumf (addf (addf (V c main_v39) (mulf (V c main_v4) (broadcastInDim S400000x128 ![0, 1] h1 (V c main_v41))))
      (broadcastInDim S400000x128 ![0, 1] h2 (V c main_v42)))
    (broadcastInDim S400000x128 ![] h3 (constant (F := Ideal) S_ .f32 0x00000000#32))

/-- What point t writes back is the block at t of the host's result. -/
theorem flushed1_eq (c : Dev nD) (h1 h2 h3) (t : Fin cfg1.N) :
    (dat1 (F := Ideal) V c).flushed 4 t = ((cfg1.win 4).blk t).view.read (Elt Ideal) (host1 V c h1 h2 h3) := by
  show (cfg1.win 4).cut (grid1.coords t) ((dat1 V c).after 4 t) = _
  rw [after1_4]
  funext j
  obtain ⟨p, q, rfl⟩ : ∃ (p : Fin 5000) (q : Fin 128), j = ix2 p q := ⟨j 0, j 1, eq_ix2 j⟩
  refine (body1_apply _ _ _ _ p q).trans ?_
  rw [read1_0 V c t p q, read1_1 V c t p q, read1_2 V c t p, read1_3 V c t q, read1_out _ t p q]
  exact (Cert.Lib.host_combine_apply (V c main_v39) (V c main_v4) (V c main_v41) (V c main_v42) h1 h2 h3 (row1 t p) q).symm

/-- An index of the result array is in point t's block iff each coordinate is in the block's range on its axis. -/
theorem mem_block1 (t : Fin cfg1.N) (i : S400000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v43).slice (win1_4.rect t)).set ↔ _
  rw [View.set_slice_whole, Rect.mem_set_unit]
  exact Iff.rfl

/-- Every index of the result array is in the block of the point its row falls to: row r in block r / 5000. -/
theorem cover1 (i : S400000x128.Idx) :
    ∃ t : Fin cfg1.N, (cfg1.win 4).flush t = true ∧ i ∈ ((cfg1.win 4).blk t).view.set := by
  have hi0 : (i 0).val < 400000 := (i 0).isLt
  have hi1 : (i 1).val < 128 := (i 1).isLt
  have hN : (i 0).val / 5000 < cfg1.N := Nat.lt_of_lt_of_eq (by omega : (i 0).val / 5000 < 80) N_1.symm
  refine ⟨⟨(i 0).val / 5000, hN⟩, flush1_4 _, ?_⟩
  obtain ⟨-, -, -, -, -, -, -, -, e0, e1⟩ := block_index1 ⟨(i 0).val / 5000, hN⟩
  have e0' : win1_4.index ⟨(i 0).val / 5000, hN⟩ (0 : Fin 2) = (i 0).val / 5000 := e0
  rw [mem_block1]
  intro a
  match a with
  | ⟨0, _⟩ =>
    show win1_4.index ⟨(i 0).val / 5000, hN⟩ (0 : Fin 2) * 5000 ≤ (i 0).val
      ∧ (i 0).val < win1_4.index ⟨(i 0).val / 5000, hN⟩ (0 : Fin 2) * 5000 + 5000
    omega
  | ⟨1, _⟩ =>
    show win1_4.index ⟨(i 0).val / 5000, hN⟩ (1 : Fin 2) * 128 ≤ (i 1).val
      ∧ (i 1).val < win1_4.index ⟨(i 0).val / 5000, hN⟩ (1 : Fin 2) * 128 + 128
    omega

/-- THE RESULT ARRAY of region 1 is the host's combine-and-rectify of the arrays the region reads. -/
theorem combine1 (c : Dev nD)
    (h1 : S400000x1.BroadcastsInDim S400000x128 (![0, 1] : Fin 2 → Fin 2))
    (h2 : S1x128.BroadcastsInDim S400000x128 (![0, 1] : Fin 2 → Fin 2))
    (h3 : S_.BroadcastsInDim S400000x128 (![] : Fin 0 → Fin S400000x128.rank)) :
    (dat1 (F := Ideal) V c).arrAt 4 cfg1.N
      = maximumf (addf (addf (V c main_v39) (mulf (V c main_v4) (broadcastInDim S400000x128 ![0, 1] h1 (V c main_v41))))
          (broadcastInDim S400000x128 ![0, 1] h2 (V c main_v42)))
        (broadcastInDim S400000x128 ![] h3 (constant (F := Ideal) S_ .f32 0x00000000#32)) :=
  (dat1 (F := Ideal) V c).arrAt_eq_of_cover 4 (host1 V c h1 h2 h3) (fun t _ => flushed1_eq V c h1 h2 h3 t) cover1

end Region1

/-! ## Region 3: blocks of 5000 rows of a [400000, 128] array, 80 grid points -/

section Region3

/-- The block index of every window at every grid point, decided over the grid: the row-blocked windows sit at block
    row t, column block 0; the bias row is its one block. -/
theorem block_index3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The grid has 80 points. -/
theorem point_lt3 (t : Fin cfg3.N) : t.val < 80 := Nat.lt_of_lt_of_eq t.isLt N_3

/-- Row p of block t is row t * 5000 + p of the array. -/
abbrev row3 (t : Fin cfg3.N) (p : Fin 5000) : Fin 400000 :=
  ⟨t.val * 5000 + p.val, by have := point_lt3 t; have := p.isLt; omega⟩

/-- The first operand's block at point t reads the array at the block's rows. -/
theorem read3_0 (c : Dev nD) (t : Fin cfg3.N) (p : Fin 5000) (q : Fin 128) :
    iblk3 V c 0 t (ix2 p q) = V c main_v83 (ix2 (row3 t p) q) := by
  obtain ⟨e0, e1, -⟩ := block_index3 t
  show V c main_v83 (((cfg3.win 0).blk t).view.emb (ix2 p q)) = _
  refine congrArg (V c main_v83) (funext fun a => Fin.ext ?_)
  match a with
  | ⟨0, _⟩ => show win3_0.index t (0 : Fin 2) * 5000 + 1 * p.val = t.val * 5000 + p.val; omega
  | ⟨1, _⟩ => show win3_0.index t (1 : Fin 2) * 128 + 1 * q.val = q.val; omega

/-- The second operand's block at point t reads the array at the block's rows. -/
theorem read3_1 (c : Dev nD) (t : Fin cfg3.N) (p : Fin 5000) (q : Fin 128) :
    iblk3 V c 1 t (ix2 p q) = V c main_v48 (ix2 (row3 t p) q) := by
  obtain ⟨-, -, e0, e1, -⟩ := block_index3 t
  show V c main_v48 (((cfg3.win 1).blk t).view.emb (ix2 p q)) = _
  refine congrArg (V c main_v48) (funext fun a => Fin.ext ?_)
  match a with
  | ⟨0, _⟩ => show win3_1.index t (0 : Fin 2) * 5000 + 1 * p.val = t.val * 5000 + p.val; omega
  | ⟨1, _⟩ => show win3_1.index t (1 : Fin 2) * 128 + 1 * q.val = q.val; omega

/-- The column's block at point t reads the column at the block's rows. -/
theorem read3_2 (c : Dev nD) (t : Fin cfg3.N) (p : Fin 5000) :
    iblk3 V c 2 t (ix2 p (0 : Fin 1)) = V c main_v85 (ix2 (row3 t p) (0 : Fin 1)) := by
  obtain ⟨-, -, -, -, e0, e1, -⟩ := block_index3 t
  show V c main_v85 (((cfg3.win 2).blk t).view.emb (ix2 p (0 : Fin 1))) = _
  refine congrArg (V c main_v85) (funext fun a => Fin.ext ?_)
  match a with
  | ⟨0, _⟩ => show win3_2.index t (0 : Fin 2) * 5000 + 1 * p.val = t.val * 5000 + p.val; omega
  | ⟨1, _⟩ => show win3_2.index t (1 : Fin 2) * 1 + 1 * 0 = 0; omega

/-- The bias row's block is the whole row at every point. -/
theorem read3_3 (c : Dev nD) (t : Fin cfg3.N) (q : Fin 128) :
    iblk3 V c 3 t (ix2 (0 : Fin 1) q) = V c main_v86 (ix2 (0 : Fin 1) q) := by
  obtain ⟨-, -, -, -, -, -, e0, e1, -⟩ := block_index3 t
  show V c main_v86 (((cfg3.win 3).blk t).view.emb (ix2 (0 : Fin 1) q)) = _
  refine congrArg (V c main_v86) (funext fun a => Fin.ext ?_)
  match a with
  | ⟨0, _⟩ => show win3_3.index t (0 : Fin 2) * 1 + 1 * 0 = 0; omega
  | ⟨1, _⟩ => show win3_3.index t (1 : Fin 2) * 128 + 1 * q.val = q.val; omega

/-- An array read through the result's block at point t is the array at the block's rows. -/
theorem read3_out (X : S400000x128.Idx → Ideal .f32) (t : Fin cfg3.N) (p : Fin 5000) (q : Fin 128) :
    ((cfg3.win 4).blk t).view.read (Elt Ideal) X (ix2 p q) = X (ix2 (row3 t p) q) := by
  obtain ⟨-, -, -, -, -, -, -, -, e0, e1⟩ := block_index3 t
  show X (((cfg3.win 4).blk t).view.emb (ix2 p q)) = _
  refine congrArg X (funext fun a => Fin.ext ?_)
  match a with
  | ⟨0, _⟩ => show win3_4.index t (0 : Fin 2) * 5000 + 1 * p.val = t.val * 5000 + p.val; omega
  | ⟨1, _⟩ => show win3_4.index t (1 : Fin 2) * 128 + 1 * q.val = q.val; omega

/-- The body's result block read at (p, q), over any four operand blocks. -/
theorem body3_apply (x0 x1 : Vec Ideal S5000x128 .f32) (x2 : Vec Ideal S5000x1 .f32) (x3 : Vec Ideal S1x128 .f32)
    (p : Fin 5000) (q : Fin 128) :
    out3_4 x0 x1 x2 x3 (ix2 p q)
      = Cert.Lib.combineAt (x0 (ix2 p q)) (x1 (ix2 p q)) (x2 (ix2 p (0 : Fin 1))) (x3 (ix2 (0 : Fin 1) q)) := by
  unfold out3_4
  rw [View.canon_unit_zero zero_offsets]
  simp only [View.ld_unit_zero (S := S5000x128) zero_offsets, View.ld_unit_zero (S := S5000x1) zero_offsets,
    View.ld_unit_zero (S := S1x128) zero_offsets]
  exact Cert.Lib.kernel_combine_apply x0 x1 x2 x3 _ _ _ _ _ _ p q

/-- The host's combine-and-rectify of the four arrays the region reads, as the region finds them. -/
abbrev host3 (c : Dev nD)
    (h1 : S400000x1.BroadcastsInDim S400000x128 (![0, 1] : Fin 2 → Fin 2))
    (h2 : S1x128.BroadcastsInDim S400000x128 (![0, 1] : Fin 2 → Fin 2))
    (h3 : S_.BroadcastsInDim S400000x128 (![] : Fin 0 → Fin S400000x128.rank)) : S400000x128.Idx → Ideal .f32 :=
  maximumf (addf (addf (V c main_v83) (mulf (V c main_v48) (broadcastInDim S400000x128 ![0, 1] h1 (V c main_v85))))
      (broadcastInDim S400000x128 ![0, 1] h2 (V c main_v86)))
    (broadcastInDim S400000x128 ![] h3 (constant (F := Ideal) S_ .f32 0x00000000#32))

/-- What point t writes back is the block at t of the host's result. -/
theorem flushed3_eq (c : Dev nD) (h1 h2 h3) (t : Fin cfg3.N) :
    (dat3 (F := Ideal) V c).flushed 4 t = ((cfg3.win 4).blk t).view.read (Elt Ideal) (host3 V c h1 h2 h3) := by
  show (cfg3.win 4).cut (grid3.coords t) ((dat3 V c).after 4 t) = _
  rw [after3_4]
  funext j
  obtain ⟨p, q, rfl⟩ : ∃ (p : Fin 5000) (q : Fin 128), j = ix2 p q := ⟨j 0, j 1, eq_ix2 j⟩
  refine (body3_apply _ _ _ _ p q).trans ?_
  rw [read3_0 V c t p q, read3_1 V c t p q, read3_2 V c t p, read3_3 V c t q, read3_out _ t p q]
  exact (Cert.Lib.host_combine_apply (V c main_v83) (V c main_v48) (V c main_v85) (V c main_v86) h1 h2 h3 (row3 t p) q).symm

/-- An index of the result array is in point t's block iff each coordinate is in the block's range on its axis. -/
theorem mem_block3 (t : Fin cfg3.N) (i : S400000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v87).slice (win3_4.rect t)).set ↔ _
  rw [View.set_slice_whole, Rect.mem_set_unit]
  exact Iff.rfl

/-- Every index of the result array is in the block of the point its row falls to: row r in block r / 5000. -/
theorem cover3 (i : S400000x128.Idx) :
    ∃ t : Fin cfg3.N, (cfg3.win 4).flush t = true ∧ i ∈ ((cfg3.win 4).blk t).view.set := by
  have hi0 : (i 0).val < 400000 := (i 0).isLt
  have hi1 : (i 1).val < 128 := (i 1).isLt
  have hN : (i 0).val / 5000 < cfg3.N := Nat.lt_of_lt_of_eq (by omega : (i 0).val / 5000 < 80) N_3.symm
  refine ⟨⟨(i 0).val / 5000, hN⟩, flush3_4 _, ?_⟩
  obtain ⟨-, -, -, -, -, -, -, -, e0, e1⟩ := block_index3 ⟨(i 0).val / 5000, hN⟩
  have e0' : win3_4.index ⟨(i 0).val / 5000, hN⟩ (0 : Fin 2) = (i 0).val / 5000 := e0
  rw [mem_block3]
  intro a
  match a with
  | ⟨0, _⟩ =>
    show win3_4.index ⟨(i 0).val / 5000, hN⟩ (0 : Fin 2) * 5000 ≤ (i 0).val
      ∧ (i 0).val < win3_4.index ⟨(i 0).val / 5000, hN⟩ (0 : Fin 2) * 5000 + 5000
    omega
  | ⟨1, _⟩ =>
    show win3_4.index ⟨(i 0).val / 5000, hN⟩ (1 : Fin 2) * 128 ≤ (i 1).val
      ∧ (i 1).val < win3_4.index ⟨(i 0).val / 5000, hN⟩ (1 : Fin 2) * 128 + 128
    omega

/-- THE RESULT ARRAY of region 3 is the host's combine-and-rectify of the arrays the region reads. -/
theorem combine3 (c : Dev nD)
    (h1 : S400000x1.BroadcastsInDim S400000x128 (![0, 1] : Fin 2 → Fin 2))
    (h2 : S1x128.BroadcastsInDim S400000x128 (![0, 1] : Fin 2 → Fin 2))
    (h3 : S_.BroadcastsInDim S400000x128 (![] : Fin 0 → Fin S400000x128.rank)) :
    (dat3 (F := Ideal) V c).arrAt 4 cfg3.N
      = maximumf (addf (addf (V c main_v83) (mulf (V c main_v48) (broadcastInDim S400000x128 ![0, 1] h1 (V c main_v85))))
          (broadcastInDim S400000x128 ![0, 1] h2 (V c main_v86)))
        (broadcastInDim S400000x128 ![] h3 (constant (F := Ideal) S_ .f32 0x00000000#32)) :=
  (dat3 (F := Ideal) V c).arrAt_eq_of_cover 4 (host3 V c h1 h2 h3) (fun t _ => flushed3_eq V c h1 h2 h3 t) cover3

end Region3

/-! ## Region 5: blocks of 4800 rows of a [9600, 128] array, 2 grid points -/

section Region5

/-- The block index of every window at every grid point, decided over the grid: the row-blocked windows sit at block
    row t, column block 0; the bias row is its one block. -/
theorem block_index5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The grid has 2 points. -/
theorem point_lt5 (t : Fin cfg5.N) : t.val < 2 := Nat.lt_of_lt_of_eq t.isLt N_5

/-- Row p of block t is row t * 4800 + p of the array. -/
abbrev row5 (t : Fin cfg5.N) (p : Fin 4800) : Fin 9600 :=
  ⟨t.val * 4800 + p.val, by have := point_lt5 t; have := p.isLt; omega⟩

/-- The first operand's block at point t reads the array at the block's rows. -/
theorem read5_0 (c : Dev nD) (t : Fin cfg5.N) (p : Fin 4800) (q : Fin 128) :
    iblk5 V c 0 t (ix2 p q) = V c main_v146 (ix2 (row5 t p) q) := by
  obtain ⟨e0, e1, -⟩ := block_index5 t
  show V c main_v146 (((cfg5.win 0).blk t).view.emb (ix2 p q)) = _
  refine congrArg (V c main_v146) (funext fun a => Fin.ext ?_)
  match a with
  | ⟨0, _⟩ => show win5_0.index t (0 : Fin 2) * 4800 + 1 * p.val = t.val * 4800 + p.val; omega
  | ⟨1, _⟩ => show win5_0.index t (1 : Fin 2) * 128 + 1 * q.val = q.val; omega

/-- The second operand's block at point t reads the array at the block's rows. -/
theorem read5_1 (c : Dev nD) (t : Fin cfg5.N) (p : Fin 4800) (q : Fin 128) :
    iblk5 V c 1 t (ix2 p q) = V c main_v111 (ix2 (row5 t p) q) := by
  obtain ⟨-, -, e0, e1, -⟩ := block_index5 t
  show V c main_v111 (((cfg5.win 1).blk t).view.emb (ix2 p q)) = _
  refine congrArg (V c main_v111) (funext fun a => Fin.ext ?_)
  match a with
  | ⟨0, _⟩ => show win5_1.index t (0 : Fin 2) * 4800 + 1 * p.val = t.val * 4800 + p.val; omega
  | ⟨1, _⟩ => show win5_1.index t (1 : Fin 2) * 128 + 1 * q.val = q.val; omega

/-- The column's block at point t reads the column at the block's rows. -/
theorem read5_2 (c : Dev nD) (t : Fin cfg5.N) (p : Fin 4800) :
    iblk5 V c 2 t (ix2 p (0 : Fin 1)) = V c main_v148 (ix2 (row5 t p) (0 : Fin 1)) := by
  obtain ⟨-, -, -, -, e0, e1, -⟩ := block_index5 t
  show V c main_v148 (((cfg5.win 2).blk t).view.emb (ix2 p (0 : Fin 1))) = _
  refine congrArg (V c main_v148) (funext fun a => Fin.ext ?_)
  match a with
  | ⟨0, _⟩ => show win5_2.index t (0 : Fin 2) * 4800 + 1 * p.val = t.val * 4800 + p.val; omega
  | ⟨1, _⟩ => show win5_2.index t (1 : Fin 2) * 1 + 1 * 0 = 0; omega

/-- The bias row's block is the whole row at every point. -/
theorem read5_3 (c : Dev nD) (t : Fin cfg5.N) (q : Fin 128) :
    iblk5 V c 3 t (ix2 (0 : Fin 1) q) = V c main_v149 (ix2 (0 : Fin 1) q) := by
  obtain ⟨-, -, -, -, -, -, e0, e1, -⟩ := block_index5 t
  show V c main_v149 (((cfg5.win 3).blk t).view.emb (ix2 (0 : Fin 1) q)) = _
  refine congrArg (V c main_v149) (funext fun a => Fin.ext ?_)
  match a with
  | ⟨0, _⟩ => show win5_3.index t (0 : Fin 2) * 1 + 1 * 0 = 0; omega
  | ⟨1, _⟩ => show win5_3.index t (1 : Fin 2) * 128 + 1 * q.val = q.val; omega

/-- An array read through the result's block at point t is the array at the block's rows. -/
theorem read5_out (X : S9600x128.Idx → Ideal .f32) (t : Fin cfg5.N) (p : Fin 4800) (q : Fin 128) :
    ((cfg5.win 4).blk t).view.read (Elt Ideal) X (ix2 p q) = X (ix2 (row5 t p) q) := by
  obtain ⟨-, -, -, -, -, -, -, -, e0, e1⟩ := block_index5 t
  show X (((cfg5.win 4).blk t).view.emb (ix2 p q)) = _
  refine congrArg X (funext fun a => Fin.ext ?_)
  match a with
  | ⟨0, _⟩ => show win5_4.index t (0 : Fin 2) * 4800 + 1 * p.val = t.val * 4800 + p.val; omega
  | ⟨1, _⟩ => show win5_4.index t (1 : Fin 2) * 128 + 1 * q.val = q.val; omega

/-- The body's result block read at (p, q), over any four operand blocks. -/
theorem body5_apply (x0 x1 : Vec Ideal S4800x128 .f32) (x2 : Vec Ideal S4800x1 .f32) (x3 : Vec Ideal S1x128 .f32)
    (p : Fin 4800) (q : Fin 128) :
    out5_4 x0 x1 x2 x3 (ix2 p q)
      = Cert.Lib.combineAt (x0 (ix2 p q)) (x1 (ix2 p q)) (x2 (ix2 p (0 : Fin 1))) (x3 (ix2 (0 : Fin 1) q)) := by
  unfold out5_4
  rw [View.canon_unit_zero zero_offsets]
  simp only [View.ld_unit_zero (S := S4800x128) zero_offsets, View.ld_unit_zero (S := S4800x1) zero_offsets,
    View.ld_unit_zero (S := S1x128) zero_offsets]
  exact Cert.Lib.kernel_combine_apply x0 x1 x2 x3 _ _ _ _ _ _ p q

/-- The host's combine-and-rectify of the four arrays the region reads, as the region finds them. -/
abbrev host5 (c : Dev nD)
    (h1 : S9600x1.BroadcastsInDim S9600x128 (![0, 1] : Fin 2 → Fin 2))
    (h2 : S1x128.BroadcastsInDim S9600x128 (![0, 1] : Fin 2 → Fin 2))
    (h3 : S_.BroadcastsInDim S9600x128 (![] : Fin 0 → Fin S9600x128.rank)) : S9600x128.Idx → Ideal .f32 :=
  maximumf (addf (addf (V c main_v146) (mulf (V c main_v111) (broadcastInDim S9600x128 ![0, 1] h1 (V c main_v148))))
      (broadcastInDim S9600x128 ![0, 1] h2 (V c main_v149)))
    (broadcastInDim S9600x128 ![] h3 (constant (F := Ideal) S_ .f32 0x00000000#32))

/-- What point t writes back is the block at t of the host's result. -/
theorem flushed5_eq (c : Dev nD) (h1 h2 h3) (t : Fin cfg5.N) :
    (dat5 (F := Ideal) V c).flushed 4 t = ((cfg5.win 4).blk t).view.read (Elt Ideal) (host5 V c h1 h2 h3) := by
  show (cfg5.win 4).cut (grid5.coords t) ((dat5 V c).after 4 t) = _
  rw [after5_4]
  funext j
  obtain ⟨p, q, rfl⟩ : ∃ (p : Fin 4800) (q : Fin 128), j = ix2 p q := ⟨j 0, j 1, eq_ix2 j⟩
  refine (body5_apply _ _ _ _ p q).trans ?_
  rw [read5_0 V c t p q, read5_1 V c t p q, read5_2 V c t p, read5_3 V c t q, read5_out _ t p q]
  exact (Cert.Lib.host_combine_apply (V c main_v146) (V c main_v111) (V c main_v148) (V c main_v149) h1 h2 h3 (row5 t p) q).symm

/-- An index of the result array is in point t's block iff each coordinate is in the block's range on its axis. -/
theorem mem_block5 (t : Fin cfg5.N) (i : S9600x128.Idx) :
    i ∈ ((cfg5.win 4).blk t).view.set ↔ ∀ a : Fin 2, win5_4.index t a * S4800x128.size a ≤ (i a).val
      ∧ (i a).val < win5_4.index t a * S4800x128.size a + S4800x128.size a := by
  show i ∈ ((View.whole main_v150).slice (win5_4.rect t)).set ↔ _
  rw [View.set_slice_whole, Rect.mem_set_unit]
  exact Iff.rfl

/-- Every index of the result array is in the block of the point its row falls to: row r in block r / 4800. -/
theorem cover5 (i : S9600x128.Idx) :
    ∃ t : Fin cfg5.N, (cfg5.win 4).flush t = true ∧ i ∈ ((cfg5.win 4).blk t).view.set := by
  have hi0 : (i 0).val < 9600 := (i 0).isLt
  have hi1 : (i 1).val < 128 := (i 1).isLt
  have hN : (i 0).val / 4800 < cfg5.N := Nat.lt_of_lt_of_eq (by omega : (i 0).val / 4800 < 2) N_5.symm
  refine ⟨⟨(i 0).val / 4800, hN⟩, flush5_4 _, ?_⟩
  obtain ⟨-, -, -, -, -, -, -, -, e0, e1⟩ := block_index5 ⟨(i 0).val / 4800, hN⟩
  have e0' : win5_4.index ⟨(i 0).val / 4800, hN⟩ (0 : Fin 2) = (i 0).val / 4800 := e0
  rw [mem_block5]
  intro a
  match a with
  | ⟨0, _⟩ =>
    show win5_4.index ⟨(i 0).val / 4800, hN⟩ (0 : Fin 2) * 4800 ≤ (i 0).val
      ∧ (i 0).val < win5_4.index ⟨(i 0).val / 4800, hN⟩ (0 : Fin 2) * 4800 + 4800
    omega
  | ⟨1, _⟩ =>
    show win5_4.index ⟨(i 0).val / 4800, hN⟩ (1 : Fin 2) * 128 ≤ (i 1).val
      ∧ (i 1).val < win5_4.index ⟨(i 0).val / 4800, hN⟩ (1 : Fin 2) * 128 + 128
    omega

/-- THE RESULT ARRAY of region 5 is the host's combine-and-rectify of the arrays the region reads. -/
theorem combine5 (c : Dev nD)
    (h1 : S9600x1.BroadcastsInDim S9600x128 (![0, 1] : Fin 2 → Fin 2))
    (h2 : S1x128.BroadcastsInDim S9600x128 (![0, 1] : Fin 2 → Fin 2))
    (h3 : S_.BroadcastsInDim S9600x128 (![] : Fin 0 → Fin S9600x128.rank)) :
    (dat5 (F := Ideal) V c).arrAt 4 cfg5.N
      = maximumf (addf (addf (V c main_v146) (mulf (V c main_v111) (broadcastInDim S9600x128 ![0, 1] h1 (V c main_v148))))
          (broadcastInDim S9600x128 ![0, 1] h2 (V c main_v149)))
        (broadcastInDim S9600x128 ![] h3 (constant (F := Ideal) S_ .f32 0x00000000#32)) :=
  (dat5 (F := Ideal) V c).arrAt_eq_of_cover 4 (host5 V c h1 h2 h3) (fun t _ => flushed5_eq V c h1 h2 h3 t) cover5

end Region5

end Cert.KernelIdeal.RegionValue

end
-- ==== Proof.LibRowOfVector.lean ====
/-
  A vector laid out as a one-row matrix, two ways.

  Reshaping a vector of length n to [1, n] and broadcasting it along dimension 1 of [1, n] both put entry j of the vector at
  position (0, j): the two arrays are equal.
-/
import Idealize.ShloMosaic.Lib.Pipeline.Value
import Idealize.ShloMosaic.Lib.ValueIdx

noncomputable section

namespace Cert.Lib

open Idealize.ShloMosaic Idealize.ShloMosaic.ValueIdx

/-- The reshape of a length-n vector to one row is its broadcast along dimension 1 of [1, n]. -/
theorem shapeCast_row_eq_broadcastInDim {n : Nat} {α : Type} (b : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ b h = broadcastInDim ⟨2, ![1, n]⟩ ![1] h' b := by
  funext j
  obtain ⟨p, q, rfl⟩ : ∃ (p : Fin 1) (q : Fin n), j = ix2 p q := ⟨j 0, j 1, eq_ix2 j⟩
  have hp : p.val = 0 := by omega
  -- both sides read the vector at q
  rw [shapeCast_apply b h (ix2 p q) (ix1 q) (by
        rw [Shape.rowMajor_val_one, Shape.rowMajor_val_two]
        show q.val = p.val * n + q.val
        rw [hp]; omega),
      broadcastInDim_apply ![1] h' b (ix2 p q) (ix1 q) (fun a => by
        match a with
        | ⟨0, _⟩ =>
          show q.val = if n = 1 then 0 else q.val
          split
          · omega
          · rfl)]

end Cert.Lib

end
-- ==== Proof.LibTypedBufferCasts.lean ====
/-
  Moving a value between a tensor's type and its buffer's type is the identity.

  A function that a host program calls is printed with operations typed by the tensor each value holds; a value goes to
  its buffer and back by transport along the equation "the buffer's type is the tensor's type". Transport there and back
  is the identity, whatever the equation's proof: inside a composed term of such operations every pair cancels.
-/
import Idealize.ShloMosaic.Lib.StableHlo

noncomputable section

namespace Cert.Lib

open Idealize.ShloMosaic Idealize.ShloMosaic.StableHlo

/-- A value moved to its buffer's type and back is itself. -/
theorem ofBuf_toBuf {sig : RefSig} {T : BufTy} {Val : EltTy → Type} (x : TRef sig T) (v : T.Contents Val) :
    x.ofBuf (x.toBuf v) = v := by
  obtain ⟨r, h, _, _⟩ := x
  subst h
  rfl

/-- A buffer's contents moved to the tensor's type and back are themselves. -/
theorem toBuf_ofBuf {sig : RefSig} {T : BufTy} {Val : EltTy → Type} (x : TRef sig T) (v : x.ref.ty.Contents Val) :
    x.toBuf (x.ofBuf v) = v := by
  obtain ⟨r, h, _, _⟩ := x
  subst h
  rfl

end Cert.Lib

end
-- ==== Proof.Bridge1.lean ====
/-
  The first graph-convolution layer, kernel program against reference.

  The layer is x ↦ max(agg + h ⊙ dis² + b, 0) with h = x · W, dis = (deg + 1)^(-1/2) from the edge list, and agg the sum
  over edges of the source row of h scaled by the two endpoints' dis.  The kernel program computes h in a region (block
  rows of x times W, operands rounded to bf16: the identity on the extended reals) where the reference has one
  dot_general; both then run the SAME host operations on the edge list for agg and dis²; the kernel program's second
  region is the final combination, for which the reference has host operations.  The column dis² reaches the region
  reshaped to [n, 1] where the reference broadcasts it along dimension 0, and the bias reshaped to [1, 128] where the
  reference broadcasts it along dimension 1: the same arrays.
-/
import proofs.«127647_j11982958756658_1_alg».proof.Proof.Atoms
import proofs.«127647_j11982958756658_1_alg».proof.Proof.MatmulRegions
import proofs.«127647_j11982958756658_1_alg».proof.Proof.CombineRegions
import proofs.«127647_j11982958756658_1_alg».proof.Proof.LibRowOfVector
import proofs.«127647_j11982958756658_1_alg».proof.Proof.LibHostSpread
import proofs.«127647_j11982958756658_1_alg».proof.Proof.LibTypedBufferCasts

set_option maxRecDepth 16384

noncomputable section

namespace Cert.Bridge

open Idealize.ShloMosaic Idealize.ShloMosaic.TcCoe Idealize.SL.Sem Idealize.ShloMosaic.StableHlo
open Cert.KernelIdeal.Gen Cert.KernelIdeal.Walk Cert.KernelIdeal.RegionValue Cert.ReferenceIdeal.Stages

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- The first matrix product: the region's output array is the reference's dot_general. -/
theorem layer1_product (hag : Agree m m' c) :
    W2 m ρ c (Proc.devRef .tc Cert.KernelIdeal.main_v4) = VR0 m' c (Proc.devRef .tc Cert.ReferenceIdeal.main_v0) := by
  refine (W2_arr m ρ c 2).trans ((matmul0 (V1 m ρ) c).trans ?_)
  bridge_walk [VR0]
  rw [atom0 m ρ m' c hag, atom7 m ρ m' c hag]
  rfl

section
variable (h0 : W2 m ρ c (Proc.devRef .tc Cert.KernelIdeal.main_v4) = VR0 m' c (Proc.devRef .tc Cert.ReferenceIdeal.main_v0))
include h0

/-- The product as the second region finds it. -/
theorem layer1_h : V3 m ρ c Cert.KernelIdeal.main_v4 = VR1 m' c (Proc.devRef .tc Cert.ReferenceIdeal.main_v0) := by
  rw [VR1_v0]
  bridge_walk [Idealize.ShloMosaic.StableHlo.after_nil]
  exact h0

/-- The edge aggregation: the same host operations of the product and the edge list. -/
theorem layer1_agg (hag : Agree m m' c) : V3 m ρ c Cert.KernelIdeal.main_v39 = VR1 m' c (Proc.devRef .tc Cert.ReferenceIdeal.main_v39) := by
  bridge_walk [VR1]
  rw [h0, atom1 m ρ m' c hag, VR0_arg1]
  rfl
end

/-- The squared normalisation as a column: reshaped by the kernel program, broadcast along dimension 0 by the reference. -/
theorem layer1_dis2 (hag : Agree m m' c) :
    V3 m ρ c Cert.KernelIdeal.main_v41 = broadcastInDim Cert.ReferenceIdeal.S400000x1 ![0] Cert.ReferenceIdeal.Facts₀.bcast_S400000_S400000x1_0 (VR1 m' c (Proc.devRef .tc Cert.ReferenceIdeal.main_v40)) := by
  bridge_walk [VR1]
  rw [atom1 m ρ m' c hag, VR0_arg1]
  exact Cert.Lib.shapeCast_col_eq_spread _ _ _

/-- The bias as a row: reshaped by the kernel program, broadcast along dimension 1 by the reference. -/
theorem layer1_bias (hag : Agree m m' c) :
    V3 m ρ c Cert.KernelIdeal.main_v42 = broadcastInDim Cert.ReferenceIdeal.S1x128 ![1] Cert.ReferenceIdeal.Facts₀.bcast_S128_S1x128_1 (VR1 m' c (Proc.devRef .tc Cert.ReferenceIdeal.main_arg8)) := by
  bridge_walk [Idealize.ShloMosaic.StableHlo.after_nil]
  rw [atom8 m ρ m' c hag, VR1_arg8]
  exact Cert.Lib.shapeCast_row_eq_broadcastInDim _ _ _

/-- The layer's output: the second region's array is the reference's rectified sum. -/
theorem layer1_out (hag : Agree m m' c)
    (h0 : W2 m ρ c (Proc.devRef .tc Cert.KernelIdeal.main_v4) = VR0 m' c (Proc.devRef .tc Cert.ReferenceIdeal.main_v0)) :
    W4 m ρ c (Proc.devRef .tc Cert.KernelIdeal.main_v43) = VR2 m' c (Proc.devRef .tc Cert.ReferenceIdeal.main_v48) := by
  refine (W4_arr m ρ c 4).trans ((combine1 (V3 m ρ) c Cert.ReferenceIdeal.Facts₀.bcast_S400000x1_S400000x128_0_1 Cert.ReferenceIdeal.Facts₀.bcast_S1x128_S400000x128_0_1 Cert.ReferenceIdeal.Facts₀.bcast_S_S400000x128).trans ?_)
  rw [layer1_h m ρ m' c h0, layer1_agg m ρ m' c h0 hag, layer1_dis2 m ρ m' c hag, layer1_bias m ρ m' c hag]
  ref_walk [VR2]
  simp only [Cert.Lib.ofBuf_toBuf, Cert.Lib.toBuf_ofBuf]
  -- the rectifier is an outlined function: its operand and its result are moved between the tensor's type and the buffer's
  rw [show ∀ v, (TRef.of (T := ⟨Cert.ReferenceIdeal.S400000x128, .f32⟩) Cert.ReferenceIdeal.main_v48).toBuf v = v from fun _ => rfl,
    show ∀ v, (TRef.of (T := ⟨Cert.ReferenceIdeal.S400000x128, .f32⟩) Cert.ReferenceIdeal.main_v47).ofBuf v = v from fun _ => rfl]

end Cert.Bridge

end
-- ==== Proof.Bridge2.lean ====
/-
  The second graph-convolution layer, kernel program against reference.

  The layer is x ↦ max(agg + h ⊙ dis² + b, 0) with h = x · W, x the first layer's output, dis = (deg + 1)^(-1/2) from the
  edge list, and agg the sum over edges of the source row of h scaled by the two endpoints' dis.  The kernel program
  computes h in a region (block rows of x times W, operands rounded to bf16: the identity on the extended reals) where the
  reference has one dot_general; both then run the SAME host operations on the edge list for agg and dis²; the kernel
  program's next region is the final combination, for which the reference has host operations.  The column dis² reaches
  the region reshaped to [n, 1] where the reference broadcasts it along dimension 0, and the bias reshaped to [1, 128]
  where the reference broadcasts it along dimension 1: the same arrays.
-/
import proofs.«127647_j11982958756658_1_alg».proof.Proof.Atoms
import proofs.«127647_j11982958756658_1_alg».proof.Proof.MatmulRegions
import proofs.«127647_j11982958756658_1_alg».proof.Proof.CombineRegions
import proofs.«127647_j11982958756658_1_alg».proof.Proof.LibRowOfVector
import proofs.«127647_j11982958756658_1_alg».proof.Proof.LibHostSpread
import proofs.«127647_j11982958756658_1_alg».proof.Proof.LibTypedBufferCasts

set_option maxRecDepth 16384

noncomputable section

namespace Cert.Bridge

open Idealize.ShloMosaic Idealize.ShloMosaic.TcCoe Idealize.SL.Sem Idealize.ShloMosaic.StableHlo
open Cert.KernelIdeal.Gen Cert.KernelIdeal.Walk Cert.KernelIdeal.RegionValue Cert.ReferenceIdeal.Stages

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- The second matrix product: the region's output array is the reference's dot_general of the first layer's output. -/
theorem layer2_product (hag : Agree m m' c)
    (h1 : W4 m ρ c (Proc.devRef .tc Cert.KernelIdeal.main_v43) = VR2 m' c (Proc.devRef .tc Cert.ReferenceIdeal.main_v48)) :
    W6 m ρ c (Proc.devRef .tc Cert.KernelIdeal.main_v48) = VR3 m' c (Proc.devRef .tc Cert.ReferenceIdeal.main_v49) := by
  refine (W6_arr m ρ c 2).trans ((matmul2 (V5 m ρ) c).trans ?_)
  bridge_walk [VR3]
  rw [h1, atom9 m ρ m' c hag, VR2_arg9]
  rfl

section
variable (h2 : W6 m ρ c (Proc.devRef .tc Cert.KernelIdeal.main_v48) = VR3 m' c (Proc.devRef .tc Cert.ReferenceIdeal.main_v49))
include h2

/-- The product as the next region finds it. -/
theorem layer2_h : V7 m ρ c Cert.KernelIdeal.main_v48 = VR4 m' c (Proc.devRef .tc Cert.ReferenceIdeal.main_v49) := by
  rw [VR4_v49]
  bridge_walk [Idealize.ShloMosaic.StableHlo.after_nil]
  exact h2

set_option maxHeartbeats 2000000 in  -- the walk steps over two more regions and their host stretches than the first layer's
/-- The edge aggregation: the same host operations of the product and the edge list. -/
theorem layer2_agg (hag : Agree m m' c) : V7 m ρ c Cert.KernelIdeal.main_v83 = VR4 m' c (Proc.devRef .tc Cert.ReferenceIdeal.main_v88) := by
  bridge_walk [VR4]
  rw [h2, atom1 m ρ m' c hag, VR3_arg1]
  rfl
end

/-- The squared normalisation as a column: reshaped by the kernel program, broadcast along dimension 0 by the reference. -/
theorem layer2_dis2 (hag : Agree m m' c) :
    V7 m ρ c Cert.KernelIdeal.main_v85 = broadcastInDim Cert.ReferenceIdeal.S400000x1 ![0] Cert.ReferenceIdeal.Facts₀.bcast_S400000_S400000x1_0 (VR4 m' c (Proc.devRef .tc Cert.ReferenceIdeal.main_v89)) := by
  bridge_walk [VR4]
  rw [atom1 m ρ m' c hag, VR3_arg1]
  exact Cert.Lib.shapeCast_col_eq_spread _ _ _

/-- The bias as a row: reshaped by the kernel program, broadcast along dimension 1 by the reference. -/
theorem layer2_bias (hag : Agree m m' c) :
    V7 m ρ c Cert.KernelIdeal.main_v86 = broadcastInDim Cert.ReferenceIdeal.S1x128 ![1] Cert.ReferenceIdeal.Facts₀.bcast_S128_S1x128_1 (VR4 m' c (Proc.devRef .tc Cert.ReferenceIdeal.main_arg10)) := by
  bridge_walk [Idealize.ShloMosaic.StableHlo.after_nil]
  rw [atom10 m ρ m' c hag, VR4_arg10]
  exact Cert.Lib.shapeCast_row_eq_broadcastInDim _ _ _

/-- The layer's output: the combining region's array is the reference's rectified sum. -/
theorem layer2_out (hag : Agree m m' c)
    (h2 : W6 m ρ c (Proc.devRef .tc Cert.KernelIdeal.main_v48) = VR3 m' c (Proc.devRef .tc Cert.ReferenceIdeal.main_v49)) :
    W8 m ρ c (Proc.devRef .tc Cert.KernelIdeal.main_v87) = VR5 m' c (Proc.devRef .tc Cert.ReferenceIdeal.main_v97) := by
  refine (W8_arr m ρ c 4).trans ((combine3 (V7 m ρ) c Cert.ReferenceIdeal.Facts₀.bcast_S400000x1_S400000x128_0_1 Cert.ReferenceIdeal.Facts₀.bcast_S1x128_S400000x128_0_1 Cert.ReferenceIdeal.Facts₀.bcast_S_S400000x128).trans ?_)
  rw [layer2_h m ρ m' c h2, layer2_agg m ρ m' c h2 hag, layer2_dis2 m ρ m' c hag, layer2_bias m ρ m' c hag]
  ref_walk [VR5]
  simp only [Cert.Lib.ofBuf_toBuf, Cert.Lib.toBuf_ofBuf]
  -- the rectifier is an outlined function: its operand and its result are moved between the tensor's type and the buffer's
  rw [show ∀ v, (TRef.of (T := ⟨Cert.ReferenceIdeal.S400000x128, .f32⟩) Cert.ReferenceIdeal.main_v97).toBuf v = v from fun _ => rfl,
    show ∀ v, (TRef.of (T := ⟨Cert.ReferenceIdeal.S400000x128, .f32⟩) Cert.ReferenceIdeal.main_v96).ofBuf v = v from fun _ => rfl]

end Cert.Bridge

end
-- ==== Proof.Bridge3.lean ====
/-
  Between the second and the third layer: pooling per function and the call-graph node features.

  Both programs run the SAME host operations here: the second layer's output is summed per function and divided by the
  function's node count (at least one); an internal call-graph node takes its function's pooled row (the source index
  clamped into range), an external one its row of the embedding table, selected by the node's flag.  So the kernel
  program's feature array is the reference's, given that the second layer's outputs agree and the arguments agree.
-/
import proofs.«127647_j11982958756658_1_alg».proof.Proof.Atoms
import proofs.«127647_j11982958756658_1_alg».proof.Proof.MatmulRegions
import proofs.«127647_j11982958756658_1_alg».proof.Proof.CombineRegions
import proofs.«127647_j11982958756658_1_alg».proof.Proof.LibRowOfVector
import proofs.«127647_j11982958756658_1_alg».proof.Proof.LibHostSpread
import proofs.«127647_j11982958756658_1_alg».proof.Proof.LibTypedBufferCasts

set_option maxRecDepth 16384

noncomputable section

namespace Cert.Bridge

open Idealize.ShloMosaic Idealize.ShloMosaic.TcCoe Idealize.SL.Sem Idealize.ShloMosaic.StableHlo
open Cert.KernelIdeal.Gen Cert.KernelIdeal.Walk Cert.KernelIdeal.RegionValue Cert.ReferenceIdeal.Stages

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

set_option maxHeartbeats 4000000 in
/-- The call-graph node features: the kernel program's array is the reference's. -/
theorem features (hag : Agree m m' c)
    (h4 : W8 m ρ c (Proc.devRef .tc Cert.KernelIdeal.main_v87) = VR5 m' c (Proc.devRef .tc Cert.ReferenceIdeal.main_v97)) :
    V15 m ρ c Cert.KernelIdeal.main_v106 = VR6 m' c (Proc.devRef .tc Cert.ReferenceIdeal.main_v116) := by
  bridge_walk [VR6]
  simp only [Cert.Lib.ofBuf_toBuf, Cert.Lib.toBuf_ofBuf]
  rw [h4, atom2 m ρ m' c hag, atom5 m ρ m' c hag, atom6 m ρ m' c hag, atom11 m ρ m' c hag, VR5_arg2, VR5_arg5, VR5_arg6, VR5_arg11]
  -- the outlined functions' operands and results are moved between a tensor's type and its buffer's: the identity
  simp only [show ∀ v, (TRef.of (T := ⟨Cert.KernelIdeal.S9600x128, .f32⟩) Cert.KernelIdeal.main_v106).toBuf (Val := Elt Ideal) v = v from fun _ => rfl,
    show ∀ v, (TRef.of (T := ⟨Cert.KernelIdeal.S9600x1, .i1⟩) Cert.KernelIdeal.main_v105).ofBuf (Val := Elt Ideal) v = v from fun _ => rfl,
    show ∀ v, (TRef.of (T := ⟨Cert.KernelIdeal.S10002x128, .f32⟩) Cert.KernelIdeal.main_arg11).ofBuf (Val := Elt Ideal) v = v from fun _ => rfl,
    show ∀ v, (TRef.of (T := ⟨Cert.KernelIdeal.S9600, .i32⟩) Cert.KernelIdeal.main_arg5).ofBuf (Val := Elt Ideal) v = v from fun _ => rfl,
    show ∀ v, (TRef.of (T := ⟨Cert.KernelIdeal.S_, .i32⟩) Cert.KernelIdeal.main_c_23).ofBuf (Val := Elt Ideal) v = v from fun _ => rfl,
    show ∀ v, (TRef.of (T := ⟨Cert.KernelIdeal.S_, .i32⟩) Cert.KernelIdeal.main_c_22).ofBuf (Val := Elt Ideal) v = v from fun _ => rfl,
    show ∀ v, (TRef.of (T := ⟨Cert.KernelIdeal.S8000x128, .f32⟩) Cert.KernelIdeal.main_v99).ofBuf (Val := Elt Ideal) v = v from fun _ => rfl,
    show ∀ v, (TRef.of (T := ⟨Cert.ReferenceIdeal.S9600x128, .f32⟩) Cert.ReferenceIdeal.main_v116).toBuf (Val := Elt Ideal) v = v from fun _ => rfl,
    show ∀ v, (TRef.of (T := ⟨Cert.ReferenceIdeal.S9600x1, .i1⟩) Cert.ReferenceIdeal.main_v115).ofBuf (Val := Elt Ideal) v = v from fun _ => rfl,
    show ∀ v, (TRef.of (T := ⟨Cert.ReferenceIdeal.S10002x128, .f32⟩) Cert.ReferenceIdeal.main_arg11).ofBuf (Val := Elt Ideal) v = v from fun _ => rfl,
    show ∀ v, (TRef.of (T := ⟨Cert.ReferenceIdeal.S9600, .i32⟩) Cert.ReferenceIdeal.main_arg5).ofBuf (Val := Elt Ideal) v = v from fun _ => rfl,
    show ∀ v, (TRef.of (T := ⟨Cert.ReferenceIdeal.S_, .i32⟩) Cert.ReferenceIdeal.main_c_23).ofBuf (Val := Elt Ideal) v = v from fun _ => rfl,
    show ∀ v, (TRef.of (T := ⟨Cert.ReferenceIdeal.S_, .i32⟩) Cert.ReferenceIdeal.main_c_22).ofBuf (Val := Elt Ideal) v = v from fun _ => rfl,
    show ∀ v, (TRef.of (T := ⟨Cert.ReferenceIdeal.S8000x128, .f32⟩) Cert.ReferenceIdeal.main_v109).ofBuf (Val := Elt Ideal) v = v from fun _ => rfl]
  rfl

end Cert.Bridge

end
-- ==== Proof.Bridge4.lean ====
/-
  The third graph-convolution layer (the call-graph layer, 9600 rows), kernel program against reference.

  The layer is x ↦ max(agg + h ⊙ dis² + b, 0) with h = x · W, dis = (deg + 1)^(-1/2) from the call-graph edge list, and
  agg the sum over edges of the source row of h scaled by the two endpoints' dis.  The kernel program computes h in a
  region (block rows of x times W, operands rounded to bf16: the identity on the extended reals) where the reference has
  one dot_general; both then run the SAME host operations on the edge list for agg and dis² (the kernel program slices
  the edge rows and columns before its product region, the reference after its product: the slices are of the same
  argument); the kernel program's second region is the final combination, for which the reference has host operations.
  The column dis² reaches the region reshaped to [n, 1] where the reference broadcasts it along dimension 0, and the bias
  reshaped to [1, 128] where the reference broadcasts it along dimension 1: the same arrays.
-/
import proofs.«127647_j11982958756658_1_alg».proof.Proof.Atoms
import proofs.«127647_j11982958756658_1_alg».proof.Proof.MatmulRegions
import proofs.«127647_j11982958756658_1_alg».proof.Proof.CombineRegions
import proofs.«127647_j11982958756658_1_alg».proof.Proof.LibRowOfVector
import proofs.«127647_j11982958756658_1_alg».proof.Proof.LibHostSpread
import proofs.«127647_j11982958756658_1_alg».proof.Proof.LibTypedBufferCasts

set_option maxRecDepth 16384

noncomputable section

namespace Cert.Bridge

open Idealize.ShloMosaic Idealize.ShloMosaic.TcCoe Idealize.SL.Sem Idealize.ShloMosaic.StableHlo
open Cert.KernelIdeal.Gen Cert.KernelIdeal.Walk Cert.KernelIdeal.RegionValue Cert.ReferenceIdeal.Stages

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- The third matrix product: the region's output array is the reference's dot_general. -/
theorem layer3_product (hag : Agree m m' c)
    (h : V15 m ρ c Cert.KernelIdeal.main_v106 = VR6 m' c (Proc.devRef .tc Cert.ReferenceIdeal.main_v116)) :
    W16 m ρ c (Proc.devRef .tc Cert.KernelIdeal.main_v111) = VR7 m' c (Proc.devRef .tc Cert.ReferenceIdeal.main_v117) := by
  refine (W16_arr m ρ c 2).trans ((matmul4 (V15 m ρ) c).trans ?_)
  rw [h]
  bridge_walk [VR7]
  rw [atom12 m ρ m' c hag, VR6_arg12]
  rfl

section
variable (h5 : W16 m ρ c (Proc.devRef .tc Cert.KernelIdeal.main_v111) = VR7 m' c (Proc.devRef .tc Cert.ReferenceIdeal.main_v117))
include h5

/-- The product as the second region finds it. -/
theorem layer3_h : V17 m ρ c Cert.KernelIdeal.main_v111 = VR8 m' c (Proc.devRef .tc Cert.ReferenceIdeal.main_v117) := by
  rw [VR8_v117]
  bridge_walk [Idealize.ShloMosaic.StableHlo.after_nil]
  exact h5

-- some forty host operations on each side, every one read back to the edge list and the product
set_option maxHeartbeats 4000000 in
/-- The edge aggregation: the same host operations of the product and the edge list. -/
theorem layer3_agg (hag : Agree m m' c) : V17 m ρ c Cert.KernelIdeal.main_v146 = VR8 m' c (Proc.devRef .tc Cert.ReferenceIdeal.main_v156) := by
  bridge_walk [VR8]
  rw [h5, atom3 m ρ m' c hag, VR7_arg3]
  rfl
end

/-- The squared normalisation as a column: reshaped by the kernel program, broadcast along dimension 0 by the reference. -/
theorem layer3_dis2 (hag : Agree m m' c) :
    V17 m ρ c Cert.KernelIdeal.main_v148 = broadcastInDim Cert.ReferenceIdeal.S9600x1 ![0] Cert.ReferenceIdeal.Facts₀.bcast_S9600_S9600x1_0 (VR8 m' c (Proc.devRef .tc Cert.ReferenceIdeal.main_v157)) := by
  bridge_walk [VR8]
  rw [atom3 m ρ m' c hag, VR7_arg3]
  exact Cert.Lib.shapeCast_col_eq_spread _ _ _

/-- The bias as a row: reshaped by the kernel program, broadcast along dimension 1 by the reference. -/
theorem layer3_bias (hag : Agree m m' c) :
    V17 m ρ c Cert.KernelIdeal.main_v149 = broadcastInDim Cert.ReferenceIdeal.S1x128 ![1] Cert.ReferenceIdeal.Facts₀.bcast_S128_S1x128_1 (VR8 m' c (Proc.devRef .tc Cert.ReferenceIdeal.main_arg13)) := by
  bridge_walk [Idealize.ShloMosaic.StableHlo.after_nil]
  rw [atom13 m ρ m' c hag, VR8_arg13]
  exact Cert.Lib.shapeCast_row_eq_broadcastInDim _ _ _

/-- The layer's output: the second region's array is the reference's rectified sum. -/
theorem layer3_out (hag : Agree m m' c)
    (h5 : W16 m ρ c (Proc.devRef .tc Cert.KernelIdeal.main_v111) = VR7 m' c (Proc.devRef .tc Cert.ReferenceIdeal.main_v117)) :
    W18 m ρ c (Proc.devRef .tc Cert.KernelIdeal.main_v150) = VR9 m' c (Proc.devRef .tc Cert.ReferenceIdeal.main_v165) := by
  refine (W18_arr m ρ c 4).trans ((combine5 (V17 m ρ) c Cert.ReferenceIdeal.Facts₀.bcast_S9600x1_S9600x128_0_1 Cert.ReferenceIdeal.Facts₀.bcast_S1x128_S9600x128_0_1 Cert.ReferenceIdeal.Facts₀.bcast_S_S9600x128).trans ?_)
  rw [layer3_h m ρ m' c h5, layer3_agg m ρ m' c h5 hag, layer3_dis2 m ρ m' c hag, layer3_bias m ρ m' c hag]
  ref_walk [VR9]
  simp only [Cert.Lib.ofBuf_toBuf, Cert.Lib.toBuf_ofBuf]
  -- the rectifier is an outlined function: its operand and its result are moved between the tensor's type and the buffer's
  rw [show ∀ v, (TRef.of (T := ⟨Cert.ReferenceIdeal.S9600x128, .f32⟩) Cert.ReferenceIdeal.main_v165).toBuf v = v from fun _ => rfl,
    show ∀ v, (TRef.of (T := ⟨Cert.ReferenceIdeal.S9600x128, .f32⟩) Cert.ReferenceIdeal.main_v164).ofBuf v = v from fun _ => rfl]

end Cert.Bridge

end
-- ==== Proof.Bridge5.lean ====
/-
  The last stage, kernel program against reference: per-graph mean pooling and the projection head.

  After the last layer both programs run the SAME host operations: the rows of the last layer's output are summed per
  graph (a scatter-add along the graph index of each row), the sums divided by the per-graph row counts (at least one),
  and the pooled features pass through three affine maps, the first two followed by a rectifier max(·, 0), the last by the
  sigmoid 1 / (1 + exp(-·)). The operands are the last layer's output, which the two programs are assumed to agree on, and
  argument arrays, on which the launch memories agree; so the results are equal.
-/
import proofs.«127647_j11982958756658_1_alg».proof.Proof.Atoms
import proofs.«127647_j11982958756658_1_alg».proof.Proof.LibTypedBufferCasts

set_option maxRecDepth 16384

noncomputable section

namespace Cert.Bridge

open Idealize.ShloMosaic Idealize.ShloMosaic.TcCoe Idealize.SL.Sem Idealize.ShloMosaic.StableHlo
open Cert.KernelIdeal.Gen Cert.KernelIdeal.Walk Cert.ReferenceIdeal.Stages

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

set_option maxHeartbeats 4000000 in
/-- The per-graph mean of the last layer's rows and the three-layer projection with its sigmoid: the same host operations
    on both sides, of the last layer's output and of the arguments. -/
theorem head_result (hag : Agree m m' c)
    (h6 : W18 m ρ c (Proc.devRef .tc Cert.KernelIdeal.main_v150) = VR9 m' c (Proc.devRef .tc Cert.ReferenceIdeal.main_v165)) :
    W23 m ρ c (Proc.devRef .tc Cert.KernelIdeal.main_v182) = VR10 m' c (Proc.devRef .tc Cert.ReferenceIdeal.main_v197) := by
  bridge_walk [VR10]
  rw [h6, atom4 m ρ m' c hag, atom14 m ρ m' c hag, atom15 m ρ m' c hag, atom16 m ρ m' c hag, atom17 m ρ m' c hag,
    atom18 m ρ m' c hag, atom19 m ρ m' c hag, VR9_arg4, VR9_arg14, VR9_arg15, VR9_arg16, VR9_arg17, VR9_arg18, VR9_arg19]
  simp only [Cert.Lib.ofBuf_toBuf, Cert.Lib.toBuf_ofBuf]
  -- the two rectifiers are outlined functions: their operands and results are moved between the tensor's type and the buffer's
  rw [show ∀ v, (TRef.of (T := ⟨Cert.KernelIdeal.S8x64, .f32⟩) Cert.KernelIdeal.main_v166).ofBuf v = v from fun _ => rfl,
    show ∀ v, (TRef.of (T := ⟨Cert.KernelIdeal.S8x64, .f32⟩) Cert.KernelIdeal.main_v167).toBuf v = v from fun _ => rfl,
    show ∀ v, (TRef.of (T := ⟨Cert.KernelIdeal.S8x32, .f32⟩) Cert.KernelIdeal.main_v171).ofBuf v = v from fun _ => rfl,
    show ∀ v, (TRef.of (T := ⟨Cert.KernelIdeal.S8x32, .f32⟩) Cert.KernelIdeal.main_v172).toBuf v = v from fun _ => rfl,
    show ∀ v, (TRef.of (T := ⟨Cert.ReferenceIdeal.S8x64, .f32⟩) Cert.ReferenceIdeal.main_v181).ofBuf v = v from fun _ => rfl,
    show ∀ v, (TRef.of (T := ⟨Cert.ReferenceIdeal.S8x64, .f32⟩) Cert.ReferenceIdeal.main_v182).toBuf v = v from fun _ => rfl,
    show ∀ v, (TRef.of (T := ⟨Cert.ReferenceIdeal.S8x32, .f32⟩) Cert.ReferenceIdeal.main_v186).ofBuf v = v from fun _ => rfl,
    show ∀ v, (TRef.of (T := ⟨Cert.ReferenceIdeal.S8x32, .f32⟩) Cert.ReferenceIdeal.main_v187).toBuf v = v from fun _ => rfl]
  rfl

end Cert.Bridge

end
-- ==== Proof.BridgeFinal.lean ====
/-
  The two idealized programs end with the same result.

  Layer by layer: the first layer's dense product and rectified combination, the second layer's, the pooled and
  assembled call-graph features, the third layer's, and the pooled projection head.  Each step's kernel-side value (a
  region's output array, or a buffer the host operations compute from earlier ones) equals the reference's value of
  the same quantity, given the previous step; chained from the agreement of the launch memories on the arguments, the
  kernel program's result buffer holds what the reference's does.
-/
import proofs.«127647_j11982958756658_1_alg».proof.Proof.Bridge1
import proofs.«127647_j11982958756658_1_alg».proof.Proof.Bridge2
import proofs.«127647_j11982958756658_1_alg».proof.Proof.Bridge3
import proofs.«127647_j11982958756658_1_alg».proof.Proof.Bridge4
import proofs.«127647_j11982958756658_1_alg».proof.Proof.Bridge5

noncomputable section

namespace Cert.Bridge

open Idealize.ShloMosaic Idealize.ShloMosaic.TcCoe Idealize.SL.Sem Idealize.ShloMosaic.StableHlo
open Cert.KernelIdeal.Gen Cert.ReferenceIdeal.Stages

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- The kernel program's result buffer, at the end of its run, holds the reference's result. -/
theorem result_eq (hag : Agree m m' c) :
    W23 m ρ c (Proc.devRef .tc Cert.KernelIdeal.main_v182) = VR10 m' c (Proc.devRef .tc Cert.ReferenceIdeal.main_v197) :=
  have h0 := layer1_product m ρ m' c hag
  have h1 := layer1_out m ρ m' c hag h0
  have h2 := layer2_product m ρ m' c hag h1
  have h3 := layer2_out m ρ m' c hag h2
  have hf := features m ρ m' c hag h3
  have h5 := layer3_product m ρ m' c hag hf
  have h6 := layer3_out m ρ m' c hag h5
  head_result m ρ m' c hag h6

end Cert.Bridge

end
-- ==== Proof.lean ====
/-
  The certificate's claims, assembled.

  The programs compute a three-layer graph network: two graph-convolution layers over the nodes of the block graphs,
  each a dense product with the layer's weights, a degree-normalised sum over the edges, the self term, the bias and a
  rectification; a mean over the nodes of each function; a third such layer over the call graph; a mean per binary; and
  a small dense head. The kernel program computes each layer's dense product, and each layer's final
  max (sum + product * scale + bias, 0), in pipelined regions over row blocks, and everything else by the same host
  operations as the reference.

  Each program runs and leaves its argument arrays as launched (the three frame claims). The idealized kernel program is
  the printed one's own text read over the extended reals (nothing rewritten). Over the extended reals, from launch
  memories that agree on the arguments, the kernel program's result array — its result buffer at the last segment
  boundary — and the reference's — its result buffer after the last stage — are one array: region by region the
  pipelined blocks tile the whole-array host expression, and between regions both sides apply the same operations.
-/
import proofs.«127647_j11982958756658_1_alg».proof.Defs
import proofs.«127647_j11982958756658_1_alg».proof.Proof.Gen.Kernel
import proofs.«127647_j11982958756658_1_alg».proof.Proof.Gen.Kernel.Skeleton
import proofs.«127647_j11982958756658_1_alg».proof.Proof.Gen.Kernel.Launch
import proofs.«127647_j11982958756658_1_alg».proof.Proof.Gen.Kernel.Points
import proofs.«127647_j11982958756658_1_alg».proof.Proof.Gen.Kernel.Frame
import proofs.«127647_j11982958756658_1_alg».proof.Proof.Gen.KernelIdeal
import proofs.«127647_j11982958756658_1_alg».proof.Proof.Gen.KernelIdeal.Skeleton
import proofs.«127647_j11982958756658_1_alg».proof.Proof.Gen.KernelIdeal.Launch
import proofs.«127647_j11982958756658_1_alg».proof.Proof.Gen.KernelIdeal.Points
import proofs.«127647_j11982958756658_1_alg».proof.Proof.Gen.KernelIdeal.Frame
import proofs.«127647_j11982958756658_1_alg».proof.Proof.Gen.ReferenceIdeal
import proofs.«127647_j11982958756658_1_alg».proof.Proof.Gen.Pre_finite_inputs
import proofs.«127647_j11982958756658_1_alg».proof.Proof.KernelRun
import proofs.«127647_j11982958756658_1_alg».proof.Proof.RefFrame
import proofs.«127647_j11982958756658_1_alg».proof.Proof.BridgeFinal
import Idealize.ShloMosaic.Adequacy
import Idealize.ShloMosaic.Init

noncomputable section

namespace Cert.Proof

open Idealize.ShloMosaic Idealize.SL.Sem

/-- The kernel program as printed runs and leaves its arguments as launched. -/
theorem frame_p : Cert.frame_Kernel := fun m ρ _ => Cert.Kernel.Gen.frame m ρ

/-- So does the kernel program read over the extended reals. -/
theorem frame_pi : Cert.frame_KernelIdeal := fun m ρ _ => Cert.KernelIdeal.Gen.frame m ρ

/-- So does the reference read over the extended reals. -/
theorem frame_ri : Cert.frame_ReferenceIdeal := Cert.ReferenceIdeal.RefFrame.frame_ri

/-- The idealized kernel program is the printed one's own text read over the extended reals: nothing was rewritten. -/
theorem preserves : Cert.preserves_Kernel_KernelIdeal := trivial

/-- Over the extended reals, from launch memories that agree on the twenty arguments, both programs run and end with
    the same result array: the kernel program's result is the contents of its result buffer at its last segment
    boundary, the reference's the contents of its result buffer after its last stage, and the two are one array. -/
theorem algebraic : Cert.algebraic_KernelIdeal_ReferenceIdeal := by
  intro m ρ m' ρ' _ hagree
  refine ⟨fun c => Cert.KernelIdeal.Gen.W23 m ρ c (Proc.devRef .tc Cert.KernelIdeal.main_v182),
    Cert.KernelIdeal.Run.run_result m ρ, ?_⟩
  refine (θ_run Cert.ReferenceIdeal.defs _ _).mono (fun r h c => ⟨(h c).1.trans ?_, (h c).2⟩)
    (Cert.ReferenceIdeal.RefFrame.run_result m' ρ')
  exact (Cert.Bridge.result_eq m ρ m' c (hagree c)).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
